-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v93)) (v2 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v93) = v1 c
          ∧ r.2.mem ((c.tc : Thread Cert.KernelIdeal.nD Cert.KernelIdeal.τ).loc Cert.KernelIdeal.main_v96) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32000 : Shape := ⟨2, ![64, 32000]⟩
abbrev S2x64x1024 : Shape := ⟨3, ![2, 64, 1024]⟩
abbrev S2x4x1024x1024 : Shape := ⟨4, ![2, 4, 1024, 1024]⟩
abbrev S2x4x1024 : Shape := ⟨3, ![2, 4, 1024]⟩
abbrev S4x1024x32000 : Shape := ⟨3, ![4, 1024, 32000]⟩
abbrev S4x1024 : Shape := ⟨2, ![4, 1024]⟩
abbrev S4x1024x1024 : Shape := ⟨3, ![4, 1024, 1024]⟩
abbrev S32000x1024 : Shape := ⟨2, ![32000, 1024]⟩
abbrev S32000 : Shape := ⟨1, ![32000]⟩
abbrev S_ : Shape := ⟨0, ![]⟩

class Facts : Prop where
  bcast_S_S64x32000 : S_.BroadcastsInDim S64x32000 (![] : Fin 0 → Fin S64x32000.rank)
  reducesTo_S64x32000_S_d0_1 : S64x32000.ReducesTo [0, 1] S_
  h_S_ : 0 < S_.numel
  bcast_S_S2x64x1024 : S_.BroadcastsInDim S2x64x1024 (![] : Fin 0 → Fin S2x64x1024.rank)
  reducesTo_S2x64x1024_S_d0_1_2 : S2x64x1024.ReducesTo [0, 1, 2] S_
  bcast_S_S2x4x1024x1024 : S_.BroadcastsInDim S2x4x1024x1024 (![] : Fin 0 → Fin S2x4x1024x1024.rank)
  reducesTo_S2x4x1024x1024_S_d0_1_2_3 : S2x4x1024x1024.ReducesTo [0, 1, 2, 3] S_
  bcast_S_S2x4x1024 : S_.BroadcastsInDim S2x4x1024 (![] : Fin 0 → Fin S2x4x1024.rank)
  reducesTo_S2x4x1024_S_d0_1_2 : S2x4x1024.ReducesTo [0, 1, 2] S_
  bcast_S_S4x1024x32000 : S_.BroadcastsInDim S4x1024x32000 (![] : Fin 0 → Fin S4x1024x32000.rank)
  reducesTo_S4x1024x32000_S_d0_1_2 : S4x1024x32000.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S32000x1024 : S_.BroadcastsInDim S32000x1024 (![] : Fin 0 → Fin S32000x1024.rank)
  reducesTo_S32000x1024_S_d0_1 : S32000x1024.ReducesTo [0, 1] S_
  bcast_S_S32000 : S_.BroadcastsInDim S32000 (![] : Fin 0 → Fin S32000.rank)
  reducesTo_S32000_S_d0 : S32000.ReducesTo [0] S_

variable [Facts]

def fn_part3 {F : FTy → Type} [FloatOps F] (main_v48 : IVec S_ 1) (main_v49 : FVec F S32000 .f32) (main_v50 : FVec F S32000 .f32) : IVec S_ 1 :=
  let main_v51 : IVec S32000 1 := cmpf .olt main_v49 main_v50
  let main_c_19 : IVec S_ 1 := constantI S_ 1 1#1
  let main_v52 : IVec S_ 1 := (fun x v => Host.reduce IntOp.andi x v reducesTo_S32000_S_d0 h_S_) main_v51 main_c_19
  let main_v53 : IVec S_ 1 := andi main_v48 main_v52
  main_v53

def fn_part2 {F : FTy → Type} [FloatOps F] (main_arg7 : FVec F S4x1024x1024 .f32) (main_arg8 : FVec F S4x1024 .f32) (main_arg9 : FVec F S32000x1024 .f32) (main_arg10 : FVec F S32000 .f32) (main_v33 : IVec S_ 1) : IVec S_ 1 :=
  let main_v34 : FVec F S4x1024x1024 .f32 := Host.absf main_arg7
  let main_cst_12 : FVec F S_ .f32 := constant S_ .f32 0x7F800000#32
  let main_v35 : FVec F S4x1024x1024 .f32 := broadcastInDim S4x1024x1024 ![] bcast_S_S4x1024x1024 main_cst_12
  let main_v36 : IVec S4x1024x1024 1 := cmpf .olt main_v34 main_v35
  let main_c_13 : IVec S_ 1 := constantI S_ 1 1#1
  let main_v37 : IVec S_ 1 := (fun x v => Host.reduce IntOp.andi x v reducesTo_S4x1024x1024_S_d0_1_2 h_S_) main_v36 main_c_13
  let main_v38 : IVec S_ 1 := andi main_v33 main_v37
  let main_v39 : FVec F S4x1024 .f32 := Host.absf main_arg8
  let main_cst_14 : FVec F S_ .f32 := constant S_ .f32 0x7F800000#32
  let main_v40 : FVec F S4x1024 .f32 := broadcastInDim S4x1024 ![] bcast_S_S4x1024 main_cst_14
  let main_v41 : IVec S4x1024 1 := cmpf .olt main_v39 main_v40
  let main_c_15 : IVec S_ 1 := constantI S_ 1 1#1
  let main_v42 : IVec S_ 1 := (fun x v => Host.reduce IntOp.andi x v reducesTo_S4x1024_S_d0_1 h_S_) main_v41 main_c_15
  let main_v43 : IVec S_ 1 := andi main_v38 main_v42
  let main_v44 : FVec F S32000x1024 .f32 := Host.absf main_arg9
  let main_cst_16 : FVec F S_ .f32 := constant S_ .f32 0x7F800000#32
  let main_v45 : FVec F S32000x1024 .f32 := broadcastInDim S32000x1024 ![] bcast_S_S32000x1024 main_cst_16
  let main_v46 : IVec S32000x1024 1 := cmpf .olt main_v44 main_v45
  let main_c_17 : IVec S_ 1 := constantI S_ 1 1#1
  let main_v47 : IVec S_ 1 := (fun x v => Host.reduce IntOp.andi x v reducesTo_S32000x1024_S_d0_1 h_S_) main_v46 main_c_17
  let main_v48 : IVec S_ 1 := andi main_v43 main_v47
  let main_v49 : FVec F S32000 .f32 := Host.absf main_arg10
  let main_cst_18 : FVec F S_ .f32 := constant S_ .f32 0x7F800000#32
  let main_v50 : FVec F S32000 .f32 := broadcastInDim S32000 ![] bcast_S_S32000 main_cst_18
  fn_part3 (F := F) main_v48 main_v49 main_v50

def fn_part1 {F : FTy → Type} [FloatOps F] (main_arg4 : FVec F S2x4x1024 .f32) (main_arg5 : FVec F S4x1024x32000 .f32) (main_arg6 : FVec F S4x1024 .f32) (main_arg7 : FVec F S4x1024x1024 .f32) (main_arg8 : FVec F S4x1024 .f32) (main_arg9 : FVec F S32000x1024 .f32) (main_arg10 : FVec F S32000 .f32) (main_v13 : IVec S_ 1) (main_v16 : IVec S2x4x1024x1024 1) : IVec S_ 1 :=
  let main_c_5 : IVec S_ 1 := constantI S_ 1 1#1
  let main_v17 : IVec S_ 1 := (fun x v => Host.reduce IntOp.andi x v reducesTo_S2x4x1024x1024_S_d0_1_2_3 h_S_) main_v16 main_c_5
  let main_v18 : IVec S_ 1 := andi main_v13 main_v17
  let main_v19 : FVec F S2x4x1024 .f32 := Host.absf main_arg4
  let main_cst_6 : FVec F S_ .f32 := constant S_ .f32 0x7F800000#32
  let main_v20 : FVec F S2x4x1024 .f32 := broadcastInDim S2x4x1024 ![] bcast_S_S2x4x1024 main_cst_6
  let main_v21 : IVec S2x4x1024 1 := cmpf .olt main_v19 main_v20
  let main_c_7 : IVec S_ 1 := constantI S_ 1 1#1
  let main_v22 : IVec S_ 1 := (fun x v => Host.reduce IntOp.andi x v reducesTo_S2x4x1024_S_d0_1_2 h_S_) main_v21 main_c_7
  let main_v23 : IVec S_ 1 := andi main_v18 main_v22
  let main_v24 : FVec F S4x1024x32000 .f32 := Host.absf main_arg5
  let main_cst_8 : FVec F S_ .f32 := constant S_ .f32 0x7F800000#32
  let main_v25 : FVec F S4x1024x32000 .f32 := broadcastInDim S4x1024x32000 ![] bcast_S_S4x1024x32000 main_cst_8
  let main_v26 : IVec S4x1024x32000 1 := cmpf .olt main_v24 main_v25
  let main_c_9 : IVec S_ 1 := constantI S_ 1 1#1
  let main_v27 : IVec S_ 1 := (fun x v => Host.reduce IntOp.andi x v reducesTo_S4x1024x32000_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S64x32000 .f32) (main_arg1 : FVec F S2x64x1024 .f32) (main_arg2 : FVec F S2x64x1024 .f32) (main_arg3 : FVec F S2x4x1024x1024 .f32) (main_arg4 : FVec F S2x4x1024 .f32) (main_arg5 : FVec F S4x1024x32000 .f32) (main_arg6 : FVec F S4x1024 .f32) (main_arg7 : FVec F S4x1024x1024 .f32) (main_arg8 : FVec F S4x1024 .f32) (main_arg9 : FVec F S32000x1024 .f32) (main_arg10 : FVec F S32000 .f32) : IVec S_ 1 :=
  let main_v0 : FVec F S64x32000 .f32 := Host.absf main_arg0
  let main_cst : FVec F S_ .f32 := constant S_ .f32 0x7F800000#32
  let main_v1 : FVec F S64x32000 .f32 := broadcastInDim S64x32000 ![] bcast_S_S64x32000 main_cst
  let main_v2 : IVec S64x32000 1 := cmpf .olt main_v0 main_v1
  let main_c : IVec S_ 1 := constantI S_ 1 1#1
  let main_v3 : IVec S_ 1 := (fun x v => Host.reduce IntOp.andi x v reducesTo_S64x32000_S_d0_1 h_S_) main_v2 main_c
  let main_v4 : FVec F S2x64x1024 .f32 := Host.absf main_arg1
  let main_cst_0 : FVec F S_ .f32 := constant S_ .f32 0x7F800000#32
  let main_v5 : FVec F S2x64x1024 .f32 := broadcastInDim S2x64x1024 ![] bcast_S_S2x64x1024 main_cst_0
  let main_v6 : IVec S2x64x1024 1 := cmpf .olt main_v4 main_v5
  let main_c_1 : IVec S_ 1 := constantI S_ 1 1#1
  let main_v7 : IVec S_ 1 := (fun x v => Host.reduce IntOp.andi x v reducesTo_S2x64x1024_S_d0_1_2 h_S_) main_v6 main_c_1
  let main_v8 : IVec S_ 1 := andi main_v3 main_v7
  let main_v9 : FVec F S2x64x1024 .f32 := Host.absf main_arg2
  let main_cst_2 : FVec F S_ .f32 := constant S_ .f32 0x7F800000#32
  let main_v10 : FVec F S2x64x1024 .f32 := broadcastInDim S2x64x1024 ![] bcast_S_S2x64x1024 main_cst_2
  let main_v11 : IVec S2x64x1024 1 := cmpf .olt main_v9 main_v10
  let main_c_3 : IVec S_ 1 := constantI S_ 1 1#1
  let main_v12 : IVec S_ 1 := (fun x v => Host.reduce IntOp.andi x v reducesTo_S2x64x1024_S_d0_1_2 h_S_) main_v11 main_c_3
  let main_v13 : IVec S_ 1 := andi main_v8 main_v12
  let main_v14 : FVec F S2x4x1024x1024 .f32 := Host.absf main_arg3
  let main_cst_4 : FVec F S_ .f32 := constant S_ .f32 0x7F800000#32
  let main_v15 : FVec F S2x4x1024x1024 .f32 := broadcastInDim S2x4x1024x1024 ![] bcast_S_S2x4x1024x1024 main_cst_4
  let main_v16 : IVec S2x4x1024x1024 1 := cmpf .olt main_v14 main_v15
  fn_part1 (F := F) main_arg4 main_arg5 main_arg6 main_arg7 main_arg8 main_arg9 main_arg10 main_v13 main_v16
-- ==== Kernel.lean ====
abbrev S64x32000 : Shape := ⟨2, ![64, 32000]⟩
abbrev S2x64x1024 : Shape := ⟨3, ![2, 64, 1024]⟩
abbrev S2x4x1024x1024 : Shape := ⟨4, ![2, 4, 1024, 1024]⟩
abbrev S2x4x1024 : Shape := ⟨3, ![2, 4, 1024]⟩
abbrev S4x1024x32000 : Shape := ⟨3, ![4, 1024, 32000]⟩
abbrev S4x1024 : Shape := ⟨2, ![4, 1024]⟩
abbrev S4x1024x1024 : Shape := ⟨3, ![4, 1024, 1024]⟩
abbrev S32000x1024 : Shape := ⟨2, ![32000, 1024]⟩
abbrev S32000 : Shape := ⟨1, ![32000]⟩
abbrev S4096x32000 : Shape := ⟨2, ![4096, 32000]⟩
abbrev S1x4096 : Shape := ⟨2, ![1, 4096]⟩
abbrev S1x4x1024x1024 : Shape := ⟨4, ![1, 4, 1024, 1024]⟩
abbrev S4096x1024 : Shape := ⟨2, ![4096, 1024]⟩
abbrev S1x4x1024 : Shape := ⟨3, ![1, 4, 1024]⟩
abbrev S1x32000 : Shape := ⟨2, ![1, 32000]⟩
abbrev S1x64x1024 : Shape := ⟨3, ![1, 64, 1024]⟩
abbrev S64x1024 : Shape := ⟨2, ![64, 1024]⟩
abbrev S64x4096 : Shape := ⟨2, ![64, 4096]⟩
abbrev S64x1280 : Shape := ⟨2, ![64, 1280]⟩
abbrev S2048x1280 : Shape := ⟨2, ![2048, 1280]⟩
abbrev S1x2048 : Shape := ⟨2, ![1, 2048]⟩
abbrev S64x2048 : Shape := ⟨2, ![64, 2048]⟩
abbrev S2048x1024 : Shape := ⟨2, ![2048, 1024]⟩
abbrev S_ : Shape := ⟨0, ![]⟩
abbrev S3200x1024 : Shape := ⟨2, ![3200, 1024]⟩
abbrev S1x3200 : Shape := ⟨2, ![1, 3200]⟩
abbrev S64x3200 : Shape := ⟨2, ![64, 3200]⟩
abbrev S64 : Shape := ⟨1, ![64]⟩
abbrev S64x1 : Shape := ⟨2, ![64, 1]⟩

abbrev nBuf : Space → Nat
  | .hbm => 135
  | .vmem => 41
  | .smem => 0
  | _ => 0

abbrev hbmTy0_0 (i : Nat) : BufTy := match i % 128 with
  | 0 => ⟨S64x32000, .f32⟩
  | 1 => ⟨S2x64x1024, .f32⟩
  | 2 => ⟨S2x64x1024, .f32⟩
  | 3 => ⟨S2x4x1024x1024, .f32⟩
  | 4 => ⟨S2x4x1024, .f32⟩
  | 5 => ⟨S4x1024x32000, .f32⟩
  | 6 => ⟨S4x1024, .f32⟩
  | 7 => ⟨S4x1024x1024, .f32⟩
  | 8 => ⟨S4x1024, .f32⟩
  | 9 => ⟨S32000x1024, .f32⟩
  | 10 => ⟨S32000, .f32⟩
  | 11 => ⟨S4096x32000, .f32⟩
  | 12 => ⟨S1x4096, .f32⟩
  | 13 => ⟨S1x4x1024x1024, .f32⟩
  | 14 => ⟨S4x1024x1024, .f32⟩
  | 15 => ⟨S4096x1024, .f32⟩
  | 16 => ⟨S1x4x1024, .f32⟩
  | 17 => ⟨S4x1024, .f32⟩
  | 18 => ⟨S1x4096, .f32⟩
  | 19 => ⟨S4096x1024, .f32⟩
  | 20 => ⟨S1x4096, .f32⟩
  | 21 => ⟨S1x4x1024x1024, .f32⟩
  | 22 => ⟨S4x1024x1024, .f32⟩
  | 23 => ⟨S4096x1024, .f32⟩
  | 24 => ⟨S1x4x1024, .f32⟩
  | 25 => ⟨S4x1024, .f32⟩
  | 26 => ⟨S1x4096, .f32⟩
  | 27 => ⟨S1x32000, .f32⟩
  | 28 => ⟨S1x64x1024, .f32⟩
  | 29 => ⟨S64x1024, .f32⟩
  | 30 => ⟨S1x64x1024, .f32⟩
  | 31 => ⟨S64x1024, .f32⟩
  | 32 => ⟨S1x64x1024, .f32⟩
  | 33 => ⟨S64x1024, .f32⟩
  | 34 => ⟨S1x64x1024, .f32⟩
  | 35 => ⟨S64x1024, .f32⟩
  | 36 => ⟨S64x4096, .f32⟩
  | 37 => ⟨S64x4096, .f32⟩
  | 38 => ⟨S64x4096, .f32⟩
  | 39 => ⟨S64x1024, .f32⟩
  | 40 => ⟨S64x1024, .f32⟩
  | 41 => ⟨S64x1024, .f32⟩
  | 42 => ⟨S_, .f32⟩
  | 43 => ⟨S64x1024, .f32⟩
  | 44 => ⟨S64x1024, .f32⟩
  | 45 => ⟨S_, .f32⟩
  | 46 => ⟨S64x1024, .f32⟩
  | 47 => ⟨S64x1024, .f32⟩
  | 48 => ⟨S64x1024, .f32⟩
  | 49 => ⟨S64x1024, .f32⟩
  | 50 => ⟨S64x1024, .f32⟩
  | 51 => ⟨S_, .f32⟩
  | 52 => ⟨S64x1024, .f32⟩
  | 53 => ⟨S64x1024, .f32⟩
  | 54 => ⟨S_, .f32⟩
  | 55 => ⟨S64x1024, .f32⟩
  | 56 => ⟨S64x1024, .f32⟩
  | 57 => ⟨S64x1024, .f32⟩
  | 58 => ⟨S64x1024, .f32⟩
  | 59 => ⟨S64x1024, .f32⟩
  | 60 => ⟨S_, .f32⟩
  | 61 => ⟨S64x1024, .f32⟩
  | 62 => ⟨S64x1024, .f32⟩
  | 63 => ⟨S_, .f32⟩
  | 64 => ⟨S64x1024, .f32⟩
  | 65 => ⟨S64x1024, .f32⟩
  | 66 => ⟨S64x1024, .f32⟩
  | 67 => ⟨S64x1024, .f32⟩
  | 68 => ⟨S64x1024, .f32⟩
  | 69 => ⟨S64x1024, .f32⟩
  | 70 => ⟨S64x1024, .f32⟩
  | 71 => ⟨S64x1024, .f32⟩
  | 72 => ⟨S64x1024, .f32⟩
  | 73 => ⟨S64x4096, .f32⟩
  | 74 => ⟨S64x4096, .f32⟩
  | 75 => ⟨S64x4096, .f32⟩
  | 76 => ⟨S64x1024, .f32⟩
  | 77 => ⟨S64x1024, .f32⟩
  | 78 => ⟨S64x1024, .f32⟩
  | 79 => ⟨S_, .f32⟩
  | 80 => ⟨S64x1024, .f32⟩
  | 81 => ⟨S64x1024, .f32⟩
  | 82 => ⟨S_, .f32⟩
  | 83 => ⟨S64x1024, .f32⟩
  | 84 => ⟨S64x1024, .f32⟩
  | 85 => ⟨S64x1024, .f32⟩
  | 86 => ⟨S64x1024, .f32⟩
  | 87 => ⟨S64x1024, .f32⟩
  | 88 => ⟨S_, .f32⟩
  | 89 => ⟨S64x1024, .f32⟩
  | 90 => ⟨S64x1024, .f32⟩
  | 91 => ⟨S_, .f32⟩
  | 92 => ⟨S64x1024, .f32⟩
  | 93 => ⟨S64x1024, .f32⟩
  | 94 => ⟨S64x1024, .f32⟩
  | 95 => ⟨S64x1024, .f32⟩
  | 96 => ⟨S64x1024, .f32⟩
  | 97 => ⟨S_, .f32⟩
  | 98 => ⟨S64x1024, .f32⟩
  | 99 => ⟨S64x1024, .f32⟩
  | 100 => ⟨S_, .f32⟩
  | 101 => ⟨S64x1024, .f32⟩
  | 102 => ⟨S64x1024, .f32⟩
  | 103 => ⟨S64x1024, .f32⟩
  | 104 => ⟨S64x1024, .f32⟩
  | 105 => ⟨S64x1024, .f32⟩
  | 106 => ⟨S64x1024, .f32⟩
  | 107 => ⟨S64x1024, .f32⟩
  | 108 => ⟨S64x1024, .f32⟩
  | 109 => ⟨S64x1024, .f32⟩
  | 110 => ⟨S64x32000, .f32⟩
  | 111 => ⟨S_, .f32⟩
  | 112 => ⟨S64x32000, .f32⟩
  | 113 => ⟨S64x32000, .f32⟩
  | 114 => ⟨S_, .f32⟩
  | 115 => ⟨S64, .f32⟩
  | 116 => ⟨S_, .f32⟩
  | 117 => ⟨S64, .f32⟩
  | 118 => ⟨S64, .f32⟩
  | 119 => ⟨S64x1, .f32⟩
  | 120 => ⟨S64x32000, .f32⟩
  | 121 => ⟨S64x32000, .f32⟩
  | 122 => ⟨S64x32000, .f32⟩
  | 123 => ⟨S_, .f32⟩
  | 124 => ⟨S64, .f32⟩
  | 125 => ⟨S64x1, .f32⟩
  | 126 => ⟨S64x1, .f32⟩
  | 127 => ⟨S64x32000, .f32⟩
  | _ => ⟨S64x32000, .f32⟩

abbrev hbmTy0_1 (i : Nat) : BufTy := match i % 128 with
  | 0 => ⟨S64x32000, .f32⟩
  | 1 => ⟨S1x64x1024, .f32⟩
  | 2 => ⟨S1x64x1024, .f32⟩
  | 3 => ⟨S2x64x1024, .f32⟩
  | 4 => ⟨S1x64x1024, .f32⟩
  | 5 => ⟨S1x64x1024, .f32⟩
  | 6 => ⟨S2x64x1024, .f32⟩
  | _ => ⟨S64x32000, .f32⟩

abbrev hbmTy (i : Nat) : BufTy := match i / 128 with
  | 0 => hbmTy0_0 i
  | 1 => hbmTy0_1 i
  | _ => ⟨S64x32000, .f32⟩

abbrev bufTy : (tb : Table) → Fin (tcTables nBuf tb) → BufTy
  | .hbm, ⟨i, _⟩ => hbmTy i
  | .local _ .vmem, ⟨0, _⟩ => ⟨S64x1280, .f32⟩
  | .local _ .vmem, ⟨1, _⟩ => ⟨S64x1280, .f32⟩
  | .local _ .vmem, ⟨2, _⟩ => ⟨S2048x1280, .f32⟩
  | .local _ .vmem, ⟨3, _⟩ => ⟨S2048x1280, .f32⟩
  | .local _ .vmem, ⟨4, _⟩ => ⟨S1x2048, .f32⟩
  | .local _ .vmem, ⟨5, _⟩ => ⟨S1x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x1024, .f32⟩
  | .local _ .vmem, ⟨10, _⟩ => ⟨S2048x1024, .f32⟩
  | .local _ .vmem, ⟨11, _⟩ => ⟨S2048x1024, .f32⟩
  | .local _ .vmem, ⟨12, _⟩ => ⟨S1x2048, .f32⟩
  | .local _ .vmem, ⟨13, _⟩ => ⟨S1x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x1024, .f32⟩
  | .local _ .vmem, ⟨18, _⟩ => ⟨S2048x1024, .f32⟩
  | .local _ .vmem, ⟨19, _⟩ => ⟨S2048x1024, .f32⟩
  | .local _ .vmem, ⟨20, _⟩ => ⟨S1x2048, .f32⟩
  | .local _ .vmem, ⟨21, _⟩ => ⟨S1x2048, .f32⟩
  | .local _ .vmem, ⟨22, _⟩ => ⟨S64x2048, .f32⟩
  | .local _ .vmem, ⟨23, _⟩ => ⟨S64x2048, .f32⟩
  | .local _ .vmem, ⟨24, _⟩ => ⟨S64x2048, .f32⟩
  | .local _ .vmem, ⟨25, _⟩ => ⟨S64x1024, .f32⟩
  | .local _ .vmem, ⟨26, _⟩ => ⟨S2048x1024, .f32⟩
  | .local _ .vmem, ⟨27, _⟩ => ⟨S2048x1024, .f32⟩
  | .local _ .vmem, ⟨28, _⟩ => ⟨S1x2048, .f32⟩
  | .local _ .vmem, ⟨29, _⟩ => ⟨S1x2048, .f32⟩
  | .local _ .vmem, ⟨30, _⟩ => ⟨S64x2048, .f32⟩
  | .local _ .vmem, ⟨31, _⟩ => ⟨S64x2048, .f32⟩
  | .local _ .vmem, ⟨32, _⟩ => ⟨S64x2048, .f32⟩
  | .local _ .vmem, ⟨33, _⟩ => ⟨S64x1024, .f32⟩
  | .local _ .vmem, ⟨34, _⟩ => ⟨S3200x1024, .f32⟩
  | .local _ .vmem, ⟨35, _⟩ => ⟨S3200x1024, .f32⟩
  | .local _ .vmem, ⟨36, _⟩ => ⟨S1x3200, .f32⟩
  | .local _ .vmem, ⟨37, _⟩ => ⟨S1x3200, .f32⟩
  | .local _ .vmem, ⟨38, _⟩ => ⟨S64x3200, .f32⟩
  | .local _ .vmem, ⟨39, _⟩ => ⟨S64x3200, .f32⟩
  | .local _ .vmem, ⟨40, _⟩ => ⟨S64x3200, .f32⟩
  | _, _ => ⟨S64x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_cst_0 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_1 : Ref sig .tc := ⟨.hbm, 51, rfl⟩
abbrev main_v38 : Ref sig .tc := ⟨.hbm, 52, rfl⟩
abbrev main_v39 : Ref sig .tc := ⟨.hbm, 53, rfl⟩
abbrev main_cst_2 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_cst_4 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_5 : Ref sig .tc := ⟨.hbm, 79, rfl⟩
abbrev main_v62 : Ref sig .tc := ⟨.hbm, 80, rfl⟩
abbrev main_v63 : Ref sig .tc := ⟨.hbm, 81, rfl⟩
abbrev main_cst_6 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_7 : Ref sig .tc := ⟨.hbm, 88, rfl⟩
abbrev main_v69 : Ref sig .tc := ⟨.hbm, 89, rfl⟩
abbrev main_v70 : Ref sig .tc := ⟨.hbm, 90, rfl⟩
abbrev main_cst_8 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_9 : Ref sig .tc := ⟨.hbm, 97, rfl⟩
abbrev main_v76 : Ref sig .tc := ⟨.hbm, 98, rfl⟩
abbrev main_v77 : Ref sig .tc := ⟨.hbm, 99, rfl⟩
abbrev main_cst_10 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_11 : Ref sig .tc := ⟨.hbm, 111, rfl⟩
abbrev main_v88 : Ref sig .tc := ⟨.hbm, 112, rfl⟩
abbrev main_v89 : Ref sig .tc := ⟨.hbm, 113, rfl⟩
abbrev main_call0_cst : Ref sig .tc := ⟨.hbm, 114, rfl⟩
abbrev main_call0_v0 : Ref sig .tc := ⟨.hbm, 115, rfl⟩
abbrev main_call0_cst_0 : Ref sig .tc := ⟨.hbm, 116, rfl⟩
abbrev main_call0_v1 : Ref sig .tc := ⟨.hbm, 117, rfl⟩
abbrev main_call0_v2 : Ref sig .tc := ⟨.hbm, 118, rfl⟩
abbrev main_call0_v3 : Ref sig .tc := ⟨.hbm, 119, rfl⟩
abbrev main_call0_v4 : Ref sig .tc := ⟨.hbm, 120, rfl⟩
abbrev main_call0_v5 : Ref sig .tc := ⟨.hbm, 121, rfl⟩
abbrev main_call0_v6 : Ref sig .tc := ⟨.hbm, 122, rfl⟩
abbrev main_call0_cst_1 : Ref sig .tc := ⟨.hbm, 123, rfl⟩
abbrev main_call0_v7 : Ref sig .tc := ⟨.hbm, 124, rfl⟩
abbrev main_call0_v8 : Ref sig .tc := ⟨.hbm, 125, rfl⟩
abbrev main_call0_v9 : Ref sig .tc := ⟨.hbm, 126, rfl⟩
abbrev main_call0_v10 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_scratch0 : Ref sig .tc := ⟨.vmem, 32, rfl⟩
abbrev cc4_stg0_0 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v14 : BitVec 1 := Scalar.cmpi .eq arg1 c24_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 1], ![false, false]⟩

def k1_cond2 (i : grid1.Coords) : BitVec 1 :=
  let arg1 : BitVec 32 := BitVec.ofNat 32 (i 1).val
  let c0_i32_8 : BitVec 32 := 0#32
  let v15 : BitVec 1 := Scalar.cmpi .eq arg1 c0_i32_8
  let v16 : BitVec 32 := Scalar.extui v15
  let c0_i32_9 : BitVec 32 := 0#32
  let v17 : BitVec 1 := Scalar.cmpi .ne v16 c0_i32_9
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S64x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 1], ![false, false]⟩

def k2_cond2 (i : grid2.Coords) : BitVec 1 :=
  let arg1 : BitVec 32 := BitVec.ofNat 32 (i 1).val
  let c0_i32_8 : BitVec 32 := 0#32
  let v15 : BitVec 1 := Scalar.cmpi .eq arg1 c0_i32_8
  let v16 : BitVec 32 := Scalar.extui v15
  let c0_i32_9 : BitVec 32 := 0#32
  let v17 : BitVec 1 := Scalar.cmpi .ne v16 c0_i32_9
  v17

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 1 → Memref sig .tc .vmem S64x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 2 → Memref sig .tc .vmem S2048x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S64x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![2, 1], ![false, false]⟩

def k3_cond2 (i : grid3.Coords) : BitVec 1 :=
  let arg1 : BitVec 32 := BitVec.ofNat 32 (i 1).val
  let c0_i32_8 : BitVec 32 := 0#32
  let v15 : BitVec 1 := Scalar.cmpi .eq arg1 c0_i32_8
  let v16 : BitVec 32 := Scalar.extui v15
  let c0_i32_9 : BitVec 32 := 0#32
  let v17 : BitVec 1 := Scalar.cmpi .ne v16 c0_i32_9
  v17

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 1 → Memref sig .tc .vmem S64x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 2 → Memref sig .tc .vmem S2048x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S64x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![10, 1], ![false, false]⟩

def k4_cond2 (i : grid4.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 1 → Memref sig .tc .vmem S64x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, true]

abbrev stage4_1 : Fin 2 → Memref sig .tc .vmem S3200x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x3200 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S64x3200 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

class Facts₀ : Prop where
  shapeCasts_S4x1024x32000_S4096x32000 : S4x1024x32000.ShapeCasts S4096x32000
  shapeCasts_S4x1024_S1x4096 : S4x1024.ShapeCasts S1x4096
  slices_S2x4x1024x1024_S1x4x1024x1024_0_0_0_0 : S2x4x1024x1024.Slices ![0, 0, 0, 0] S1x4x1024x1024
  shapeCasts_S1x4x1024x1024_S4x1024x1024 : S1x4x1024x1024.ShapeCasts S4x1024x1024
  shapeCasts_S4x1024x1024_S4096x1024 : S4x1024x1024.ShapeCasts S4096x1024
  slices_S2x4x1024_S1x4x1024_0_0_0 : S2x4x1024.Slices ![0, 0, 0] S1x4x1024
  shapeCasts_S1x4x1024_S4x1024 : S1x4x1024.ShapeCasts S4x1024
  slices_S2x4x1024x1024_S1x4x1024x1024_1_0_0_0 : S2x4x1024x1024.Slices ![1, 0, 0, 0] S1x4x1024x1024
  slices_S2x4x1024_S1x4x1024_1_0_0 : S2x4x1024.Slices ![1, 0, 0] S1x4x1024
  shapeCasts_S32000_S1x32000 : S32000.ShapeCasts S1x32000
  slices_S2x64x1024_S1x64x1024_0_0_0 : S2x64x1024.Slices ![0, 0, 0] S1x64x1024
  shapeCasts_S1x64x1024_S64x1024 : S1x64x1024.ShapeCasts S64x1024
  slices_S2x64x1024_S1x64x1024_1_0_0 : S2x64x1024.Slices ![1, 0, 0] S1x64x1024
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S64x1280_S64x1280_0_0 : ∀ a, (![0, 0] : Fin 2 → Nat) a + S64x1280.size a ≤ S64x1280.size a
  h_S64x1280 : 0 < S64x1280.numel
  bitsLt_bf16_f32 : FTy.bits .bf16 < FTy.bits .f32
  inb_S2048x1280_S2048x1280_0_0 : ∀ a, (![0, 0] : Fin 2 → Nat) a + S2048x1280.size a ≤ S2048x1280.size a
  h_S2048x1280 : 0 < S2048x1280.numel
  shapeCasts_S2048x1280_S2048x1280 : S2048x1280.ShapeCasts S2048x1280
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S64x4096_S64x1024_0_0 : S64x4096.Slices ![0, 0] S64x1024
  bcast_S_S64x1024 : S_.BroadcastsInDim S64x1024 (![] : Fin 0 → Fin S64x1024.rank)
  slices_S64x4096_S64x1024_0_1024 : S64x4096.Slices ![0, 1024] S64x1024
  slices_S64x4096_S64x1024_0_2048 : S64x4096.Slices ![0, 2048] S64x1024
  slices_S64x4096_S64x1024_0_3072 : S64x4096.Slices ![0, 3072] S64x1024
  inb_S64x3200_S64x3200_0_0 : ∀ a, (![0, 0] : Fin 2 → Nat) a + S64x3200.size a ≤ S64x3200.size a
  h_S64x3200 : 0 < S64x3200.numel
  shapeCasts_S64x3200_S64x3200 : S64x3200.ShapeCasts S64x3200
  inb_S3200x1024_S3200x1024_0_0 : ∀ a, (![0, 0] : Fin 2 → Nat) a + S3200x1024.size a ≤ S3200x1024.size a
  h_S3200x1024 : 0 < S3200x1024.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S64x3200 : S1x3200.Broadcasts S64x3200
  bcast_S_S64x32000 : S_.BroadcastsInDim S64x32000 (![] : Fin 0 → Fin S64x32000.rank)
  reducesTo_S64x32000_S64_d1 : S64x32000.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x32000_0_1 : S64x1.BroadcastsInDim S64x32000 (![0, 1] : Fin 2 → Fin S64x32000.rank)
  bcast_S64x1024_S1x64x1024_1_2 : S64x1024.BroadcastsInDim S1x64x1024 (![1, 2] : Fin 2 → Fin S1x64x1024.rank)
  concatenates_S1x64x1024_S1x64x1024_S2x64x1024_d0 : Shape.Concatenates [S1x64x1024, S1x64x1024] S2x64x1024 0
  dot_S64x1280_S2048x1280_S64x2048_1_1_0_0_n_n_wf : DotDims.WF S64x1280 S2048x1280 S64x2048 [1] [1] [0] [0] [] []
  dot_S64x1024_S2048x1024_S64x2048_1_1_0_0_n_n_wf : DotDims.WF S64x1024 S2048x1024 S64x2048 [1] [1] [0] [0] [] []
  dot_S64x1024_S3200x1024_S64x3200_1_1_0_0_n_n_wf : DotDims.WF S64x1024 S3200x1024 S64x3200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1280.size a ≤ S64x32000.size a
  hwx0_0 : ∀ i : grid0.Coords, EltTy.bits .f32 = 32 ∨ (Rect.block (s := S64x32000) S64x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1280.size a ≤ S4096x32000.size a
  hwx0_1 : ∀ i : grid0.Coords, EltTy.bits .f32 = 32 ∨ (Rect.block (s := S4096x32000) S2048x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x4096.size a
  hwx0_3 : ∀ i : grid0.Coords, EltTy.bits .f32 = 32 ∨ (Rect.block (s := S64x4096) S64x2048.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x1024.size a ≤ S64x1024.size a
  hwx1_0 : ∀ i : grid1.Coords, EltTy.bits .f32 = 32 ∨ (Rect.block (s := S64x1024) S64x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S4096x1024.size a
  hwx1_1 : ∀ i : grid1.Coords, EltTy.bits .f32 = 32 ∨ (Rect.block (s := S4096x1024) S2048x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x2048.size a ≤ S64x4096.size a
  hwx1_3 : ∀ i : grid1.Coords, EltTy.bits .f32 = 32 ∨ (Rect.block (s := S64x4096) S64x2048.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x1024.size a ≤ S64x1024.size a
  hwx2_0 : ∀ i : grid2.Coords, EltTy.bits .f32 = 32 ∨ (Rect.block (s := S64x1024) S64x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S4096x1024.size a
  hwx2_1 : ∀ i : grid2.Coords, EltTy.bits .f32 = 32 ∨ (Rect.block (s := S4096x1024) S2048x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x4096.size a
  hwx2_2 : ∀ i : grid2.Coords, EltTy.bits .f32 = 32 ∨ (Rect.block (s := S1x4096) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x2048.size a ≤ S64x4096.size a
  hwx2_3 : ∀ i : grid2.Coords, EltTy.bits .f32 = 32 ∨ (Rect.block (s := S64x4096) S64x2048.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x1024.size a ≤ S64x1024.size a
  hwx3_0 : ∀ i : grid3.Coords, EltTy.bits .f32 = 32 ∨ (Rect.block (s := S64x1024) S64x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x1024.size a ≤ S4096x1024.size a
  hwx3_1 : ∀ i : grid3.Coords, EltTy.bits .f32 = 32 ∨ (Rect.block (s := S4096x1024) S2048x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x4096.size a
  hwx3_2 : ∀ i : grid3.Coords, EltTy.bits .f32 = 32 ∨ (Rect.block (s := S1x4096) S1x2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S64x2048.size a ≤ S64x4096.size a
  hwx3_3 : ∀ i : grid3.Coords, EltTy.bits .f32 = 32 ∨ (Rect.block (s := S64x4096) S64x2048.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x1024.size a ≤ S64x1024.size a
  hwx4_0 : ∀ i : grid4.Coords, EltTy.bits .f32 = 32 ∨ (Rect.block (s := S64x1024) S64x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S3200x1024.size a ≤ S32000x1024.size a
  hwx4_1 : ∀ i : grid4.Coords, EltTy.bits .f32 = 32 ∨ (Rect.block (s := S32000x1024) S3200x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x3200.size a ≤ S1x32000.size a
  hwx4_2 : ∀ i : grid4.Coords, EltTy.bits .f32 = 32 ∨ (Rect.block (s := S1x32000) S1x3200.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S64x3200.size a ≤ S64x32000.size a
  hwx4_3 : ∀ i : grid4.Coords, EltTy.bits .f32 = 32 ∨ (Rect.block (s := S64x32000) S64x3200.size (cc4_transform_3 i) (hinb4_3 i)).WholeWords (EltTy.packing .f32)

variable [Facts₀]

def dot_S64x1280_S2048x1280_S64x2048_1_1_0_0_n_n : DotDims S64x1280 S2048x1280 S64x2048 where
  lhsContracting := [1]
  rhsContracting := [1]
  lhsNonContracting := [0]
  rhsNonContracting := [0]
  lhsBatch := []
  rhsBatch := []
  wf := dot_S64x1280_S2048x1280_S64x2048_1_1_0_0_n_n_wf
def dot_S64x1024_S2048x1024_S64x2048_1_1_0_0_n_n : DotDims S64x1024 S2048x1024 S64x2048 where
  lhsContracting := [1]
  rhsContracting := [1]
  lhsNonContracting := [0]
  rhsNonContracting := [0]
  lhsBatch := []
  rhsBatch := []
  wf := dot_S64x1024_S2048x1024_S64x2048_1_1_0_0_n_n_wf
def dot_S64x1024_S3200x1024_S64x3200_1_1_0_0_n_n : DotDims S64x1024 S3200x1024 S64x3200 where
  lhsContracting := [1]
  rhsContracting := [1]
  lhsNonContracting := [0]
  rhsNonContracting := [0]
  lhsBatch := []
  rhsBatch := []
  wf := dot_S64x1024_S3200x1024_S64x3200_1_1_0_0_n_n_wf

abbrev win0_0 : Pipeline.Window sig grid0 :=
  Pipeline.Window.ofSpec (Memref.whole main_arg0) S64x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S64x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v18) S64x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S64x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v55) S64x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v8) S2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v56) S64x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v22) S64x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S64x2048.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v86) S64x1024.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S3200x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v16) S1x3200.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v87) S64x3200.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S64x32000 : Shape := ⟨2, ![64, 32000]⟩
abbrev S2x64x1024 : Shape := ⟨3, ![2, 64, 1024]⟩
abbrev S2x4x1024x1024 : Shape := ⟨4, ![2, 4, 1024, 1024]⟩
abbrev S2x4x1024 : Shape := ⟨3, ![2, 4, 1024]⟩
abbrev S4x1024x32000 : Shape := ⟨3, ![4, 1024, 32000]⟩
abbrev S4x1024 : Shape := ⟨2, ![4, 1024]⟩
abbrev S4x1024x1024 : Shape := ⟨3, ![4, 1024, 1024]⟩
abbrev S32000x1024 : Shape := ⟨2, ![32000, 1024]⟩
abbrev S32000 : Shape := ⟨1, ![32000]⟩
abbrev S1x64x1024 : Shape := ⟨3, ![1, 64, 1024]⟩
abbrev S64x1024 : Shape := ⟨2, ![64, 1024]⟩
abbrev S1x4x1024x1024 : Shape := ⟨4, ![1, 4, 1024, 1024]⟩
abbrev S1x4x1024 : Shape := ⟨3, ![1, 4, 1024]⟩
abbrev S64x4x1024 : Shape := ⟨3, ![64, 4, 1024]⟩
abbrev S64x1x1024 : Shape := ⟨3, ![64, 1, 1024]⟩
abbrev S_ : Shape := ⟨0, ![]⟩
abbrev S1024x32000 : Shape := ⟨2, ![1024, 32000]⟩
abbrev S1x32000 : Shape := ⟨2, ![1, 32000]⟩
abbrev S64 : Shape := ⟨1, ![64]⟩
abbrev S64x1 : Shape := ⟨2, ![64, 1]⟩

abbrev nBuf : Space → Nat
  | .hbm => 150
  | .vmem => 0
  | .smem => 0
  | _ => 0

abbrev hbmTy0_0 (i : Nat) : BufTy := match i % 128 with
  | 0 => ⟨S64x32000, .f32⟩
  | 1 => ⟨S2x64x1024, .f32⟩
  | 2 => ⟨S2x64x1024, .f32⟩
  | 3 => ⟨S2x4x1024x1024, .f32⟩
  | 4 => ⟨S2x4x1024, .f32⟩
  | 5 => ⟨S4x1024x32000, .f32⟩
  | 6 => ⟨S4x1024, .f32⟩
  | 7 => ⟨S4x1024x1024, .f32⟩
  | 8 => ⟨S4x1024, .f32⟩
  | 9 => ⟨S32000x1024, .f32⟩
  | 10 => ⟨S32000, .f32⟩
  | 11 => ⟨S1x64x1024, .f32⟩
  | 12 => ⟨S64x1024, .f32⟩
  | 13 => ⟨S1x64x1024, .f32⟩
  | 14 => ⟨S64x1024, .f32⟩
  | 15 => ⟨S1x4x1024x1024, .f32⟩
  | 16 => ⟨S4x1024x1024, .f32⟩
  | 17 => ⟨S1x4x1024, .f32⟩
  | 18 => ⟨S4x1024, .f32⟩
  | 19 => ⟨S64x4x1024, .f32⟩
  | 20 => ⟨S1x4x1024, .f32⟩
  | 21 => ⟨S64x4x1024, .f32⟩
  | 22 => ⟨S64x4x1024, .f32⟩
  | 23 => ⟨S64x4x1024, .f32⟩
  | 24 => ⟨S64x4x1024, .f32⟩
  | 25 => ⟨S1x4x1024, .f32⟩
  | 26 => ⟨S64x4x1024, .f32⟩
  | 27 => ⟨S64x4x1024, .f32⟩
  | 28 => ⟨S64x1x1024, .f32⟩
  | 29 => ⟨S64x1024, .f32⟩
  | 30 => ⟨S64x1024, .f32⟩
  | 31 => ⟨S64x1024, .f32⟩
  | 32 => ⟨S_, .f32⟩
  | 33 => ⟨S64x1024, .f32⟩
  | 34 => ⟨S64x1024, .f32⟩
  | 35 => ⟨S_, .f32⟩
  | 36 => ⟨S64x1024, .f32⟩
  | 37 => ⟨S64x1024, .f32⟩
  | 38 => ⟨S64x1x1024, .f32⟩
  | 39 => ⟨S64x1024, .f32⟩
  | 40 => ⟨S64x1024, .f32⟩
  | 41 => ⟨S64x1024, .f32⟩
  | 42 => ⟨S_, .f32⟩
  | 43 => ⟨S64x1024, .f32⟩
  | 44 => ⟨S64x1024, .f32⟩
  | 45 => ⟨S_, .f32⟩
  | 46 => ⟨S64x1024, .f32⟩
  | 47 => ⟨S64x1024, .f32⟩
  | 48 => ⟨S64x1x1024, .f32⟩
  | 49 => ⟨S64x1024, .f32⟩
  | 50 => ⟨S64x1024, .f32⟩
  | 51 => ⟨S64x1024, .f32⟩
  | 52 => ⟨S_, .f32⟩
  | 53 => ⟨S64x1024, .f32⟩
  | 54 => ⟨S64x1024, .f32⟩
  | 55 => ⟨S_, .f32⟩
  | 56 => ⟨S64x1024, .f32⟩
  | 57 => ⟨S64x1024, .f32⟩
  | 58 => ⟨S64x1x1024, .f32⟩
  | 59 => ⟨S64x1024, .f32⟩
  | 60 => ⟨S64x1024, .f32⟩
  | 61 => ⟨S64x1024, .f32⟩
  | 62 => ⟨S64x1024, .f32⟩
  | 63 => ⟨S64x1024, .f32⟩
  | 64 => ⟨S64x1024, .f32⟩
  | 65 => ⟨S64x1024, .f32⟩
  | 66 => ⟨S1x64x1024, .f32⟩
  | 67 => ⟨S64x1024, .f32⟩
  | 68 => ⟨S1x64x1024, .f32⟩
  | 69 => ⟨S64x1024, .f32⟩
  | 70 => ⟨S1x4x1024x1024, .f32⟩
  | 71 => ⟨S4x1024x1024, .f32⟩
  | 72 => ⟨S1x4x1024, .f32⟩
  | 73 => ⟨S4x1024, .f32⟩
  | 74 => ⟨S64x4x1024, .f32⟩
  | 75 => ⟨S1x4x1024, .f32⟩
  | 76 => ⟨S64x4x1024, .f32⟩
  | 77 => ⟨S64x4x1024, .f32⟩
  | 78 => ⟨S64x4x1024, .f32⟩
  | 79 => ⟨S64x4x1024, .f32⟩
  | 80 => ⟨S1x4x1024, .f32⟩
  | 81 => ⟨S64x4x1024, .f32⟩
  | 82 => ⟨S64x4x1024, .f32⟩
  | 83 => ⟨S64x1x1024, .f32⟩
  | 84 => ⟨S64x1024, .f32⟩
  | 85 => ⟨S64x1024, .f32⟩
  | 86 => ⟨S64x1024, .f32⟩
  | 87 => ⟨S_, .f32⟩
  | 88 => ⟨S64x1024, .f32⟩
  | 89 => ⟨S64x1024, .f32⟩
  | 90 => ⟨S_, .f32⟩
  | 91 => ⟨S64x1024, .f32⟩
  | 92 => ⟨S64x1024, .f32⟩
  | 93 => ⟨S64x1x1024, .f32⟩
  | 94 => ⟨S64x1024, .f32⟩
  | 95 => ⟨S64x1024, .f32⟩
  | 96 => ⟨S64x1024, .f32⟩
  | 97 => ⟨S_, .f32⟩
  | 98 => ⟨S64x1024, .f32⟩
  | 99 => ⟨S64x1024, .f32⟩
  | 100 => ⟨S_, .f32⟩
  | 101 => ⟨S64x1024, .f32⟩
  | 102 => ⟨S64x1024, .f32⟩
  | 103 => ⟨S64x1x1024, .f32⟩
  | 104 => ⟨S64x1024, .f32⟩
  | 105 => ⟨S64x1024, .f32⟩
  | 106 => ⟨S64x1024, .f32⟩
  | 107 => ⟨S_, .f32⟩
  | 108 => ⟨S64x1024, .f32⟩
  | 109 => ⟨S64x1024, .f32⟩
  | 110 => ⟨S_, .f32⟩
  | 111 => ⟨S64x1024, .f32⟩
  | 112 => ⟨S64x1024, .f32⟩
  | 113 => ⟨S64x1x1024, .f32⟩
  | 114 => ⟨S64x1024, .f32⟩
  | 115 => ⟨S64x1024, .f32⟩
  | 116 => ⟨S64x1024, .f32⟩
  | 117 => ⟨S64x1024, .f32⟩
  | 118 => ⟨S64x1024, .f32⟩
  | 119 => ⟨S64x1024, .f32⟩
  | 120 => ⟨S64x1024, .f32⟩
  | 121 => ⟨S1024x32000, .f32⟩
  | 122 => ⟨S64x32000, .f32⟩
  | 123 => ⟨S1x32000, .f32⟩
  | 124 => ⟨S64x32000, .f32⟩
  | 125 => ⟨S64x32000, .f32⟩
  | 126 => ⟨S_, .f32⟩
  | 127 => ⟨S64x32000, .f32⟩
  | _ => ⟨S64x32000, .f32⟩

abbrev hbmTy0_1 (i : Nat) : BufTy := match i % 128 with
  | 0 => ⟨S64x32000, .f32⟩
  | 1 => ⟨S_, .f32⟩
  | 2 => ⟨S64, .f32⟩
  | 3 => ⟨S_, .f32⟩
  | 4 => ⟨S64, .f32⟩
  | 5 => ⟨S64, .f32⟩
  | 6 => ⟨S64x1, .f32⟩
  | 7 => ⟨S64x32000, .f32⟩
  | 8 => ⟨S64x32000, .f32⟩
  | 9 => ⟨S64x32000, .f32⟩
  | 10 => ⟨S_, .f32⟩
  | 11 => ⟨S64, .f32⟩
  | 12 => ⟨S64x1, .f32⟩
  | 13 => ⟨S64x1, .f32⟩
  | 14 => ⟨S64x32000, .f32⟩
  | 15 => ⟨S64x32000, .f32⟩
  | 16 => ⟨S1x64x1024, .f32⟩
  | 17 => ⟨S1x64x1024, .f32⟩
  | 18 => ⟨S2x64x1024, .f32⟩
  | 19 => ⟨S1x64x1024, .f32⟩
  | 20 => ⟨S1x64x1024, .f32⟩
  | 21 => ⟨S2x64x1024, .f32⟩
  | _ => ⟨S64x32000, .f32⟩

abbrev hbmTy (i : Nat) : BufTy := match i / 128 with
  | 0 => hbmTy0_0 i
  | 1 => hbmTy0_1 i
  | _ => ⟨S64x32000, .f32⟩

abbrev bufTy : (tb : Table) → Fin (tcTables nBuf tb) → BufTy
  | .hbm, ⟨i, _⟩ => hbmTy i
  | _, _ => ⟨S64x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_5 : Ref sig .tc := ⟨.hbm, 87, rfl⟩
abbrev main_v70 : Ref sig .tc := ⟨.hbm, 88, rfl⟩
abbrev main_v71 : Ref sig .tc := ⟨.hbm, 89, rfl⟩
abbrev main_cst_6 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_7 : Ref sig .tc := ⟨.hbm, 97, rfl⟩
abbrev main_v78 : Ref sig .tc := ⟨.hbm, 98, rfl⟩
abbrev main_v79 : Ref sig .tc := ⟨.hbm, 99, rfl⟩
abbrev main_cst_8 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_9 : Ref sig .tc := ⟨.hbm, 107, rfl⟩
abbrev main_v86 : Ref sig .tc := ⟨.hbm, 108, rfl⟩
abbrev main_v87 : Ref sig .tc := ⟨.hbm, 109, rfl⟩
abbrev main_cst_10 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_11 : Ref sig .tc := ⟨.hbm, 126, rfl⟩
abbrev main_v103 : Ref sig .tc := ⟨.hbm, 127, rfl⟩
abbrev main_v104 : Ref sig .tc := ⟨.hbm, 128, rfl⟩
abbrev main_call0_cst : Ref sig .tc := ⟨.hbm, 129, rfl⟩
abbrev main_call0_v0 : Ref sig .tc := ⟨.hbm, 130, rfl⟩
abbrev main_call0_cst_0 : Ref sig .tc := ⟨.hbm, 131, rfl⟩
abbrev main_call0_v1 : Ref sig .tc := ⟨.hbm, 132, rfl⟩
abbrev main_call0_v2 : Ref sig .tc := ⟨.hbm, 133, rfl⟩
abbrev main_call0_v3 : Ref sig .tc := ⟨.hbm, 134, rfl⟩
abbrev main_call0_v4 : Ref sig .tc := ⟨.hbm, 135, rfl⟩
abbrev main_call0_v5 : Ref sig .tc := ⟨.hbm, 136, rfl⟩
abbrev main_call0_v6 : Ref sig .tc := ⟨.hbm, 137, rfl⟩
abbrev main_call0_cst_1 : Ref sig .tc := ⟨.hbm, 138, rfl⟩
abbrev main_call0_v7 : Ref sig .tc := ⟨.hbm, 139, rfl⟩
abbrev main_call0_v8 : Ref sig .tc := ⟨.hbm, 140, rfl⟩
abbrev main_call0_v9 : Ref sig .tc := ⟨.hbm, 141, rfl⟩
abbrev main_call0_v10 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩

abbrev nD : Nat := 1
abbrev τ : Topo := Topo.v7x

variable {F : FTy → Type} [FloatOps F]

class Facts₀ : Prop where
  slices_S2x64x1024_S1x64x1024_0_0_0 : S2x64x1024.Slices ![0, 0, 0] S1x64x1024
  shapeCasts_S1x64x1024_S64x1024 : S1x64x1024.ShapeCasts S64x1024
  slices_S2x4x1024x1024_S1x4x1024x1024_0_0_0_0 : S2x4x1024x1024.Slices ![0, 0, 0, 0] S1x4x1024x1024
  shapeCasts_S1x4x1024x1024_S4x1024x1024 : S1x4x1024x1024.ShapeCasts S4x1024x1024
  slices_S2x4x1024_S1x4x1024_0_0_0 : S2x4x1024.Slices ![0, 0, 0] S1x4x1024
  shapeCasts_S1x4x1024_S4x1024 : S1x4x1024.ShapeCasts S4x1024
  bcast_S4x1024_S1x4x1024_1_2 : S4x1024.BroadcastsInDim S1x4x1024 (![1, 2] : Fin 2 → Fin S1x4x1024.rank)
  bcast_S1x4x1024_S64x4x1024_0_1_2 : S1x4x1024.BroadcastsInDim S64x4x1024 (![0, 1, 2] : Fin 3 → Fin S64x4x1024.rank)
  slices_S64x4x1024_S64x1x1024_0_0_0 : S64x4x1024.Slices ![0, 0, 0] S64x1x1024
  shapeCasts_S64x1x1024_S64x1024 : S64x1x1024.ShapeCasts S64x1024
  bcast_S_S64x1024 : S_.BroadcastsInDim S64x1024 (![] : Fin 0 → Fin S64x1024.rank)
  slices_S64x4x1024_S64x1x1024_0_1_0 : S64x4x1024.Slices ![0, 1, 0] S64x1x1024
  slices_S64x4x1024_S64x1x1024_0_2_0 : S64x4x1024.Slices ![0, 2, 0] S64x1x1024
  slices_S64x4x1024_S64x1x1024_0_3_0 : S64x4x1024.Slices ![0, 3, 0] S64x1x1024
  slices_S2x64x1024_S1x64x1024_1_0_0 : S2x64x1024.Slices ![1, 0, 0] S1x64x1024
  slices_S2x4x1024x1024_S1x4x1024x1024_1_0_0_0 : S2x4x1024x1024.Slices ![1, 0, 0, 0] S1x4x1024x1024
  slices_S2x4x1024_S1x4x1024_1_0_0 : S2x4x1024.Slices ![1, 0, 0] S1x4x1024
  transposes_S32000x1024_S1024x32000_1_0 : S32000x1024.Transposes [1, 0] S1024x32000
  bcast_S32000_S1x32000_1 : S32000.BroadcastsInDim S1x32000 (![1] : Fin 1 → Fin S1x32000.rank)
  bcast_S1x32000_S64x32000_0_1 : S1x32000.BroadcastsInDim S64x32000 (![0, 1] : Fin 2 → Fin S64x32000.rank)
  bcast_S_S64x32000 : S_.BroadcastsInDim S64x32000 (![] : Fin 0 → Fin S64x32000.rank)
  reducesTo_S64x32000_S64_d1 : S64x32000.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x32000_0_1 : S64x1.BroadcastsInDim S64x32000 (![0, 1] : Fin 2 → Fin S64x32000.rank)
  bcast_S64x1024_S1x64x1024_1_2 : S64x1024.BroadcastsInDim S1x64x1024 (![1, 2] : Fin 2 → Fin S1x64x1024.rank)
  concatenates_S1x64x1024_S1x64x1024_S2x64x1024_d0 : Shape.Concatenates [S1x64x1024, S1x64x1024] S2x64x1024 0
  dot_S64x32000_S4x1024x32000_S64x4x1024_1_2_0_01_n_n_wf : DotDims.WF S64x32000 S4x1024x32000 S64x4x1024 [1] [2] [0] [0, 1] [] []
  dot_S64x1024_S4x1024x1024_S64x4x1024_1_2_0_01_n_n_wf : DotDims.WF S64x1024 S4x1024x1024 S64x4x1024 [1] [2] [0] [0, 1] [] []
  dot_S64x1024_S1024x32000_S64x32000_1_0_0_1_n_n_wf : DotDims.WF S64x1024 S1024x32000 S64x32000 [1] [0] [0] [1] [] []

variable [Facts₀]

def dot_S64x32000_S4x1024x32000_S64x4x1024_1_2_0_01_n_n : DotDims S64x32000 S4x1024x32000 S64x4x1024 where
  lhsContracting := [1]
  rhsContracting := [2]
  lhsNonContracting := [0]
  rhsNonContracting := [0, 1]
  lhsBatch := []
  rhsBatch := []
  wf := dot_S64x32000_S4x1024x32000_S64x4x1024_1_2_0_01_n_n_wf
def dot_S64x1024_S4x1024x1024_S64x4x1024_1_2_0_01_n_n : DotDims S64x1024 S4x1024x1024 S64x4x1024 where
  lhsContracting := [1]
  rhsContracting := [2]
  lhsNonContracting := [0]
  rhsNonContracting := [0, 1]
  lhsBatch := []
  rhsBatch := []
  wf := dot_S64x1024_S4x1024x1024_S64x4x1024_1_2_0_01_n_n_wf
def dot_S64x1024_S1024x32000_S64x32000_1_0_0_1_n_n : DotDims S64x1024 S1024x32000 S64x32000 where
  lhsContracting := [1]
  rhsContracting := [0]
  lhsNonContracting := [0]
  rhsNonContracting := [1]
  lhsBatch := []
  rhsBatch := []
  wf := dot_S64x1024_S1024x32000_S64x32000_1_0_0_1_n_n_wf

class Facts : Prop extends Facts₀ where

variable [Facts]
-- ==== Proof.KB.R0Kit.lean ====
import proofs.«137056_j83880711291258_2_alg».proof.Proof.Gen.Kernel.Launch
import proofs.«137056_j83880711291258_2_alg».proof.Proof.Gen.Kernel.Skeleton
import proofs.«137056_j83880711291258_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the first matmul-with-bias call, 2 x 25 grid): what its three whole-body runs share

The kernel accumulates `x · wᵀ` over the second grid axis `k` into a scratch accumulator: at `k = 0` the
accumulator is zeroed first, at every `k` the block product is added, at `k = 24` the accumulator plus the bias
is stored to the output block. Everything is stated at a parameter `V`, the buffer contents on entry. -/

-- the buffer contents when the region is entered
variable (V : (c : Dev nD) → (b : Ref sig .tc) → Buf (Elt F) ((c : Thread nD τ).loc b))

/-! ## The windows' blocks -/

/-- Window `w`'s block at point `t`, read off its array as the region finds it. -/
def blockIn0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The `x` window's current staging buffer holds its block at every point, for any proof data whose array is the
    entry contents and whose body leaves the block in place: unfetched, the block index has not moved. -/
theorem heldIn0_0_of {c : Dev nD} (dat : Dat τ (Elt F) Unit ℕ (UR sig nD τ) ℕ cfg0 c) (hA : dat.A 0 = V c (Pipeline.arrRef spec0 0))
    (hafter : ∀ t, dat.after 0 t = blockIn0 V c 0 t) (t : Fin cfg0.N) (d) : dat.before 0 t d = blockIn0 V c 0 t :=
  (dat.before_in_eq_fetched 0 rfl (fun _ => rfl) (fun _ _ _ => rfl) (fun t => by rw [hafter]; unfold Dat.blockOf blockIn0; rw [hA]; try rfl) t d).trans
    (by unfold Dat.fetched Dat.blockOf blockIn0; rw [hA]; try rfl)

/-- The same for the `w` window. -/
theorem heldIn0_1_of {c : Dev nD} (dat : Dat τ (Elt F) Unit ℕ (UR sig nD τ) ℕ cfg0 c) (hA : dat.A 1 = V c (Pipeline.arrRef spec0 1))
    (hafter : ∀ t, dat.after 1 t = blockIn0 V c 1 t) (t : Fin cfg0.N) (d) : dat.before 1 t d = blockIn0 V c 1 t :=
  (dat.before_in_eq_fetched 1 rfl (fun _ => rfl) (fun _ _ _ => rfl) (fun t => by rw [hafter]; unfold Dat.blockOf blockIn0; rw [hA]; try rfl) t d).trans
    (by unfold Dat.fetched Dat.blockOf blockIn0; rw [hA]; try rfl)

/-- The same for the bias window, which is fetched only where `k = 0`: between fetches its block index stays. -/
theorem heldIn0_2_of {c : Dev nD} (dat : Dat τ (Elt F) Unit ℕ (UR sig nD τ) ℕ cfg0 c) (hA : dat.A 2 = V c (Pipeline.arrRef spec0 2))
    (hafter : ∀ t, dat.after 2 t = blockIn0 V c 2 t) (t : Fin cfg0.N) (d) : dat.before 2 t d = blockIn0 V c 2 t :=
  (dat.before_in_eq_fetched 2 rfl (fun _ => rfl) (fun _ _ _ => rfl) (fun t => by rw [hafter]; unfold Dat.blockOf blockIn0; rw [hA]; try rfl) t d).trans
    (by unfold Dat.fetched Dat.blockOf blockIn0; rw [hA]; try rfl)

/-! ## The two conditions on the reduction coordinate -/

/-- "This is the first reduction step" (`k = 0`), as the body computes it from the grid coordinates. -/
abbrev atFirstK0 (i : grid0.Coords) : Prop := (Scalar.cmpi .ne (Scalar.extui (Scalar.cmpi .eq (BitVec.ofNat 32 (i 1).val) 0#32)) 0#32) = 1#1
/-- It holds at the points ≡ 0 (mod 25). -/
theorem atFirstK0_iff : ∀ t : Fin cfg0.N, atFirstK0 (grid0.coords t) ↔ t.val % 25 = 0 :=
  (by decide +kernel : ∀ t : Fin grid0.N, atFirstK0 (grid0.coords t) ↔ t.val % 25 = 0)

/-- "This is the last reduction step" (`k = 24`), as the body computes it. -/
abbrev atLastK0 (i : grid0.Coords) : Prop := k0_cond2 i = 1#1
/-- It holds at the points ≡ 24 (mod 25). -/
theorem atLastK0_iff : ∀ t : Fin cfg0.N, atLastK0 (grid0.coords t) ↔ t.val % 25 = 24 :=
  (by decide +kernel : ∀ t : Fin grid0.N, atLastK0 (grid0.coords t) ↔ t.val % 25 = 24)

/-! ## Where the windows are idle -/

/-- The three input windows are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last reduction step the output window is idle: nothing is stored into it, -/
theorem idle0_3 : ∀ t : Fin cfg0.N, ¬atLastK0 (grid0.coords t) → cfg0.idle 3 (grid0.coords t) = true := by decide +kernel
/-- and its block is not written back. -/
theorem unflushed0_3 : ∀ t : Fin cfg0.N, ¬atLastK0 (grid0.coords t) → (cfg0.win 3).flush t = false := by decide +kernel
/-- At the last reduction step it is live. -/
theorem live0_3 : ∀ t : Fin cfg0.N, atLastK0 (grid0.coords t) → cfg0.idle 3 (grid0.coords t) = false := by decide +kernel

/-! ## The memrefs the body is called with -/

/-- Each window's current staging memref at point `t`, as the pipeline passes it, and its wholeness. -/
abbrev stg0_0 (t : Fin cfg0.N) : Memref sig .tc .vmem S64x1280 .f32 := win0_0.stage (cfg0.slots t 0)
abbrev stgWhole0_0 (t : Fin cfg0.N) : (stg0_0 t).IsWhole := hstage0_0 ((cfg0.slots t 0).cast nbuf0_0)
abbrev stg0_1 (t : Fin cfg0.N) : Memref sig .tc .vmem S2048x1280 .f32 := win0_1.stage (cfg0.slots t 1)
abbrev stgWhole0_1 (t : Fin cfg0.N) : (stg0_1 t).IsWhole := hstage0_1 ((cfg0.slots t 1).cast nbuf0_1)
abbrev stg0_2 (t : Fin cfg0.N) : Memref sig .tc .vmem S1x2048 .f32 := win0_2.stage (cfg0.slots t 2)
abbrev stgWhole0_2 (t : Fin cfg0.N) : (stg0_2 t).IsWhole := hstage0_2 ((cfg0.slots t 2).cast nbuf0_2)
abbrev stg0_3 (t : Fin cfg0.N) : Memref sig .tc .vmem S64x2048 .f32 := win0_3.stage (cfg0.slots t 3)
abbrev stgWhole0_3 (t : Fin cfg0.N) : (stg0_3 t).IsWhole := hstage0_3 ((cfg0.slots t 3).cast nbuf0_3)
/-- The accumulator: a whole scoped buffer of the kernel's own, passed beside the windows. -/
abbrev accRef0 : Memref sig .tc .vmem S64x2048 .f32 := Memref.whole cc0_scratch0
/-- The accumulator as a view: what it holds is stated through it. -/
abbrev accView0 : View sig .tc .vmem S64x2048 .f32 := accRef0.view
/-- One staging buffer of the output window, through which its contents are stated (the choice does not matter). -/
abbrev outView0 : View sig .tc .vmem S64x2048 .f32 := (Memref.whole cc0_stg3_0 : Memref sig .tc .vmem S64x2048 .f32).view

/-- What the launch hands the region, with the accumulator as a memref owned at some contents, the other scoped
    buffers unopened, and the generator register at some state. -/
theorem entryInv0_eq (c : Dev nD) :
    (Pipeline.ΦA spec0 c : sProp 𝕄)
      = iprop(iprop(iprop((∃ d, owns (c : Thread nD τ) accRef0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [accRef0, owns_whole]; try rfl

end Cert.Kernel.Hand

end
-- ==== Proof.KB.R0First.lean ====
import proofs.«137056_j83880711291258_2_alg».proof.Proof.KB.R0Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, the first reduction step (`k = 0`): the whole body's run

The accumulator is zeroed, then the block product is added to it; the output block is not touched. -/

set_option maxHeartbeats 1000000 in
/-- At `k = 0` and `k ≠ 24`: on whole memrefs — the three inputs at their contents, the output's at contents handed back
    untouched, the accumulator at anything — the body runs to the continuation holding the inputs and the output as they
    were and the accumulator with the pieces its two stores wrote (last first). The pieces are the witness the run finds. -/
noncomputable def firstRun0 (c : Dev nD) (i : grid0.Coords) (arg2 : Memref sig .tc .vmem S64x1280 .f32) (harg2 : arg2.IsWhole) (arg3 : Memref sig .tc .vmem S2048x1280 .f32) (harg3 : arg3.IsWhole)
    (arg4 : Memref sig .tc .vmem S1x2048 .f32) (harg4 : arg4.IsWhole) (arg5 : Memref sig .tc .vmem S64x2048 .f32) (harg5 : arg5.IsWhole)
    (arg6 : Memref sig .tc .vmem S64x2048 .f32) (harg6 : arg6.IsWhole)
    (hc0 : atFirstK0 i) (hc1 : ¬atLastK0 i)
    (x0 : Vec F S64x1280 .f32) (x1 : Vec F S2048x1280 .f32) (x2 : Vec F S1x2048 .f32) :
    { Lacc : List (View.Piece (Elt F) S64x2048 .f32) //
      ∀ (y3 : Vec F S64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare y3 ∗ (∃ f, arg6.view.loc (c : Thread nD τ) ↦[arg6.view.set]{fullShare} arg6.view.writes (Elt F) f Lacc)) -∗ K ⟨⟩))
          ⊢ wp frame (wpE (defs₀ (F := F)) Variants.none c none) E (cc0__matmul_bias_kernel i arg2 harg2 arg3 harg3 arg4 harg4 arg5 harg5 arg6 harg6) K } := by
  refine ⟨?_, fun y3 E K => ?run⟩
  case run =>
    rw [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.KB.R0Mid.lean ====
import proofs.«137056_j83880711291258_2_alg».proof.Proof.KB.R0Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, a middle reduction step (`0 < k < 24`): the whole body's run

The block product is added to the accumulator the step before left; the output block is not touched. -/

set_option maxHeartbeats 1000000 in
/-- At `k ≠ 0` and `k ≠ 24`: on whole memrefs — the three inputs at their contents, the output's at contents handed back
    untouched, the accumulator at what the step before left — the body runs to the continuation holding the inputs and the
    output as they were and the accumulator with the piece its store wrote. The piece is the witness the run finds. -/
noncomputable def midRun0 (c : Dev nD) (i : grid0.Coords) (arg2 : Memref sig .tc .vmem S64x1280 .f32) (harg2 : arg2.IsWhole) (arg3 : Memref sig .tc .vmem S2048x1280 .f32) (harg3 : arg3.IsWhole)
    (arg4 : Memref sig .tc .vmem S1x2048 .f32) (harg4 : arg4.IsWhole) (arg5 : Memref sig .tc .vmem S64x2048 .f32) (harg5 : arg5.IsWhole)
    (arg6 : Memref sig .tc .vmem S64x2048 .f32) (harg6 : arg6.IsWhole)
    (hc0 : ¬atFirstK0 i) (hc1 : ¬atLastK0 i)
    (x0 : Vec F S64x1280 .f32) (x1 : Vec F S2048x1280 .f32) (x2 : Vec F S1x2048 .f32) (acc : Vec F S64x2048 .f32) :
    { Lacc : List (View.Piece (Elt F) S64x2048 .f32) //
      ∀ (y3 : Vec F S64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare acc
            ∗ (iprop(owns (c : Thread nD τ) arg2 fullShare x0 ∗ owns (c : Thread nD τ) arg3 fullShare x1 ∗ owns (c : Thread nD τ) arg4 fullShare x2 ∗ owns (c : Thread nD τ) arg5 fullShare y3 ∗ (∃ f, arg6.view.loc (c : Thread nD τ) ↦[arg6.view.set]{fullShare} arg6.view.writes (Elt F) f Lacc)) -∗ K ⟨⟩))
          ⊢ wp frame (wpE (defs₀ (F := F)) Variants.none c none) E (cc0__matmul_bias_kernel i arg2 harg2 arg3 harg3 arg4 harg4 arg5 harg5 arg6 harg6) K } := by
  refine ⟨?_, fun y3 E K => ?run⟩
  case run =>
    rw [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.KB.R0Last.lean ====
import proofs.«137056_j83880711291258_2_alg».proof.Proof.KB.R0Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, the last reduction step (`k = 24`): the whole body's run

The block product is added to the accumulator the step before left, then the accumulator plus the bias row is
stored to the output block. -/

set_option maxHeartbeats 1000000 in
/-- At `k ≠ 0` and `k = 24`: on whole memrefs — the three inputs at their contents, the output's at anything, the
    accumulator at what the step before left — the body runs to the continuation holding the inputs as they were, the
    output's buffer with the piece its store wrote and the accumulator with the piece its store wrote. The pieces are the
    witness the run finds. -/
noncomputable def lastRun0 (c : Dev nD) (i : grid0.Coords) (arg2 : Memref sig .tc .vmem S64x1280 .f32) (harg2 : arg2.IsWhole) (arg3 : Memref sig .tc .vmem S2048x1280 .f32) (harg3 : arg3.IsWhole)
    (arg4 : Memref sig .tc .vmem S1x2048 .f32) (harg4 : arg4.IsWhole) (arg5 : Memref sig .tc .vmem S64x2048 .f32) (harg5 : arg5.IsWhole)
    (arg6 : Memref sig .tc .vmem S64x2048 .f32) (harg6 : arg6.IsWhole)
    (hc0 : ¬atFirstK0 i) (hc1 : atLastK0 i)
    (x0 : Vec F S64x1280 .f32) (x1 : Vec F S2048x1280 .f32) (x2 : Vec F S1x2048 .f32) (acc : Vec F S64x2048 .f32) :
    Σ' (Lout : List (View.Piece (Elt F) S64x2048 .f32)), { Lacc : List (View.Piece (Elt F) S64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare acc
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f Lout) ∗ (∃ f, arg6.view.loc (c : Thread nD τ) ↦[arg6.view.set]{fullShare} arg6.view.writes (Elt F) f Lacc)) -∗ K ⟨⟩))
          ⊢ wp frame (wpE (defs₀ (F := F)) Variants.none c none) E (cc0__matmul_bias_kernel i arg2 harg2 arg3 harg3 arg4 harg4 arg5 harg5 arg6 harg6) K } := by
  refine ⟨?_, ?_, fun E K => ?run⟩
  case run =>
    rw [cc0__matmul_bias_kernel_eq_skeleton]; unfold cc0__matmul_bias_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.KB.R0.lean ====
import proofs.«137056_j83880711291258_2_alg».proof.Proof.KB.R0First
import proofs.«137056_j83880711291258_2_alg».proof.Proof.KB.R0Mid
import proofs.«137056_j83880711291258_2_alg».proof.Proof.KB.R0Last

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the first matmul-with-bias call): the proof data, the body obligation, and what the body leaves

From the three whole-body runs: what each leaves in the accumulator and in the output block (the pieces the runs
found, read back), the accumulator after each grid point as a recursion over the points, the invariant that carries it
from point to point, and the pipeline's proof data with its body obligation, all at a parameter `V` — the buffer
contents on entry. Then the same contents spelt through the kernel's arithmetic. -/

-- the buffer contents when the region is entered
variable (V : (c : Dev nD) → (b : Ref sig .tc) → Buf (Elt F) ((c : Thread nD τ).loc b))

/-! ## What each step leaves -/

/-- The first step's two stores cover the accumulator. -/
theorem accCoverFirst0 (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : atFirstK0 i) (hc1 : ¬atLastK0 i) (x0 : Vec F S64x1280 .f32) (x1 : Vec F S2048x1280 .f32) (x2 : Vec F S1x2048 .f32) (y : S64x2048.Idx) :
    ∃ pc ∈ (firstRun0 c i arg2 harg2 arg3 harg3 arg4 harg4 arg5 harg5 arg6 harg6 hc0 hc1 x0 x1 x2).1, y ∈ pc.1.set :=
  View.cover_of_tiledL (firstRun0 c i arg2 harg2 arg3 harg3 arg4 harg4 arg5 harg5 arg6 harg6 hc0 hc1 x0 x1 x2).1 S64x2048.size (by sl_kernel_rfl) y

/-- What the first step leaves in the accumulator: its pieces read back. -/
def accLeftFirst0 (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : atFirstK0 i) (hc1 : ¬atLastK0 i) (x0 : Vec F S64x1280 .f32) (x1 : Vec F S2048x1280 .f32) (x2 : Vec F S1x2048 .f32) : Vec F S64x2048 .f32 :=
  accView0.read (Elt F) (accView0.writes (Elt F) accView0.junk (firstRun0 c i arg2 harg2 arg3 harg3 arg4 harg4 arg5 harg5 arg6 harg6 hc0 hc1 x0 x1 x2).1)

/-- A middle step's store covers the accumulator. -/
theorem accCoverMid0 (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬atFirstK0 i) (hc1 : ¬atLastK0 i) (x0 : Vec F S64x1280 .f32) (x1 : Vec F S2048x1280 .f32) (x2 : Vec F S1x2048 .f32) (acc : Vec F S64x2048 .f32) (y : S64x2048.Idx) :
    ∃ pc ∈ (midRun0 c i arg2 harg2 arg3 harg3 arg4 harg4 arg5 harg5 arg6 harg6 hc0 hc1 x0 x1 x2 acc).1, y ∈ pc.1.set :=
  View.cover_of_tiledL (midRun0 c i arg2 harg2 arg3 harg3 arg4 harg4 arg5 harg5 arg6 harg6 hc0 hc1 x0 x1 x2 acc).1 S64x2048.size (by sl_kernel_rfl) y

/-- What a middle step leaves in the accumulator. -/
def accLeftMid0 (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬atFirstK0 i) (hc1 : ¬atLastK0 i) (x0 : Vec F S64x1280 .f32) (x1 : Vec F S2048x1280 .f32) (x2 : Vec F S1x2048 .f32) (acc : Vec F S64x2048 .f32) : Vec F S64x2048 .f32 :=
  accView0.read (Elt F) (accView0.writes (Elt F) accView0.junk (midRun0 c i arg2 harg2 arg3 harg3 arg4 harg4 arg5 harg5 arg6 harg6 hc0 hc1 x0 x1 x2 acc).1)

/-- The last step's store to the accumulator covers it, -/
theorem accCoverLast0 (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬atFirstK0 i) (hc1 : atLastK0 i) (x0 : Vec F S64x1280 .f32) (x1 : Vec F S2048x1280 .f32) (x2 : Vec F S1x2048 .f32) (acc : Vec F S64x2048 .f32) (y : S64x2048.Idx) :
    ∃ pc ∈ (lastRun0 c i arg2 harg2 arg3 harg3 arg4 harg4 arg5 harg5 arg6 harg6 hc0 hc1 x0 x1 x2 acc).2.1, y ∈ pc.1.set :=
  View.cover_of_tiledL (lastRun0 c i arg2 harg2 arg3 harg3 arg4 harg4 arg5 harg5 arg6 harg6 hc0 hc1 x0 x1 x2 acc).2.1 S64x2048.size (by sl_kernel_rfl) y

/-- and its store to the output block covers that. -/
theorem outCoverLast0 (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬atFirstK0 i) (hc1 : atLastK0 i) (x0 : Vec F S64x1280 .f32) (x1 : Vec F S2048x1280 .f32) (x2 : Vec F S1x2048 .f32) (acc : Vec F S64x2048 .f32) (y : S64x2048.Idx) :
    ∃ pc ∈ (lastRun0 c i arg2 harg2 arg3 harg3 arg4 harg4 arg5 harg5 arg6 harg6 hc0 hc1 x0 x1 x2 acc).1, y ∈ pc.1.set :=
  View.cover_of_tiledL (lastRun0 c i arg2 harg2 arg3 harg3 arg4 harg4 arg5 harg5 arg6 harg6 hc0 hc1 x0 x1 x2 acc).1 S64x2048.size (by sl_kernel_rfl) y

/-- What the last step leaves in the accumulator, -/
def accLeftLast0 (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬atFirstK0 i) (hc1 : atLastK0 i) (x0 : Vec F S64x1280 .f32) (x1 : Vec F S2048x1280 .f32) (x2 : Vec F S1x2048 .f32) (acc : Vec F S64x2048 .f32) : Vec F S64x2048 .f32 :=
  accView0.read (Elt F) (accView0.writes (Elt F) accView0.junk (lastRun0 c i arg2 harg2 arg3 harg3 arg4 harg4 arg5 harg5 arg6 harg6 hc0 hc1 x0 x1 x2 acc).2.1)

/-- and in the output block. -/
def outLeftLast0 (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬atFirstK0 i) (hc1 : atLastK0 i) (x0 : Vec F S64x1280 .f32) (x1 : Vec F S2048x1280 .f32) (x2 : Vec F S1x2048 .f32) (acc : Vec F S64x2048 .f32) : Vec F S64x2048 .f32 :=
  outView0.read (Elt F) (outView0.writes (Elt F) outView0.junk (lastRun0 c i arg2 harg2 arg3 harg3 arg4 harg4 arg5 harg5 arg6 harg6 hc0 hc1 x0 x1 x2 acc).1)

/-! ## The accumulator after each grid point -/

/-- The accumulator after the body at position `n`: the step the position's reduction coordinate selects, run at the
    point's memrefs and input blocks, a step that adds onto the accumulator at what position `n - 1` left. No position
    is both a first and a last step. -/
def accAfter0 (c : Dev nD) : (n : ℕ) → n < cfg0.N → Vec F S64x2048 .f32
  | 0, hn => accLeftFirst0 c (grid0.coords ⟨0, hn⟩) (stg0_0 ⟨0, hn⟩) (stgWhole0_0 ⟨0, hn⟩) (stg0_1 ⟨0, hn⟩) (stgWhole0_1 ⟨0, hn⟩) (stg0_2 ⟨0, hn⟩) (stgWhole0_2 ⟨0, hn⟩) (stg0_3 ⟨0, hn⟩) (stgWhole0_3 ⟨0, hn⟩) accRef0 (Memref.isWhole_whole _) ((atFirstK0_iff ⟨0, hn⟩).mpr (Nat.zero_mod _)) (fun h => (fun h => by (try dsimp only at h); omega) ((atLastK0_iff ⟨0, hn⟩).mp h)) (blockIn0 V c 0 ⟨0, hn⟩) (blockIn0 V c 1 ⟨0, hn⟩) (blockIn0 V c 2 ⟨0, hn⟩)
  | n + 1, hn =>
    if h0 : (n + 1) % 25 = 0 then
      if h1 : (n + 1) % 25 = 24 then
        False.elim (by omega)
      else
        accLeftFirst0 c (grid0.coords ⟨n + 1, hn⟩) (stg0_0 ⟨n + 1, hn⟩) (stgWhole0_0 ⟨n + 1, hn⟩) (stg0_1 ⟨n + 1, hn⟩) (stgWhole0_1 ⟨n + 1, hn⟩) (stg0_2 ⟨n + 1, hn⟩) (stgWhole0_2 ⟨n + 1, hn⟩) (stg0_3 ⟨n + 1, hn⟩) (stgWhole0_3 ⟨n + 1, hn⟩) accRef0 (Memref.isWhole_whole _) ((atFirstK0_iff ⟨n + 1, hn⟩).mpr h0) (fun h => h1 ((atLastK0_iff ⟨n + 1, hn⟩).mp h)) (blockIn0 V c 0 ⟨n + 1, hn⟩) (blockIn0 V c 1 ⟨n + 1, hn⟩) (blockIn0 V c 2 ⟨n + 1, hn⟩)
    else
      if h1 : (n + 1) % 25 = 24 then
        accLeftLast0 c (grid0.coords ⟨n + 1, hn⟩) (stg0_0 ⟨n + 1, hn⟩) (stgWhole0_0 ⟨n + 1, hn⟩) (stg0_1 ⟨n + 1, hn⟩) (stgWhole0_1 ⟨n + 1, hn⟩) (stg0_2 ⟨n + 1, hn⟩) (stgWhole0_2 ⟨n + 1, hn⟩) (stg0_3 ⟨n + 1, hn⟩) (stgWhole0_3 ⟨n + 1, hn⟩) accRef0 (Memref.isWhole_whole _) (fun h => h0 ((atFirstK0_iff ⟨n + 1, hn⟩).mp h)) ((atLastK0_iff ⟨n + 1, hn⟩).mpr h1) (blockIn0 V c 0 ⟨n + 1, hn⟩) (blockIn0 V c 1 ⟨n + 1, hn⟩) (blockIn0 V c 2 ⟨n + 1, hn⟩) (accAfter0 c n (Nat.lt_of_succ_lt hn))
      else
        accLeftMid0 c (grid0.coords ⟨n + 1, hn⟩) (stg0_0 ⟨n + 1, hn⟩) (stgWhole0_0 ⟨n + 1, hn⟩) (stg0_1 ⟨n + 1, hn⟩) (stgWhole0_1 ⟨n + 1, hn⟩) (stg0_2 ⟨n + 1, hn⟩) (stgWhole0_2 ⟨n + 1, hn⟩) (stg0_3 ⟨n + 1, hn⟩) (stgWhole0_3 ⟨n + 1, hn⟩) accRef0 (Memref.isWhole_whole _) (fun h => h0 ((atFirstK0_iff ⟨n + 1, hn⟩).mp h)) (fun h => h1 ((atLastK0_iff ⟨n + 1, hn⟩).mp h)) (blockIn0 V c 0 ⟨n + 1, hn⟩) (blockIn0 V c 1 ⟨n + 1, hn⟩) (blockIn0 V c 2 ⟨n + 1, hn⟩) (accAfter0 c n (Nat.lt_of_succ_lt hn))

/-- At a first step: that step's contents. -/
theorem accAfter0_first (c : Dev nD) (t : Fin cfg0.N) (h0 : t.val % 25 = 0) (h1 : ¬t.val % 25 = 24) :
    accAfter0 V c t.val t.isLt = accLeftFirst0 c (grid0.coords t) (stg0_0 t) (stgWhole0_0 t) (stg0_1 t) (stgWhole0_1 t) (stg0_2 t) (stgWhole0_2 t) (stg0_3 t) (stgWhole0_3 t) accRef0 (Memref.isWhole_whole _) ((atFirstK0_iff t).mpr h0) (fun h => h1 ((atLastK0_iff t).mp h)) (blockIn0 V c 0 t) (blockIn0 V c 1 t) (blockIn0 V c 2 t) := by
  obtain ⟨n, hn⟩ := t
  cases n with
  | zero => exact rfl
  | succ n => exact (dif_pos h0).trans ((dif_neg h1).trans rfl)

/-- At a middle step: that step's contents over what the point before left. -/
theorem accAfter0_mid (c : Dev nD) (t : Fin cfg0.N) (h0 : ¬t.val % 25 = 0) (h1 : ¬t.val % 25 = 24) :
    accAfter0 V c t.val t.isLt = accLeftMid0 c (grid0.coords t) (stg0_0 t) (stgWhole0_0 t) (stg0_1 t) (stgWhole0_1 t) (stg0_2 t) (stgWhole0_2 t) (stg0_3 t) (stgWhole0_3 t) accRef0 (Memref.isWhole_whole _) (fun h => h0 ((atFirstK0_iff t).mp h)) (fun h => h1 ((atLastK0_iff t).mp h)) (blockIn0 V c 0 t) (blockIn0 V c 1 t) (blockIn0 V c 2 t) (accAfter0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a last step: that step's contents over what the point before left. -/
theorem accAfter0_last (c : Dev nD) (t : Fin cfg0.N) (h0 : ¬t.val % 25 = 0) (h1 : t.val % 25 = 24) :
    accAfter0 V c t.val t.isLt = accLeftLast0 c (grid0.coords t) (stg0_0 t) (stgWhole0_0 t) (stg0_1 t) (stgWhole0_1 t) (stg0_2 t) (stgWhole0_2 t) (stg0_3 t) (stgWhole0_3 t) accRef0 (Memref.isWhole_whole _) (fun h => h0 ((atFirstK0_iff t).mp h)) ((atLastK0_iff t).mpr h1) (blockIn0 V c 0 t) (blockIn0 V c 1 t) (blockIn0 V c 2 t) (accAfter0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block's staging buffer after the body at point `t`: at a last step the accumulator plus bias that
    step stores; elsewhere the window is idle and not written back, and this is a placeholder nothing consults. -/
def outAfter0 (c : Dev nD) (t : Fin cfg0.N) : Vec F S64x2048 .f32 :=
  if h1 : t.val % 25 = 24 then
    outLeftLast0 c (grid0.coords t) (stg0_0 t) (stgWhole0_0 t) (stg0_1 t) (stgWhole0_1 t) (stg0_2 t) (stgWhole0_2 t) (stg0_3 t) (stgWhole0_3 t) accRef0 (Memref.isWhole_whole _) (fun h => (fun h => by omega) ((atFirstK0_iff t).mp h)) ((atLastK0_iff t).mpr h1) (blockIn0 V c 0 t) (blockIn0 V c 1 t) (blockIn0 V c 2 t) (accAfter0 V c (t.val - 1) (Nat.lt_of_le_of_lt (Nat.sub_le _ _) t.isLt))
  else outView0.read (Elt F) outView0.junk

/-- At a last step: what that step stores. -/
theorem outAfter0_last (c : Dev nD) (t : Fin cfg0.N) (h0 : ¬t.val % 25 = 0) (h1 : t.val % 25 = 24) :
    outAfter0 V c t = outLeftLast0 c (grid0.coords t) (stg0_0 t) (stgWhole0_0 t) (stg0_1 t) (stgWhole0_1 t) (stg0_2 t) (stgWhole0_2 t) (stg0_3 t) (stgWhole0_3 t) accRef0 (Memref.isWhole_whole _) (fun h => h0 ((atFirstK0_iff t).mp h)) ((atLastK0_iff t).mpr h1) (blockIn0 V c 0 t) (blockIn0 V c 1 t) (blockIn0 V c 2 t) (accAfter0 V c (t.val - 1) (Nat.lt_of_le_of_lt (Nat.sub_le _ _) t.isLt)) := by
  unfold outAfter0; exact (dif_pos h1).trans rfl

/-! ## The invariant carried from point to point -/

/-- Before position `n`: before the first point what the launch hands the region; afterwards the accumulator at what
    the point before left in it, the other scoped buffers unopened, and the generator register at some state. -/
def inv0 (c : Dev nD) : (n : ℕ) → n ≤ cfg0.N → sProp 𝕄
  | 0, _ => Pipeline.ΦA spec0 c
  | n + 1, hn => iprop(iprop(owns (c : Thread nD τ) accRef0 fullShare (accAfter0 V c n hn) ∗ Pipeline.scopedRestBut (Ix := Unit) (Name := ℕ) (U := UR sig nD τ) (Lvl := ℕ) (Val := Elt F) spec0 c [cc0_scratch0]) ∗ (∃ r, prngReg c r))

theorem inv0_zero (c : Dev nD) (n : ℕ) (h : n ≤ cfg0.N) (hz : n = 0) : inv0 V c n h = Pipeline.ΦA spec0 c := by
  subst hz; rfl

/-- After point `n`: the accumulator at that point's contents. -/
theorem inv0_succ (c : Dev nD) (n : ℕ) (hn : n < cfg0.N) :
    inv0 V c (n + 1) hn = iprop(iprop(owns (c : Thread nD τ) accRef0 fullShare (accAfter0 V c n hn) ∗ Pipeline.scopedRestBut (Ix := Unit) (Name := ℕ) (U := UR sig nD τ) (Lvl := ℕ) (Val := Elt F) spec0 c [cc0_scratch0]) ∗ (∃ r, prngReg c r)) := rfl

/-- Before a point that is not the first: the accumulator at what the point before left. -/
theorem inv0_pos (c : Dev nD) (n : ℕ) (h : n ≤ cfg0.N) (hz : n ≠ 0) :
    inv0 V c n h = iprop(iprop(owns (c : Thread nD τ) accRef0 fullShare (accAfter0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of this pipeline on core `c`: the arrays as the region finds them; after the body at point `t` each
    input's buffer at its block and the output's at `outAfter0`; the invariant `inv0`; nothing owed; full shares. -/
def regionDat0 (c : Dev nD) : Dat τ (Elt F) Unit ℕ (UR sig nD τ) ℕ cfg0 c where
  A w := V c (Pipeline.arrRef spec0 w)
  after w t := match w with
    | ⟨0, _⟩ => blockIn0 V c 0 t
    | ⟨1, _⟩ => blockIn0 V c 1 t
    | ⟨2, _⟩ => blockIn0 V c 2 t
    | ⟨3, _⟩ => outAfter0 V c t
  Φ t := inv0 V c t.val (Nat.le_of_lt_succ t.isLt)
  q _ := fullShare
  owed _ := 0

/-- The proof data's arrays are the entry contents. -/
theorem regionDat0_A (c : Dev nD) (w : Fin cfg0.W) : (regionDat0 V c).A w = V c (Pipeline.arrRef spec0 w) := by
  dsimp only [regionDat0]

/-- The invariant at a point's start, restated at `t.val`. -/
theorem inv0_castSucc (c : Dev nD) (t : Fin cfg0.N) :
    (regionDat0 V c).Φ t.castSucc = inv0 V c t.val (Nat.le_of_lt t.isLt) := by
  dsimp only [regionDat0]; simp only [Fin.coe_castSucc]

/-- What the body leaves, window by window. -/
theorem regionDat0_after_0 (c : Dev nD) (t : Fin cfg0.N) : (regionDat0 V c).after 0 t = blockIn0 V c 0 t := by dsimp only [regionDat0]
theorem regionDat0_after_1 (c : Dev nD) (t : Fin cfg0.N) : (regionDat0 V c).after 1 t = blockIn0 V c 1 t := by dsimp only [regionDat0]
theorem regionDat0_after_2 (c : Dev nD) (t : Fin cfg0.N) : (regionDat0 V c).after 2 t = blockIn0 V c 2 t := by dsimp only [regionDat0]
theorem regionDat0_after_out (c : Dev nD) (t : Fin cfg0.N) : (regionDat0 V c).after 3 t = outAfter0 V c t := by dsimp only [regionDat0]

/-- Each input's current staging buffer holds its block at every point, fetched there or not. -/
theorem heldIn0_0 (c : Dev nD) (t : Fin cfg0.N) (d) : (regionDat0 V c).before 0 t d = blockIn0 V c 0 t :=
  heldIn0_0_of V (regionDat0 V c) (regionDat0_A V c 0) (regionDat0_after_0 V c) t d
theorem heldIn0_1 (c : Dev nD) (t : Fin cfg0.N) (d) : (regionDat0 V c).before 1 t d = blockIn0 V c 1 t :=
  heldIn0_1_of V (regionDat0 V c) (regionDat0_A V c 1) (regionDat0_after_1 V c) t d
theorem heldIn0_2 (c : Dev nD) (t : Fin cfg0.N) (d) : (regionDat0 V c).before 2 t d = blockIn0 V c 2 t :=
  heldIn0_2_of V (regionDat0 V c) (regionDat0_A V c 2) (regionDat0_after_2 V c) t d

/-- The inputs are left at their blocks (they are never idle). -/
theorem leaves0_0 (c : Dev nD) (t : Fin cfg0.N) : (regionDat0 V c).leavesExact 0 t = owns (c : Thread nD τ) (stg0_0 t) fullShare (blockIn0 V c 0 t) := by
  rw [show (regionDat0 V c).leavesExact 0 t = owns (c : Thread nD τ) (stg0_0 t) fullShare ((regionDat0 V c).after 0 t) from by
    unfold Dat.leavesExact; rw [live0_0 t], regionDat0_after_0]
theorem leaves0_1 (c : Dev nD) (t : Fin cfg0.N) : (regionDat0 V c).leavesExact 1 t = owns (c : Thread nD τ) (stg0_1 t) fullShare (blockIn0 V c 1 t) := by
  rw [show (regionDat0 V c).leavesExact 1 t = owns (c : Thread nD τ) (stg0_1 t) fullShare ((regionDat0 V c).after 1 t) from by
    unfold Dat.leavesExact; rw [live0_1 t], regionDat0_after_1]
theorem leaves0_2 (c : Dev nD) (t : Fin cfg0.N) : (regionDat0 V c).leavesExact 2 t = owns (c : Thread nD τ) (stg0_2 t) fullShare (blockIn0 V c 2 t) := by
  rw [show (regionDat0 V c).leavesExact 2 t = owns (c : Thread nD τ) (stg0_2 t) fullShare ((regionDat0 V c).after 2 t) from by
    unfold Dat.leavesExact; rw [live0_2 t], regionDat0_after_2]

/-! ## The body obligation, at a generic point -/

/-- What the body is called with at point `t`, the windows one by one, -/
def bodyPre0 (c : Dev nD) (t : Fin cfg0.N) : sProp 𝕄 :=
  iprop((regionDat0 V c).Φ t.castSucc ∗ (regionDat0 V c).owesAt () t.castSucc
    ∗ (∃ d, owns (c : Thread nD τ) (stg0_0 t) fullShare ((regionDat0 V c).before 0 t d))
    ∗ (∃ d, owns (c : Thread nD τ) (stg0_1 t) fullShare ((regionDat0 V c).before 1 t d))
    ∗ (∃ d, owns (c : Thread nD τ) (stg0_2 t) fullShare ((regionDat0 V c).before 2 t d))
    ∗ (∃ d, owns (c : Thread nD τ) (stg0_3 t) fullShare ((regionDat0 V c).before 3 t d)))

/-- and what it returns. -/
def bodyPost0 (c : Dev nD) (t : Fin cfg0.N) : sProp 𝕄 :=
  iprop((regionDat0 V c).Φ t.succ ∗ (regionDat0 V c).owesAt () t.succ
    ∗ (regionDat0 V c).leavesExact 0 t
    ∗ (regionDat0 V c).leavesExact 1 t
    ∗ (regionDat0 V c).leavesExact 2 t
    ∗ (regionDat0 V c).leavesExact 3 t)

set_option maxHeartbeats 4800000 in
/-- The body at any point. The inputs' memrefs hold their blocks; the reduction coordinate says which step the point is;
    the invariant hands the body the accumulator at what the point before left (at anything where the step zeroes it
    first), the other scoped buffers and the generator register pass through untouched, and the accumulator comes back at
    this point's contents because the step's stores cover it. Away from the last step the output's buffer is handed back
    as found; at the last step it comes back at what that step stores. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [heldIn0_0, heldIn0_1, heldIn0_2]
  rw [show (regionDat0 V c).owesAt () t.succ = (regionDat0 V c).owesAt () t.castSucc from rfl]
  rw [show (regionDat0 V c).Φ t.succ = inv0 V c (t.val + 1) t.isLt from rfl, inv0_succ]
  rw [leaves0_0, leaves0_1, leaves0_2]
  have hN : t.val < 50 := lt_of_lt_of_eq t.isLt (show cfg0.N = 50 from N_0)
  by_cases h0 : t.val % 25 = 0
  · by_cases h1 : t.val % 25 = 24
    · exfalso; omega
    · rw [Dat.leavesExact_idle (regionDat0 V c) 3 t (idle0_3 t (fun h => h1 ((atLastK0_iff t).mp h))) (unflushed0_3 t (fun h => h1 ((atLastK0_iff t).mp h)))]
      rw [accAfter0_first V c t h0 h1]
      unfold accLeftFirst0; (try dsimp only)
      by_cases hz : t.val = 0
      · rw [inv0_castSucc V c t, inv0_zero V c _ _ hz, entryInv0_eq]
        iintro ⟨⟨⟨HS, HR⟩, Hg⟩, Ho, ⟨%d0, H0⟩, ⟨%d1, H1⟩, ⟨%d2, H2⟩, ⟨%d3, H3⟩⟩
        iapply ((firstRun0 c (grid0.coords t) _ _ _ _ _ _ _ _ _ _ ((atFirstK0_iff t).mpr h0) (fun h => h1 ((atLastK0_iff t).mp h)) (blockIn0 V c 0 t) (blockIn0 V c 1 t) (blockIn0 V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (accCoverFirst0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [inv0_castSucc V c t, inv0_pos V c _ _ hz]
        iintro ⟨⟨⟨HS, HR⟩, Hg⟩, Ho, ⟨%d0, H0⟩, ⟨%d1, H1⟩, ⟨%d2, H2⟩, ⟨%d3, H3⟩⟩
        iapply ((firstRun0 c (grid0.coords t) _ _ _ _ _ _ _ _ _ _ ((atFirstK0_iff t).mpr h0) (fun h => h1 ((atLastK0_iff t).mp h)) (blockIn0 V c 0 t) (blockIn0 V c 1 t) (blockIn0 V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (accCoverFirst0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 25 = 24
    · rw [show (regionDat0 V c).leavesExact 3 t = owns (c : Thread nD τ) (stg0_3 t) fullShare ((regionDat0 V c).after 3 t) from by
        unfold Dat.leavesExact; rw [live0_3 t ((atLastK0_iff t).mpr h1)], regionDat0_after_out]
      rw [accAfter0_last V c t h0 h1, outAfter0_last V c t h0 h1]
      unfold accLeftLast0 outLeftLast0; (try dsimp only)
      by_cases hz : t.val = 0
      · exfalso; omega
      · rw [inv0_castSucc V c t, inv0_pos V c _ _ hz]
        iintro ⟨⟨⟨HS, HR⟩, Hg⟩, Ho, ⟨%d0, H0⟩, ⟨%d1, H1⟩, ⟨%d2, H2⟩, ⟨%d3, H3⟩⟩
        iapply ((lastRun0 c (grid0.coords t) _ _ _ _ _ _ _ _ _ _ (fun h => h0 ((atFirstK0_iff t).mp h)) ((atLastK0_iff t).mpr h1) (blockIn0 V c 0 t) (blockIn0 V c 1 t) (blockIn0 V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS HR Hg]
        · isplitl [HS HR]
          · isplitl [HS]
            · unfold owns; iexists _; isplitr
              swap; · iexact HS
              ipureintro; exact View.read_writes_of_cover _ _ _ _ _ (accCoverLast0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (outCoverLast0 c _ _ _ _ _ _ _ _ _ _ _ _ _ _ _ _ _)
    · rw [Dat.leavesExact_idle (regionDat0 V c) 3 t (idle0_3 t (fun h => h1 ((atLastK0_iff t).mp h))) (unflushed0_3 t (fun h => h1 ((atLastK0_iff t).mp h)))]
      rw [accAfter0_mid V c t h0 h1]
      unfold accLeftMid0; (try dsimp only)
      by_cases hz : t.val = 0
      · exfalso; omega
      · rw [inv0_castSucc V c t, inv0_pos V c _ _ hz]
        iintro ⟨⟨⟨HS, HR⟩, Hg⟩, Ho, ⟨%d0, H0⟩, ⟨%d1, H1⟩, ⟨%d2, H2⟩, ⟨%d3, H3⟩⟩
        iapply ((midRun0 c (grid0.coords t) _ _ _ _ _ _ _ _ _ _ (fun h => h0 ((atFirstK0_iff t).mp h)) (fun h => h1 ((atLastK0_iff t).mp h)) (blockIn0 V c 0 t) (blockIn0 V c 1 t) (blockIn0 V c 2 t) _).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (accCoverMid0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-! ## The interface the assembly takes -/

/-- The library's body obligation, at every point. -/
theorem regionDat0_body (c : Dev nD) : BodyObligation (regionDat0 (F := F) V c) (defs₀ (F := F)) Variants.none () Set.univ := fun t => by
  rw [bigSep_W0, bigSep_W0]
  exact sound_body0 V c t

/-- What the launch hands the region is the invariant before the first point. -/
theorem regionDat0_in (c : Dev nD) : Pipeline.ΦA spec0 c ⊢ (regionDat0 V c).Φ 0 := by
  rw [show (regionDat0 V c).Φ 0 = inv0 V c 0 (Nat.zero_le _) from rfl, inv0_zero V c 0 _ rfl]
  try exact Idealize.SL.BI.Entails.refl _

/-- After any point but the first the invariant gives back what the launch handed over: the accumulator's named
    contents are forgotten. -/
theorem inv0_forget (c : Dev nD) (t : Fin (cfg0.N + 1)) (ht : t.val ≠ 0) : (regionDat0 V c).Φ t ⊢ Pipeline.ΦA spec0 c := by
  rw [show (regionDat0 V c).Φ t = inv0 V c t.val (Nat.le_of_lt_succ t.isLt) from rfl, inv0_pos V c _ _ ht, entryInv0_eq]
  iintro ⟨⟨HS, HR⟩, Hg⟩
  isplitl [HS HR]
  · isplitl [HS]
    · iexists _; iexact HS
    iexact HR
  iexact Hg

/-- The same after the last point. -/
theorem regionDat0_out (c : Dev nD) : (regionDat0 V c).Φ (Fin.last cfg0.N) ⊢ Pipeline.ΦA spec0 c :=
  inv0_forget V c _ (by rw [Fin.val_last]; have : cfg0.N = 50 := N_0; omega)

end Cert.Kernel.Hand

end
-- ==== Proof.KB.R1Kit.lean ====
/- Region 1 of @main (the matmul-plus-bias call number 1): what its run, its proof data and its body
   obligation share — the windows' blocks read off the arrays as the region finds them, what an input
   window's staging buffer holds at a point, the body's two branch conditions in closed form over the
   grid, where the windows are live, and the region invariant with the accumulator scratch taken out of
   the scoped rest. Everything is stated at a parameter `V`, the buffer contents when the region is
   entered. -/
import proofs.«137056_j83880711291258_2_alg».proof.Proof.Gen.Kernel.Launch
import proofs.«137056_j83880711291258_2_alg».proof.Proof.Gen.Kernel.Skeleton
import proofs.«137056_j83880711291258_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation window's staging buffer holds its block at every point, fetched there or not (it is fetched at
    the first point only: its block index does not move), for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)

/-- The weight window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)

/-- The bias window's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)

end Region1

/-! ## The body's branch conditions -/

/-- The condition under which the body zeroes the accumulator (the reduction coordinate is 0), from the grid
    coordinates. -/
abbrev initCond1 (i : grid1.Coords) : Prop := (Scalar.cmpi .ne (Scalar.extui (Scalar.cmpi .eq (BitVec.ofNat 32 (i 1).val) 0#32)) 0#32) = 1#1
/-- The reduction axis has one point, so it holds everywhere on the grid. -/
theorem initCond1_all : ∀ t : Fin cfg1.N, initCond1 (grid1.coords t) :=
  (by decide +kernel : ∀ t : Fin grid1.N, initCond1 (grid1.coords t))

/-- The condition under which the body stores the output block (the reduction coordinate is the last). -/
abbrev storeCond1 (i : grid1.Coords) : Prop := k1_cond2 i = 1#1
/-- It holds everywhere on the grid too. -/
theorem storeCond1_all : ∀ t : Fin cfg1.N, storeCond1 (grid1.coords t) :=
  (by decide +kernel : ∀ t : Fin grid1.N, storeCond1 (grid1.coords t))

/-! ## Where the windows are live -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- The output window is stored into at every point. -/
theorem live1_3 : ∀ t : Fin cfg1.N, cfg1.idle 3 (grid1.coords t) = false := by decide +kernel

/-! ## The staging memrefs and the accumulator -/

/-- One staging buffer of the output window, through which its contents are stated (the choice does not matter). -/
abbrev outView1 : View sig .tc .vmem S64x2048 .f32 := (Memref.whole cc1_stg3_0 : Memref sig .tc .vmem S64x2048 .f32).view
/-- Each window's current staging memref at point `t`, spelled as the pipeline passes it, and its wholeness. -/
abbrev stg1_0 (t : Fin cfg1.N) : Memref sig .tc .vmem S64x1024 .f32 := win1_0.stage (cfg1.slots t 0)
abbrev stgWhole1_0 (t : Fin cfg1.N) : (stg1_0 t).IsWhole := hstage1_0 ((cfg1.slots t 0).cast nbuf1_0)
abbrev stg1_1 (t : Fin cfg1.N) : Memref sig .tc .vmem S2048x1024 .f32 := win1_1.stage (cfg1.slots t 1)
abbrev stgWhole1_1 (t : Fin cfg1.N) : (stg1_1 t).IsWhole := hstage1_1 ((cfg1.slots t 1).cast nbuf1_1)
abbrev stg1_2 (t : Fin cfg1.N) : Memref sig .tc .vmem S1x2048 .f32 := win1_2.stage (cfg1.slots t 2)
abbrev stgWhole1_2 (t : Fin cfg1.N) : (stg1_2 t).IsWhole := hstage1_2 ((cfg1.slots t 2).cast nbuf1_2)
abbrev stg1_3 (t : Fin cfg1.N) : Memref sig .tc .vmem S64x2048 .f32 := win1_3.stage (cfg1.slots t 3)
abbrev stgWhole1_3 (t : Fin cfg1.N) : (stg1_3 t).IsWhole := hstage1_3 ((cfg1.slots t 3).cast nbuf1_3)
/-- The accumulator: a whole scoped buffer of the kernel's own, passed beside the windows. -/
abbrev accRef1 : Memref sig .tc .vmem S64x2048 .f32 := Memref.whole cc1_scratch0
/-- The accumulator as a view: what it holds is stated through it. -/
abbrev accView1 : View sig .tc .vmem S64x2048 .f32 := accRef1.view

/-- The region invariant with the accumulator as a memref owned at some contents, the other scoped buffers
    unopened beside it, and the generator register at some state: what the body obligation hands the run and
    takes back. -/
theorem regionInv1_eq (c : Dev nD) :
    (Pipeline.ΦA spec1 c : sProp 𝕄)
      = iprop(iprop(iprop((∃ d, owns (c : Thread nD τ) accRef1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [accRef1, owns_whole]; try rfl

end Cert.Kernel.Hand

end
-- ==== Proof.KB.R1Run.lean ====
/- Region 1: the whole-body run of the matmul-plus-bias kernel in the one control case its grid meets (the
   reduction axis has a single point, so the body zeroes the accumulator, adds the block product and
   stores accumulator plus bias at every point). The pieces the stores leave in the output buffer and in
   the accumulator are the witness the run finds. -/
import proofs.«137056_j83880711291258_2_alg».proof.Proof.KB.R1Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    with the proof that on whole staging memrefs — the three inputs' at their contents, the output's and the
    accumulator at anything — the body runs to the continuation holding the inputs' as they were and the
    output's buffer and the accumulator with their pieces written. Both conditionals are decided by the
    hypotheses. -/
noncomputable def kernelRun1 (c : Dev nD) (i : grid1.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond1 i) (hc1 : storeCond1 i)
    (x0 : Vec F S64x1024 .f32) (x1 : Vec F S2048x1024 .f32) (x2 : Vec F S1x2048 .f32) :
    Σ' (Lout : List (View.Piece (Elt F) S64x2048 .f32)), { Lacc : List (View.Piece (Elt F) S64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f Lout)
                ∗ (∃ f, arg6.view.loc (c : Thread nD τ) ↦[arg6.view.set]{fullShare} arg6.view.writes (Elt F) f Lacc)) -∗ K ⟨⟩))
          ⊢ wp frame (wpE (defs₀ (F := F)) Variants.none c none) E (cc1__matmul_bias_kernel i arg2 harg2 arg3 harg3 arg4 harg4 arg5 harg5 arg6 harg6) K } := by
  refine ⟨?_, ?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Hand

end
-- ==== Proof.KB.R1.lean ====
/- Region 1: what the body leaves in the output window's buffer and in the accumulator (the found pieces
   read back), the region's proof data at the entry contents `V`, the body obligation at every point, and
   the invariant's two ends. The accumulator is zeroed at every point of this grid, so nothing is carried
   between points: the invariant is the launch's own throughout, and the body takes the accumulator out
   of the scoped rest at some contents and puts it back at some contents. -/
import proofs.«137056_j83880711291258_2_alg».proof.Proof.KB.R1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the one control case leaves -/

/-- The pieces stored into the output's staging memref tile its block, so they cover it. -/
theorem outCover1 (c : Dev nD) (i : grid1.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond1 i) (hc1 : storeCond1 i)
    (x0 : Vec F S64x1024 .f32) (x1 : Vec F S2048x1024 .f32) (x2 : Vec F S1x2048 .f32) (y : S64x2048.Idx) :
    ∃ pc ∈ (kernelRun1 c i arg2 harg2 arg3 harg3 arg4 harg4 arg5 harg5 arg6 harg6 hc0 hc1 x0 x1 x2).1, y ∈ pc.1.set :=
  View.cover_of_tiledL (kernelRun1 c i arg2 harg2 arg3 harg3 arg4 harg4 arg5 harg5 arg6 harg6 hc0 hc1 x0 x1 x2).1 S64x2048.size (by sl_kernel_rfl) y

/-- The pieces stored into the accumulator cover it. -/
theorem accCover1 (c : Dev nD) (i : grid1.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond1 i) (hc1 : storeCond1 i)
    (x0 : Vec F S64x1024 .f32) (x1 : Vec F S2048x1024 .f32) (x2 : Vec F S1x2048 .f32) (y : S64x2048.Idx) :
    ∃ pc ∈ (kernelRun1 c i arg2 harg2 arg3 harg3 arg4 harg4 arg5 harg5 arg6 harg6 hc0 hc1 x0 x1 x2).2.1, y ∈ pc.1.set :=
  View.cover_of_tiledL (kernelRun1 c i arg2 harg2 arg3 harg3 arg4 harg4 arg5 harg5 arg6 harg6 hc0 hc1 x0 x1 x2).2.1 S64x2048.size (by sl_kernel_rfl) y

/-- What the body leaves in the output's staging buffer: its pieces read back over junk. -/
def outLeft1 (c : Dev nD) (i : grid1.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond1 i) (hc1 : storeCond1 i)
    (x0 : Vec F S64x1024 .f32) (x1 : Vec F S2048x1024 .f32) (x2 : Vec F S1x2048 .f32) : Vec F S64x2048 .f32 :=
  outView1.read (Elt F) (outView1.writes (Elt F) outView1.junk (kernelRun1 c i arg2 harg2 arg3 harg3 arg4 harg4 arg5 harg5 arg6 harg6 hc0 hc1 x0 x1 x2).1)

/-- What the body leaves in the accumulator: its pieces read back over junk. -/
def accLeft1 (c : Dev nD) (i : grid1.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond1 i) (hc1 : storeCond1 i)
    (x0 : Vec F S64x1024 .f32) (x1 : Vec F S2048x1024 .f32) (x2 : Vec F S1x2048 .f32) : Vec F S64x2048 .f32 :=
  accView1.read (Elt F) (accView1.writes (Elt F) accView1.junk (kernelRun1 c i arg2 harg2 arg3 harg3 arg4 harg4 arg5 harg5 arg6 harg6 hc0 hc1 x0 x1 x2).2.1)

section Region1
-- the TensorCore's buffer contents when the region is entered
variable (V : (c : Dev nD) → (b : Ref sig .tc) → Buf (Elt F) ((c : Thread nD τ).loc b))

/-! ## What the output and the accumulator hold after each point -/

/-- The output window's staging buffer after the body at point `t`: the case run at the point's memrefs and
    input blocks. -/
def outAfter1 (c : Dev nD) (t : Fin cfg1.N) : Vec F S64x2048 .f32 :=
  outLeft1 c (grid1.coords t) (stg1_0 t) (stgWhole1_0 t) (stg1_1 t) (stgWhole1_1 t) (stg1_2 t) (stgWhole1_2 t) (stg1_3 t) (stgWhole1_3 t) accRef1 (Memref.isWhole_whole _) (initCond1_all t) (storeCond1_all t) (blockAt1 V c 0 t) (blockAt1 V c 1 t) (blockAt1 V c 2 t)

/-- The accumulator after the body at point `t` (it does not depend on the point before: the body zeroes it
    first). -/
def accAfter1 (c : Dev nD) (t : Fin cfg1.N) : Vec F S64x2048 .f32 :=
  accLeft1 c (grid1.coords t) (stg1_0 t) (stgWhole1_0 t) (stg1_1 t) (stgWhole1_1 t) (stg1_2 t) (stgWhole1_2 t) (stg1_3 t) (stgWhole1_3 t) accRef1 (Memref.isWhole_whole _) (initCond1_all t) (storeCond1_all t) (blockAt1 V c 0 t) (blockAt1 V c 1 t) (blockAt1 V c 2 t)

/-! ## The region's proof data -/

/-- The proof data of the region's pipeline on core `c`: the arrays as the region finds them; after the body at
    point `t` each input's buffer at its block and the output's at what the stores leave; the invariant the
    launch's; nothing owed; full shares. -/
def regionDat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => outAfter1 V c t
  Φ _ := Pipeline.ΦA spec1 c
  q _ := fullShare
  owed _ := 0

/-- The proof data's arrays are the region-entry contents. -/
theorem regionDat1_A (c : Dev nD) (w : Fin cfg1.W) : (regionDat1 V c).A w = V c (Pipeline.arrRef spec1 w) := by
  dsimp only [regionDat1]

/-- What the body leaves, window by window. -/
theorem regionDat1_after_x (c : Dev nD) (t : Fin cfg1.N) : (regionDat1 V c).after 0 t = blockAt1 V c 0 t := by dsimp only [regionDat1]
theorem regionDat1_after_w (c : Dev nD) (t : Fin cfg1.N) : (regionDat1 V c).after 1 t = blockAt1 V c 1 t := by dsimp only [regionDat1]
theorem regionDat1_after_b (c : Dev nD) (t : Fin cfg1.N) : (regionDat1 V c).after 2 t = blockAt1 V c 2 t := by dsimp only [regionDat1]
theorem regionDat1_after_out (c : Dev nD) (t : Fin cfg1.N) : (regionDat1 V c).after 3 t = outAfter1 V c t := by dsimp only [regionDat1]

/-- Each input's current staging buffer holds its block at every point, fetched there or not. -/
theorem regionDat1_before_x (c : Dev nD) (t : Fin cfg1.N) (d) : (regionDat1 V c).before 0 t d = blockAt1 V c 0 t :=
  before1_0_of V (regionDat1 V c) (regionDat1_A V c 0) (regionDat1_after_x V c) t d
theorem regionDat1_before_w (c : Dev nD) (t : Fin cfg1.N) (d) : (regionDat1 V c).before 1 t d = blockAt1 V c 1 t :=
  before1_1_of V (regionDat1 V c) (regionDat1_A V c 1) (regionDat1_after_w V c) t d
theorem regionDat1_before_b (c : Dev nD) (t : Fin cfg1.N) (d) : (regionDat1 V c).before 2 t d = blockAt1 V c 2 t :=
  before1_2_of V (regionDat1 V c) (regionDat1_A V c 2) (regionDat1_after_b V c) t d

/-! ## The body obligation, at a generic point -/

/-- What the body is called with at point `t`, the windows one by one, -/
def bodyPre1 (c : Dev nD) (t : Fin cfg1.N) : sProp 𝕄 :=
  iprop((regionDat1 V c).Φ t.castSucc ∗ (regionDat1 V c).owesAt () t.castSucc
    ∗ (∃ d, owns (c : Thread nD τ) (stg1_0 t) fullShare ((regionDat1 V c).before 0 t d))
    ∗ (∃ d, owns (c : Thread nD τ) (stg1_1 t) fullShare ((regionDat1 V c).before 1 t d))
    ∗ (∃ d, owns (c : Thread nD τ) (stg1_2 t) fullShare ((regionDat1 V c).before 2 t d))
    ∗ (∃ d, owns (c : Thread nD τ) (stg1_3 t) fullShare ((regionDat1 V c).before 3 t d)))

/-- and what it returns. -/
def bodyPost1 (c : Dev nD) (t : Fin cfg1.N) : sProp 𝕄 :=
  iprop((regionDat1 V c).Φ t.succ ∗ (regionDat1 V c).owesAt () t.succ
    ∗ (regionDat1 V c).leavesExact 0 t
    ∗ (regionDat1 V c).leavesExact 1 t
    ∗ (regionDat1 V c).leavesExact 2 t
    ∗ (regionDat1 V c).leavesExact 3 t)

set_option maxHeartbeats 4800000 in
/-- The body at any point: the inputs' memrefs hold their blocks; both conditions hold there, so the run applies;
    the invariant hands the body the accumulator at some contents and takes it back at some contents, the other
    scoped buffers and the generator register pass through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [regionDat1_before_x, regionDat1_before_w, regionDat1_before_b]
  rw [show (regionDat1 V c).owesAt () t.succ = (regionDat1 V c).owesAt () t.castSucc from rfl]
  rw [show (regionDat1 V c).Φ t.succ = Pipeline.ΦA spec1 c from rfl, show (regionDat1 V c).Φ t.castSucc = Pipeline.ΦA spec1 c from rfl, regionInv1_eq]
  rw [show (regionDat1 V c).leavesExact 0 t = owns (c : Thread nD τ) (stg1_0 t) fullShare ((regionDat1 V c).after 0 t) from by
    unfold Dat.leavesExact; rw [live1_0 t], regionDat1_after_x]
  rw [show (regionDat1 V c).leavesExact 1 t = owns (c : Thread nD τ) (stg1_1 t) fullShare ((regionDat1 V c).after 1 t) from by
    unfold Dat.leavesExact; rw [live1_1 t], regionDat1_after_w]
  rw [show (regionDat1 V c).leavesExact 2 t = owns (c : Thread nD τ) (stg1_2 t) fullShare ((regionDat1 V c).after 2 t) from by
    unfold Dat.leavesExact; rw [live1_2 t], regionDat1_after_b]
  rw [show (regionDat1 V c).leavesExact 3 t = owns (c : Thread nD τ) (stg1_3 t) fullShare ((regionDat1 V c).after 3 t) from by
    unfold Dat.leavesExact; rw [live1_3 t], regionDat1_after_out]
  unfold outAfter1 outLeft1; (try dsimp only)
  iintro ⟨⟨⟨HS, HR⟩, Hg⟩, Ho, ⟨%d0, H0⟩, ⟨%d1, H1⟩, ⟨%d2, H2⟩, ⟨%d3, H3⟩⟩
  iapply ((kernelRun1 c (grid1.coords t) _ _ _ _ _ _ _ _ _ _ (initCond1_all t) (storeCond1_all t) (blockAt1 V c 0 t) (blockAt1 V c 1 t) (blockAt1 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (outCover1 c _ _ _ _ _ _ _ _ _ _ _ _ _ _ _ _)

/-- The library's body obligation, at every point. -/
theorem regionDat1_body (c : Dev nD) : BodyObligation (regionDat1 (F := F) V c) (defs₀ (F := F)) Variants.none () Set.univ := fun t => by
  rw [bigSep_W1, bigSep_W1]
  exact sound_body1 V c t

/-- What the launch hands the region is the invariant before the first point. -/
theorem regionDat1_in (c : Dev nD) : Pipeline.ΦA spec1 c ⊢ (regionDat1 V c).Φ 0 :=
  Idealize.SL.BI.Entails.refl _

/-- After the last point the invariant gives it back. -/
theorem regionDat1_out (c : Dev nD) : (regionDat1 V c).Φ (Fin.last cfg1.N) ⊢ Pipeline.ΦA spec1 c :=
  Idealize.SL.BI.Entails.refl _

end Region1

end Cert.Kernel.Hand

end
-- ==== Proof.KB.R2Kit.lean ====
/- Region 2 of @main (the matmul-plus-bias call number 2): what its run, its proof data and its body
   obligation share — the windows' blocks read off the arrays as the region finds them, what an input
   window's staging buffer holds at a point, the body's two branch conditions in closed form over the
   grid, where the windows are live, and the region invariant with the accumulator scratch taken out of
   the scoped rest. Everything is stated at a parameter `V`, the buffer contents when the region is
   entered. -/
import proofs.«137056_j83880711291258_2_alg».proof.Proof.Gen.Kernel.Launch
import proofs.«137056_j83880711291258_2_alg».proof.Proof.Gen.Kernel.Skeleton
import proofs.«137056_j83880711291258_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activation window's staging buffer holds its block at every point, fetched there or not (it is fetched at
    the first point only: its block index does not move), for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = blockAt2 V c 0 t) (t : Fin cfg2.N) (d) : dat.before 0 t d = blockAt2 V c 0 t :=
  (dat.before_in_eq_fetched 0 rfl (fun _ => rfl) (fun _ _ _ => rfl) (fun t => by rw [hafter]; unfold Dat.blockOf blockAt2; rw [hA]; try rfl) t d).trans
    (by unfold Dat.fetched Dat.blockOf blockAt2; rw [hA]; try rfl)

/-- The weight window's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = blockAt2 V c 1 t) (t : Fin cfg2.N) (d) : dat.before 1 t d = blockAt2 V c 1 t :=
  (dat.before_in_eq_fetched 1 rfl (fun _ => rfl) (fun _ _ _ => rfl) (fun t => by rw [hafter]; unfold Dat.blockOf blockAt2; rw [hA]; try rfl) t d).trans
    (by unfold Dat.fetched Dat.blockOf blockAt2; rw [hA]; try rfl)

/-- The bias window's staging buffer holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = blockAt2 V c 2 t) (t : Fin cfg2.N) (d) : dat.before 2 t d = blockAt2 V c 2 t :=
  (dat.before_in_eq_fetched 2 rfl (fun _ => rfl) (fun _ _ _ => rfl) (fun t => by rw [hafter]; unfold Dat.blockOf blockAt2; rw [hA]; try rfl) t d).trans
    (by unfold Dat.fetched Dat.blockOf blockAt2; rw [hA]; try rfl)

end Region2

/-! ## The body's branch conditions -/

/-- The condition under which the body zeroes the accumulator (the reduction coordinate is 0), from the grid
    coordinates. -/
abbrev initCond2 (i : grid2.Coords) : Prop := (Scalar.cmpi .ne (Scalar.extui (Scalar.cmpi .eq (BitVec.ofNat 32 (i 1).val) 0#32)) 0#32) = 1#1
/-- The reduction axis has one point, so it holds everywhere on the grid. -/
theorem initCond2_all : ∀ t : Fin cfg2.N, initCond2 (grid2.coords t) :=
  (by decide +kernel : ∀ t : Fin grid2.N, initCond2 (grid2.coords t))

/-- The condition under which the body stores the output block (the reduction coordinate is the last). -/
abbrev storeCond2 (i : grid2.Coords) : Prop := k2_cond2 i = 1#1
/-- It holds everywhere on the grid too. -/
theorem storeCond2_all : ∀ t : Fin cfg2.N, storeCond2 (grid2.coords t) :=
  (by decide +kernel : ∀ t : Fin grid2.N, storeCond2 (grid2.coords t))

/-! ## Where the windows are live -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- The output window is stored into at every point. -/
theorem live2_3 : ∀ t : Fin cfg2.N, cfg2.idle 3 (grid2.coords t) = false := by decide +kernel

/-! ## The staging memrefs and the accumulator -/

/-- One staging buffer of the output window, through which its contents are stated (the choice does not matter). -/
abbrev outView2 : View sig .tc .vmem S64x2048 .f32 := (Memref.whole cc2_stg3_0 : Memref sig .tc .vmem S64x2048 .f32).view
/-- Each window's current staging memref at point `t`, spelled as the pipeline passes it, and its wholeness. -/
abbrev stg2_0 (t : Fin cfg2.N) : Memref sig .tc .vmem S64x1024 .f32 := win2_0.stage (cfg2.slots t 0)
abbrev stgWhole2_0 (t : Fin cfg2.N) : (stg2_0 t).IsWhole := hstage2_0 ((cfg2.slots t 0).cast nbuf2_0)
abbrev stg2_1 (t : Fin cfg2.N) : Memref sig .tc .vmem S2048x1024 .f32 := win2_1.stage (cfg2.slots t 1)
abbrev stgWhole2_1 (t : Fin cfg2.N) : (stg2_1 t).IsWhole := hstage2_1 ((cfg2.slots t 1).cast nbuf2_1)
abbrev stg2_2 (t : Fin cfg2.N) : Memref sig .tc .vmem S1x2048 .f32 := win2_2.stage (cfg2.slots t 2)
abbrev stgWhole2_2 (t : Fin cfg2.N) : (stg2_2 t).IsWhole := hstage2_2 ((cfg2.slots t 2).cast nbuf2_2)
abbrev stg2_3 (t : Fin cfg2.N) : Memref sig .tc .vmem S64x2048 .f32 := win2_3.stage (cfg2.slots t 3)
abbrev stgWhole2_3 (t : Fin cfg2.N) : (stg2_3 t).IsWhole := hstage2_3 ((cfg2.slots t 3).cast nbuf2_3)
/-- The accumulator: a whole scoped buffer of the kernel's own, passed beside the windows. -/
abbrev accRef2 : Memref sig .tc .vmem S64x2048 .f32 := Memref.whole cc2_scratch0
/-- The accumulator as a view: what it holds is stated through it. -/
abbrev accView2 : View sig .tc .vmem S64x2048 .f32 := accRef2.view

/-- The region invariant with the accumulator as a memref owned at some contents, the other scoped buffers
    unopened beside it, and the generator register at some state: what the body obligation hands the run and
    takes back. -/
theorem regionInv2_eq (c : Dev nD) :
    (Pipeline.ΦA spec2 c : sProp 𝕄)
      = iprop(iprop(iprop((∃ d, owns (c : Thread nD τ) accRef2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [accRef2, owns_whole]; try rfl

end Cert.Kernel.Hand

end
-- ==== Proof.KB.R2Run.lean ====
/- Region 2: the whole-body run of the matmul-plus-bias kernel in the one control case its grid meets (the
   reduction axis has a single point, so the body zeroes the accumulator, adds the block product and
   stores accumulator plus bias at every point). The pieces the stores leave in the output buffer and in
   the accumulator are the witness the run finds. -/
import proofs.«137056_j83880711291258_2_alg».proof.Proof.KB.R2Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    with the proof that on whole staging memrefs — the three inputs' at their contents, the output's and the
    accumulator at anything — the body runs to the continuation holding the inputs' as they were and the
    output's buffer and the accumulator with their pieces written. Both conditionals are decided by the
    hypotheses. -/
noncomputable def kernelRun2 (c : Dev nD) (i : grid2.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond2 i) (hc1 : storeCond2 i)
    (x0 : Vec F S64x1024 .f32) (x1 : Vec F S2048x1024 .f32) (x2 : Vec F S1x2048 .f32) :
    Σ' (Lout : List (View.Piece (Elt F) S64x2048 .f32)), { Lacc : List (View.Piece (Elt F) S64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f Lout)
                ∗ (∃ f, arg6.view.loc (c : Thread nD τ) ↦[arg6.view.set]{fullShare} arg6.view.writes (Elt F) f Lacc)) -∗ K ⟨⟩))
          ⊢ wp frame (wpE (defs₀ (F := F)) Variants.none c none) E (cc2__matmul_bias_kernel i arg2 harg2 arg3 harg3 arg4 harg4 arg5 harg5 arg6 harg6) K } := by
  refine ⟨?_, ?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Hand

end
-- ==== Proof.KB.R2.lean ====
/- Region 2: what the body leaves in the output window's buffer and in the accumulator (the found pieces
   read back), the region's proof data at the entry contents `V`, the body obligation at every point, and
   the invariant's two ends. The accumulator is zeroed at every point of this grid, so nothing is carried
   between points: the invariant is the launch's own throughout, and the body takes the accumulator out
   of the scoped rest at some contents and puts it back at some contents. -/
import proofs.«137056_j83880711291258_2_alg».proof.Proof.KB.R2Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the one control case leaves -/

/-- The pieces stored into the output's staging memref tile its block, so they cover it. -/
theorem outCover2 (c : Dev nD) (i : grid2.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond2 i) (hc1 : storeCond2 i)
    (x0 : Vec F S64x1024 .f32) (x1 : Vec F S2048x1024 .f32) (x2 : Vec F S1x2048 .f32) (y : S64x2048.Idx) :
    ∃ pc ∈ (kernelRun2 c i arg2 harg2 arg3 harg3 arg4 harg4 arg5 harg5 arg6 harg6 hc0 hc1 x0 x1 x2).1, y ∈ pc.1.set :=
  View.cover_of_tiledL (kernelRun2 c i arg2 harg2 arg3 harg3 arg4 harg4 arg5 harg5 arg6 harg6 hc0 hc1 x0 x1 x2).1 S64x2048.size (by sl_kernel_rfl) y

/-- The pieces stored into the accumulator cover it. -/
theorem accCover2 (c : Dev nD) (i : grid2.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond2 i) (hc1 : storeCond2 i)
    (x0 : Vec F S64x1024 .f32) (x1 : Vec F S2048x1024 .f32) (x2 : Vec F S1x2048 .f32) (y : S64x2048.Idx) :
    ∃ pc ∈ (kernelRun2 c i arg2 harg2 arg3 harg3 arg4 harg4 arg5 harg5 arg6 harg6 hc0 hc1 x0 x1 x2).2.1, y ∈ pc.1.set :=
  View.cover_of_tiledL (kernelRun2 c i arg2 harg2 arg3 harg3 arg4 harg4 arg5 harg5 arg6 harg6 hc0 hc1 x0 x1 x2).2.1 S64x2048.size (by sl_kernel_rfl) y

/-- What the body leaves in the output's staging buffer: its pieces read back over junk. -/
def outLeft2 (c : Dev nD) (i : grid2.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond2 i) (hc1 : storeCond2 i)
    (x0 : Vec F S64x1024 .f32) (x1 : Vec F S2048x1024 .f32) (x2 : Vec F S1x2048 .f32) : Vec F S64x2048 .f32 :=
  outView2.read (Elt F) (outView2.writes (Elt F) outView2.junk (kernelRun2 c i arg2 harg2 arg3 harg3 arg4 harg4 arg5 harg5 arg6 harg6 hc0 hc1 x0 x1 x2).1)

/-- What the body leaves in the accumulator: its pieces read back over junk. -/
def accLeft2 (c : Dev nD) (i : grid2.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond2 i) (hc1 : storeCond2 i)
    (x0 : Vec F S64x1024 .f32) (x1 : Vec F S2048x1024 .f32) (x2 : Vec F S1x2048 .f32) : Vec F S64x2048 .f32 :=
  accView2.read (Elt F) (accView2.writes (Elt F) accView2.junk (kernelRun2 c i arg2 harg2 arg3 harg3 arg4 harg4 arg5 harg5 arg6 harg6 hc0 hc1 x0 x1 x2).2.1)

section Region2
-- the TensorCore's buffer contents when the region is entered
variable (V : (c : Dev nD) → (b : Ref sig .tc) → Buf (Elt F) ((c : Thread nD τ).loc b))

/-! ## What the output and the accumulator hold after each point -/

/-- The output window's staging buffer after the body at point `t`: the case run at the point's memrefs and
    input blocks. -/
def outAfter2 (c : Dev nD) (t : Fin cfg2.N) : Vec F S64x2048 .f32 :=
  outLeft2 c (grid2.coords t) (stg2_0 t) (stgWhole2_0 t) (stg2_1 t) (stgWhole2_1 t) (stg2_2 t) (stgWhole2_2 t) (stg2_3 t) (stgWhole2_3 t) accRef2 (Memref.isWhole_whole _) (initCond2_all t) (storeCond2_all t) (blockAt2 V c 0 t) (blockAt2 V c 1 t) (blockAt2 V c 2 t)

/-- The accumulator after the body at point `t` (it does not depend on the point before: the body zeroes it
    first). -/
def accAfter2 (c : Dev nD) (t : Fin cfg2.N) : Vec F S64x2048 .f32 :=
  accLeft2 c (grid2.coords t) (stg2_0 t) (stgWhole2_0 t) (stg2_1 t) (stgWhole2_1 t) (stg2_2 t) (stgWhole2_2 t) (stg2_3 t) (stgWhole2_3 t) accRef2 (Memref.isWhole_whole _) (initCond2_all t) (storeCond2_all t) (blockAt2 V c 0 t) (blockAt2 V c 1 t) (blockAt2 V c 2 t)

/-! ## The region's proof data -/

/-- The proof data of the region's pipeline on core `c`: the arrays as the region finds them; after the body at
    point `t` each input's buffer at its block and the output's at what the stores leave; the invariant the
    launch's; nothing owed; full shares. -/
def regionDat2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => blockAt2 V c 2 t
    | ⟨3, _⟩ => outAfter2 V c t
  Φ _ := Pipeline.ΦA spec2 c
  q _ := fullShare
  owed _ := 0

/-- The proof data's arrays are the region-entry contents. -/
theorem regionDat2_A (c : Dev nD) (w : Fin cfg2.W) : (regionDat2 V c).A w = V c (Pipeline.arrRef spec2 w) := by
  dsimp only [regionDat2]

/-- What the body leaves, window by window. -/
theorem regionDat2_after_x (c : Dev nD) (t : Fin cfg2.N) : (regionDat2 V c).after 0 t = blockAt2 V c 0 t := by dsimp only [regionDat2]
theorem regionDat2_after_w (c : Dev nD) (t : Fin cfg2.N) : (regionDat2 V c).after 1 t = blockAt2 V c 1 t := by dsimp only [regionDat2]
theorem regionDat2_after_b (c : Dev nD) (t : Fin cfg2.N) : (regionDat2 V c).after 2 t = blockAt2 V c 2 t := by dsimp only [regionDat2]
theorem regionDat2_after_out (c : Dev nD) (t : Fin cfg2.N) : (regionDat2 V c).after 3 t = outAfter2 V c t := by dsimp only [regionDat2]

/-- Each input's current staging buffer holds its block at every point, fetched there or not. -/
theorem regionDat2_before_x (c : Dev nD) (t : Fin cfg2.N) (d) : (regionDat2 V c).before 0 t d = blockAt2 V c 0 t :=
  before2_0_of V (regionDat2 V c) (regionDat2_A V c 0) (regionDat2_after_x V c) t d
theorem regionDat2_before_w (c : Dev nD) (t : Fin cfg2.N) (d) : (regionDat2 V c).before 1 t d = blockAt2 V c 1 t :=
  before2_1_of V (regionDat2 V c) (regionDat2_A V c 1) (regionDat2_after_w V c) t d
theorem regionDat2_before_b (c : Dev nD) (t : Fin cfg2.N) (d) : (regionDat2 V c).before 2 t d = blockAt2 V c 2 t :=
  before2_2_of V (regionDat2 V c) (regionDat2_A V c 2) (regionDat2_after_b V c) t d

/-! ## The body obligation, at a generic point -/

/-- What the body is called with at point `t`, the windows one by one, -/
def bodyPre2 (c : Dev nD) (t : Fin cfg2.N) : sProp 𝕄 :=
  iprop((regionDat2 V c).Φ t.castSucc ∗ (regionDat2 V c).owesAt () t.castSucc
    ∗ (∃ d, owns (c : Thread nD τ) (stg2_0 t) fullShare ((regionDat2 V c).before 0 t d))
    ∗ (∃ d, owns (c : Thread nD τ) (stg2_1 t) fullShare ((regionDat2 V c).before 1 t d))
    ∗ (∃ d, owns (c : Thread nD τ) (stg2_2 t) fullShare ((regionDat2 V c).before 2 t d))
    ∗ (∃ d, owns (c : Thread nD τ) (stg2_3 t) fullShare ((regionDat2 V c).before 3 t d)))

/-- and what it returns. -/
def bodyPost2 (c : Dev nD) (t : Fin cfg2.N) : sProp 𝕄 :=
  iprop((regionDat2 V c).Φ t.succ ∗ (regionDat2 V c).owesAt () t.succ
    ∗ (regionDat2 V c).leavesExact 0 t
    ∗ (regionDat2 V c).leavesExact 1 t
    ∗ (regionDat2 V c).leavesExact 2 t
    ∗ (regionDat2 V c).leavesExact 3 t)

set_option maxHeartbeats 4800000 in
/-- The body at any point: the inputs' memrefs hold their blocks; both conditions hold there, so the run applies;
    the invariant hands the body the accumulator at some contents and takes it back at some contents, the other
    scoped buffers and the generator register pass through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [regionDat2_before_x, regionDat2_before_w, regionDat2_before_b]
  rw [show (regionDat2 V c).owesAt () t.succ = (regionDat2 V c).owesAt () t.castSucc from rfl]
  rw [show (regionDat2 V c).Φ t.succ = Pipeline.ΦA spec2 c from rfl, show (regionDat2 V c).Φ t.castSucc = Pipeline.ΦA spec2 c from rfl, regionInv2_eq]
  rw [show (regionDat2 V c).leavesExact 0 t = owns (c : Thread nD τ) (stg2_0 t) fullShare ((regionDat2 V c).after 0 t) from by
    unfold Dat.leavesExact; rw [live2_0 t], regionDat2_after_x]
  rw [show (regionDat2 V c).leavesExact 1 t = owns (c : Thread nD τ) (stg2_1 t) fullShare ((regionDat2 V c).after 1 t) from by
    unfold Dat.leavesExact; rw [live2_1 t], regionDat2_after_w]
  rw [show (regionDat2 V c).leavesExact 2 t = owns (c : Thread nD τ) (stg2_2 t) fullShare ((regionDat2 V c).after 2 t) from by
    unfold Dat.leavesExact; rw [live2_2 t], regionDat2_after_b]
  rw [show (regionDat2 V c).leavesExact 3 t = owns (c : Thread nD τ) (stg2_3 t) fullShare ((regionDat2 V c).after 3 t) from by
    unfold Dat.leavesExact; rw [live2_3 t], regionDat2_after_out]
  unfold outAfter2 outLeft2; (try dsimp only)
  iintro ⟨⟨⟨HS, HR⟩, Hg⟩, Ho, ⟨%d0, H0⟩, ⟨%d1, H1⟩, ⟨%d2, H2⟩, ⟨%d3, H3⟩⟩
  iapply ((kernelRun2 c (grid2.coords t) _ _ _ _ _ _ _ _ _ _ (initCond2_all t) (storeCond2_all t) (blockAt2 V c 0 t) (blockAt2 V c 1 t) (blockAt2 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (outCover2 c _ _ _ _ _ _ _ _ _ _ _ _ _ _ _ _)

/-- The library's body obligation, at every point. -/
theorem regionDat2_body (c : Dev nD) : BodyObligation (regionDat2 (F := F) V c) (defs₀ (F := F)) Variants.none () Set.univ := fun t => by
  rw [bigSep_W2, bigSep_W2]
  exact sound_body2 V c t

/-- What the launch hands the region is the invariant before the first point. -/
theorem regionDat2_in (c : Dev nD) : Pipeline.ΦA spec2 c ⊢ (regionDat2 V c).Φ 0 :=
  Idealize.SL.BI.Entails.refl _

/-- After the last point the invariant gives it back. -/
theorem regionDat2_out (c : Dev nD) : (regionDat2 V c).Φ (Fin.last cfg2.N) ⊢ Pipeline.ΦA spec2 c :=
  Idealize.SL.BI.Entails.refl _

end Region2

end Cert.Kernel.Hand

end
-- ==== Proof.KB.R3Kit.lean ====
/- Region 3 of @main (the matmul-plus-bias call number 3): what its run, its proof data and its body
   obligation share — the windows' blocks read off the arrays as the region finds them, what an input
   window's staging buffer holds at a point, the body's two branch conditions in closed form over the
   grid, where the windows are live, and the region invariant with the accumulator scratch taken out of
   the scoped rest. Everything is stated at a parameter `V`, the buffer contents when the region is
   entered. -/
import proofs.«137056_j83880711291258_2_alg».proof.Proof.Gen.Kernel.Launch
import proofs.«137056_j83880711291258_2_alg».proof.Proof.Gen.Kernel.Skeleton
import proofs.«137056_j83880711291258_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it. -/
def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activation window's staging buffer holds its block at every point, fetched there or not (it is fetched at
    the first point only: its block index does not move), for any proof data whose array is `V`'s and whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = blockAt3 V c 0 t) (t : Fin cfg3.N) (d) : dat.before 0 t d = blockAt3 V c 0 t :=
  (dat.before_in_eq_fetched 0 rfl (fun _ => rfl) (fun _ _ _ => rfl) (fun t => by rw [hafter]; unfold Dat.blockOf blockAt3; rw [hA]; try rfl) t d).trans
    (by unfold Dat.fetched Dat.blockOf blockAt3; rw [hA]; try rfl)

/-- The weight window's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = blockAt3 V c 1 t) (t : Fin cfg3.N) (d) : dat.before 1 t d = blockAt3 V c 1 t :=
  (dat.before_in_eq_fetched 1 rfl (fun _ => rfl) (fun _ _ _ => rfl) (fun t => by rw [hafter]; unfold Dat.blockOf blockAt3; rw [hA]; try rfl) t d).trans
    (by unfold Dat.fetched Dat.blockOf blockAt3; rw [hA]; try rfl)

/-- The bias window's staging buffer holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = blockAt3 V c 2 t) (t : Fin cfg3.N) (d) : dat.before 2 t d = blockAt3 V c 2 t :=
  (dat.before_in_eq_fetched 2 rfl (fun _ => rfl) (fun _ _ _ => rfl) (fun t => by rw [hafter]; unfold Dat.blockOf blockAt3; rw [hA]; try rfl) t d).trans
    (by unfold Dat.fetched Dat.blockOf blockAt3; rw [hA]; try rfl)

end Region3

/-! ## The body's branch conditions -/

/-- The condition under which the body zeroes the accumulator (the reduction coordinate is 0), from the grid
    coordinates. -/
abbrev initCond3 (i : grid3.Coords) : Prop := (Scalar.cmpi .ne (Scalar.extui (Scalar.cmpi .eq (BitVec.ofNat 32 (i 1).val) 0#32)) 0#32) = 1#1
/-- The reduction axis has one point, so it holds everywhere on the grid. -/
theorem initCond3_all : ∀ t : Fin cfg3.N, initCond3 (grid3.coords t) :=
  (by decide +kernel : ∀ t : Fin grid3.N, initCond3 (grid3.coords t))

/-- The condition under which the body stores the output block (the reduction coordinate is the last). -/
abbrev storeCond3 (i : grid3.Coords) : Prop := k3_cond2 i = 1#1
/-- It holds everywhere on the grid too. -/
theorem storeCond3_all : ∀ t : Fin cfg3.N, storeCond3 (grid3.coords t) :=
  (by decide +kernel : ∀ t : Fin grid3.N, storeCond3 (grid3.coords t))

/-! ## Where the windows are live -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- The output window is stored into at every point. -/
theorem live3_3 : ∀ t : Fin cfg3.N, cfg3.idle 3 (grid3.coords t) = false := by decide +kernel

/-! ## The staging memrefs and the accumulator -/

/-- One staging buffer of the output window, through which its contents are stated (the choice does not matter). -/
abbrev outView3 : View sig .tc .vmem S64x2048 .f32 := (Memref.whole cc3_stg3_0 : Memref sig .tc .vmem S64x2048 .f32).view
/-- Each window's current staging memref at point `t`, spelled as the pipeline passes it, and its wholeness. -/
abbrev stg3_0 (t : Fin cfg3.N) : Memref sig .tc .vmem S64x1024 .f32 := win3_0.stage (cfg3.slots t 0)
abbrev stgWhole3_0 (t : Fin cfg3.N) : (stg3_0 t).IsWhole := hstage3_0 ((cfg3.slots t 0).cast nbuf3_0)
abbrev stg3_1 (t : Fin cfg3.N) : Memref sig .tc .vmem S2048x1024 .f32 := win3_1.stage (cfg3.slots t 1)
abbrev stgWhole3_1 (t : Fin cfg3.N) : (stg3_1 t).IsWhole := hstage3_1 ((cfg3.slots t 1).cast nbuf3_1)
abbrev stg3_2 (t : Fin cfg3.N) : Memref sig .tc .vmem S1x2048 .f32 := win3_2.stage (cfg3.slots t 2)
abbrev stgWhole3_2 (t : Fin cfg3.N) : (stg3_2 t).IsWhole := hstage3_2 ((cfg3.slots t 2).cast nbuf3_2)
abbrev stg3_3 (t : Fin cfg3.N) : Memref sig .tc .vmem S64x2048 .f32 := win3_3.stage (cfg3.slots t 3)
abbrev stgWhole3_3 (t : Fin cfg3.N) : (stg3_3 t).IsWhole := hstage3_3 ((cfg3.slots t 3).cast nbuf3_3)
/-- The accumulator: a whole scoped buffer of the kernel's own, passed beside the windows. -/
abbrev accRef3 : Memref sig .tc .vmem S64x2048 .f32 := Memref.whole cc3_scratch0
/-- The accumulator as a view: what it holds is stated through it. -/
abbrev accView3 : View sig .tc .vmem S64x2048 .f32 := accRef3.view

/-- The region invariant with the accumulator as a memref owned at some contents, the other scoped buffers
    unopened beside it, and the generator register at some state: what the body obligation hands the run and
    takes back. -/
theorem regionInv3_eq (c : Dev nD) :
    (Pipeline.ΦA spec3 c : sProp 𝕄)
      = iprop(iprop(iprop((∃ d, owns (c : Thread nD τ) accRef3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [accRef3, owns_whole]; try rfl

end Cert.Kernel.Hand

end
-- ==== Proof.KB.R3Run.lean ====
/- Region 3: the whole-body run of the matmul-plus-bias kernel in the one control case its grid meets (the
   reduction axis has a single point, so the body zeroes the accumulator, adds the block product and
   stores accumulator plus bias at every point). The pieces the stores leave in the output buffer and in
   the accumulator are the witness the run finds. -/
import proofs.«137056_j83880711291258_2_alg».proof.Proof.KB.R3Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    with the proof that on whole staging memrefs — the three inputs' at their contents, the output's and the
    accumulator at anything — the body runs to the continuation holding the inputs' as they were and the
    output's buffer and the accumulator with their pieces written. Both conditionals are decided by the
    hypotheses. -/
noncomputable def kernelRun3 (c : Dev nD) (i : grid3.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond3 i) (hc1 : storeCond3 i)
    (x0 : Vec F S64x1024 .f32) (x1 : Vec F S2048x1024 .f32) (x2 : Vec F S1x2048 .f32) :
    Σ' (Lout : List (View.Piece (Elt F) S64x2048 .f32)), { Lacc : List (View.Piece (Elt F) S64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f Lout)
                ∗ (∃ f, arg6.view.loc (c : Thread nD τ) ↦[arg6.view.set]{fullShare} arg6.view.writes (Elt F) f Lacc)) -∗ K ⟨⟩))
          ⊢ wp frame (wpE (defs₀ (F := F)) Variants.none c none) E (cc3__matmul_bias_kernel i arg2 harg2 arg3 harg3 arg4 harg4 arg5 harg5 arg6 harg6) K } := by
  refine ⟨?_, ?_, fun E K => ?run⟩
  case run =>
    simp only [cc3__matmul_bias_kernel_eq_skeleton]; unfold cc3__matmul_bias_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Hand

end
-- ==== Proof.KB.R3.lean ====
/- Region 3: what the body leaves in the output window's buffer and in the accumulator (the found pieces
   read back), the region's proof data at the entry contents `V`, the body obligation at every point, and
   the invariant's two ends. The accumulator is zeroed at every point of this grid, so nothing is carried
   between points: the invariant is the launch's own throughout, and the body takes the accumulator out
   of the scoped rest at some contents and puts it back at some contents. -/
import proofs.«137056_j83880711291258_2_alg».proof.Proof.KB.R3Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the one control case leaves -/

/-- The pieces stored into the output's staging memref tile its block, so they cover it. -/
theorem outCover3 (c : Dev nD) (i : grid3.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond3 i) (hc1 : storeCond3 i)
    (x0 : Vec F S64x1024 .f32) (x1 : Vec F S2048x1024 .f32) (x2 : Vec F S1x2048 .f32) (y : S64x2048.Idx) :
    ∃ pc ∈ (kernelRun3 c i arg2 harg2 arg3 harg3 arg4 harg4 arg5 harg5 arg6 harg6 hc0 hc1 x0 x1 x2).1, y ∈ pc.1.set :=
  View.cover_of_tiledL (kernelRun3 c i arg2 harg2 arg3 harg3 arg4 harg4 arg5 harg5 arg6 harg6 hc0 hc1 x0 x1 x2).1 S64x2048.size (by sl_kernel_rfl) y

/-- The pieces stored into the accumulator cover it. -/
theorem accCover3 (c : Dev nD) (i : grid3.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond3 i) (hc1 : storeCond3 i)
    (x0 : Vec F S64x1024 .f32) (x1 : Vec F S2048x1024 .f32) (x2 : Vec F S1x2048 .f32) (y : S64x2048.Idx) :
    ∃ pc ∈ (kernelRun3 c i arg2 harg2 arg3 harg3 arg4 harg4 arg5 harg5 arg6 harg6 hc0 hc1 x0 x1 x2).2.1, y ∈ pc.1.set :=
  View.cover_of_tiledL (kernelRun3 c i arg2 harg2 arg3 harg3 arg4 harg4 arg5 harg5 arg6 harg6 hc0 hc1 x0 x1 x2).2.1 S64x2048.size (by sl_kernel_rfl) y

/-- What the body leaves in the output's staging buffer: its pieces read back over junk. -/
def outLeft3 (c : Dev nD) (i : grid3.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond3 i) (hc1 : storeCond3 i)
    (x0 : Vec F S64x1024 .f32) (x1 : Vec F S2048x1024 .f32) (x2 : Vec F S1x2048 .f32) : Vec F S64x2048 .f32 :=
  outView3.read (Elt F) (outView3.writes (Elt F) outView3.junk (kernelRun3 c i arg2 harg2 arg3 harg3 arg4 harg4 arg5 harg5 arg6 harg6 hc0 hc1 x0 x1 x2).1)

/-- What the body leaves in the accumulator: its pieces read back over junk. -/
def accLeft3 (c : Dev nD) (i : grid3.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond3 i) (hc1 : storeCond3 i)
    (x0 : Vec F S64x1024 .f32) (x1 : Vec F S2048x1024 .f32) (x2 : Vec F S1x2048 .f32) : Vec F S64x2048 .f32 :=
  accView3.read (Elt F) (accView3.writes (Elt F) accView3.junk (kernelRun3 c i arg2 harg2 arg3 harg3 arg4 harg4 arg5 harg5 arg6 harg6 hc0 hc1 x0 x1 x2).2.1)

section Region3
-- the TensorCore's buffer contents when the region is entered
variable (V : (c : Dev nD) → (b : Ref sig .tc) → Buf (Elt F) ((c : Thread nD τ).loc b))

/-! ## What the output and the accumulator hold after each point -/

/-- The output window's staging buffer after the body at point `t`: the case run at the point's memrefs and
    input blocks. -/
def outAfter3 (c : Dev nD) (t : Fin cfg3.N) : Vec F S64x2048 .f32 :=
  outLeft3 c (grid3.coords t) (stg3_0 t) (stgWhole3_0 t) (stg3_1 t) (stgWhole3_1 t) (stg3_2 t) (stgWhole3_2 t) (stg3_3 t) (stgWhole3_3 t) accRef3 (Memref.isWhole_whole _) (initCond3_all t) (storeCond3_all t) (blockAt3 V c 0 t) (blockAt3 V c 1 t) (blockAt3 V c 2 t)

/-- The accumulator after the body at point `t` (it does not depend on the point before: the body zeroes it
    first). -/
def accAfter3 (c : Dev nD) (t : Fin cfg3.N) : Vec F S64x2048 .f32 :=
  accLeft3 c (grid3.coords t) (stg3_0 t) (stgWhole3_0 t) (stg3_1 t) (stgWhole3_1 t) (stg3_2 t) (stgWhole3_2 t) (stg3_3 t) (stgWhole3_3 t) accRef3 (Memref.isWhole_whole _) (initCond3_all t) (storeCond3_all t) (blockAt3 V c 0 t) (blockAt3 V c 1 t) (blockAt3 V c 2 t)

/-! ## The region's proof data -/

/-- The proof data of the region's pipeline on core `c`: the arrays as the region finds them; after the body at
    point `t` each input's buffer at its block and the output's at what the stores leave; the invariant the
    launch's; nothing owed; full shares. -/
def regionDat3 (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => blockAt3 V c 2 t
    | ⟨3, _⟩ => outAfter3 V c t
  Φ _ := Pipeline.ΦA spec3 c
  q _ := fullShare
  owed _ := 0

/-- The proof data's arrays are the region-entry contents. -/
theorem regionDat3_A (c : Dev nD) (w : Fin cfg3.W) : (regionDat3 V c).A w = V c (Pipeline.arrRef spec3 w) := by
  dsimp only [regionDat3]

/-- What the body leaves, window by window. -/
theorem regionDat3_after_x (c : Dev nD) (t : Fin cfg3.N) : (regionDat3 V c).after 0 t = blockAt3 V c 0 t := by dsimp only [regionDat3]
theorem regionDat3_after_w (c : Dev nD) (t : Fin cfg3.N) : (regionDat3 V c).after 1 t = blockAt3 V c 1 t := by dsimp only [regionDat3]
theorem regionDat3_after_b (c : Dev nD) (t : Fin cfg3.N) : (regionDat3 V c).after 2 t = blockAt3 V c 2 t := by dsimp only [regionDat3]
theorem regionDat3_after_out (c : Dev nD) (t : Fin cfg3.N) : (regionDat3 V c).after 3 t = outAfter3 V c t := by dsimp only [regionDat3]

/-- Each input's current staging buffer holds its block at every point, fetched there or not. -/
theorem regionDat3_before_x (c : Dev nD) (t : Fin cfg3.N) (d) : (regionDat3 V c).before 0 t d = blockAt3 V c 0 t :=
  before3_0_of V (regionDat3 V c) (regionDat3_A V c 0) (regionDat3_after_x V c) t d
theorem regionDat3_before_w (c : Dev nD) (t : Fin cfg3.N) (d) : (regionDat3 V c).before 1 t d = blockAt3 V c 1 t :=
  before3_1_of V (regionDat3 V c) (regionDat3_A V c 1) (regionDat3_after_w V c) t d
theorem regionDat3_before_b (c : Dev nD) (t : Fin cfg3.N) (d) : (regionDat3 V c).before 2 t d = blockAt3 V c 2 t :=
  before3_2_of V (regionDat3 V c) (regionDat3_A V c 2) (regionDat3_after_b V c) t d

/-! ## The body obligation, at a generic point -/

/-- What the body is called with at point `t`, the windows one by one, -/
def bodyPre3 (c : Dev nD) (t : Fin cfg3.N) : sProp 𝕄 :=
  iprop((regionDat3 V c).Φ t.castSucc ∗ (regionDat3 V c).owesAt () t.castSucc
    ∗ (∃ d, owns (c : Thread nD τ) (stg3_0 t) fullShare ((regionDat3 V c).before 0 t d))
    ∗ (∃ d, owns (c : Thread nD τ) (stg3_1 t) fullShare ((regionDat3 V c).before 1 t d))
    ∗ (∃ d, owns (c : Thread nD τ) (stg3_2 t) fullShare ((regionDat3 V c).before 2 t d))
    ∗ (∃ d, owns (c : Thread nD τ) (stg3_3 t) fullShare ((regionDat3 V c).before 3 t d)))

/-- and what it returns. -/
def bodyPost3 (c : Dev nD) (t : Fin cfg3.N) : sProp 𝕄 :=
  iprop((regionDat3 V c).Φ t.succ ∗ (regionDat3 V c).owesAt () t.succ
    ∗ (regionDat3 V c).leavesExact 0 t
    ∗ (regionDat3 V c).leavesExact 1 t
    ∗ (regionDat3 V c).leavesExact 2 t
    ∗ (regionDat3 V c).leavesExact 3 t)

set_option maxHeartbeats 4800000 in
/-- The body at any point: the inputs' memrefs hold their blocks; both conditions hold there, so the run applies;
    the invariant hands the body the accumulator at some contents and takes it back at some contents, the other
    scoped buffers and the generator register pass through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [regionDat3_before_x, regionDat3_before_w, regionDat3_before_b]
  rw [show (regionDat3 V c).owesAt () t.succ = (regionDat3 V c).owesAt () t.castSucc from rfl]
  rw [show (regionDat3 V c).Φ t.succ = Pipeline.ΦA spec3 c from rfl, show (regionDat3 V c).Φ t.castSucc = Pipeline.ΦA spec3 c from rfl, regionInv3_eq]
  rw [show (regionDat3 V c).leavesExact 0 t = owns (c : Thread nD τ) (stg3_0 t) fullShare ((regionDat3 V c).after 0 t) from by
    unfold Dat.leavesExact; rw [live3_0 t], regionDat3_after_x]
  rw [show (regionDat3 V c).leavesExact 1 t = owns (c : Thread nD τ) (stg3_1 t) fullShare ((regionDat3 V c).after 1 t) from by
    unfold Dat.leavesExact; rw [live3_1 t], regionDat3_after_w]
  rw [show (regionDat3 V c).leavesExact 2 t = owns (c : Thread nD τ) (stg3_2 t) fullShare ((regionDat3 V c).after 2 t) from by
    unfold Dat.leavesExact; rw [live3_2 t], regionDat3_after_b]
  rw [show (regionDat3 V c).leavesExact 3 t = owns (c : Thread nD τ) (stg3_3 t) fullShare ((regionDat3 V c).after 3 t) from by
    unfold Dat.leavesExact; rw [live3_3 t], regionDat3_after_out]
  unfold outAfter3 outLeft3; (try dsimp only)
  iintro ⟨⟨⟨HS, HR⟩, Hg⟩, Ho, ⟨%d0, H0⟩, ⟨%d1, H1⟩, ⟨%d2, H2⟩, ⟨%d3, H3⟩⟩
  iapply ((kernelRun3 c (grid3.coords t) _ _ _ _ _ _ _ _ _ _ (initCond3_all t) (storeCond3_all t) (blockAt3 V c 0 t) (blockAt3 V c 1 t) (blockAt3 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (outCover3 c _ _ _ _ _ _ _ _ _ _ _ _ _ _ _ _)

/-- The library's body obligation, at every point. -/
theorem regionDat3_body (c : Dev nD) : BodyObligation (regionDat3 (F := F) V c) (defs₀ (F := F)) Variants.none () Set.univ := fun t => by
  rw [bigSep_W3, bigSep_W3]
  exact sound_body3 V c t

/-- What the launch hands the region is the invariant before the first point. -/
theorem regionDat3_in (c : Dev nD) : Pipeline.ΦA spec3 c ⊢ (regionDat3 V c).Φ 0 :=
  Idealize.SL.BI.Entails.refl _

/-- After the last point the invariant gives it back. -/
theorem regionDat3_out (c : Dev nD) : (regionDat3 V c).Φ (Fin.last cfg3.N) ⊢ Pipeline.ΦA spec3 c :=
  Idealize.SL.BI.Entails.refl _

end Region3

end Cert.Kernel.Hand

end
-- ==== Proof.KB.R4Kit.lean ====
/- Region 4 of @main (the matmul-plus-bias call number 4): what its run, its proof data and its body
   obligation share — the windows' blocks read off the arrays as the region finds them, what an input
   window's staging buffer holds at a point, the body's two branch conditions in closed form over the
   grid, where the windows are live, and the region invariant with the accumulator scratch taken out of
   the scoped rest. Everything is stated at a parameter `V`, the buffer contents when the region is
   entered. -/
import proofs.«137056_j83880711291258_2_alg».proof.Proof.Gen.Kernel.Launch
import proofs.«137056_j83880711291258_2_alg».proof.Proof.Gen.Kernel.Skeleton
import proofs.«137056_j83880711291258_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it. -/
def blockAt4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activation window's staging buffer holds its block at every point, fetched there or not (it is fetched at
    the first point only: its block index does not move), for any proof data whose array is `V`'s and whose
    body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = blockAt4 V c 0 t) (t : Fin cfg4.N) (d) : dat.before 0 t d = blockAt4 V c 0 t :=
  (dat.before_in_eq_fetched 0 rfl (fun _ => rfl) (fun _ _ _ => rfl) (fun t => by rw [hafter]; unfold Dat.blockOf blockAt4; rw [hA]; try rfl) t d).trans
    (by unfold Dat.fetched Dat.blockOf blockAt4; rw [hA]; try rfl)

/-- The weight window's staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = blockAt4 V c 1 t) (t : Fin cfg4.N) (d) : dat.before 1 t d = blockAt4 V c 1 t :=
  (dat.before_in_eq_fetched 1 rfl (fun _ => rfl) (fun _ _ _ => rfl) (fun t => by rw [hafter]; unfold Dat.blockOf blockAt4; rw [hA]; try rfl) t d).trans
    (by unfold Dat.fetched Dat.blockOf blockAt4; rw [hA]; try rfl)

/-- The bias window's staging buffer holds its block at every point. -/
theorem before4_2_of {c : Dev nD} (dat : Dat τ (Elt F) Unit ℕ (UR sig nD τ) ℕ cfg4 c) (hA : dat.A 2 = V c (Pipeline.arrRef spec4 2))
    (hafter : ∀ t, dat.after 2 t = blockAt4 V c 2 t) (t : Fin cfg4.N) (d) : dat.before 2 t d = blockAt4 V c 2 t :=
  (dat.before_in_eq_fetched 2 rfl (fun _ => rfl) (fun _ _ _ => rfl) (fun t => by rw [hafter]; unfold Dat.blockOf blockAt4; rw [hA]; try rfl) t d).trans
    (by unfold Dat.fetched Dat.blockOf blockAt4; rw [hA]; try rfl)

end Region4

/-! ## The body's branch conditions -/

/-- The condition under which the body zeroes the accumulator (the reduction coordinate is 0), from the grid
    coordinates. -/
abbrev initCond4 (i : grid4.Coords) : Prop := (Scalar.cmpi .ne (Scalar.extui (Scalar.cmpi .eq (BitVec.ofNat 32 (i 1).val) 0#32)) 0#32) = 1#1
/-- The reduction axis has one point, so it holds everywhere on the grid. -/
theorem initCond4_all : ∀ t : Fin cfg4.N, initCond4 (grid4.coords t) :=
  (by decide +kernel : ∀ t : Fin grid4.N, initCond4 (grid4.coords t))

/-- The condition under which the body stores the output block (the reduction coordinate is the last). -/
abbrev storeCond4 (i : grid4.Coords) : Prop := k4_cond2 i = 1#1
/-- It holds everywhere on the grid too. -/
theorem storeCond4_all : ∀ t : Fin cfg4.N, storeCond4 (grid4.coords t) :=
  (by decide +kernel : ∀ t : Fin grid4.N, storeCond4 (grid4.coords t))

/-! ## Where the windows are live -/

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
/-- The output window is stored into at every point. -/
theorem live4_3 : ∀ t : Fin cfg4.N, cfg4.idle 3 (grid4.coords t) = false := by decide +kernel

/-! ## The staging memrefs and the accumulator -/

/-- One staging buffer of the output window, through which its contents are stated (the choice does not matter). -/
abbrev outView4 : View sig .tc .vmem S64x3200 .f32 := (Memref.whole cc4_stg3_0 : Memref sig .tc .vmem S64x3200 .f32).view
/-- Each window's current staging memref at point `t`, spelled as the pipeline passes it, and its wholeness. -/
abbrev stg4_0 (t : Fin cfg4.N) : Memref sig .tc .vmem S64x1024 .f32 := win4_0.stage (cfg4.slots t 0)
abbrev stgWhole4_0 (t : Fin cfg4.N) : (stg4_0 t).IsWhole := hstage4_0 ((cfg4.slots t 0).cast nbuf4_0)
abbrev stg4_1 (t : Fin cfg4.N) : Memref sig .tc .vmem S3200x1024 .f32 := win4_1.stage (cfg4.slots t 1)
abbrev stgWhole4_1 (t : Fin cfg4.N) : (stg4_1 t).IsWhole := hstage4_1 ((cfg4.slots t 1).cast nbuf4_1)
abbrev stg4_2 (t : Fin cfg4.N) : Memref sig .tc .vmem S1x3200 .f32 := win4_2.stage (cfg4.slots t 2)
abbrev stgWhole4_2 (t : Fin cfg4.N) : (stg4_2 t).IsWhole := hstage4_2 ((cfg4.slots t 2).cast nbuf4_2)
abbrev stg4_3 (t : Fin cfg4.N) : Memref sig .tc .vmem S64x3200 .f32 := win4_3.stage (cfg4.slots t 3)
abbrev stgWhole4_3 (t : Fin cfg4.N) : (stg4_3 t).IsWhole := hstage4_3 ((cfg4.slots t 3).cast nbuf4_3)
/-- The accumulator: a whole scoped buffer of the kernel's own, passed beside the windows. -/
abbrev accRef4 : Memref sig .tc .vmem S64x3200 .f32 := Memref.whole cc4_scratch0
/-- The accumulator as a view: what it holds is stated through it. -/
abbrev accView4 : View sig .tc .vmem S64x3200 .f32 := accRef4.view

/-- The region invariant with the accumulator as a memref owned at some contents, the other scoped buffers
    unopened beside it, and the generator register at some state: what the body obligation hands the run and
    takes back. -/
theorem regionInv4_eq (c : Dev nD) :
    (Pipeline.ΦA spec4 c : sProp 𝕄)
      = iprop(iprop(iprop((∃ d, owns (c : Thread nD τ) accRef4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [accRef4, owns_whole]; try rfl

end Cert.Kernel.Hand

end
-- ==== Proof.KB.R4Run.lean ====
/- Region 4: the whole-body run of the matmul-plus-bias kernel in the one control case its grid meets (the
   reduction axis has a single point, so the body zeroes the accumulator, adds the block product and
   stores accumulator plus bias at every point). The pieces the stores leave in the output buffer and in
   the accumulator are the witness the run finds. -/
import proofs.«137056_j83880711291258_2_alg».proof.Proof.KB.R4Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    with the proof that on whole staging memrefs — the three inputs' at their contents, the output's and the
    accumulator at anything — the body runs to the continuation holding the inputs' as they were and the
    output's buffer and the accumulator with their pieces written. Both conditionals are decided by the
    hypotheses. -/
noncomputable def kernelRun4 (c : Dev nD) (i : grid4.Coords) (arg2 : Memref sig .tc .vmem S64x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S64x3200 .f32) (harg6 : arg6.IsWhole) (hc0 : initCond4 i) (hc1 : storeCond4 i)
    (x0 : Vec F S64x1024 .f32) (x1 : Vec F S3200x1024 .f32) (x2 : Vec F S1x3200 .f32) :
    Σ' (Lout : List (View.Piece (Elt F) S64x3200 .f32)), { Lacc : List (View.Piece (Elt F) S64x3200 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f Lout)
                ∗ (∃ f, arg6.view.loc (c : Thread nD τ) ↦[arg6.view.set]{fullShare} arg6.view.writes (Elt F) f Lacc)) -∗ K ⟨⟩))
          ⊢ wp frame (wpE (defs₀ (F := F)) Variants.none c none) E (cc4__matmul_bias_kernel i arg2 harg2 arg3 harg3 arg4 harg4 arg5 harg5 arg6 harg6) K } := by
  refine ⟨?_, ?_, fun E K => ?run⟩
  case run =>
    simp only [cc4__matmul_bias_kernel_eq_skeleton]; unfold cc4__matmul_bias_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Hand

end
-- ==== Proof.KB.R4.lean ====
/- Region 4: what the body leaves in the output window's buffer and in the accumulator (the found pieces
   read back), the region's proof data at the entry contents `V`, the body obligation at every point, and
   the invariant's two ends. The accumulator is zeroed at every point of this grid, so nothing is carried
   between points: the invariant is the launch's own throughout, and the body takes the accumulator out
   of the scoped rest at some contents and puts it back at some contents. -/
import proofs.«137056_j83880711291258_2_alg».proof.Proof.KB.R4Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the one control case leaves -/

/-- The pieces stored into the output's staging memref tile its block, so they cover it. -/
theorem outCover4 (c : Dev nD) (i : grid4.Coords) (arg2 : Memref sig .tc .vmem S64x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S64x3200 .f32) (harg6 : arg6.IsWhole) (hc0 : initCond4 i) (hc1 : storeCond4 i)
    (x0 : Vec F S64x1024 .f32) (x1 : Vec F S3200x1024 .f32) (x2 : Vec F S1x3200 .f32) (y : S64x3200.Idx) :
    ∃ pc ∈ (kernelRun4 c i arg2 harg2 arg3 harg3 arg4 harg4 arg5 harg5 arg6 harg6 hc0 hc1 x0 x1 x2).1, y ∈ pc.1.set :=
  View.cover_of_tiledL (kernelRun4 c i arg2 harg2 arg3 harg3 arg4 harg4 arg5 harg5 arg6 harg6 hc0 hc1 x0 x1 x2).1 S64x3200.size (by sl_kernel_rfl) y

/-- The pieces stored into the accumulator cover it. -/
theorem accCover4 (c : Dev nD) (i : grid4.Coords) (arg2 : Memref sig .tc .vmem S64x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S64x3200 .f32) (harg6 : arg6.IsWhole) (hc0 : initCond4 i) (hc1 : storeCond4 i)
    (x0 : Vec F S64x1024 .f32) (x1 : Vec F S3200x1024 .f32) (x2 : Vec F S1x3200 .f32) (y : S64x3200.Idx) :
    ∃ pc ∈ (kernelRun4 c i arg2 harg2 arg3 harg3 arg4 harg4 arg5 harg5 arg6 harg6 hc0 hc1 x0 x1 x2).2.1, y ∈ pc.1.set :=
  View.cover_of_tiledL (kernelRun4 c i arg2 harg2 arg3 harg3 arg4 harg4 arg5 harg5 arg6 harg6 hc0 hc1 x0 x1 x2).2.1 S64x3200.size (by sl_kernel_rfl) y

/-- What the body leaves in the output's staging buffer: its pieces read back over junk. -/
def outLeft4 (c : Dev nD) (i : grid4.Coords) (arg2 : Memref sig .tc .vmem S64x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S64x3200 .f32) (harg6 : arg6.IsWhole) (hc0 : initCond4 i) (hc1 : storeCond4 i)
    (x0 : Vec F S64x1024 .f32) (x1 : Vec F S3200x1024 .f32) (x2 : Vec F S1x3200 .f32) : Vec F S64x3200 .f32 :=
  outView4.read (Elt F) (outView4.writes (Elt F) outView4.junk (kernelRun4 c i arg2 harg2 arg3 harg3 arg4 harg4 arg5 harg5 arg6 harg6 hc0 hc1 x0 x1 x2).1)

/-- What the body leaves in the accumulator: its pieces read back over junk. -/
def accLeft4 (c : Dev nD) (i : grid4.Coords) (arg2 : Memref sig .tc .vmem S64x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S64x3200 .f32) (harg6 : arg6.IsWhole) (hc0 : initCond4 i) (hc1 : storeCond4 i)
    (x0 : Vec F S64x1024 .f32) (x1 : Vec F S3200x1024 .f32) (x2 : Vec F S1x3200 .f32) : Vec F S64x3200 .f32 :=
  accView4.read (Elt F) (accView4.writes (Elt F) accView4.junk (kernelRun4 c i arg2 harg2 arg3 harg3 arg4 harg4 arg5 harg5 arg6 harg6 hc0 hc1 x0 x1 x2).2.1)

section Region4
-- the TensorCore's buffer contents when the region is entered
variable (V : (c : Dev nD) → (b : Ref sig .tc) → Buf (Elt F) ((c : Thread nD τ).loc b))

/-! ## What the output and the accumulator hold after each point -/

/-- The output window's staging buffer after the body at point `t`: the case run at the point's memrefs and
    input blocks. -/
def outAfter4 (c : Dev nD) (t : Fin cfg4.N) : Vec F S64x3200 .f32 :=
  outLeft4 c (grid4.coords t) (stg4_0 t) (stgWhole4_0 t) (stg4_1 t) (stgWhole4_1 t) (stg4_2 t) (stgWhole4_2 t) (stg4_3 t) (stgWhole4_3 t) accRef4 (Memref.isWhole_whole _) (initCond4_all t) (storeCond4_all t) (blockAt4 V c 0 t) (blockAt4 V c 1 t) (blockAt4 V c 2 t)

/-- The accumulator after the body at point `t` (it does not depend on the point before: the body zeroes it
    first). -/
def accAfter4 (c : Dev nD) (t : Fin cfg4.N) : Vec F S64x3200 .f32 :=
  accLeft4 c (grid4.coords t) (stg4_0 t) (stgWhole4_0 t) (stg4_1 t) (stgWhole4_1 t) (stg4_2 t) (stgWhole4_2 t) (stg4_3 t) (stgWhole4_3 t) accRef4 (Memref.isWhole_whole _) (initCond4_all t) (storeCond4_all t) (blockAt4 V c 0 t) (blockAt4 V c 1 t) (blockAt4 V c 2 t)

/-! ## The region's proof data -/

/-- The proof data of the region's pipeline on core `c`: the arrays as the region finds them; after the body at
    point `t` each input's buffer at its block and the output's at what the stores leave; the invariant the
    launch's; nothing owed; full shares. -/
def regionDat4 (c : Dev nD) : Dat τ (Elt F) Unit ℕ (UR sig nD τ) ℕ cfg4 c where
  A w := V c (Pipeline.arrRef spec4 w)
  after w t := match w with
    | ⟨0, _⟩ => blockAt4 V c 0 t
    | ⟨1, _⟩ => blockAt4 V c 1 t
    | ⟨2, _⟩ => blockAt4 V c 2 t
    | ⟨3, _⟩ => outAfter4 V c t
  Φ _ := Pipeline.ΦA spec4 c
  q _ := fullShare
  owed _ := 0

/-- The proof data's arrays are the region-entry contents. -/
theorem regionDat4_A (c : Dev nD) (w : Fin cfg4.W) : (regionDat4 V c).A w = V c (Pipeline.arrRef spec4 w) := by
  dsimp only [regionDat4]

/-- What the body leaves, window by window. -/
theorem regionDat4_after_x (c : Dev nD) (t : Fin cfg4.N) : (regionDat4 V c).after 0 t = blockAt4 V c 0 t := by dsimp only [regionDat4]
theorem regionDat4_after_w (c : Dev nD) (t : Fin cfg4.N) : (regionDat4 V c).after 1 t = blockAt4 V c 1 t := by dsimp only [regionDat4]
theorem regionDat4_after_b (c : Dev nD) (t : Fin cfg4.N) : (regionDat4 V c).after 2 t = blockAt4 V c 2 t := by dsimp only [regionDat4]
theorem regionDat4_after_out (c : Dev nD) (t : Fin cfg4.N) : (regionDat4 V c).after 3 t = outAfter4 V c t := by dsimp only [regionDat4]

/-- Each input's current staging buffer holds its block at every point, fetched there or not. -/
theorem regionDat4_before_x (c : Dev nD) (t : Fin cfg4.N) (d) : (regionDat4 V c).before 0 t d = blockAt4 V c 0 t :=
  before4_0_of V (regionDat4 V c) (regionDat4_A V c 0) (regionDat4_after_x V c) t d
theorem regionDat4_before_w (c : Dev nD) (t : Fin cfg4.N) (d) : (regionDat4 V c).before 1 t d = blockAt4 V c 1 t :=
  before4_1_of V (regionDat4 V c) (regionDat4_A V c 1) (regionDat4_after_w V c) t d
theorem regionDat4_before_b (c : Dev nD) (t : Fin cfg4.N) (d) : (regionDat4 V c).before 2 t d = blockAt4 V c 2 t :=
  before4_2_of V (regionDat4 V c) (regionDat4_A V c 2) (regionDat4_after_b V c) t d

/-! ## The body obligation, at a generic point -/

/-- What the body is called with at point `t`, the windows one by one, -/
def bodyPre4 (c : Dev nD) (t : Fin cfg4.N) : sProp 𝕄 :=
  iprop((regionDat4 V c).Φ t.castSucc ∗ (regionDat4 V c).owesAt () t.castSucc
    ∗ (∃ d, owns (c : Thread nD τ) (stg4_0 t) fullShare ((regionDat4 V c).before 0 t d))
    ∗ (∃ d, owns (c : Thread nD τ) (stg4_1 t) fullShare ((regionDat4 V c).before 1 t d))
    ∗ (∃ d, owns (c : Thread nD τ) (stg4_2 t) fullShare ((regionDat4 V c).before 2 t d))
    ∗ (∃ d, owns (c : Thread nD τ) (stg4_3 t) fullShare ((regionDat4 V c).before 3 t d)))

/-- and what it returns. -/
def bodyPost4 (c : Dev nD) (t : Fin cfg4.N) : sProp 𝕄 :=
  iprop((regionDat4 V c).Φ t.succ ∗ (regionDat4 V c).owesAt () t.succ
    ∗ (regionDat4 V c).leavesExact 0 t
    ∗ (regionDat4 V c).leavesExact 1 t
    ∗ (regionDat4 V c).leavesExact 2 t
    ∗ (regionDat4 V c).leavesExact 3 t)

set_option maxHeartbeats 4800000 in
/-- The body at any point: the inputs' memrefs hold their blocks; both conditions hold there, so the run applies;
    the invariant hands the body the accumulator at some contents and takes it back at some contents, the other
    scoped buffers and the generator register pass through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [regionDat4_before_x, regionDat4_before_w, regionDat4_before_b]
  rw [show (regionDat4 V c).owesAt () t.succ = (regionDat4 V c).owesAt () t.castSucc from rfl]
  rw [show (regionDat4 V c).Φ t.succ = Pipeline.ΦA spec4 c from rfl, show (regionDat4 V c).Φ t.castSucc = Pipeline.ΦA spec4 c from rfl, regionInv4_eq]
  rw [show (regionDat4 V c).leavesExact 0 t = owns (c : Thread nD τ) (stg4_0 t) fullShare ((regionDat4 V c).after 0 t) from by
    unfold Dat.leavesExact; rw [live4_0 t], regionDat4_after_x]
  rw [show (regionDat4 V c).leavesExact 1 t = owns (c : Thread nD τ) (stg4_1 t) fullShare ((regionDat4 V c).after 1 t) from by
    unfold Dat.leavesExact; rw [live4_1 t], regionDat4_after_w]
  rw [show (regionDat4 V c).leavesExact 2 t = owns (c : Thread nD τ) (stg4_2 t) fullShare ((regionDat4 V c).after 2 t) from by
    unfold Dat.leavesExact; rw [live4_2 t], regionDat4_after_b]
  rw [show (regionDat4 V c).leavesExact 3 t = owns (c : Thread nD τ) (stg4_3 t) fullShare ((regionDat4 V c).after 3 t) from by
    unfold Dat.leavesExact; rw [live4_3 t], regionDat4_after_out]
  unfold outAfter4 outLeft4; (try dsimp only)
  iintro ⟨⟨⟨HS, HR⟩, Hg⟩, Ho, ⟨%d0, H0⟩, ⟨%d1, H1⟩, ⟨%d2, H2⟩, ⟨%d3, H3⟩⟩
  iapply ((kernelRun4 c (grid4.coords t) _ _ _ _ _ _ _ _ _ _ (initCond4_all t) (storeCond4_all t) (blockAt4 V c 0 t) (blockAt4 V c 1 t) (blockAt4 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (outCover4 c _ _ _ _ _ _ _ _ _ _ _ _ _ _ _ _)

/-- The library's body obligation, at every point. -/
theorem regionDat4_body (c : Dev nD) : BodyObligation (regionDat4 (F := F) V c) (defs₀ (F := F)) Variants.none () Set.univ := fun t => by
  rw [bigSep_W4, bigSep_W4]
  exact sound_body4 V c t

/-- What the launch hands the region is the invariant before the first point. -/
theorem regionDat4_in (c : Dev nD) : Pipeline.ΦA spec4 c ⊢ (regionDat4 V c).Φ 0 :=
  Idealize.SL.BI.Entails.refl _

/-- After the last point the invariant gives it back. -/
theorem regionDat4_out (c : Dev nD) : (regionDat4 V c).Φ (Fin.last cfg4.N) ⊢ Pipeline.ΦA spec4 c :=
  Idealize.SL.BI.Entails.refl _

end Region4

end Cert.Kernel.Hand

end
-- ==== Proof.KB.Run.lean ====
/-
  The run of the kernel program's @main, at any float instance: eleven items in order — a stretch of host operations, the two
  gate-projection matmul kernels of layer 0, the host operations of layer 0's cell, the two matmul kernels of layer 1, the host
  operations of layer 1's cell, the decoder's matmul kernel, and three stretches for the temperature division, the log-softmax
  and the stacking of the results. Each kernel call is a pipeline region whose proof data (the accumulator carried over the
  contraction axis, the output block stored at the last step) is stated in the region's own module at the buffer contents
  the region is entered with. Here those contents are folded through the items from the launch memory, every region is
  presented as a segment between "all unscoped buffers at the contents before" and "at the contents after", and the
  segment theorem gives: every weakly fair execution terminates and each unscoped buffer ends at the fold's last contents.
  The frame claim (each argument array ends as launched) is read off that fold.
-/
import proofs.«137056_j83880711291258_2_alg».proof.Proof.KB.R0
import proofs.«137056_j83880711291258_2_alg».proof.Proof.KB.R1
import proofs.«137056_j83880711291258_2_alg».proof.Proof.KB.R2
import proofs.«137056_j83880711291258_2_alg».proof.Proof.KB.R3
import proofs.«137056_j83880711291258_2_alg».proof.Proof.KB.R4
import proofs.«137056_j83880711291258_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run of @main: host stretches and kernel regions in order, from the launch to the return

The buffer contents at each boundary between two items are a fold from the launch memory: a host stretch applies its
operations; a region leaves each of its arrays at what its write-backs fold to and every other buffer as entered. -/

variable (m : (ℓ : Loc nD τ sig) → Buf (Elt F) ℓ)

/-- Core `c`'s buffers at launch. -/
abbrev B0 (c : Dev nD) : Valuation τ sig (Elt F) := fun b => m (c, b)
/-- After the host stretch `hostOps0`. -/
abbrev B1 (c : Dev nD) : Valuation τ sig (Elt F) := StableHlo.after hostOps0 (B0 m c)
/-- Region 0's entry contents, read at the TensorCore's references. -/
abbrev En0 : (c : Dev nD) → (b : Ref sig .tc) → Buf (Elt F) ((c : Thread nD τ).loc b) := fun c b => B1 m c b
/-- At region 0's exit: its arrays at what the pipeline leaves, every other buffer as entered. -/
def B2 (c : Dev nD) : Valuation τ sig (Elt F) :=
  Pipeline.withArrays spec0 c (B1 m c) fun w => (regionDat0 (En0 m) c).arrAt w cfg0.N
theorem B2_arr (c : Dev nD) (w : Fin cfg0.W) :
    B2 m c (Proc.devRef .tc (Pipeline.arrRef spec0 w)) = (regionDat0 (En0 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- Region 0's exit contents, read at the TensorCore's references. -/
abbrev Ex0 : (c : Dev nD) → (b : Ref sig .tc) → Buf (Elt F) ((c : Thread nD τ).loc b) := fun c b => B2 m c b
theorem exit0_arr (c : Dev nD) (w : Fin cfg0.W) : (regionDat0 (En0 m) c).arrAt w cfg0.N = Ex0 m c (Pipeline.arrRef spec0 w) :=
  (B2_arr m c w).symm
theorem exit0_rest (c : Dev nD) : ∀ b, b ∉ Finset.univ.image (Pipeline.arrRef spec0) → Ex0 m c b = En0 m c b :=
  fun b hb => B2_of_ne m c b fun w e => hb (Finset.mem_image.mpr ⟨w, Finset.mem_univ _, e⟩)
/-- Region 1's entry contents, read at the TensorCore's references. -/
abbrev En1 : (c : Dev nD) → (b : Ref sig .tc) → Buf (Elt F) ((c : Thread nD τ).loc b) := fun c b => B2 m c b
/-- At region 1's exit: its arrays at what the pipeline leaves, every other buffer as entered. -/
def B3 (c : Dev nD) : Valuation τ sig (Elt F) :=
  Pipeline.withArrays spec1 c (B2 m c) fun w => (regionDat1 (En1 m) c).arrAt w cfg1.N
theorem B3_arr (c : Dev nD) (w : Fin cfg1.W) :
    B3 m c (Proc.devRef .tc (Pipeline.arrRef spec1 w)) = (regionDat1 (En1 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
/-- Region 1's exit contents, read at the TensorCore's references. -/
abbrev Ex1 : (c : Dev nD) → (b : Ref sig .tc) → Buf (Elt F) ((c : Thread nD τ).loc b) := fun c b => B3 m c b
theorem exit1_arr (c : Dev nD) (w : Fin cfg1.W) : (regionDat1 (En1 m) c).arrAt w cfg1.N = Ex1 m c (Pipeline.arrRef spec1 w) :=
  (B3_arr m c w).symm
theorem exit1_rest (c : Dev nD) : ∀ b, b ∉ Finset.univ.image (Pipeline.arrRef spec1) → Ex1 m c b = En1 m c b :=
  fun b hb => B3_of_ne m c b fun w e => hb (Finset.mem_image.mpr ⟨w, Finset.mem_univ _, e⟩)
/-- After the host stretch `hostOps2`. -/
abbrev B4 (c : Dev nD) : Valuation τ sig (Elt F) := StableHlo.after hostOps2 (B3 m c)
/-- Region 2's entry contents, read at the TensorCore's references. -/
abbrev En2 : (c : Dev nD) → (b : Ref sig .tc) → Buf (Elt F) ((c : Thread nD τ).loc b) := fun c b => B4 m c b
/-- At region 2's exit: its arrays at what the pipeline leaves, every other buffer as entered. -/
def B5 (c : Dev nD) : Valuation τ sig (Elt F) :=
  Pipeline.withArrays spec2 c (B4 m c) fun w => (regionDat2 (En2 m) c).arrAt w cfg2.N
theorem B5_arr (c : Dev nD) (w : Fin cfg2.W) :
    B5 m c (Proc.devRef .tc (Pipeline.arrRef spec2 w)) = (regionDat2 (En2 m) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m c (Proc.devRef .tc b) = B4 m c (Proc.devRef .tc b) := by
  unfold B5; exact Pipeline.withArrays_of_ne spec2 c _ _ b hb
/-- Region 2's exit contents, read at the TensorCore's references. -/
abbrev Ex2 : (c : Dev nD) → (b : Ref sig .tc) → Buf (Elt F) ((c : Thread nD τ).loc b) := fun c b => B5 m c b
theorem exit2_arr (c : Dev nD) (w : Fin cfg2.W) : (regionDat2 (En2 m) c).arrAt w cfg2.N = Ex2 m c (Pipeline.arrRef spec2 w) :=
  (B5_arr m c w).symm
theorem exit2_rest (c : Dev nD) : ∀ b, b ∉ Finset.univ.image (Pipeline.arrRef spec2) → Ex2 m c b = En2 m c b :=
  fun b hb => B5_of_ne m c b fun w e => hb (Finset.mem_image.mpr ⟨w, Finset.mem_univ _, e⟩)
/-- Region 3's entry contents, read at the TensorCore's references. -/
abbrev En3 : (c : Dev nD) → (b : Ref sig .tc) → Buf (Elt F) ((c : Thread nD τ).loc b) := fun c b => B5 m c b
/-- At region 3's exit: its arrays at what the pipeline leaves, every other buffer as entered. -/
def B6 (c : Dev nD) : Valuation τ sig (Elt F) :=
  Pipeline.withArrays spec3 c (B5 m c) fun w => (regionDat3 (En3 m) c).arrAt w cfg3.N
theorem B6_arr (c : Dev nD) (w : Fin cfg3.W) :
    B6 m c (Proc.devRef .tc (Pipeline.arrRef spec3 w)) = (regionDat3 (En3 m) c).arrAt w cfg3.N := by
  unfold B6; exact Pipeline.withArrays_arr spec3 launch3.win.arr_inj c _ _ w
theorem B6_of_ne (c : Dev nD) (b : Ref sig .tc) (hb : ∀ w, Pipeline.arrRef spec3 w ≠ b) :
    B6 m c (Proc.devRef .tc b) = B5 m c (Proc.devRef .tc b) := by
  unfold B6; exact Pipeline.withArrays_of_ne spec3 c _ _ b hb
/-- Region 3's exit contents, read at the TensorCore's references. -/
abbrev Ex3 : (c : Dev nD) → (b : Ref sig .tc) → Buf (Elt F) ((c : Thread nD τ).loc b) := fun c b => B6 m c b
theorem exit3_arr (c : Dev nD) (w : Fin cfg3.W) : (regionDat3 (En3 m) c).arrAt w cfg3.N = Ex3 m c (Pipeline.arrRef spec3 w) :=
  (B6_arr m c w).symm
theorem exit3_rest (c : Dev nD) : ∀ b, b ∉ Finset.univ.image (Pipeline.arrRef spec3) → Ex3 m c b = En3 m c b :=
  fun b hb => B6_of_ne m c b fun w e => hb (Finset.mem_image.mpr ⟨w, Finset.mem_univ _, e⟩)
/-- After the host stretch `hostOps4`. -/
abbrev B7 (c : Dev nD) : Valuation τ sig (Elt F) := StableHlo.after hostOps4 (B6 m c)
/-- Region 4's entry contents, read at the TensorCore's references. -/
abbrev En4 : (c : Dev nD) → (b : Ref sig .tc) → Buf (Elt F) ((c : Thread nD τ).loc b) := fun c b => B7 m c b
/-- At region 4's exit: its arrays at what the pipeline leaves, every other buffer as entered. -/
def B8 (c : Dev nD) : Valuation τ sig (Elt F) :=
  Pipeline.withArrays spec4 c (B7 m c) fun w => (regionDat4 (En4 m) c).arrAt w cfg4.N
theorem B8_arr (c : Dev nD) (w : Fin cfg4.W) :
    B8 m c (Proc.devRef .tc (Pipeline.arrRef spec4 w)) = (regionDat4 (En4 m) c).arrAt w cfg4.N := by
  unfold B8; exact Pipeline.withArrays_arr spec4 launch4.win.arr_inj c _ _ w
theorem B8_of_ne (c : Dev nD) (b : Ref sig .tc) (hb : ∀ w, Pipeline.arrRef spec4 w ≠ b) :
    B8 m c (Proc.devRef .tc b) = B7 m c (Proc.devRef .tc b) := by
  unfold B8; exact Pipeline.withArrays_of_ne spec4 c _ _ b hb
/-- Region 4's exit contents, read at the TensorCore's references. -/
abbrev Ex4 : (c : Dev nD) → (b : Ref sig .tc) → Buf (Elt F) ((c : Thread nD τ).loc b) := fun c b => B8 m c b
theorem exit4_arr (c : Dev nD) (w : Fin cfg4.W) : (regionDat4 (En4 m) c).arrAt w cfg4.N = Ex4 m c (Pipeline.arrRef spec4 w) :=
  (B8_arr m c w).symm
theorem exit4_rest (c : Dev nD) : ∀ b, b ∉ Finset.univ.image (Pipeline.arrRef spec4) → Ex4 m c b = En4 m c b :=
  fun b hb => B8_of_ne m c b fun w e => hb (Finset.mem_image.mpr ⟨w, Finset.mem_univ _, e⟩)
/-- After the host stretch `hostOps5`. -/
abbrev B9 (c : Dev nD) : Valuation τ sig (Elt F) := StableHlo.after hostOps5 (B8 m c)
/-- After the host stretch `hostOps5_1`. -/
abbrev B10 (c : Dev nD) : Valuation τ sig (Elt F) := StableHlo.after hostOps5_1 (B9 m c)
/-- After the host stretch `hostOps5_2`. -/
abbrev B11 (c : Dev nD) : Valuation τ sig (Elt F) := StableHlo.after hostOps5_2 (B10 m c)

/-! ## The proof data family and the thread state -/

/-- Every pipeline's proof data, each at its region's entry contents. -/
def pdats : (p : Fin 5) → (c : Dev nD) → Dat τ (Elt F) Unit ℕ (UR sig nD τ) ℕ (cfgs p) c
  | ⟨0, _⟩ => fun c => regionDat0 (En0 m) c
  | ⟨1, _⟩ => fun c => regionDat1 (En1 m) c
  | ⟨2, _⟩ => fun c => regionDat2 (En2 m) c
  | ⟨3, _⟩ => fun c => regionDat3 (En3 m) c
  | ⟨4, _⟩ => fun c => regionDat4 (En4 m) c
abbrev vnone : Variants := Variants.none
/-- No core owes another anything: no level is assigned. -/
abbrev Lno : GSem nD τ sig → Finset Unit := fun _ => ∅
abbrev lvno : GSem nD τ sig → Unit → ℕ := fun _ _ => 0
/-- What rides beside the buffers through every item: the core's generator register at some state and its `owes`, at nothing. -/
abbrev Ride (c : Dev nD) : sProp 𝕄 := iprop((∃ r, prngReg c r) ∗ ∃ W, owes (c : Thread nD τ) (0 : CellTallies nD τ sig Unit) W)
/-- A host stretch as a segment over the unscoped references from the contents `W`, `Ride` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vnone Lno lvno :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
/-- The last thread state without the `owes`. -/
abbrev Tlast (c : Dev nD) : sProp 𝕄 := iprop(StableHlo.held (c : Thread nD τ) (Pipeline.ucRefs τ sig) (B11 m c) ∗ ∃ r, prngReg c r)

set_option backward.isDefEq.respectTransparency.types false in
/-- Region 0 over the thread state: entered from every unscoped buffer at `B1`, left at `B2`. Its arrays are split out of
    the unscoped buffers and put back at the exit contents; the generator register goes into the region invariant and comes back;
    nothing is owed; the kernel has no semaphore of its own. -/
def reg0 : Pipeline.RegionSeg (pcfgs (F := F)) adm (pdats m) () defs₀ vnone Lno lvno 0 where
  win := launch0.win.to₀
  block_pos := launch0.block_pos
  stage_whole := launch0.stage_whole
  K := PEmpty
  osem k := k.elim
  ho := Pipeline.OwnSemFacts.none _
  hbody c := (regionDat0_body (En0 m) c).loose
  hwaits := Pipeline.hwaits_of_owed_zero _ _ _ _ Lno lvno 0 fun _ _ => rfl
  pre c := iprop(StableHlo.held (c : Thread nD τ) (Pipeline.ucRefs τ sig) (B1 m c) ∗ Ride c)
  post c := iprop(StableHlo.held (c : Thread nD τ) (Pipeline.ucRefs τ sig) (B2 m c) ∗ Ride c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (regionDat0_in (En0 m) c)
    unfold Pipeline.ΦA
    iintro ⟨Hp, -, Hr⟩
    isplitl [Hr]; · iexact Hr
    iexact Hp
  hout c := by
    rw [Pipeline.ownSems0_none]
    refine BIBase.Entails.trans (regionDat0_out (En0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (Ex0 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B2`, left at `B3`. Its arrays are split out of
    the unscoped buffers and put back at the exit contents; the generator register goes into the region invariant and comes back;
    nothing is owed; the kernel has no semaphore of its own. -/
def reg1 : Pipeline.RegionSeg (pcfgs (F := F)) adm (pdats m) () defs₀ vnone Lno lvno 1 where
  win := launch1.win.to₀
  block_pos := launch1.block_pos
  stage_whole := launch1.stage_whole
  K := PEmpty
  osem k := k.elim
  ho := Pipeline.OwnSemFacts.none _
  hbody c := (regionDat1_body (En1 m) c).loose
  hwaits := Pipeline.hwaits_of_owed_zero _ _ _ _ Lno lvno 1 fun _ _ => rfl
  pre c := iprop(StableHlo.held (c : Thread nD τ) (Pipeline.ucRefs τ sig) (B2 m c) ∗ Ride c)
  post c := iprop(StableHlo.held (c : Thread nD τ) (Pipeline.ucRefs τ sig) (B3 m c) ∗ Ride c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (regionDat1_in (En1 m) c)
    unfold Pipeline.ΦA
    iintro ⟨Hp, -, Hr⟩
    isplitl [Hr]; · iexact Hr
    iexact Hp
  hout c := by
    rw [Pipeline.ownSems0_none]
    refine BIBase.Entails.trans (regionDat1_out (En1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (Ex1 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B4`, left at `B5`. Its arrays are split out of
    the unscoped buffers and put back at the exit contents; the generator register goes into the region invariant and comes back;
    nothing is owed; the kernel has no semaphore of its own. -/
def reg2 : Pipeline.RegionSeg (pcfgs (F := F)) adm (pdats m) () defs₀ vnone Lno lvno 2 where
  win := launch2.win.to₀
  block_pos := launch2.block_pos
  stage_whole := launch2.stage_whole
  K := PEmpty
  osem k := k.elim
  ho := Pipeline.OwnSemFacts.none _
  hbody c := (regionDat2_body (En2 m) c).loose
  hwaits := Pipeline.hwaits_of_owed_zero _ _ _ _ Lno lvno 2 fun _ _ => rfl
  pre c := iprop(StableHlo.held (c : Thread nD τ) (Pipeline.ucRefs τ sig) (B4 m c) ∗ Ride c)
  post c := iprop(StableHlo.held (c : Thread nD τ) (Pipeline.ucRefs τ sig) (B5 m c) ∗ Ride c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (regionDat2_in (En2 m) c)
    unfold Pipeline.ΦA
    iintro ⟨Hp, -, Hr⟩
    isplitl [Hr]; · iexact Hr
    iexact Hp
  hout c := by
    rw [Pipeline.ownSems0_none]
    refine BIBase.Entails.trans (regionDat2_out (En2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En2 m c) (Ex2 m c) ((pdats m 2 c).arrAt · cfg2.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `B5`, left at `B6`. Its arrays are split out of
    the unscoped buffers and put back at the exit contents; the generator register goes into the region invariant and comes back;
    nothing is owed; the kernel has no semaphore of its own. -/
def reg3 : Pipeline.RegionSeg (pcfgs (F := F)) adm (pdats m) () defs₀ vnone Lno lvno 3 where
  win := launch3.win.to₀
  block_pos := launch3.block_pos
  stage_whole := launch3.stage_whole
  K := PEmpty
  osem k := k.elim
  ho := Pipeline.OwnSemFacts.none _
  hbody c := (regionDat3_body (En3 m) c).loose
  hwaits := Pipeline.hwaits_of_owed_zero _ _ _ _ Lno lvno 3 fun _ _ => rfl
  pre c := iprop(StableHlo.held (c : Thread nD τ) (Pipeline.ucRefs τ sig) (B5 m c) ∗ Ride c)
  post c := iprop(StableHlo.held (c : Thread nD τ) (Pipeline.ucRefs τ sig) (B6 m c) ∗ Ride c)
  X c := iprop(∃ r, prngReg c r)
  Y c := iprop(∃ r, prngReg c r)
  Z c := Pipeline.unscopedRest (Ix := Unit) (Name := ℕ) (U := UR sig nD τ) (Lvl := ℕ) spec3 c (En3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (regionDat3_in (En3 m) c)
    unfold Pipeline.ΦA
    iintro ⟨Hp, -, Hr⟩
    isplitl [Hr]; · iexact Hr
    iexact Hp
  hout c := by
    rw [Pipeline.ownSems0_none]
    refine BIBase.Entails.trans (regionDat3_out (En3 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (En3 m c) (Ex3 m c) ((pdats m 3 c).arrAt · cfg3.N) (exit3_arr m c) (exit3_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `B7`, left at `B8`. Its arrays are split out of
    the unscoped buffers and put back at the exit contents; the generator register goes into the region invariant and comes back;
    nothing is owed; the kernel has no semaphore of its own. -/
def reg4 : Pipeline.RegionSeg (pcfgs (F := F)) adm (pdats m) () defs₀ vnone Lno lvno 4 where
  win := launch4.win.to₀
  block_pos := launch4.block_pos
  stage_whole := launch4.stage_whole
  K := PEmpty
  osem k := k.elim
  ho := Pipeline.OwnSemFacts.none _
  hbody c := (regionDat4_body (En4 m) c).loose
  hwaits := Pipeline.hwaits_of_owed_zero _ _ _ _ Lno lvno 4 fun _ _ => rfl
  pre c := iprop(StableHlo.held (c : Thread nD τ) (Pipeline.ucRefs τ sig) (B7 m c) ∗ Ride c)
  post c := iprop(StableHlo.held (c : Thread nD τ) (Pipeline.ucRefs τ sig) (B8 m c) ∗ Ride c)
  X c := iprop(∃ r, prngReg c r)
  Y c := iprop(∃ r, prngReg c r)
  Z c := Pipeline.unscopedRest (Ix := Unit) (Name := ℕ) (U := UR sig nD τ) (Lvl := ℕ) spec4 c (En4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (En4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (regionDat4_in (En4 m) c)
    unfold Pipeline.ΦA
    iintro ⟨Hp, -, Hr⟩
    isplitl [Hr]; · iexact Hr
    iexact Hp
  hout c := by
    rw [Pipeline.ownSems0_none]
    refine BIBase.Entails.trans (regionDat4_out (En4 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (En4 m c) (Ex4 m c) ((pdats m 4 c).arrAt · cfg4.N) (exit4_arr m c) (exit4_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven items in order: a host segment per stretch from its boundary's contents, a region per kernel call. -/
abbrev segs : List (Pipeline.Seg (pcfgs (F := F)) adm (pdats m) () defs₀ vnone Lno lvno) :=
  [ .host (hseg hostOps0 hostOps0_sub hostOps0_fresh (B0 m)),
    .region (reg0 m),
    .region (reg1 m),
    .host (hseg hostOps2 hostOps2_sub hostOps2_fresh (B3 m)),
    .region (reg2 m),
    .region (reg3 m),
    .host (hseg hostOps4 hostOps4_sub hostOps4_fresh (B6 m)),
    .region (reg4 m),
    .host (hseg hostOps5 hostOps5_sub hostOps5_fresh (B8 m)),
    .host (hseg hostOps5_1 hostOps5_1_sub hostOps5_1_fresh (B9 m)),
    .host (hseg hostOps5_2 hostOps5_2_sub hostOps5_2_fresh (B10 m)) ]

set_option backward.isDefEq.respectTransparency.types false in
/-- From any memory with zero counters, every weakly fair execution of @main on the TensorCores terminates, nothing
    faulting, and in every final state each unscoped buffer holds what the fold of the items leaves in it (`B11`). -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = B11 m c b) :=
  Pipeline.θ_run_regions_kit (pcfgs (F := F)) adm (pdats m) () cellOf_inj emb₁ defs₀ vnone Lno lvno m ρ main (segs m)
    (fun c Q => by
      rewrite [main_chain c, Pipeline.Seg.run_eq_chain,
        show (segs m).map Pipeline.Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          StableHlo.seq hostOps5_1,
          StableHlo.seq hostOps5_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Ride c)) (Tₙ := Tlast m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show (iprop(StableHlo.held (c : Thread nD τ) (Pipeline.ucRefs τ sig) (B11 m c) ∗ Ride c) : sProp 𝕄)
          ⊢ iprop(Tlast m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach Lno lvno fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m c b)
    (hfin := fun c s' => by
      iintro ⟨⟨Hh, -⟩, HSI⟩
      unfold StableHlo.held
      imodintro
      iapply (pointsTo_read_all (Pipeline.ucRefs τ sig) (fun b => (((c : Thread nD τ)).1, b)) (B11 m c) s')
      isplitl [Hh] <;> iassumption)
    (hQ := fun s h => h)

/-! ## What the items leave unchanged -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Region 0 changes no buffer but its output array: an input window's array ends as entered, a buffer no window stages is bypassed. -/
theorem B2_keep (c : Dev nD) (b : Ref sig .tc) (hb : b ≠ main_v25) : B2 m c b = B1 m c b := by
  by_cases h : ∃ w, Pipeline.arrRef spec0 w = b
  · obtain ⟨w, rfl⟩ := h
    fin_cases w
    · exact (B2_arr m c 0).trans (((regionDat0 (En0 m) c).arrAt_in 0 rfl _).trans (regionDat0_A (En0 m) c 0))
    · exact (B2_arr m c 1).trans (((regionDat0 (En0 m) c).arrAt_in 1 rfl _).trans (regionDat0_A (En0 m) c 1))
    · exact (B2_arr m c 2).trans (((regionDat0 (En0 m) c).arrAt_in 2 rfl _).trans (regionDat0_A (En0 m) c 2))
    · exact absurd rfl hb
  · exact B2_of_ne m c b fun w e => h ⟨w, e⟩

/-- Region 1 changes no buffer but its output array: an input window's array ends as entered, a buffer no window stages is bypassed. -/
theorem B3_keep (c : Dev nD) (b : Ref sig .tc) (hb : b ≠ main_v26) : B3 m c b = B2 m c b := by
  by_cases h : ∃ w, Pipeline.arrRef spec1 w = b
  · obtain ⟨w, rfl⟩ := h
    fin_cases w
    · exact (B3_arr m c 0).trans (((regionDat1 (En1 m) c).arrAt_in 0 rfl _).trans (regionDat1_A (En1 m) c 0))
    · exact (B3_arr m c 1).trans (((regionDat1 (En1 m) c).arrAt_in 1 rfl _).trans (regionDat1_A (En1 m) c 1))
    · exact (B3_arr m c 2).trans (((regionDat1 (En1 m) c).arrAt_in 2 rfl _).trans (regionDat1_A (En1 m) c 2))
    · exact absurd rfl hb
  · exact B3_of_ne m c b fun w e => h ⟨w, e⟩

/-- Region 2 changes no buffer but its output array: an input window's array ends as entered, a buffer no window stages is bypassed. -/
theorem B5_keep (c : Dev nD) (b : Ref sig .tc) (hb : b ≠ main_v56) : B5 m c b = B4 m c b := by
  by_cases h : ∃ w, Pipeline.arrRef spec2 w = b
  · obtain ⟨w, rfl⟩ := h
    fin_cases w
    · exact (B5_arr m c 0).trans (((regionDat2 (En2 m) c).arrAt_in 0 rfl _).trans (regionDat2_A (En2 m) c 0))
    · exact (B5_arr m c 1).trans (((regionDat2 (En2 m) c).arrAt_in 1 rfl _).trans (regionDat2_A (En2 m) c 1))
    · exact (B5_arr m c 2).trans (((regionDat2 (En2 m) c).arrAt_in 2 rfl _).trans (regionDat2_A (En2 m) c 2))
    · exact absurd rfl hb
  · exact B5_of_ne m c b fun w e => h ⟨w, e⟩

/-- Region 3 changes no buffer but its output array: an input window's array ends as entered, a buffer no window stages is bypassed. -/
theorem B6_keep (c : Dev nD) (b : Ref sig .tc) (hb : b ≠ main_v57) : B6 m c b = B5 m c b := by
  by_cases h : ∃ w, Pipeline.arrRef spec3 w = b
  · obtain ⟨w, rfl⟩ := h
    fin_cases w
    · exact (B6_arr m c 0).trans (((regionDat3 (En3 m) c).arrAt_in 0 rfl _).trans (regionDat3_A (En3 m) c 0))
    · exact (B6_arr m c 1).trans (((regionDat3 (En3 m) c).arrAt_in 1 rfl _).trans (regionDat3_A (En3 m) c 1))
    · exact (B6_arr m c 2).trans (((regionDat3 (En3 m) c).arrAt_in 2 rfl _).trans (regionDat3_A (En3 m) c 2))
    · exact absurd rfl hb
  · exact B6_of_ne m c b fun w e => h ⟨w, e⟩

/-- Region 4 changes no buffer but its output array: an input window's array ends as entered, a buffer no window stages is bypassed. -/
theorem B8_keep (c : Dev nD) (b : Ref sig .tc) (hb : b ≠ main_v87) : B8 m c b = B7 m c b := by
  by_cases h : ∃ w, Pipeline.arrRef spec4 w = b
  · obtain ⟨w, rfl⟩ := h
    fin_cases w
    · exact (B8_arr m c 0).trans (((regionDat4 (En4 m) c).arrAt_in 0 rfl _).trans (regionDat4_A (En4 m) c 0))
    · exact (B8_arr m c 1).trans (((regionDat4 (En4 m) c).arrAt_in 1 rfl _).trans (regionDat4_A (En4 m) c 1))
    · exact (B8_arr m c 2).trans (((regionDat4 (En4 m) c).arrAt_in 2 rfl _).trans (regionDat4_A (En4 m) c 2))
    · exact absurd rfl hb
  · exact B8_of_ne m c b fun w e => h ⟨w, e⟩

/-- A buffer that no host operation writes and that is no region's output ends as launched. -/
theorem B11_kept (c : Dev nD) (r : Ref sig .tc) (h0 : r ∉ hostOps0_W) (h2 : r ∉ hostOps2_W) (h4 : r ∉ hostOps4_W)
    (h5 : r ∉ hostOps5_W) (h51 : r ∉ hostOps5_1_W) (h52 : r ∉ hostOps5_2_W)
    (n0 : r ≠ main_v25) (n1 : r ≠ main_v26) (n2 : r ≠ main_v56) (n3 : r ≠ main_v57) (n4 : r ≠ main_v87) :
    B11 m c r = m ((c : Thread nD τ).loc r) :=
  (StableHlo.after_of_writes_sub hostOps5_2 _ hostOps5_2_writes h52).trans <|
  (StableHlo.after_of_writes_sub hostOps5_1 _ hostOps5_1_writes h51).trans <|
  (StableHlo.after_of_writes_sub hostOps5 _ hostOps5_writes h5).trans <|
  (B8_keep m c r n4).trans <|
  (StableHlo.after_of_writes_sub hostOps4 _ hostOps4_writes h4).trans <|
  (B6_keep m c r n3).trans <| (B5_keep m c r n2).trans <|
  (StableHlo.after_of_writes_sub hostOps2 _ hostOps2_writes h2).trans <|
  (B3_keep m c r n1).trans <| (B2_keep m c r n0).trans <|
  (StableHlo.after_of_writes_sub hostOps0 _ hostOps0_writes h0).trans rfl

/-- Each argument array ends as launched. -/
theorem B11_arg (c : Dev nD) (r : Ref sig .tc) (hr : r ∈ ([main_arg0, main_arg1, main_arg2, main_arg3, main_arg4, main_arg5, main_arg6, main_arg7, main_arg8, main_arg9, main_arg10] : List (Ref sig .tc))) :
    B11 m c r = m ((c : Thread nD τ).loc r) := by
  simp only [List.mem_cons, List.mem_nil_iff, or_false] at hr
  rcases hr with rfl | rfl | rfl | rfl | rfl | rfl | rfl | rfl | rfl | rfl | rfl <;>
    exact B11_kept m c _ (by decide) (by decide) (by decide) (by decide) (by decide) (by decide) (by decide) (by decide) (by decide) (by decide) (by decide)

/-- THE FRAME: every weakly fair execution of @main terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (B11_arg m c main_arg0 (by decide)),
     (h c _ (mem_uc main_arg1 (by decide))).trans (B11_arg m c main_arg1 (by decide)),
     (h c _ (mem_uc main_arg2 (by decide))).trans (B11_arg m c main_arg2 (by decide)),
     (h c _ (mem_uc main_arg3 (by decide))).trans (B11_arg m c main_arg3 (by decide)),
     (h c _ (mem_uc main_arg4 (by decide))).trans (B11_arg m c main_arg4 (by decide)),
     (h c _ (mem_uc main_arg5 (by decide))).trans (B11_arg m c main_arg5 (by decide)),
     (h c _ (mem_uc main_arg6 (by decide))).trans (B11_arg m c main_arg6 (by decide)),
     (h c _ (mem_uc main_arg7 (by decide))).trans (B11_arg m c main_arg7 (by decide)),
     (h c _ (mem_uc main_arg8 (by decide))).trans (B11_arg m c main_arg8 (by decide)),
     (h c _ (mem_uc main_arg9 (by decide))).trans (B11_arg m c main_arg9 (by decide)),
     (h c _ (mem_uc main_arg10 (by decide))).trans (B11_arg m c main_arg10 (by decide))⟩) (run_all m ρ)

end Cert.Kernel.Hand

end
-- ==== Proof.KI.R0Kit.lean ====
import proofs.«137056_j83880711291258_2_alg».proof.Proof.Gen.KernelIdeal.Launch
import proofs.«137056_j83880711291258_2_alg».proof.Proof.Gen.KernelIdeal.Skeleton
import proofs.«137056_j83880711291258_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the first matmul-with-bias call, 2 x 25 grid): what its three whole-body runs share

The kernel accumulates `x · wᵀ` over the second grid axis `k` into a scratch accumulator: at `k = 0` the
accumulator is zeroed first, at every `k` the block product is added, at `k = 24` the accumulator plus the bias
is stored to the output block. Everything is stated at a parameter `V`, the buffer contents on entry. -/

-- the buffer contents when the region is entered
variable (V : (c : Dev nD) → (b : Ref sig .tc) → Buf (Elt F) ((c : Thread nD τ).loc b))

/-! ## The windows' blocks -/

/-- Window `w`'s block at point `t`, read off its array as the region finds it. -/
def blockIn0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The `x` window's current staging buffer holds its block at every point, for any proof data whose array is the
    entry contents and whose body leaves the block in place: unfetched, the block index has not moved. -/
theorem heldIn0_0_of {c : Dev nD} (dat : Dat τ (Elt F) Unit ℕ (UR sig nD τ) ℕ cfg0 c) (hA : dat.A 0 = V c (Pipeline.arrRef spec0 0))
    (hafter : ∀ t, dat.after 0 t = blockIn0 V c 0 t) (t : Fin cfg0.N) (d) : dat.before 0 t d = blockIn0 V c 0 t :=
  (dat.before_in_eq_fetched 0 rfl (fun _ => rfl) (fun _ _ _ => rfl) (fun t => by rw [hafter]; unfold Dat.blockOf blockIn0; rw [hA]; try rfl) t d).trans
    (by unfold Dat.fetched Dat.blockOf blockIn0; rw [hA]; try rfl)

/-- The same for the `w` window. -/
theorem heldIn0_1_of {c : Dev nD} (dat : Dat τ (Elt F) Unit ℕ (UR sig nD τ) ℕ cfg0 c) (hA : dat.A 1 = V c (Pipeline.arrRef spec0 1))
    (hafter : ∀ t, dat.after 1 t = blockIn0 V c 1 t) (t : Fin cfg0.N) (d) : dat.before 1 t d = blockIn0 V c 1 t :=
  (dat.before_in_eq_fetched 1 rfl (fun _ => rfl) (fun _ _ _ => rfl) (fun t => by rw [hafter]; unfold Dat.blockOf blockIn0; rw [hA]; try rfl) t d).trans
    (by unfold Dat.fetched Dat.blockOf blockIn0; rw [hA]; try rfl)

/-- The same for the bias window, which is fetched only where `k = 0`: between fetches its block index stays. -/
theorem heldIn0_2_of {c : Dev nD} (dat : Dat τ (Elt F) Unit ℕ (UR sig nD τ) ℕ cfg0 c) (hA : dat.A 2 = V c (Pipeline.arrRef spec0 2))
    (hafter : ∀ t, dat.after 2 t = blockIn0 V c 2 t) (t : Fin cfg0.N) (d) : dat.before 2 t d = blockIn0 V c 2 t :=
  (dat.before_in_eq_fetched 2 rfl (fun _ => rfl) (fun _ _ _ => rfl) (fun t => by rw [hafter]; unfold Dat.blockOf blockIn0; rw [hA]; try rfl) t d).trans
    (by unfold Dat.fetched Dat.blockOf blockIn0; rw [hA]; try rfl)

/-! ## The two conditions on the reduction coordinate -/

/-- "This is the first reduction step" (`k = 0`), as the body computes it from the grid coordinates. -/
abbrev atFirstK0 (i : grid0.Coords) : Prop := (Scalar.cmpi .ne (Scalar.extui (Scalar.cmpi .eq (BitVec.ofNat 32 (i 1).val) 0#32)) 0#32) = 1#1
/-- It holds at the points ≡ 0 (mod 25). -/
theorem atFirstK0_iff : ∀ t : Fin cfg0.N, atFirstK0 (grid0.coords t) ↔ t.val % 25 = 0 :=
  (by decide +kernel : ∀ t : Fin grid0.N, atFirstK0 (grid0.coords t) ↔ t.val % 25 = 0)

/-- "This is the last reduction step" (`k = 24`), as the body computes it. -/
abbrev atLastK0 (i : grid0.Coords) : Prop := k0_cond2 i = 1#1
/-- It holds at the points ≡ 24 (mod 25). -/
theorem atLastK0_iff : ∀ t : Fin cfg0.N, atLastK0 (grid0.coords t) ↔ t.val % 25 = 24 :=
  (by decide +kernel : ∀ t : Fin grid0.N, atLastK0 (grid0.coords t) ↔ t.val % 25 = 24)

/-! ## Where the windows are idle -/

/-- The three input windows are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last reduction step the output window is idle: nothing is stored into it, -/
theorem idle0_3 : ∀ t : Fin cfg0.N, ¬atLastK0 (grid0.coords t) → cfg0.idle 3 (grid0.coords t) = true := by decide +kernel
/-- and its block is not written back. -/
theorem unflushed0_3 : ∀ t : Fin cfg0.N, ¬atLastK0 (grid0.coords t) → (cfg0.win 3).flush t = false := by decide +kernel
/-- At the last reduction step it is live. -/
theorem live0_3 : ∀ t : Fin cfg0.N, atLastK0 (grid0.coords t) → cfg0.idle 3 (grid0.coords t) = false := by decide +kernel

/-! ## The memrefs the body is called with -/

/-- Each window's current staging memref at point `t`, as the pipeline passes it, and its wholeness. -/
abbrev stg0_0 (t : Fin cfg0.N) : Memref sig .tc .vmem S64x1280 .f32 := win0_0.stage (cfg0.slots t 0)
abbrev stgWhole0_0 (t : Fin cfg0.N) : (stg0_0 t).IsWhole := hstage0_0 ((cfg0.slots t 0).cast nbuf0_0)
abbrev stg0_1 (t : Fin cfg0.N) : Memref sig .tc .vmem S2048x1280 .f32 := win0_1.stage (cfg0.slots t 1)
abbrev stgWhole0_1 (t : Fin cfg0.N) : (stg0_1 t).IsWhole := hstage0_1 ((cfg0.slots t 1).cast nbuf0_1)
abbrev stg0_2 (t : Fin cfg0.N) : Memref sig .tc .vmem S1x2048 .f32 := win0_2.stage (cfg0.slots t 2)
abbrev stgWhole0_2 (t : Fin cfg0.N) : (stg0_2 t).IsWhole := hstage0_2 ((cfg0.slots t 2).cast nbuf0_2)
abbrev stg0_3 (t : Fin cfg0.N) : Memref sig .tc .vmem S64x2048 .f32 := win0_3.stage (cfg0.slots t 3)
abbrev stgWhole0_3 (t : Fin cfg0.N) : (stg0_3 t).IsWhole := hstage0_3 ((cfg0.slots t 3).cast nbuf0_3)
/-- The accumulator: a whole scoped buffer of the kernel's own, passed beside the windows. -/
abbrev accRef0 : Memref sig .tc .vmem S64x2048 .f32 := Memref.whole cc0_scratch0
/-- The accumulator as a view: what it holds is stated through it. -/
abbrev accView0 : View sig .tc .vmem S64x2048 .f32 := accRef0.view
/-- One staging buffer of the output window, through which its contents are stated (the choice does not matter). -/
abbrev outView0 : View sig .tc .vmem S64x2048 .f32 := (Memref.whole cc0_stg3_0 : Memref sig .tc .vmem S64x2048 .f32).view

/-- What the launch hands the region, with the accumulator as a memref owned at some contents, the other scoped
    buffers unopened, and the generator register at some state. -/
theorem entryInv0_eq (c : Dev nD) :
    (Pipeline.ΦA spec0 c : sProp 𝕄)
      = iprop(iprop(iprop((∃ d, owns (c : Thread nD τ) accRef0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [accRef0, owns_whole]; try rfl

end Cert.KernelIdeal.Hand

end
-- ==== Proof.KI.R0First.lean ====
import proofs.«137056_j83880711291258_2_alg».proof.Proof.KI.R0Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, the first reduction step (`k = 0`): the whole body's run

The accumulator is zeroed, then the block product is added to it; the output block is not touched. -/

set_option maxHeartbeats 1000000 in
/-- At `k = 0` and `k ≠ 24`: on whole memrefs — the three inputs at their contents, the output's at contents handed back
    untouched, the accumulator at anything — the body runs to the continuation holding the inputs and the output as they
    were and the accumulator with the pieces its two stores wrote (last first). The pieces are the witness the run finds. -/
noncomputable def firstRun0 (c : Dev nD) (i : grid0.Coords) (arg2 : Memref sig .tc .vmem S64x1280 .f32) (harg2 : arg2.IsWhole) (arg3 : Memref sig .tc .vmem S2048x1280 .f32) (harg3 : arg3.IsWhole)
    (arg4 : Memref sig .tc .vmem S1x2048 .f32) (harg4 : arg4.IsWhole) (arg5 : Memref sig .tc .vmem S64x2048 .f32) (harg5 : arg5.IsWhole)
    (arg6 : Memref sig .tc .vmem S64x2048 .f32) (harg6 : arg6.IsWhole)
    (hc0 : atFirstK0 i) (hc1 : ¬atLastK0 i)
    (x0 : Vec F S64x1280 .f32) (x1 : Vec F S2048x1280 .f32) (x2 : Vec F S1x2048 .f32) :
    { Lacc : List (View.Piece (Elt F) S64x2048 .f32) //
      ∀ (y3 : Vec F S64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare y3 ∗ (∃ f, arg6.view.loc (c : Thread nD τ) ↦[arg6.view.set]{fullShare} arg6.view.writes (Elt F) f Lacc)) -∗ K ⟨⟩))
          ⊢ wp frame (wpE (defs₀ (F := F)) Variants.none c none) E (cc0__matmul_bias_kernel i arg2 harg2 arg3 harg3 arg4 harg4 arg5 harg5 arg6 harg6) K } := by
  refine ⟨?_, fun y3 E K => ?run⟩
  case run =>
    rw [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KI.R0Mid.lean ====
import proofs.«137056_j83880711291258_2_alg».proof.Proof.KI.R0Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, a middle reduction step (`0 < k < 24`): the whole body's run

The block product is added to the accumulator the step before left; the output block is not touched. -/

set_option maxHeartbeats 1000000 in
/-- At `k ≠ 0` and `k ≠ 24`: on whole memrefs — the three inputs at their contents, the output's at contents handed back
    untouched, the accumulator at what the step before left — the body runs to the continuation holding the inputs and the
    output as they were and the accumulator with the piece its store wrote. The piece is the witness the run finds. -/
noncomputable def midRun0 (c : Dev nD) (i : grid0.Coords) (arg2 : Memref sig .tc .vmem S64x1280 .f32) (harg2 : arg2.IsWhole) (arg3 : Memref sig .tc .vmem S2048x1280 .f32) (harg3 : arg3.IsWhole)
    (arg4 : Memref sig .tc .vmem S1x2048 .f32) (harg4 : arg4.IsWhole) (arg5 : Memref sig .tc .vmem S64x2048 .f32) (harg5 : arg5.IsWhole)
    (arg6 : Memref sig .tc .vmem S64x2048 .f32) (harg6 : arg6.IsWhole)
    (hc0 : ¬atFirstK0 i) (hc1 : ¬atLastK0 i)
    (x0 : Vec F S64x1280 .f32) (x1 : Vec F S2048x1280 .f32) (x2 : Vec F S1x2048 .f32) (acc : Vec F S64x2048 .f32) :
    { Lacc : List (View.Piece (Elt F) S64x2048 .f32) //
      ∀ (y3 : Vec F S64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare acc
            ∗ (iprop(owns (c : Thread nD τ) arg2 fullShare x0 ∗ owns (c : Thread nD τ) arg3 fullShare x1 ∗ owns (c : Thread nD τ) arg4 fullShare x2 ∗ owns (c : Thread nD τ) arg5 fullShare y3 ∗ (∃ f, arg6.view.loc (c : Thread nD τ) ↦[arg6.view.set]{fullShare} arg6.view.writes (Elt F) f Lacc)) -∗ K ⟨⟩))
          ⊢ wp frame (wpE (defs₀ (F := F)) Variants.none c none) E (cc0__matmul_bias_kernel i arg2 harg2 arg3 harg3 arg4 harg4 arg5 harg5 arg6 harg6) K } := by
  refine ⟨?_, fun y3 E K => ?run⟩
  case run =>
    rw [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KI.R0Last.lean ====
import proofs.«137056_j83880711291258_2_alg».proof.Proof.KI.R0Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, the last reduction step (`k = 24`): the whole body's run

The block product is added to the accumulator the step before left, then the accumulator plus the bias row is
stored to the output block. -/

set_option maxHeartbeats 1000000 in
/-- At `k ≠ 0` and `k = 24`: on whole memrefs — the three inputs at their contents, the output's at anything, the
    accumulator at what the step before left — the body runs to the continuation holding the inputs as they were, the
    output's buffer with the piece its store wrote and the accumulator with the piece its store wrote. The pieces are the
    witness the run finds. -/
noncomputable def lastRun0 (c : Dev nD) (i : grid0.Coords) (arg2 : Memref sig .tc .vmem S64x1280 .f32) (harg2 : arg2.IsWhole) (arg3 : Memref sig .tc .vmem S2048x1280 .f32) (harg3 : arg3.IsWhole)
    (arg4 : Memref sig .tc .vmem S1x2048 .f32) (harg4 : arg4.IsWhole) (arg5 : Memref sig .tc .vmem S64x2048 .f32) (harg5 : arg5.IsWhole)
    (arg6 : Memref sig .tc .vmem S64x2048 .f32) (harg6 : arg6.IsWhole)
    (hc0 : ¬atFirstK0 i) (hc1 : atLastK0 i)
    (x0 : Vec F S64x1280 .f32) (x1 : Vec F S2048x1280 .f32) (x2 : Vec F S1x2048 .f32) (acc : Vec F S64x2048 .f32) :
    Σ' (Lout : List (View.Piece (Elt F) S64x2048 .f32)), { Lacc : List (View.Piece (Elt F) S64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare acc
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f Lout) ∗ (∃ f, arg6.view.loc (c : Thread nD τ) ↦[arg6.view.set]{fullShare} arg6.view.writes (Elt F) f Lacc)) -∗ K ⟨⟩))
          ⊢ wp frame (wpE (defs₀ (F := F)) Variants.none c none) E (cc0__matmul_bias_kernel i arg2 harg2 arg3 harg3 arg4 harg4 arg5 harg5 arg6 harg6) K } := by
  refine ⟨?_, ?_, fun E K => ?run⟩
  case run =>
    rw [cc0__matmul_bias_kernel_eq_skeleton]; unfold cc0__matmul_bias_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.KI.R0.lean ====
import proofs.«137056_j83880711291258_2_alg».proof.Proof.KI.R0First
import proofs.«137056_j83880711291258_2_alg».proof.Proof.KI.R0Mid
import proofs.«137056_j83880711291258_2_alg».proof.Proof.KI.R0Last

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the first matmul-with-bias call): the proof data, the body obligation, and what the body leaves

From the three whole-body runs: what each leaves in the accumulator and in the output block (the pieces the runs
found, read back), the accumulator after each grid point as a recursion over the points, the invariant that carries it
from point to point, and the pipeline's proof data with its body obligation, all at a parameter `V` — the buffer
contents on entry. Then the same contents spelt through the kernel's arithmetic. -/

-- the buffer contents when the region is entered
variable (V : (c : Dev nD) → (b : Ref sig .tc) → Buf (Elt F) ((c : Thread nD τ).loc b))

/-! ## What each step leaves -/

/-- The first step's two stores cover the accumulator. -/
theorem accCoverFirst0 (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : atFirstK0 i) (hc1 : ¬atLastK0 i) (x0 : Vec F S64x1280 .f32) (x1 : Vec F S2048x1280 .f32) (x2 : Vec F S1x2048 .f32) (y : S64x2048.Idx) :
    ∃ pc ∈ (firstRun0 c i arg2 harg2 arg3 harg3 arg4 harg4 arg5 harg5 arg6 harg6 hc0 hc1 x0 x1 x2).1, y ∈ pc.1.set :=
  View.cover_of_tiledL (firstRun0 c i arg2 harg2 arg3 harg3 arg4 harg4 arg5 harg5 arg6 harg6 hc0 hc1 x0 x1 x2).1 S64x2048.size (by sl_kernel_rfl) y

/-- What the first step leaves in the accumulator: its pieces read back. -/
def accLeftFirst0 (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : atFirstK0 i) (hc1 : ¬atLastK0 i) (x0 : Vec F S64x1280 .f32) (x1 : Vec F S2048x1280 .f32) (x2 : Vec F S1x2048 .f32) : Vec F S64x2048 .f32 :=
  accView0.read (Elt F) (accView0.writes (Elt F) accView0.junk (firstRun0 c i arg2 harg2 arg3 harg3 arg4 harg4 arg5 harg5 arg6 harg6 hc0 hc1 x0 x1 x2).1)

/-- A middle step's store covers the accumulator. -/
theorem accCoverMid0 (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬atFirstK0 i) (hc1 : ¬atLastK0 i) (x0 : Vec F S64x1280 .f32) (x1 : Vec F S2048x1280 .f32) (x2 : Vec F S1x2048 .f32) (acc : Vec F S64x2048 .f32) (y : S64x2048.Idx) :
    ∃ pc ∈ (midRun0 c i arg2 harg2 arg3 harg3 arg4 harg4 arg5 harg5 arg6 harg6 hc0 hc1 x0 x1 x2 acc).1, y ∈ pc.1.set :=
  View.cover_of_tiledL (midRun0 c i arg2 harg2 arg3 harg3 arg4 harg4 arg5 harg5 arg6 harg6 hc0 hc1 x0 x1 x2 acc).1 S64x2048.size (by sl_kernel_rfl) y

/-- What a middle step leaves in the accumulator. -/
def accLeftMid0 (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬atFirstK0 i) (hc1 : ¬atLastK0 i) (x0 : Vec F S64x1280 .f32) (x1 : Vec F S2048x1280 .f32) (x2 : Vec F S1x2048 .f32) (acc : Vec F S64x2048 .f32) : Vec F S64x2048 .f32 :=
  accView0.read (Elt F) (accView0.writes (Elt F) accView0.junk (midRun0 c i arg2 harg2 arg3 harg3 arg4 harg4 arg5 harg5 arg6 harg6 hc0 hc1 x0 x1 x2 acc).1)

/-- The last step's store to the accumulator covers it, -/
theorem accCoverLast0 (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬atFirstK0 i) (hc1 : atLastK0 i) (x0 : Vec F S64x1280 .f32) (x1 : Vec F S2048x1280 .f32) (x2 : Vec F S1x2048 .f32) (acc : Vec F S64x2048 .f32) (y : S64x2048.Idx) :
    ∃ pc ∈ (lastRun0 c i arg2 harg2 arg3 harg3 arg4 harg4 arg5 harg5 arg6 harg6 hc0 hc1 x0 x1 x2 acc).2.1, y ∈ pc.1.set :=
  View.cover_of_tiledL (lastRun0 c i arg2 harg2 arg3 harg3 arg4 harg4 arg5 harg5 arg6 harg6 hc0 hc1 x0 x1 x2 acc).2.1 S64x2048.size (by sl_kernel_rfl) y

/-- and its store to the output block covers that. -/
theorem outCoverLast0 (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬atFirstK0 i) (hc1 : atLastK0 i) (x0 : Vec F S64x1280 .f32) (x1 : Vec F S2048x1280 .f32) (x2 : Vec F S1x2048 .f32) (acc : Vec F S64x2048 .f32) (y : S64x2048.Idx) :
    ∃ pc ∈ (lastRun0 c i arg2 harg2 arg3 harg3 arg4 harg4 arg5 harg5 arg6 harg6 hc0 hc1 x0 x1 x2 acc).1, y ∈ pc.1.set :=
  View.cover_of_tiledL (lastRun0 c i arg2 harg2 arg3 harg3 arg4 harg4 arg5 harg5 arg6 harg6 hc0 hc1 x0 x1 x2 acc).1 S64x2048.size (by sl_kernel_rfl) y

/-- What the last step leaves in the accumulator, -/
def accLeftLast0 (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬atFirstK0 i) (hc1 : atLastK0 i) (x0 : Vec F S64x1280 .f32) (x1 : Vec F S2048x1280 .f32) (x2 : Vec F S1x2048 .f32) (acc : Vec F S64x2048 .f32) : Vec F S64x2048 .f32 :=
  accView0.read (Elt F) (accView0.writes (Elt F) accView0.junk (lastRun0 c i arg2 harg2 arg3 harg3 arg4 harg4 arg5 harg5 arg6 harg6 hc0 hc1 x0 x1 x2 acc).2.1)

/-- and in the output block. -/
def outLeftLast0 (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬atFirstK0 i) (hc1 : atLastK0 i) (x0 : Vec F S64x1280 .f32) (x1 : Vec F S2048x1280 .f32) (x2 : Vec F S1x2048 .f32) (acc : Vec F S64x2048 .f32) : Vec F S64x2048 .f32 :=
  outView0.read (Elt F) (outView0.writes (Elt F) outView0.junk (lastRun0 c i arg2 harg2 arg3 harg3 arg4 harg4 arg5 harg5 arg6 harg6 hc0 hc1 x0 x1 x2 acc).1)

/-! ## The accumulator after each grid point -/

/-- The accumulator after the body at position `n`: the step the position's reduction coordinate selects, run at the
    point's memrefs and input blocks, a step that adds onto the accumulator at what position `n - 1` left. No position
    is both a first and a last step. -/
def accAfter0 (c : Dev nD) : (n : ℕ) → n < cfg0.N → Vec F S64x2048 .f32
  | 0, hn => accLeftFirst0 c (grid0.coords ⟨0, hn⟩) (stg0_0 ⟨0, hn⟩) (stgWhole0_0 ⟨0, hn⟩) (stg0_1 ⟨0, hn⟩) (stgWhole0_1 ⟨0, hn⟩) (stg0_2 ⟨0, hn⟩) (stgWhole0_2 ⟨0, hn⟩) (stg0_3 ⟨0, hn⟩) (stgWhole0_3 ⟨0, hn⟩) accRef0 (Memref.isWhole_whole _) ((atFirstK0_iff ⟨0, hn⟩).mpr (Nat.zero_mod _)) (fun h => (fun h => by (try dsimp only at h); omega) ((atLastK0_iff ⟨0, hn⟩).mp h)) (blockIn0 V c 0 ⟨0, hn⟩) (blockIn0 V c 1 ⟨0, hn⟩) (blockIn0 V c 2 ⟨0, hn⟩)
  | n + 1, hn =>
    if h0 : (n + 1) % 25 = 0 then
      if h1 : (n + 1) % 25 = 24 then
        False.elim (by omega)
      else
        accLeftFirst0 c (grid0.coords ⟨n + 1, hn⟩) (stg0_0 ⟨n + 1, hn⟩) (stgWhole0_0 ⟨n + 1, hn⟩) (stg0_1 ⟨n + 1, hn⟩) (stgWhole0_1 ⟨n + 1, hn⟩) (stg0_2 ⟨n + 1, hn⟩) (stgWhole0_2 ⟨n + 1, hn⟩) (stg0_3 ⟨n + 1, hn⟩) (stgWhole0_3 ⟨n + 1, hn⟩) accRef0 (Memref.isWhole_whole _) ((atFirstK0_iff ⟨n + 1, hn⟩).mpr h0) (fun h => h1 ((atLastK0_iff ⟨n + 1, hn⟩).mp h)) (blockIn0 V c 0 ⟨n + 1, hn⟩) (blockIn0 V c 1 ⟨n + 1, hn⟩) (blockIn0 V c 2 ⟨n + 1, hn⟩)
    else
      if h1 : (n + 1) % 25 = 24 then
        accLeftLast0 c (grid0.coords ⟨n + 1, hn⟩) (stg0_0 ⟨n + 1, hn⟩) (stgWhole0_0 ⟨n + 1, hn⟩) (stg0_1 ⟨n + 1, hn⟩) (stgWhole0_1 ⟨n + 1, hn⟩) (stg0_2 ⟨n + 1, hn⟩) (stgWhole0_2 ⟨n + 1, hn⟩) (stg0_3 ⟨n + 1, hn⟩) (stgWhole0_3 ⟨n + 1, hn⟩) accRef0 (Memref.isWhole_whole _) (fun h => h0 ((atFirstK0_iff ⟨n + 1, hn⟩).mp h)) ((atLastK0_iff ⟨n + 1, hn⟩).mpr h1) (blockIn0 V c 0 ⟨n + 1, hn⟩) (blockIn0 V c 1 ⟨n + 1, hn⟩) (blockIn0 V c 2 ⟨n + 1, hn⟩) (accAfter0 c n (Nat.lt_of_succ_lt hn))
      else
        accLeftMid0 c (grid0.coords ⟨n + 1, hn⟩) (stg0_0 ⟨n + 1, hn⟩) (stgWhole0_0 ⟨n + 1, hn⟩) (stg0_1 ⟨n + 1, hn⟩) (stgWhole0_1 ⟨n + 1, hn⟩) (stg0_2 ⟨n + 1, hn⟩) (stgWhole0_2 ⟨n + 1, hn⟩) (stg0_3 ⟨n + 1, hn⟩) (stgWhole0_3 ⟨n + 1, hn⟩) accRef0 (Memref.isWhole_whole _) (fun h => h0 ((atFirstK0_iff ⟨n + 1, hn⟩).mp h)) (fun h => h1 ((atLastK0_iff ⟨n + 1, hn⟩).mp h)) (blockIn0 V c 0 ⟨n + 1, hn⟩) (blockIn0 V c 1 ⟨n + 1, hn⟩) (blockIn0 V c 2 ⟨n + 1, hn⟩) (accAfter0 c n (Nat.lt_of_succ_lt hn))

/-- At a first step: that step's contents. -/
theorem accAfter0_first (c : Dev nD) (t : Fin cfg0.N) (h0 : t.val % 25 = 0) (h1 : ¬t.val % 25 = 24) :
    accAfter0 V c t.val t.isLt = accLeftFirst0 c (grid0.coords t) (stg0_0 t) (stgWhole0_0 t) (stg0_1 t) (stgWhole0_1 t) (stg0_2 t) (stgWhole0_2 t) (stg0_3 t) (stgWhole0_3 t) accRef0 (Memref.isWhole_whole _) ((atFirstK0_iff t).mpr h0) (fun h => h1 ((atLastK0_iff t).mp h)) (blockIn0 V c 0 t) (blockIn0 V c 1 t) (blockIn0 V c 2 t) := by
  obtain ⟨n, hn⟩ := t
  cases n with
  | zero => exact rfl
  | succ n => exact (dif_pos h0).trans ((dif_neg h1).trans rfl)

/-- At a middle step: that step's contents over what the point before left. -/
theorem accAfter0_mid (c : Dev nD) (t : Fin cfg0.N) (h0 : ¬t.val % 25 = 0) (h1 : ¬t.val % 25 = 24) :
    accAfter0 V c t.val t.isLt = accLeftMid0 c (grid0.coords t) (stg0_0 t) (stgWhole0_0 t) (stg0_1 t) (stgWhole0_1 t) (stg0_2 t) (stgWhole0_2 t) (stg0_3 t) (stgWhole0_3 t) accRef0 (Memref.isWhole_whole _) (fun h => h0 ((atFirstK0_iff t).mp h)) (fun h => h1 ((atLastK0_iff t).mp h)) (blockIn0 V c 0 t) (blockIn0 V c 1 t) (blockIn0 V c 2 t) (accAfter0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a last step: that step's contents over what the point before left. -/
theorem accAfter0_last (c : Dev nD) (t : Fin cfg0.N) (h0 : ¬t.val % 25 = 0) (h1 : t.val % 25 = 24) :
    accAfter0 V c t.val t.isLt = accLeftLast0 c (grid0.coords t) (stg0_0 t) (stgWhole0_0 t) (stg0_1 t) (stgWhole0_1 t) (stg0_2 t) (stgWhole0_2 t) (stg0_3 t) (stgWhole0_3 t) accRef0 (Memref.isWhole_whole _) (fun h => h0 ((atFirstK0_iff t).mp h)) ((atLastK0_iff t).mpr h1) (blockIn0 V c 0 t) (blockIn0 V c 1 t) (blockIn0 V c 2 t) (accAfter0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block's staging buffer after the body at point `t`: at a last step the accumulator plus bias that
    step stores; elsewhere the window is idle and not written back, and this is a placeholder nothing consults. -/
def outAfter0 (c : Dev nD) (t : Fin cfg0.N) : Vec F S64x2048 .f32 :=
  if h1 : t.val % 25 = 24 then
    outLeftLast0 c (grid0.coords t) (stg0_0 t) (stgWhole0_0 t) (stg0_1 t) (stgWhole0_1 t) (stg0_2 t) (stgWhole0_2 t) (stg0_3 t) (stgWhole0_3 t) accRef0 (Memref.isWhole_whole _) (fun h => (fun h => by omega) ((atFirstK0_iff t).mp h)) ((atLastK0_iff t).mpr h1) (blockIn0 V c 0 t) (blockIn0 V c 1 t) (blockIn0 V c 2 t) (accAfter0 V c (t.val - 1) (Nat.lt_of_le_of_lt (Nat.sub_le _ _) t.isLt))
  else outView0.read (Elt F) outView0.junk

/-- At a last step: what that step stores. -/
theorem outAfter0_last (c : Dev nD) (t : Fin cfg0.N) (h0 : ¬t.val % 25 = 0) (h1 : t.val % 25 = 24) :
    outAfter0 V c t = outLeftLast0 c (grid0.coords t) (stg0_0 t) (stgWhole0_0 t) (stg0_1 t) (stgWhole0_1 t) (stg0_2 t) (stgWhole0_2 t) (stg0_3 t) (stgWhole0_3 t) accRef0 (Memref.isWhole_whole _) (fun h => h0 ((atFirstK0_iff t).mp h)) ((atLastK0_iff t).mpr h1) (blockIn0 V c 0 t) (blockIn0 V c 1 t) (blockIn0 V c 2 t) (accAfter0 V c (t.val - 1) (Nat.lt_of_le_of_lt (Nat.sub_le _ _) t.isLt)) := by
  unfold outAfter0; exact (dif_pos h1).trans rfl

/-! ## The invariant carried from point to point -/

/-- Before position `n`: before the first point what the launch hands the region; afterwards the accumulator at what
    the point before left in it, the other scoped buffers unopened, and the generator register at some state. -/
def inv0 (c : Dev nD) : (n : ℕ) → n ≤ cfg0.N → sProp 𝕄
  | 0, _ => Pipeline.ΦA spec0 c
  | n + 1, hn => iprop(iprop(owns (c : Thread nD τ) accRef0 fullShare (accAfter0 V c n hn) ∗ Pipeline.scopedRestBut (Ix := Unit) (Name := ℕ) (U := UR sig nD τ) (Lvl := ℕ) (Val := Elt F) spec0 c [cc0_scratch0]) ∗ (∃ r, prngReg c r))

theorem inv0_zero (c : Dev nD) (n : ℕ) (h : n ≤ cfg0.N) (hz : n = 0) : inv0 V c n h = Pipeline.ΦA spec0 c := by
  subst hz; rfl

/-- After point `n`: the accumulator at that point's contents. -/
theorem inv0_succ (c : Dev nD) (n : ℕ) (hn : n < cfg0.N) :
    inv0 V c (n + 1) hn = iprop(iprop(owns (c : Thread nD τ) accRef0 fullShare (accAfter0 V c n hn) ∗ Pipeline.scopedRestBut (Ix := Unit) (Name := ℕ) (U := UR sig nD τ) (Lvl := ℕ) (Val := Elt F) spec0 c [cc0_scratch0]) ∗ (∃ r, prngReg c r)) := rfl

/-- Before a point that is not the first: the accumulator at what the point before left. -/
theorem inv0_pos (c : Dev nD) (n : ℕ) (h : n ≤ cfg0.N) (hz : n ≠ 0) :
    inv0 V c n h = iprop(iprop(owns (c : Thread nD τ) accRef0 fullShare (accAfter0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of this pipeline on core `c`: the arrays as the region finds them; after the body at point `t` each
    input's buffer at its block and the output's at `outAfter0`; the invariant `inv0`; nothing owed; full shares. -/
def regionDat0 (c : Dev nD) : Dat τ (Elt F) Unit ℕ (UR sig nD τ) ℕ cfg0 c where
  A w := V c (Pipeline.arrRef spec0 w)
  after w t := match w with
    | ⟨0, _⟩ => blockIn0 V c 0 t
    | ⟨1, _⟩ => blockIn0 V c 1 t
    | ⟨2, _⟩ => blockIn0 V c 2 t
    | ⟨3, _⟩ => outAfter0 V c t
  Φ t := inv0 V c t.val (Nat.le_of_lt_succ t.isLt)
  q _ := fullShare
  owed _ := 0

/-- The proof data's arrays are the entry contents. -/
theorem regionDat0_A (c : Dev nD) (w : Fin cfg0.W) : (regionDat0 V c).A w = V c (Pipeline.arrRef spec0 w) := by
  dsimp only [regionDat0]

/-- The invariant at a point's start, restated at `t.val`. -/
theorem inv0_castSucc (c : Dev nD) (t : Fin cfg0.N) :
    (regionDat0 V c).Φ t.castSucc = inv0 V c t.val (Nat.le_of_lt t.isLt) := by
  dsimp only [regionDat0]; simp only [Fin.coe_castSucc]

/-- What the body leaves, window by window. -/
theorem regionDat0_after_0 (c : Dev nD) (t : Fin cfg0.N) : (regionDat0 V c).after 0 t = blockIn0 V c 0 t := by dsimp only [regionDat0]
theorem regionDat0_after_1 (c : Dev nD) (t : Fin cfg0.N) : (regionDat0 V c).after 1 t = blockIn0 V c 1 t := by dsimp only [regionDat0]
theorem regionDat0_after_2 (c : Dev nD) (t : Fin cfg0.N) : (regionDat0 V c).after 2 t = blockIn0 V c 2 t := by dsimp only [regionDat0]
theorem regionDat0_after_out (c : Dev nD) (t : Fin cfg0.N) : (regionDat0 V c).after 3 t = outAfter0 V c t := by dsimp only [regionDat0]

/-- Each input's current staging buffer holds its block at every point, fetched there or not. -/
theorem heldIn0_0 (c : Dev nD) (t : Fin cfg0.N) (d) : (regionDat0 V c).before 0 t d = blockIn0 V c 0 t :=
  heldIn0_0_of V (regionDat0 V c) (regionDat0_A V c 0) (regionDat0_after_0 V c) t d
theorem heldIn0_1 (c : Dev nD) (t : Fin cfg0.N) (d) : (regionDat0 V c).before 1 t d = blockIn0 V c 1 t :=
  heldIn0_1_of V (regionDat0 V c) (regionDat0_A V c 1) (regionDat0_after_1 V c) t d
theorem heldIn0_2 (c : Dev nD) (t : Fin cfg0.N) (d) : (regionDat0 V c).before 2 t d = blockIn0 V c 2 t :=
  heldIn0_2_of V (regionDat0 V c) (regionDat0_A V c 2) (regionDat0_after_2 V c) t d

/-- The inputs are left at their blocks (they are never idle). -/
theorem leaves0_0 (c : Dev nD) (t : Fin cfg0.N) : (regionDat0 V c).leavesExact 0 t = owns (c : Thread nD τ) (stg0_0 t) fullShare (blockIn0 V c 0 t) := by
  rw [show (regionDat0 V c).leavesExact 0 t = owns (c : Thread nD τ) (stg0_0 t) fullShare ((regionDat0 V c).after 0 t) from by
    unfold Dat.leavesExact; rw [live0_0 t], regionDat0_after_0]
theorem leaves0_1 (c : Dev nD) (t : Fin cfg0.N) : (regionDat0 V c).leavesExact 1 t = owns (c : Thread nD τ) (stg0_1 t) fullShare (blockIn0 V c 1 t) := by
  rw [show (regionDat0 V c).leavesExact 1 t = owns (c : Thread nD τ) (stg0_1 t) fullShare ((regionDat0 V c).after 1 t) from by
    unfold Dat.leavesExact; rw [live0_1 t], regionDat0_after_1]
theorem leaves0_2 (c : Dev nD) (t : Fin cfg0.N) : (regionDat0 V c).leavesExact 2 t = owns (c : Thread nD τ) (stg0_2 t) fullShare (blockIn0 V c 2 t) := by
  rw [show (regionDat0 V c).leavesExact 2 t = owns (c : Thread nD τ) (stg0_2 t) fullShare ((regionDat0 V c).after 2 t) from by
    unfold Dat.leavesExact; rw [live0_2 t], regionDat0_after_2]

/-! ## The body obligation, at a generic point -/

/-- What the body is called with at point `t`, the windows one by one, -/
def bodyPre0 (c : Dev nD) (t : Fin cfg0.N) : sProp 𝕄 :=
  iprop((regionDat0 V c).Φ t.castSucc ∗ (regionDat0 V c).owesAt () t.castSucc
    ∗ (∃ d, owns (c : Thread nD τ) (stg0_0 t) fullShare ((regionDat0 V c).before 0 t d))
    ∗ (∃ d, owns (c : Thread nD τ) (stg0_1 t) fullShare ((regionDat0 V c).before 1 t d))
    ∗ (∃ d, owns (c : Thread nD τ) (stg0_2 t) fullShare ((regionDat0 V c).before 2 t d))
    ∗ (∃ d, owns (c : Thread nD τ) (stg0_3 t) fullShare ((regionDat0 V c).before 3 t d)))

/-- and what it returns. -/
def bodyPost0 (c : Dev nD) (t : Fin cfg0.N) : sProp 𝕄 :=
  iprop((regionDat0 V c).Φ t.succ ∗ (regionDat0 V c).owesAt () t.succ
    ∗ (regionDat0 V c).leavesExact 0 t
    ∗ (regionDat0 V c).leavesExact 1 t
    ∗ (regionDat0 V c).leavesExact 2 t
    ∗ (regionDat0 V c).leavesExact 3 t)

set_option maxHeartbeats 4800000 in
/-- The body at any point. The inputs' memrefs hold their blocks; the reduction coordinate says which step the point is;
    the invariant hands the body the accumulator at what the point before left (at anything where the step zeroes it
    first), the other scoped buffers and the generator register pass through untouched, and the accumulator comes back at
    this point's contents because the step's stores cover it. Away from the last step the output's buffer is handed back
    as found; at the last step it comes back at what that step stores. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [heldIn0_0, heldIn0_1, heldIn0_2]
  rw [show (regionDat0 V c).owesAt () t.succ = (regionDat0 V c).owesAt () t.castSucc from rfl]
  rw [show (regionDat0 V c).Φ t.succ = inv0 V c (t.val + 1) t.isLt from rfl, inv0_succ]
  rw [leaves0_0, leaves0_1, leaves0_2]
  have hN : t.val < 50 := lt_of_lt_of_eq t.isLt (show cfg0.N = 50 from N_0)
  by_cases h0 : t.val % 25 = 0
  · by_cases h1 : t.val % 25 = 24
    · exfalso; omega
    · rw [Dat.leavesExact_idle (regionDat0 V c) 3 t (idle0_3 t (fun h => h1 ((atLastK0_iff t).mp h))) (unflushed0_3 t (fun h => h1 ((atLastK0_iff t).mp h)))]
      rw [accAfter0_first V c t h0 h1]
      unfold accLeftFirst0; (try dsimp only)
      by_cases hz : t.val = 0
      · rw [inv0_castSucc V c t, inv0_zero V c _ _ hz, entryInv0_eq]
        iintro ⟨⟨⟨HS, HR⟩, Hg⟩, Ho, ⟨%d0, H0⟩, ⟨%d1, H1⟩, ⟨%d2, H2⟩, ⟨%d3, H3⟩⟩
        iapply ((firstRun0 c (grid0.coords t) _ _ _ _ _ _ _ _ _ _ ((atFirstK0_iff t).mpr h0) (fun h => h1 ((atLastK0_iff t).mp h)) (blockIn0 V c 0 t) (blockIn0 V c 1 t) (blockIn0 V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (accCoverFirst0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [inv0_castSucc V c t, inv0_pos V c _ _ hz]
        iintro ⟨⟨⟨HS, HR⟩, Hg⟩, Ho, ⟨%d0, H0⟩, ⟨%d1, H1⟩, ⟨%d2, H2⟩, ⟨%d3, H3⟩⟩
        iapply ((firstRun0 c (grid0.coords t) _ _ _ _ _ _ _ _ _ _ ((atFirstK0_iff t).mpr h0) (fun h => h1 ((atLastK0_iff t).mp h)) (blockIn0 V c 0 t) (blockIn0 V c 1 t) (blockIn0 V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (accCoverFirst0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 25 = 24
    · rw [show (regionDat0 V c).leavesExact 3 t = owns (c : Thread nD τ) (stg0_3 t) fullShare ((regionDat0 V c).after 3 t) from by
        unfold Dat.leavesExact; rw [live0_3 t ((atLastK0_iff t).mpr h1)], regionDat0_after_out]
      rw [accAfter0_last V c t h0 h1, outAfter0_last V c t h0 h1]
      unfold accLeftLast0 outLeftLast0; (try dsimp only)
      by_cases hz : t.val = 0
      · exfalso; omega
      · rw [inv0_castSucc V c t, inv0_pos V c _ _ hz]
        iintro ⟨⟨⟨HS, HR⟩, Hg⟩, Ho, ⟨%d0, H0⟩, ⟨%d1, H1⟩, ⟨%d2, H2⟩, ⟨%d3, H3⟩⟩
        iapply ((lastRun0 c (grid0.coords t) _ _ _ _ _ _ _ _ _ _ (fun h => h0 ((atFirstK0_iff t).mp h)) ((atLastK0_iff t).mpr h1) (blockIn0 V c 0 t) (blockIn0 V c 1 t) (blockIn0 V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS HR Hg]
        · isplitl [HS HR]
          · isplitl [HS]
            · unfold owns; iexists _; isplitr
              swap; · iexact HS
              ipureintro; exact View.read_writes_of_cover _ _ _ _ _ (accCoverLast0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (outCoverLast0 c _ _ _ _ _ _ _ _ _ _ _ _ _ _ _ _ _)
    · rw [Dat.leavesExact_idle (regionDat0 V c) 3 t (idle0_3 t (fun h => h1 ((atLastK0_iff t).mp h))) (unflushed0_3 t (fun h => h1 ((atLastK0_iff t).mp h)))]
      rw [accAfter0_mid V c t h0 h1]
      unfold accLeftMid0; (try dsimp only)
      by_cases hz : t.val = 0
      · exfalso; omega
      · rw [inv0_castSucc V c t, inv0_pos V c _ _ hz]
        iintro ⟨⟨⟨HS, HR⟩, Hg⟩, Ho, ⟨%d0, H0⟩, ⟨%d1, H1⟩, ⟨%d2, H2⟩, ⟨%d3, H3⟩⟩
        iapply ((midRun0 c (grid0.coords t) _ _ _ _ _ _ _ _ _ _ (fun h => h0 ((atFirstK0_iff t).mp h)) (fun h => h1 ((atLastK0_iff t).mp h)) (blockIn0 V c 0 t) (blockIn0 V c 1 t) (blockIn0 V c 2 t) _).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (accCoverMid0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-! ## The interface the assembly takes -/

/-- The library's body obligation, at every point. -/
theorem regionDat0_body (c : Dev nD) : BodyObligation (regionDat0 (F := F) V c) (defs₀ (F := F)) Variants.none () Set.univ := fun t => by
  rw [bigSep_W0, bigSep_W0]
  exact sound_body0 V c t

/-- What the launch hands the region is the invariant before the first point. -/
theorem regionDat0_in (c : Dev nD) : Pipeline.ΦA spec0 c ⊢ (regionDat0 V c).Φ 0 := by
  rw [show (regionDat0 V c).Φ 0 = inv0 V c 0 (Nat.zero_le _) from rfl, inv0_zero V c 0 _ rfl]
  try exact Idealize.SL.BI.Entails.refl _

/-- After any point but the first the invariant gives back what the launch handed over: the accumulator's named
    contents are forgotten. -/
theorem inv0_forget (c : Dev nD) (t : Fin (cfg0.N + 1)) (ht : t.val ≠ 0) : (regionDat0 V c).Φ t ⊢ Pipeline.ΦA spec0 c := by
  rw [show (regionDat0 V c).Φ t = inv0 V c t.val (Nat.le_of_lt_succ t.isLt) from rfl, inv0_pos V c _ _ ht, entryInv0_eq]
  iintro ⟨⟨HS, HR⟩, Hg⟩
  isplitl [HS HR]
  · isplitl [HS]
    · iexists _; iexact HS
    iexact HR
  iexact Hg

/-- The same after the last point. -/
theorem regionDat0_out (c : Dev nD) : (regionDat0 V c).Φ (Fin.last cfg0.N) ⊢ Pipeline.ΦA spec0 c :=
  inv0_forget V c _ (by rw [Fin.val_last]; have : cfg0.N = 50 := N_0; omega)

end Cert.KernelIdeal.Hand

end
-- ==== Proof.KI.R1Kit.lean ====
/- Region 1 of @main (the matmul-plus-bias call number 1): what its run, its proof data and its body
   obligation share — the windows' blocks read off the arrays as the region finds them, what an input
   window's staging buffer holds at a point, the body's two branch conditions in closed form over the
   grid, where the windows are live, and the region invariant with the accumulator scratch taken out of
   the scoped rest. Everything is stated at a parameter `V`, the buffer contents when the region is
   entered. -/
import proofs.«137056_j83880711291258_2_alg».proof.Proof.Gen.KernelIdeal.Launch
import proofs.«137056_j83880711291258_2_alg».proof.Proof.Gen.KernelIdeal.Skeleton
import proofs.«137056_j83880711291258_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation window's staging buffer holds its block at every point, fetched there or not (it is fetched at
    the first point only: its block index does not move), for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)

/-- The weight window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)

/-- The bias window's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)

end Region1

/-! ## The body's branch conditions -/

/-- The condition under which the body zeroes the accumulator (the reduction coordinate is 0), from the grid
    coordinates. -/
abbrev initCond1 (i : grid1.Coords) : Prop := (Scalar.cmpi .ne (Scalar.extui (Scalar.cmpi .eq (BitVec.ofNat 32 (i 1).val) 0#32)) 0#32) = 1#1
/-- The reduction axis has one point, so it holds everywhere on the grid. -/
theorem initCond1_all : ∀ t : Fin cfg1.N, initCond1 (grid1.coords t) :=
  (by decide +kernel : ∀ t : Fin grid1.N, initCond1 (grid1.coords t))

/-- The condition under which the body stores the output block (the reduction coordinate is the last). -/
abbrev storeCond1 (i : grid1.Coords) : Prop := k1_cond2 i = 1#1
/-- It holds everywhere on the grid too. -/
theorem storeCond1_all : ∀ t : Fin cfg1.N, storeCond1 (grid1.coords t) :=
  (by decide +kernel : ∀ t : Fin grid1.N, storeCond1 (grid1.coords t))

/-! ## Where the windows are live -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- The output window is stored into at every point. -/
theorem live1_3 : ∀ t : Fin cfg1.N, cfg1.idle 3 (grid1.coords t) = false := by decide +kernel

/-! ## The staging memrefs and the accumulator -/

/-- One staging buffer of the output window, through which its contents are stated (the choice does not matter). -/
abbrev outView1 : View sig .tc .vmem S64x2048 .f32 := (Memref.whole cc1_stg3_0 : Memref sig .tc .vmem S64x2048 .f32).view
/-- Each window's current staging memref at point `t`, spelled as the pipeline passes it, and its wholeness. -/
abbrev stg1_0 (t : Fin cfg1.N) : Memref sig .tc .vmem S64x1024 .f32 := win1_0.stage (cfg1.slots t 0)
abbrev stgWhole1_0 (t : Fin cfg1.N) : (stg1_0 t).IsWhole := hstage1_0 ((cfg1.slots t 0).cast nbuf1_0)
abbrev stg1_1 (t : Fin cfg1.N) : Memref sig .tc .vmem S2048x1024 .f32 := win1_1.stage (cfg1.slots t 1)
abbrev stgWhole1_1 (t : Fin cfg1.N) : (stg1_1 t).IsWhole := hstage1_1 ((cfg1.slots t 1).cast nbuf1_1)
abbrev stg1_2 (t : Fin cfg1.N) : Memref sig .tc .vmem S1x2048 .f32 := win1_2.stage (cfg1.slots t 2)
abbrev stgWhole1_2 (t : Fin cfg1.N) : (stg1_2 t).IsWhole := hstage1_2 ((cfg1.slots t 2).cast nbuf1_2)
abbrev stg1_3 (t : Fin cfg1.N) : Memref sig .tc .vmem S64x2048 .f32 := win1_3.stage (cfg1.slots t 3)
abbrev stgWhole1_3 (t : Fin cfg1.N) : (stg1_3 t).IsWhole := hstage1_3 ((cfg1.slots t 3).cast nbuf1_3)
/-- The accumulator: a whole scoped buffer of the kernel's own, passed beside the windows. -/
abbrev accRef1 : Memref sig .tc .vmem S64x2048 .f32 := Memref.whole cc1_scratch0
/-- The accumulator as a view: what it holds is stated through it. -/
abbrev accView1 : View sig .tc .vmem S64x2048 .f32 := accRef1.view

/-- The region invariant with the accumulator as a memref owned at some contents, the other scoped buffers
    unopened beside it, and the generator register at some state: what the body obligation hands the run and
    takes back. -/
theorem regionInv1_eq (c : Dev nD) :
    (Pipeline.ΦA spec1 c : sProp 𝕄)
      = iprop(iprop(iprop((∃ d, owns (c : Thread nD τ) accRef1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [accRef1, owns_whole]; try rfl

end Cert.KernelIdeal.Hand

end
-- ==== Proof.KI.R1Run.lean ====
/- Region 1: the whole-body run of the matmul-plus-bias kernel in the one control case its grid meets (the
   reduction axis has a single point, so the body zeroes the accumulator, adds the block product and
   stores accumulator plus bias at every point). The pieces the stores leave in the output buffer and in
   the accumulator are the witness the run finds. -/
import proofs.«137056_j83880711291258_2_alg».proof.Proof.KI.R1Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    with the proof that on whole staging memrefs — the three inputs' at their contents, the output's and the
    accumulator at anything — the body runs to the continuation holding the inputs' as they were and the
    output's buffer and the accumulator with their pieces written. Both conditionals are decided by the
    hypotheses. -/
noncomputable def kernelRun1 (c : Dev nD) (i : grid1.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond1 i) (hc1 : storeCond1 i)
    (x0 : Vec F S64x1024 .f32) (x1 : Vec F S2048x1024 .f32) (x2 : Vec F S1x2048 .f32) :
    Σ' (Lout : List (View.Piece (Elt F) S64x2048 .f32)), { Lacc : List (View.Piece (Elt F) S64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f Lout)
                ∗ (∃ f, arg6.view.loc (c : Thread nD τ) ↦[arg6.view.set]{fullShare} arg6.view.writes (Elt F) f Lacc)) -∗ K ⟨⟩))
          ⊢ wp frame (wpE (defs₀ (F := F)) Variants.none c none) E (cc1__matmul_bias_kernel i arg2 harg2 arg3 harg3 arg4 harg4 arg5 harg5 arg6 harg6) K } := by
  refine ⟨?_, ?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Hand

end
-- ==== Proof.KI.R1.lean ====
/- Region 1: what the body leaves in the output window's buffer and in the accumulator (the found pieces
   read back), the region's proof data at the entry contents `V`, the body obligation at every point, and
   the invariant's two ends. The accumulator is zeroed at every point of this grid, so nothing is carried
   between points: the invariant is the launch's own throughout, and the body takes the accumulator out
   of the scoped rest at some contents and puts it back at some contents. -/
import proofs.«137056_j83880711291258_2_alg».proof.Proof.KI.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the one control case leaves -/

/-- The pieces stored into the output's staging memref tile its block, so they cover it. -/
theorem outCover1 (c : Dev nD) (i : grid1.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond1 i) (hc1 : storeCond1 i)
    (x0 : Vec F S64x1024 .f32) (x1 : Vec F S2048x1024 .f32) (x2 : Vec F S1x2048 .f32) (y : S64x2048.Idx) :
    ∃ pc ∈ (kernelRun1 c i arg2 harg2 arg3 harg3 arg4 harg4 arg5 harg5 arg6 harg6 hc0 hc1 x0 x1 x2).1, y ∈ pc.1.set :=
  View.cover_of_tiledL (kernelRun1 c i arg2 harg2 arg3 harg3 arg4 harg4 arg5 harg5 arg6 harg6 hc0 hc1 x0 x1 x2).1 S64x2048.size (by sl_kernel_rfl) y

/-- The pieces stored into the accumulator cover it. -/
theorem accCover1 (c : Dev nD) (i : grid1.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond1 i) (hc1 : storeCond1 i)
    (x0 : Vec F S64x1024 .f32) (x1 : Vec F S2048x1024 .f32) (x2 : Vec F S1x2048 .f32) (y : S64x2048.Idx) :
    ∃ pc ∈ (kernelRun1 c i arg2 harg2 arg3 harg3 arg4 harg4 arg5 harg5 arg6 harg6 hc0 hc1 x0 x1 x2).2.1, y ∈ pc.1.set :=
  View.cover_of_tiledL (kernelRun1 c i arg2 harg2 arg3 harg3 arg4 harg4 arg5 harg5 arg6 harg6 hc0 hc1 x0 x1 x2).2.1 S64x2048.size (by sl_kernel_rfl) y

/-- What the body leaves in the output's staging buffer: its pieces read back over junk. -/
def outLeft1 (c : Dev nD) (i : grid1.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond1 i) (hc1 : storeCond1 i)
    (x0 : Vec F S64x1024 .f32) (x1 : Vec F S2048x1024 .f32) (x2 : Vec F S1x2048 .f32) : Vec F S64x2048 .f32 :=
  outView1.read (Elt F) (outView1.writes (Elt F) outView1.junk (kernelRun1 c i arg2 harg2 arg3 harg3 arg4 harg4 arg5 harg5 arg6 harg6 hc0 hc1 x0 x1 x2).1)

/-- What the body leaves in the accumulator: its pieces read back over junk. -/
def accLeft1 (c : Dev nD) (i : grid1.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond1 i) (hc1 : storeCond1 i)
    (x0 : Vec F S64x1024 .f32) (x1 : Vec F S2048x1024 .f32) (x2 : Vec F S1x2048 .f32) : Vec F S64x2048 .f32 :=
  accView1.read (Elt F) (accView1.writes (Elt F) accView1.junk (kernelRun1 c i arg2 harg2 arg3 harg3 arg4 harg4 arg5 harg5 arg6 harg6 hc0 hc1 x0 x1 x2).2.1)

section Region1
-- the TensorCore's buffer contents when the region is entered
variable (V : (c : Dev nD) → (b : Ref sig .tc) → Buf (Elt F) ((c : Thread nD τ).loc b))

/-! ## What the output and the accumulator hold after each point -/

/-- The output window's staging buffer after the body at point `t`: the case run at the point's memrefs and
    input blocks. -/
def outAfter1 (c : Dev nD) (t : Fin cfg1.N) : Vec F S64x2048 .f32 :=
  outLeft1 c (grid1.coords t) (stg1_0 t) (stgWhole1_0 t) (stg1_1 t) (stgWhole1_1 t) (stg1_2 t) (stgWhole1_2 t) (stg1_3 t) (stgWhole1_3 t) accRef1 (Memref.isWhole_whole _) (initCond1_all t) (storeCond1_all t) (blockAt1 V c 0 t) (blockAt1 V c 1 t) (blockAt1 V c 2 t)

/-- The accumulator after the body at point `t` (it does not depend on the point before: the body zeroes it
    first). -/
def accAfter1 (c : Dev nD) (t : Fin cfg1.N) : Vec F S64x2048 .f32 :=
  accLeft1 c (grid1.coords t) (stg1_0 t) (stgWhole1_0 t) (stg1_1 t) (stgWhole1_1 t) (stg1_2 t) (stgWhole1_2 t) (stg1_3 t) (stgWhole1_3 t) accRef1 (Memref.isWhole_whole _) (initCond1_all t) (storeCond1_all t) (blockAt1 V c 0 t) (blockAt1 V c 1 t) (blockAt1 V c 2 t)

/-! ## The region's proof data -/

/-- The proof data of the region's pipeline on core `c`: the arrays as the region finds them; after the body at
    point `t` each input's buffer at its block and the output's at what the stores leave; the invariant the
    launch's; nothing owed; full shares. -/
def regionDat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => outAfter1 V c t
  Φ _ := Pipeline.ΦA spec1 c
  q _ := fullShare
  owed _ := 0

/-- The proof data's arrays are the region-entry contents. -/
theorem regionDat1_A (c : Dev nD) (w : Fin cfg1.W) : (regionDat1 V c).A w = V c (Pipeline.arrRef spec1 w) := by
  dsimp only [regionDat1]

/-- What the body leaves, window by window. -/
theorem regionDat1_after_x (c : Dev nD) (t : Fin cfg1.N) : (regionDat1 V c).after 0 t = blockAt1 V c 0 t := by dsimp only [regionDat1]
theorem regionDat1_after_w (c : Dev nD) (t : Fin cfg1.N) : (regionDat1 V c).after 1 t = blockAt1 V c 1 t := by dsimp only [regionDat1]
theorem regionDat1_after_b (c : Dev nD) (t : Fin cfg1.N) : (regionDat1 V c).after 2 t = blockAt1 V c 2 t := by dsimp only [regionDat1]
theorem regionDat1_after_out (c : Dev nD) (t : Fin cfg1.N) : (regionDat1 V c).after 3 t = outAfter1 V c t := by dsimp only [regionDat1]

/-- Each input's current staging buffer holds its block at every point, fetched there or not. -/
theorem regionDat1_before_x (c : Dev nD) (t : Fin cfg1.N) (d) : (regionDat1 V c).before 0 t d = blockAt1 V c 0 t :=
  before1_0_of V (regionDat1 V c) (regionDat1_A V c 0) (regionDat1_after_x V c) t d
theorem regionDat1_before_w (c : Dev nD) (t : Fin cfg1.N) (d) : (regionDat1 V c).before 1 t d = blockAt1 V c 1 t :=
  before1_1_of V (regionDat1 V c) (regionDat1_A V c 1) (regionDat1_after_w V c) t d
theorem regionDat1_before_b (c : Dev nD) (t : Fin cfg1.N) (d) : (regionDat1 V c).before 2 t d = blockAt1 V c 2 t :=
  before1_2_of V (regionDat1 V c) (regionDat1_A V c 2) (regionDat1_after_b V c) t d

/-! ## The body obligation, at a generic point -/

/-- What the body is called with at point `t`, the windows one by one, -/
def bodyPre1 (c : Dev nD) (t : Fin cfg1.N) : sProp 𝕄 :=
  iprop((regionDat1 V c).Φ t.castSucc ∗ (regionDat1 V c).owesAt () t.castSucc
    ∗ (∃ d, owns (c : Thread nD τ) (stg1_0 t) fullShare ((regionDat1 V c).before 0 t d))
    ∗ (∃ d, owns (c : Thread nD τ) (stg1_1 t) fullShare ((regionDat1 V c).before 1 t d))
    ∗ (∃ d, owns (c : Thread nD τ) (stg1_2 t) fullShare ((regionDat1 V c).before 2 t d))
    ∗ (∃ d, owns (c : Thread nD τ) (stg1_3 t) fullShare ((regionDat1 V c).before 3 t d)))

/-- and what it returns. -/
def bodyPost1 (c : Dev nD) (t : Fin cfg1.N) : sProp 𝕄 :=
  iprop((regionDat1 V c).Φ t.succ ∗ (regionDat1 V c).owesAt () t.succ
    ∗ (regionDat1 V c).leavesExact 0 t
    ∗ (regionDat1 V c).leavesExact 1 t
    ∗ (regionDat1 V c).leavesExact 2 t
    ∗ (regionDat1 V c).leavesExact 3 t)

set_option maxHeartbeats 4800000 in
/-- The body at any point: the inputs' memrefs hold their blocks; both conditions hold there, so the run applies;
    the invariant hands the body the accumulator at some contents and takes it back at some contents, the other
    scoped buffers and the generator register pass through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [regionDat1_before_x, regionDat1_before_w, regionDat1_before_b]
  rw [show (regionDat1 V c).owesAt () t.succ = (regionDat1 V c).owesAt () t.castSucc from rfl]
  rw [show (regionDat1 V c).Φ t.succ = Pipeline.ΦA spec1 c from rfl, show (regionDat1 V c).Φ t.castSucc = Pipeline.ΦA spec1 c from rfl, regionInv1_eq]
  rw [show (regionDat1 V c).leavesExact 0 t = owns (c : Thread nD τ) (stg1_0 t) fullShare ((regionDat1 V c).after 0 t) from by
    unfold Dat.leavesExact; rw [live1_0 t], regionDat1_after_x]
  rw [show (regionDat1 V c).leavesExact 1 t = owns (c : Thread nD τ) (stg1_1 t) fullShare ((regionDat1 V c).after 1 t) from by
    unfold Dat.leavesExact; rw [live1_1 t], regionDat1_after_w]
  rw [show (regionDat1 V c).leavesExact 2 t = owns (c : Thread nD τ) (stg1_2 t) fullShare ((regionDat1 V c).after 2 t) from by
    unfold Dat.leavesExact; rw [live1_2 t], regionDat1_after_b]
  rw [show (regionDat1 V c).leavesExact 3 t = owns (c : Thread nD τ) (stg1_3 t) fullShare ((regionDat1 V c).after 3 t) from by
    unfold Dat.leavesExact; rw [live1_3 t], regionDat1_after_out]
  unfold outAfter1 outLeft1; (try dsimp only)
  iintro ⟨⟨⟨HS, HR⟩, Hg⟩, Ho, ⟨%d0, H0⟩, ⟨%d1, H1⟩, ⟨%d2, H2⟩, ⟨%d3, H3⟩⟩
  iapply ((kernelRun1 c (grid1.coords t) _ _ _ _ _ _ _ _ _ _ (initCond1_all t) (storeCond1_all t) (blockAt1 V c 0 t) (blockAt1 V c 1 t) (blockAt1 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (outCover1 c _ _ _ _ _ _ _ _ _ _ _ _ _ _ _ _)

/-- The library's body obligation, at every point. -/
theorem regionDat1_body (c : Dev nD) : BodyObligation (regionDat1 (F := F) V c) (defs₀ (F := F)) Variants.none () Set.univ := fun t => by
  rw [bigSep_W1, bigSep_W1]
  exact sound_body1 V c t

/-- What the launch hands the region is the invariant before the first point. -/
theorem regionDat1_in (c : Dev nD) : Pipeline.ΦA spec1 c ⊢ (regionDat1 V c).Φ 0 :=
  Idealize.SL.BI.Entails.refl _

/-- After the last point the invariant gives it back. -/
theorem regionDat1_out (c : Dev nD) : (regionDat1 V c).Φ (Fin.last cfg1.N) ⊢ Pipeline.ΦA spec1 c :=
  Idealize.SL.BI.Entails.refl _

end Region1

end Cert.KernelIdeal.Hand

end
-- ==== Proof.KI.R2Kit.lean ====
/- Region 2 of @main (the matmul-plus-bias call number 2): what its run, its proof data and its body
   obligation share — the windows' blocks read off the arrays as the region finds them, what an input
   window's staging buffer holds at a point, the body's two branch conditions in closed form over the
   grid, where the windows are live, and the region invariant with the accumulator scratch taken out of
   the scoped rest. Everything is stated at a parameter `V`, the buffer contents when the region is
   entered. -/
import proofs.«137056_j83880711291258_2_alg».proof.Proof.Gen.KernelIdeal.Launch
import proofs.«137056_j83880711291258_2_alg».proof.Proof.Gen.KernelIdeal.Skeleton
import proofs.«137056_j83880711291258_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activation window's staging buffer holds its block at every point, fetched there or not (it is fetched at
    the first point only: its block index does not move), for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = blockAt2 V c 0 t) (t : Fin cfg2.N) (d) : dat.before 0 t d = blockAt2 V c 0 t :=
  (dat.before_in_eq_fetched 0 rfl (fun _ => rfl) (fun _ _ _ => rfl) (fun t => by rw [hafter]; unfold Dat.blockOf blockAt2; rw [hA]; try rfl) t d).trans
    (by unfold Dat.fetched Dat.blockOf blockAt2; rw [hA]; try rfl)

/-- The weight window's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = blockAt2 V c 1 t) (t : Fin cfg2.N) (d) : dat.before 1 t d = blockAt2 V c 1 t :=
  (dat.before_in_eq_fetched 1 rfl (fun _ => rfl) (fun _ _ _ => rfl) (fun t => by rw [hafter]; unfold Dat.blockOf blockAt2; rw [hA]; try rfl) t d).trans
    (by unfold Dat.fetched Dat.blockOf blockAt2; rw [hA]; try rfl)

/-- The bias window's staging buffer holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = blockAt2 V c 2 t) (t : Fin cfg2.N) (d) : dat.before 2 t d = blockAt2 V c 2 t :=
  (dat.before_in_eq_fetched 2 rfl (fun _ => rfl) (fun _ _ _ => rfl) (fun t => by rw [hafter]; unfold Dat.blockOf blockAt2; rw [hA]; try rfl) t d).trans
    (by unfold Dat.fetched Dat.blockOf blockAt2; rw [hA]; try rfl)

end Region2

/-! ## The body's branch conditions -/

/-- The condition under which the body zeroes the accumulator (the reduction coordinate is 0), from the grid
    coordinates. -/
abbrev initCond2 (i : grid2.Coords) : Prop := (Scalar.cmpi .ne (Scalar.extui (Scalar.cmpi .eq (BitVec.ofNat 32 (i 1).val) 0#32)) 0#32) = 1#1
/-- The reduction axis has one point, so it holds everywhere on the grid. -/
theorem initCond2_all : ∀ t : Fin cfg2.N, initCond2 (grid2.coords t) :=
  (by decide +kernel : ∀ t : Fin grid2.N, initCond2 (grid2.coords t))

/-- The condition under which the body stores the output block (the reduction coordinate is the last). -/
abbrev storeCond2 (i : grid2.Coords) : Prop := k2_cond2 i = 1#1
/-- It holds everywhere on the grid too. -/
theorem storeCond2_all : ∀ t : Fin cfg2.N, storeCond2 (grid2.coords t) :=
  (by decide +kernel : ∀ t : Fin grid2.N, storeCond2 (grid2.coords t))

/-! ## Where the windows are live -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- The output window is stored into at every point. -/
theorem live2_3 : ∀ t : Fin cfg2.N, cfg2.idle 3 (grid2.coords t) = false := by decide +kernel

/-! ## The staging memrefs and the accumulator -/

/-- One staging buffer of the output window, through which its contents are stated (the choice does not matter). -/
abbrev outView2 : View sig .tc .vmem S64x2048 .f32 := (Memref.whole cc2_stg3_0 : Memref sig .tc .vmem S64x2048 .f32).view
/-- Each window's current staging memref at point `t`, spelled as the pipeline passes it, and its wholeness. -/
abbrev stg2_0 (t : Fin cfg2.N) : Memref sig .tc .vmem S64x1024 .f32 := win2_0.stage (cfg2.slots t 0)
abbrev stgWhole2_0 (t : Fin cfg2.N) : (stg2_0 t).IsWhole := hstage2_0 ((cfg2.slots t 0).cast nbuf2_0)
abbrev stg2_1 (t : Fin cfg2.N) : Memref sig .tc .vmem S2048x1024 .f32 := win2_1.stage (cfg2.slots t 1)
abbrev stgWhole2_1 (t : Fin cfg2.N) : (stg2_1 t).IsWhole := hstage2_1 ((cfg2.slots t 1).cast nbuf2_1)
abbrev stg2_2 (t : Fin cfg2.N) : Memref sig .tc .vmem S1x2048 .f32 := win2_2.stage (cfg2.slots t 2)
abbrev stgWhole2_2 (t : Fin cfg2.N) : (stg2_2 t).IsWhole := hstage2_2 ((cfg2.slots t 2).cast nbuf2_2)
abbrev stg2_3 (t : Fin cfg2.N) : Memref sig .tc .vmem S64x2048 .f32 := win2_3.stage (cfg2.slots t 3)
abbrev stgWhole2_3 (t : Fin cfg2.N) : (stg2_3 t).IsWhole := hstage2_3 ((cfg2.slots t 3).cast nbuf2_3)
/-- The accumulator: a whole scoped buffer of the kernel's own, passed beside the windows. -/
abbrev accRef2 : Memref sig .tc .vmem S64x2048 .f32 := Memref.whole cc2_scratch0
/-- The accumulator as a view: what it holds is stated through it. -/
abbrev accView2 : View sig .tc .vmem S64x2048 .f32 := accRef2.view

/-- The region invariant with the accumulator as a memref owned at some contents, the other scoped buffers
    unopened beside it, and the generator register at some state: what the body obligation hands the run and
    takes back. -/
theorem regionInv2_eq (c : Dev nD) :
    (Pipeline.ΦA spec2 c : sProp 𝕄)
      = iprop(iprop(iprop((∃ d, owns (c : Thread nD τ) accRef2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [accRef2, owns_whole]; try rfl

end Cert.KernelIdeal.Hand

end
-- ==== Proof.KI.R2Run.lean ====
/- Region 2: the whole-body run of the matmul-plus-bias kernel in the one control case its grid meets (the
   reduction axis has a single point, so the body zeroes the accumulator, adds the block product and
   stores accumulator plus bias at every point). The pieces the stores leave in the output buffer and in
   the accumulator are the witness the run finds. -/
import proofs.«137056_j83880711291258_2_alg».proof.Proof.KI.R2Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    with the proof that on whole staging memrefs — the three inputs' at their contents, the output's and the
    accumulator at anything — the body runs to the continuation holding the inputs' as they were and the
    output's buffer and the accumulator with their pieces written. Both conditionals are decided by the
    hypotheses. -/
noncomputable def kernelRun2 (c : Dev nD) (i : grid2.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond2 i) (hc1 : storeCond2 i)
    (x0 : Vec F S64x1024 .f32) (x1 : Vec F S2048x1024 .f32) (x2 : Vec F S1x2048 .f32) :
    Σ' (Lout : List (View.Piece (Elt F) S64x2048 .f32)), { Lacc : List (View.Piece (Elt F) S64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f Lout)
                ∗ (∃ f, arg6.view.loc (c : Thread nD τ) ↦[arg6.view.set]{fullShare} arg6.view.writes (Elt F) f Lacc)) -∗ K ⟨⟩))
          ⊢ wp frame (wpE (defs₀ (F := F)) Variants.none c none) E (cc2__matmul_bias_kernel i arg2 harg2 arg3 harg3 arg4 harg4 arg5 harg5 arg6 harg6) K } := by
  refine ⟨?_, ?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Hand

end
-- ==== Proof.KI.R2.lean ====
/- Region 2: what the body leaves in the output window's buffer and in the accumulator (the found pieces
   read back), the region's proof data at the entry contents `V`, the body obligation at every point, and
   the invariant's two ends. The accumulator is zeroed at every point of this grid, so nothing is carried
   between points: the invariant is the launch's own throughout, and the body takes the accumulator out
   of the scoped rest at some contents and puts it back at some contents. -/
import proofs.«137056_j83880711291258_2_alg».proof.Proof.KI.R2Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the one control case leaves -/

/-- The pieces stored into the output's staging memref tile its block, so they cover it. -/
theorem outCover2 (c : Dev nD) (i : grid2.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond2 i) (hc1 : storeCond2 i)
    (x0 : Vec F S64x1024 .f32) (x1 : Vec F S2048x1024 .f32) (x2 : Vec F S1x2048 .f32) (y : S64x2048.Idx) :
    ∃ pc ∈ (kernelRun2 c i arg2 harg2 arg3 harg3 arg4 harg4 arg5 harg5 arg6 harg6 hc0 hc1 x0 x1 x2).1, y ∈ pc.1.set :=
  View.cover_of_tiledL (kernelRun2 c i arg2 harg2 arg3 harg3 arg4 harg4 arg5 harg5 arg6 harg6 hc0 hc1 x0 x1 x2).1 S64x2048.size (by sl_kernel_rfl) y

/-- The pieces stored into the accumulator cover it. -/
theorem accCover2 (c : Dev nD) (i : grid2.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond2 i) (hc1 : storeCond2 i)
    (x0 : Vec F S64x1024 .f32) (x1 : Vec F S2048x1024 .f32) (x2 : Vec F S1x2048 .f32) (y : S64x2048.Idx) :
    ∃ pc ∈ (kernelRun2 c i arg2 harg2 arg3 harg3 arg4 harg4 arg5 harg5 arg6 harg6 hc0 hc1 x0 x1 x2).2.1, y ∈ pc.1.set :=
  View.cover_of_tiledL (kernelRun2 c i arg2 harg2 arg3 harg3 arg4 harg4 arg5 harg5 arg6 harg6 hc0 hc1 x0 x1 x2).2.1 S64x2048.size (by sl_kernel_rfl) y

/-- What the body leaves in the output's staging buffer: its pieces read back over junk. -/
def outLeft2 (c : Dev nD) (i : grid2.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond2 i) (hc1 : storeCond2 i)
    (x0 : Vec F S64x1024 .f32) (x1 : Vec F S2048x1024 .f32) (x2 : Vec F S1x2048 .f32) : Vec F S64x2048 .f32 :=
  outView2.read (Elt F) (outView2.writes (Elt F) outView2.junk (kernelRun2 c i arg2 harg2 arg3 harg3 arg4 harg4 arg5 harg5 arg6 harg6 hc0 hc1 x0 x1 x2).1)

/-- What the body leaves in the accumulator: its pieces read back over junk. -/
def accLeft2 (c : Dev nD) (i : grid2.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond2 i) (hc1 : storeCond2 i)
    (x0 : Vec F S64x1024 .f32) (x1 : Vec F S2048x1024 .f32) (x2 : Vec F S1x2048 .f32) : Vec F S64x2048 .f32 :=
  accView2.read (Elt F) (accView2.writes (Elt F) accView2.junk (kernelRun2 c i arg2 harg2 arg3 harg3 arg4 harg4 arg5 harg5 arg6 harg6 hc0 hc1 x0 x1 x2).2.1)

section Region2
-- the TensorCore's buffer contents when the region is entered
variable (V : (c : Dev nD) → (b : Ref sig .tc) → Buf (Elt F) ((c : Thread nD τ).loc b))

/-! ## What the output and the accumulator hold after each point -/

/-- The output window's staging buffer after the body at point `t`: the case run at the point's memrefs and
    input blocks. -/
def outAfter2 (c : Dev nD) (t : Fin cfg2.N) : Vec F S64x2048 .f32 :=
  outLeft2 c (grid2.coords t) (stg2_0 t) (stgWhole2_0 t) (stg2_1 t) (stgWhole2_1 t) (stg2_2 t) (stgWhole2_2 t) (stg2_3 t) (stgWhole2_3 t) accRef2 (Memref.isWhole_whole _) (initCond2_all t) (storeCond2_all t) (blockAt2 V c 0 t) (blockAt2 V c 1 t) (blockAt2 V c 2 t)

/-- The accumulator after the body at point `t` (it does not depend on the point before: the body zeroes it
    first). -/
def accAfter2 (c : Dev nD) (t : Fin cfg2.N) : Vec F S64x2048 .f32 :=
  accLeft2 c (grid2.coords t) (stg2_0 t) (stgWhole2_0 t) (stg2_1 t) (stgWhole2_1 t) (stg2_2 t) (stgWhole2_2 t) (stg2_3 t) (stgWhole2_3 t) accRef2 (Memref.isWhole_whole _) (initCond2_all t) (storeCond2_all t) (blockAt2 V c 0 t) (blockAt2 V c 1 t) (blockAt2 V c 2 t)

/-! ## The region's proof data -/

/-- The proof data of the region's pipeline on core `c`: the arrays as the region finds them; after the body at
    point `t` each input's buffer at its block and the output's at what the stores leave; the invariant the
    launch's; nothing owed; full shares. -/
def regionDat2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => blockAt2 V c 2 t
    | ⟨3, _⟩ => outAfter2 V c t
  Φ _ := Pipeline.ΦA spec2 c
  q _ := fullShare
  owed _ := 0

/-- The proof data's arrays are the region-entry contents. -/
theorem regionDat2_A (c : Dev nD) (w : Fin cfg2.W) : (regionDat2 V c).A w = V c (Pipeline.arrRef spec2 w) := by
  dsimp only [regionDat2]

/-- What the body leaves, window by window. -/
theorem regionDat2_after_x (c : Dev nD) (t : Fin cfg2.N) : (regionDat2 V c).after 0 t = blockAt2 V c 0 t := by dsimp only [regionDat2]
theorem regionDat2_after_w (c : Dev nD) (t : Fin cfg2.N) : (regionDat2 V c).after 1 t = blockAt2 V c 1 t := by dsimp only [regionDat2]
theorem regionDat2_after_b (c : Dev nD) (t : Fin cfg2.N) : (regionDat2 V c).after 2 t = blockAt2 V c 2 t := by dsimp only [regionDat2]
theorem regionDat2_after_out (c : Dev nD) (t : Fin cfg2.N) : (regionDat2 V c).after 3 t = outAfter2 V c t := by dsimp only [regionDat2]

/-- Each input's current staging buffer holds its block at every point, fetched there or not. -/
theorem regionDat2_before_x (c : Dev nD) (t : Fin cfg2.N) (d) : (regionDat2 V c).before 0 t d = blockAt2 V c 0 t :=
  before2_0_of V (regionDat2 V c) (regionDat2_A V c 0) (regionDat2_after_x V c) t d
theorem regionDat2_before_w (c : Dev nD) (t : Fin cfg2.N) (d) : (regionDat2 V c).before 1 t d = blockAt2 V c 1 t :=
  before2_1_of V (regionDat2 V c) (regionDat2_A V c 1) (regionDat2_after_w V c) t d
theorem regionDat2_before_b (c : Dev nD) (t : Fin cfg2.N) (d) : (regionDat2 V c).before 2 t d = blockAt2 V c 2 t :=
  before2_2_of V (regionDat2 V c) (regionDat2_A V c 2) (regionDat2_after_b V c) t d

/-! ## The body obligation, at a generic point -/

/-- What the body is called with at point `t`, the windows one by one, -/
def bodyPre2 (c : Dev nD) (t : Fin cfg2.N) : sProp 𝕄 :=
  iprop((regionDat2 V c).Φ t.castSucc ∗ (regionDat2 V c).owesAt () t.castSucc
    ∗ (∃ d, owns (c : Thread nD τ) (stg2_0 t) fullShare ((regionDat2 V c).before 0 t d))
    ∗ (∃ d, owns (c : Thread nD τ) (stg2_1 t) fullShare ((regionDat2 V c).before 1 t d))
    ∗ (∃ d, owns (c : Thread nD τ) (stg2_2 t) fullShare ((regionDat2 V c).before 2 t d))
    ∗ (∃ d, owns (c : Thread nD τ) (stg2_3 t) fullShare ((regionDat2 V c).before 3 t d)))

/-- and what it returns. -/
def bodyPost2 (c : Dev nD) (t : Fin cfg2.N) : sProp 𝕄 :=
  iprop((regionDat2 V c).Φ t.succ ∗ (regionDat2 V c).owesAt () t.succ
    ∗ (regionDat2 V c).leavesExact 0 t
    ∗ (regionDat2 V c).leavesExact 1 t
    ∗ (regionDat2 V c).leavesExact 2 t
    ∗ (regionDat2 V c).leavesExact 3 t)

set_option maxHeartbeats 4800000 in
/-- The body at any point: the inputs' memrefs hold their blocks; both conditions hold there, so the run applies;
    the invariant hands the body the accumulator at some contents and takes it back at some contents, the other
    scoped buffers and the generator register pass through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [regionDat2_before_x, regionDat2_before_w, regionDat2_before_b]
  rw [show (regionDat2 V c).owesAt () t.succ = (regionDat2 V c).owesAt () t.castSucc from rfl]
  rw [show (regionDat2 V c).Φ t.succ = Pipeline.ΦA spec2 c from rfl, show (regionDat2 V c).Φ t.castSucc = Pipeline.ΦA spec2 c from rfl, regionInv2_eq]
  rw [show (regionDat2 V c).leavesExact 0 t = owns (c : Thread nD τ) (stg2_0 t) fullShare ((regionDat2 V c).after 0 t) from by
    unfold Dat.leavesExact; rw [live2_0 t], regionDat2_after_x]
  rw [show (regionDat2 V c).leavesExact 1 t = owns (c : Thread nD τ) (stg2_1 t) fullShare ((regionDat2 V c).after 1 t) from by
    unfold Dat.leavesExact; rw [live2_1 t], regionDat2_after_w]
  rw [show (regionDat2 V c).leavesExact 2 t = owns (c : Thread nD τ) (stg2_2 t) fullShare ((regionDat2 V c).after 2 t) from by
    unfold Dat.leavesExact; rw [live2_2 t], regionDat2_after_b]
  rw [show (regionDat2 V c).leavesExact 3 t = owns (c : Thread nD τ) (stg2_3 t) fullShare ((regionDat2 V c).after 3 t) from by
    unfold Dat.leavesExact; rw [live2_3 t], regionDat2_after_out]
  unfold outAfter2 outLeft2; (try dsimp only)
  iintro ⟨⟨⟨HS, HR⟩, Hg⟩, Ho, ⟨%d0, H0⟩, ⟨%d1, H1⟩, ⟨%d2, H2⟩, ⟨%d3, H3⟩⟩
  iapply ((kernelRun2 c (grid2.coords t) _ _ _ _ _ _ _ _ _ _ (initCond2_all t) (storeCond2_all t) (blockAt2 V c 0 t) (blockAt2 V c 1 t) (blockAt2 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (outCover2 c _ _ _ _ _ _ _ _ _ _ _ _ _ _ _ _)

/-- The library's body obligation, at every point. -/
theorem regionDat2_body (c : Dev nD) : BodyObligation (regionDat2 (F := F) V c) (defs₀ (F := F)) Variants.none () Set.univ := fun t => by
  rw [bigSep_W2, bigSep_W2]
  exact sound_body2 V c t

/-- What the launch hands the region is the invariant before the first point. -/
theorem regionDat2_in (c : Dev nD) : Pipeline.ΦA spec2 c ⊢ (regionDat2 V c).Φ 0 :=
  Idealize.SL.BI.Entails.refl _

/-- After the last point the invariant gives it back. -/
theorem regionDat2_out (c : Dev nD) : (regionDat2 V c).Φ (Fin.last cfg2.N) ⊢ Pipeline.ΦA spec2 c :=
  Idealize.SL.BI.Entails.refl _

end Region2

end Cert.KernelIdeal.Hand

end
-- ==== Proof.KI.R3Kit.lean ====
/- Region 3 of @main (the matmul-plus-bias call number 3): what its run, its proof data and its body
   obligation share — the windows' blocks read off the arrays as the region finds them, what an input
   window's staging buffer holds at a point, the body's two branch conditions in closed form over the
   grid, where the windows are live, and the region invariant with the accumulator scratch taken out of
   the scoped rest. Everything is stated at a parameter `V`, the buffer contents when the region is
   entered. -/
import proofs.«137056_j83880711291258_2_alg».proof.Proof.Gen.KernelIdeal.Launch
import proofs.«137056_j83880711291258_2_alg».proof.Proof.Gen.KernelIdeal.Skeleton
import proofs.«137056_j83880711291258_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it. -/
def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activation window's staging buffer holds its block at every point, fetched there or not (it is fetched at
    the first point only: its block index does not move), for any proof data whose array is `V`'s and whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = blockAt3 V c 0 t) (t : Fin cfg3.N) (d) : dat.before 0 t d = blockAt3 V c 0 t :=
  (dat.before_in_eq_fetched 0 rfl (fun _ => rfl) (fun _ _ _ => rfl) (fun t => by rw [hafter]; unfold Dat.blockOf blockAt3; rw [hA]; try rfl) t d).trans
    (by unfold Dat.fetched Dat.blockOf blockAt3; rw [hA]; try rfl)

/-- The weight window's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = blockAt3 V c 1 t) (t : Fin cfg3.N) (d) : dat.before 1 t d = blockAt3 V c 1 t :=
  (dat.before_in_eq_fetched 1 rfl (fun _ => rfl) (fun _ _ _ => rfl) (fun t => by rw [hafter]; unfold Dat.blockOf blockAt3; rw [hA]; try rfl) t d).trans
    (by unfold Dat.fetched Dat.blockOf blockAt3; rw [hA]; try rfl)

/-- The bias window's staging buffer holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = blockAt3 V c 2 t) (t : Fin cfg3.N) (d) : dat.before 2 t d = blockAt3 V c 2 t :=
  (dat.before_in_eq_fetched 2 rfl (fun _ => rfl) (fun _ _ _ => rfl) (fun t => by rw [hafter]; unfold Dat.blockOf blockAt3; rw [hA]; try rfl) t d).trans
    (by unfold Dat.fetched Dat.blockOf blockAt3; rw [hA]; try rfl)

end Region3

/-! ## The body's branch conditions -/

/-- The condition under which the body zeroes the accumulator (the reduction coordinate is 0), from the grid
    coordinates. -/
abbrev initCond3 (i : grid3.Coords) : Prop := (Scalar.cmpi .ne (Scalar.extui (Scalar.cmpi .eq (BitVec.ofNat 32 (i 1).val) 0#32)) 0#32) = 1#1
/-- The reduction axis has one point, so it holds everywhere on the grid. -/
theorem initCond3_all : ∀ t : Fin cfg3.N, initCond3 (grid3.coords t) :=
  (by decide +kernel : ∀ t : Fin grid3.N, initCond3 (grid3.coords t))

/-- The condition under which the body stores the output block (the reduction coordinate is the last). -/
abbrev storeCond3 (i : grid3.Coords) : Prop := k3_cond2 i = 1#1
/-- It holds everywhere on the grid too. -/
theorem storeCond3_all : ∀ t : Fin cfg3.N, storeCond3 (grid3.coords t) :=
  (by decide +kernel : ∀ t : Fin grid3.N, storeCond3 (grid3.coords t))

/-! ## Where the windows are live -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- The output window is stored into at every point. -/
theorem live3_3 : ∀ t : Fin cfg3.N, cfg3.idle 3 (grid3.coords t) = false := by decide +kernel

/-! ## The staging memrefs and the accumulator -/

/-- One staging buffer of the output window, through which its contents are stated (the choice does not matter). -/
abbrev outView3 : View sig .tc .vmem S64x2048 .f32 := (Memref.whole cc3_stg3_0 : Memref sig .tc .vmem S64x2048 .f32).view
/-- Each window's current staging memref at point `t`, spelled as the pipeline passes it, and its wholeness. -/
abbrev stg3_0 (t : Fin cfg3.N) : Memref sig .tc .vmem S64x1024 .f32 := win3_0.stage (cfg3.slots t 0)
abbrev stgWhole3_0 (t : Fin cfg3.N) : (stg3_0 t).IsWhole := hstage3_0 ((cfg3.slots t 0).cast nbuf3_0)
abbrev stg3_1 (t : Fin cfg3.N) : Memref sig .tc .vmem S2048x1024 .f32 := win3_1.stage (cfg3.slots t 1)
abbrev stgWhole3_1 (t : Fin cfg3.N) : (stg3_1 t).IsWhole := hstage3_1 ((cfg3.slots t 1).cast nbuf3_1)
abbrev stg3_2 (t : Fin cfg3.N) : Memref sig .tc .vmem S1x2048 .f32 := win3_2.stage (cfg3.slots t 2)
abbrev stgWhole3_2 (t : Fin cfg3.N) : (stg3_2 t).IsWhole := hstage3_2 ((cfg3.slots t 2).cast nbuf3_2)
abbrev stg3_3 (t : Fin cfg3.N) : Memref sig .tc .vmem S64x2048 .f32 := win3_3.stage (cfg3.slots t 3)
abbrev stgWhole3_3 (t : Fin cfg3.N) : (stg3_3 t).IsWhole := hstage3_3 ((cfg3.slots t 3).cast nbuf3_3)
/-- The accumulator: a whole scoped buffer of the kernel's own, passed beside the windows. -/
abbrev accRef3 : Memref sig .tc .vmem S64x2048 .f32 := Memref.whole cc3_scratch0
/-- The accumulator as a view: what it holds is stated through it. -/
abbrev accView3 : View sig .tc .vmem S64x2048 .f32 := accRef3.view

/-- The region invariant with the accumulator as a memref owned at some contents, the other scoped buffers
    unopened beside it, and the generator register at some state: what the body obligation hands the run and
    takes back. -/
theorem regionInv3_eq (c : Dev nD) :
    (Pipeline.ΦA spec3 c : sProp 𝕄)
      = iprop(iprop(iprop((∃ d, owns (c : Thread nD τ) accRef3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [accRef3, owns_whole]; try rfl

end Cert.KernelIdeal.Hand

end
-- ==== Proof.KI.R3Run.lean ====
/- Region 3: the whole-body run of the matmul-plus-bias kernel in the one control case its grid meets (the
   reduction axis has a single point, so the body zeroes the accumulator, adds the block product and
   stores accumulator plus bias at every point). The pieces the stores leave in the output buffer and in
   the accumulator are the witness the run finds. -/
import proofs.«137056_j83880711291258_2_alg».proof.Proof.KI.R3Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    with the proof that on whole staging memrefs — the three inputs' at their contents, the output's and the
    accumulator at anything — the body runs to the continuation holding the inputs' as they were and the
    output's buffer and the accumulator with their pieces written. Both conditionals are decided by the
    hypotheses. -/
noncomputable def kernelRun3 (c : Dev nD) (i : grid3.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond3 i) (hc1 : storeCond3 i)
    (x0 : Vec F S64x1024 .f32) (x1 : Vec F S2048x1024 .f32) (x2 : Vec F S1x2048 .f32) :
    Σ' (Lout : List (View.Piece (Elt F) S64x2048 .f32)), { Lacc : List (View.Piece (Elt F) S64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f Lout)
                ∗ (∃ f, arg6.view.loc (c : Thread nD τ) ↦[arg6.view.set]{fullShare} arg6.view.writes (Elt F) f Lacc)) -∗ K ⟨⟩))
          ⊢ wp frame (wpE (defs₀ (F := F)) Variants.none c none) E (cc3__matmul_bias_kernel i arg2 harg2 arg3 harg3 arg4 harg4 arg5 harg5 arg6 harg6) K } := by
  refine ⟨?_, ?_, fun E K => ?run⟩
  case run =>
    simp only [cc3__matmul_bias_kernel_eq_skeleton]; unfold cc3__matmul_bias_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Hand

end
-- ==== Proof.KI.R3.lean ====
/- Region 3: what the body leaves in the output window's buffer and in the accumulator (the found pieces
   read back), the region's proof data at the entry contents `V`, the body obligation at every point, and
   the invariant's two ends. The accumulator is zeroed at every point of this grid, so nothing is carried
   between points: the invariant is the launch's own throughout, and the body takes the accumulator out
   of the scoped rest at some contents and puts it back at some contents. -/
import proofs.«137056_j83880711291258_2_alg».proof.Proof.KI.R3Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the one control case leaves -/

/-- The pieces stored into the output's staging memref tile its block, so they cover it. -/
theorem outCover3 (c : Dev nD) (i : grid3.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond3 i) (hc1 : storeCond3 i)
    (x0 : Vec F S64x1024 .f32) (x1 : Vec F S2048x1024 .f32) (x2 : Vec F S1x2048 .f32) (y : S64x2048.Idx) :
    ∃ pc ∈ (kernelRun3 c i arg2 harg2 arg3 harg3 arg4 harg4 arg5 harg5 arg6 harg6 hc0 hc1 x0 x1 x2).1, y ∈ pc.1.set :=
  View.cover_of_tiledL (kernelRun3 c i arg2 harg2 arg3 harg3 arg4 harg4 arg5 harg5 arg6 harg6 hc0 hc1 x0 x1 x2).1 S64x2048.size (by sl_kernel_rfl) y

/-- The pieces stored into the accumulator cover it. -/
theorem accCover3 (c : Dev nD) (i : grid3.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond3 i) (hc1 : storeCond3 i)
    (x0 : Vec F S64x1024 .f32) (x1 : Vec F S2048x1024 .f32) (x2 : Vec F S1x2048 .f32) (y : S64x2048.Idx) :
    ∃ pc ∈ (kernelRun3 c i arg2 harg2 arg3 harg3 arg4 harg4 arg5 harg5 arg6 harg6 hc0 hc1 x0 x1 x2).2.1, y ∈ pc.1.set :=
  View.cover_of_tiledL (kernelRun3 c i arg2 harg2 arg3 harg3 arg4 harg4 arg5 harg5 arg6 harg6 hc0 hc1 x0 x1 x2).2.1 S64x2048.size (by sl_kernel_rfl) y

/-- What the body leaves in the output's staging buffer: its pieces read back over junk. -/
def outLeft3 (c : Dev nD) (i : grid3.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond3 i) (hc1 : storeCond3 i)
    (x0 : Vec F S64x1024 .f32) (x1 : Vec F S2048x1024 .f32) (x2 : Vec F S1x2048 .f32) : Vec F S64x2048 .f32 :=
  outView3.read (Elt F) (outView3.writes (Elt F) outView3.junk (kernelRun3 c i arg2 harg2 arg3 harg3 arg4 harg4 arg5 harg5 arg6 harg6 hc0 hc1 x0 x1 x2).1)

/-- What the body leaves in the accumulator: its pieces read back over junk. -/
def accLeft3 (c : Dev nD) (i : grid3.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond3 i) (hc1 : storeCond3 i)
    (x0 : Vec F S64x1024 .f32) (x1 : Vec F S2048x1024 .f32) (x2 : Vec F S1x2048 .f32) : Vec F S64x2048 .f32 :=
  accView3.read (Elt F) (accView3.writes (Elt F) accView3.junk (kernelRun3 c i arg2 harg2 arg3 harg3 arg4 harg4 arg5 harg5 arg6 harg6 hc0 hc1 x0 x1 x2).2.1)

section Region3
-- the TensorCore's buffer contents when the region is entered
variable (V : (c : Dev nD) → (b : Ref sig .tc) → Buf (Elt F) ((c : Thread nD τ).loc b))

/-! ## What the output and the accumulator hold after each point -/

/-- The output window's staging buffer after the body at point `t`: the case run at the point's memrefs and
    input blocks. -/
def outAfter3 (c : Dev nD) (t : Fin cfg3.N) : Vec F S64x2048 .f32 :=
  outLeft3 c (grid3.coords t) (stg3_0 t) (stgWhole3_0 t) (stg3_1 t) (stgWhole3_1 t) (stg3_2 t) (stgWhole3_2 t) (stg3_3 t) (stgWhole3_3 t) accRef3 (Memref.isWhole_whole _) (initCond3_all t) (storeCond3_all t) (blockAt3 V c 0 t) (blockAt3 V c 1 t) (blockAt3 V c 2 t)

/-- The accumulator after the body at point `t` (it does not depend on the point before: the body zeroes it
    first). -/
def accAfter3 (c : Dev nD) (t : Fin cfg3.N) : Vec F S64x2048 .f32 :=
  accLeft3 c (grid3.coords t) (stg3_0 t) (stgWhole3_0 t) (stg3_1 t) (stgWhole3_1 t) (stg3_2 t) (stgWhole3_2 t) (stg3_3 t) (stgWhole3_3 t) accRef3 (Memref.isWhole_whole _) (initCond3_all t) (storeCond3_all t) (blockAt3 V c 0 t) (blockAt3 V c 1 t) (blockAt3 V c 2 t)

/-! ## The region's proof data -/

/-- The proof data of the region's pipeline on core `c`: the arrays as the region finds them; after the body at
    point `t` each input's buffer at its block and the output's at what the stores leave; the invariant the
    launch's; nothing owed; full shares. -/
def regionDat3 (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => blockAt3 V c 2 t
    | ⟨3, _⟩ => outAfter3 V c t
  Φ _ := Pipeline.ΦA spec3 c
  q _ := fullShare
  owed _ := 0

/-- The proof data's arrays are the region-entry contents. -/
theorem regionDat3_A (c : Dev nD) (w : Fin cfg3.W) : (regionDat3 V c).A w = V c (Pipeline.arrRef spec3 w) := by
  dsimp only [regionDat3]

/-- What the body leaves, window by window. -/
theorem regionDat3_after_x (c : Dev nD) (t : Fin cfg3.N) : (regionDat3 V c).after 0 t = blockAt3 V c 0 t := by dsimp only [regionDat3]
theorem regionDat3_after_w (c : Dev nD) (t : Fin cfg3.N) : (regionDat3 V c).after 1 t = blockAt3 V c 1 t := by dsimp only [regionDat3]
theorem regionDat3_after_b (c : Dev nD) (t : Fin cfg3.N) : (regionDat3 V c).after 2 t = blockAt3 V c 2 t := by dsimp only [regionDat3]
theorem regionDat3_after_out (c : Dev nD) (t : Fin cfg3.N) : (regionDat3 V c).after 3 t = outAfter3 V c t := by dsimp only [regionDat3]

/-- Each input's current staging buffer holds its block at every point, fetched there or not. -/
theorem regionDat3_before_x (c : Dev nD) (t : Fin cfg3.N) (d) : (regionDat3 V c).before 0 t d = blockAt3 V c 0 t :=
  before3_0_of V (regionDat3 V c) (regionDat3_A V c 0) (regionDat3_after_x V c) t d
theorem regionDat3_before_w (c : Dev nD) (t : Fin cfg3.N) (d) : (regionDat3 V c).before 1 t d = blockAt3 V c 1 t :=
  before3_1_of V (regionDat3 V c) (regionDat3_A V c 1) (regionDat3_after_w V c) t d
theorem regionDat3_before_b (c : Dev nD) (t : Fin cfg3.N) (d) : (regionDat3 V c).before 2 t d = blockAt3 V c 2 t :=
  before3_2_of V (regionDat3 V c) (regionDat3_A V c 2) (regionDat3_after_b V c) t d

/-! ## The body obligation, at a generic point -/

/-- What the body is called with at point `t`, the windows one by one, -/
def bodyPre3 (c : Dev nD) (t : Fin cfg3.N) : sProp 𝕄 :=
  iprop((regionDat3 V c).Φ t.castSucc ∗ (regionDat3 V c).owesAt () t.castSucc
    ∗ (∃ d, owns (c : Thread nD τ) (stg3_0 t) fullShare ((regionDat3 V c).before 0 t d))
    ∗ (∃ d, owns (c : Thread nD τ) (stg3_1 t) fullShare ((regionDat3 V c).before 1 t d))
    ∗ (∃ d, owns (c : Thread nD τ) (stg3_2 t) fullShare ((regionDat3 V c).before 2 t d))
    ∗ (∃ d, owns (c : Thread nD τ) (stg3_3 t) fullShare ((regionDat3 V c).before 3 t d)))

/-- and what it returns. -/
def bodyPost3 (c : Dev nD) (t : Fin cfg3.N) : sProp 𝕄 :=
  iprop((regionDat3 V c).Φ t.succ ∗ (regionDat3 V c).owesAt () t.succ
    ∗ (regionDat3 V c).leavesExact 0 t
    ∗ (regionDat3 V c).leavesExact 1 t
    ∗ (regionDat3 V c).leavesExact 2 t
    ∗ (regionDat3 V c).leavesExact 3 t)

set_option maxHeartbeats 4800000 in
/-- The body at any point: the inputs' memrefs hold their blocks; both conditions hold there, so the run applies;
    the invariant hands the body the accumulator at some contents and takes it back at some contents, the other
    scoped buffers and the generator register pass through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [regionDat3_before_x, regionDat3_before_w, regionDat3_before_b]
  rw [show (regionDat3 V c).owesAt () t.succ = (regionDat3 V c).owesAt () t.castSucc from rfl]
  rw [show (regionDat3 V c).Φ t.succ = Pipeline.ΦA spec3 c from rfl, show (regionDat3 V c).Φ t.castSucc = Pipeline.ΦA spec3 c from rfl, regionInv3_eq]
  rw [show (regionDat3 V c).leavesExact 0 t = owns (c : Thread nD τ) (stg3_0 t) fullShare ((regionDat3 V c).after 0 t) from by
    unfold Dat.leavesExact; rw [live3_0 t], regionDat3_after_x]
  rw [show (regionDat3 V c).leavesExact 1 t = owns (c : Thread nD τ) (stg3_1 t) fullShare ((regionDat3 V c).after 1 t) from by
    unfold Dat.leavesExact; rw [live3_1 t], regionDat3_after_w]
  rw [show (regionDat3 V c).leavesExact 2 t = owns (c : Thread nD τ) (stg3_2 t) fullShare ((regionDat3 V c).after 2 t) from by
    unfold Dat.leavesExact; rw [live3_2 t], regionDat3_after_b]
  rw [show (regionDat3 V c).leavesExact 3 t = owns (c : Thread nD τ) (stg3_3 t) fullShare ((regionDat3 V c).after 3 t) from by
    unfold Dat.leavesExact; rw [live3_3 t], regionDat3_after_out]
  unfold outAfter3 outLeft3; (try dsimp only)
  iintro ⟨⟨⟨HS, HR⟩, Hg⟩, Ho, ⟨%d0, H0⟩, ⟨%d1, H1⟩, ⟨%d2, H2⟩, ⟨%d3, H3⟩⟩
  iapply ((kernelRun3 c (grid3.coords t) _ _ _ _ _ _ _ _ _ _ (initCond3_all t) (storeCond3_all t) (blockAt3 V c 0 t) (blockAt3 V c 1 t) (blockAt3 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (outCover3 c _ _ _ _ _ _ _ _ _ _ _ _ _ _ _ _)

/-- The library's body obligation, at every point. -/
theorem regionDat3_body (c : Dev nD) : BodyObligation (regionDat3 (F := F) V c) (defs₀ (F := F)) Variants.none () Set.univ := fun t => by
  rw [bigSep_W3, bigSep_W3]
  exact sound_body3 V c t

/-- What the launch hands the region is the invariant before the first point. -/
theorem regionDat3_in (c : Dev nD) : Pipeline.ΦA spec3 c ⊢ (regionDat3 V c).Φ 0 :=
  Idealize.SL.BI.Entails.refl _

/-- After the last point the invariant gives it back. -/
theorem regionDat3_out (c : Dev nD) : (regionDat3 V c).Φ (Fin.last cfg3.N) ⊢ Pipeline.ΦA spec3 c :=
  Idealize.SL.BI.Entails.refl _

end Region3

end Cert.KernelIdeal.Hand

end
-- ==== Proof.KI.R4Kit.lean ====
/- Region 4 of @main (the matmul-plus-bias call number 4): what its run, its proof data and its body
   obligation share — the windows' blocks read off the arrays as the region finds them, what an input
   window's staging buffer holds at a point, the body's two branch conditions in closed form over the
   grid, where the windows are live, and the region invariant with the accumulator scratch taken out of
   the scoped rest. Everything is stated at a parameter `V`, the buffer contents when the region is
   entered. -/
import proofs.«137056_j83880711291258_2_alg».proof.Proof.Gen.KernelIdeal.Launch
import proofs.«137056_j83880711291258_2_alg».proof.Proof.Gen.KernelIdeal.Skeleton
import proofs.«137056_j83880711291258_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it. -/
def blockAt4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activation window's staging buffer holds its block at every point, fetched there or not (it is fetched at
    the first point only: its block index does not move), for any proof data whose array is `V`'s and whose
    body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = blockAt4 V c 0 t) (t : Fin cfg4.N) (d) : dat.before 0 t d = blockAt4 V c 0 t :=
  (dat.before_in_eq_fetched 0 rfl (fun _ => rfl) (fun _ _ _ => rfl) (fun t => by rw [hafter]; unfold Dat.blockOf blockAt4; rw [hA]; try rfl) t d).trans
    (by unfold Dat.fetched Dat.blockOf blockAt4; rw [hA]; try rfl)

/-- The weight window's staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = blockAt4 V c 1 t) (t : Fin cfg4.N) (d) : dat.before 1 t d = blockAt4 V c 1 t :=
  (dat.before_in_eq_fetched 1 rfl (fun _ => rfl) (fun _ _ _ => rfl) (fun t => by rw [hafter]; unfold Dat.blockOf blockAt4; rw [hA]; try rfl) t d).trans
    (by unfold Dat.fetched Dat.blockOf blockAt4; rw [hA]; try rfl)

/-- The bias window's staging buffer holds its block at every point. -/
theorem before4_2_of {c : Dev nD} (dat : Dat τ (Elt F) Unit ℕ (UR sig nD τ) ℕ cfg4 c) (hA : dat.A 2 = V c (Pipeline.arrRef spec4 2))
    (hafter : ∀ t, dat.after 2 t = blockAt4 V c 2 t) (t : Fin cfg4.N) (d) : dat.before 2 t d = blockAt4 V c 2 t :=
  (dat.before_in_eq_fetched 2 rfl (fun _ => rfl) (fun _ _ _ => rfl) (fun t => by rw [hafter]; unfold Dat.blockOf blockAt4; rw [hA]; try rfl) t d).trans
    (by unfold Dat.fetched Dat.blockOf blockAt4; rw [hA]; try rfl)

end Region4

/-! ## The body's branch conditions -/

/-- The condition under which the body zeroes the accumulator (the reduction coordinate is 0), from the grid
    coordinates. -/
abbrev initCond4 (i : grid4.Coords) : Prop := (Scalar.cmpi .ne (Scalar.extui (Scalar.cmpi .eq (BitVec.ofNat 32 (i 1).val) 0#32)) 0#32) = 1#1
/-- The reduction axis has one point, so it holds everywhere on the grid. -/
theorem initCond4_all : ∀ t : Fin cfg4.N, initCond4 (grid4.coords t) :=
  (by decide +kernel : ∀ t : Fin grid4.N, initCond4 (grid4.coords t))

/-- The condition under which the body stores the output block (the reduction coordinate is the last). -/
abbrev storeCond4 (i : grid4.Coords) : Prop := k4_cond2 i = 1#1
/-- It holds everywhere on the grid too. -/
theorem storeCond4_all : ∀ t : Fin cfg4.N, storeCond4 (grid4.coords t) :=
  (by decide +kernel : ∀ t : Fin grid4.N, storeCond4 (grid4.coords t))

/-! ## Where the windows are live -/

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
/-- The output window is stored into at every point. -/
theorem live4_3 : ∀ t : Fin cfg4.N, cfg4.idle 3 (grid4.coords t) = false := by decide +kernel

/-! ## The staging memrefs and the accumulator -/

/-- One staging buffer of the output window, through which its contents are stated (the choice does not matter). -/
abbrev outView4 : View sig .tc .vmem S64x3200 .f32 := (Memref.whole cc4_stg3_0 : Memref sig .tc .vmem S64x3200 .f32).view
/-- Each window's current staging memref at point `t`, spelled as the pipeline passes it, and its wholeness. -/
abbrev stg4_0 (t : Fin cfg4.N) : Memref sig .tc .vmem S64x1024 .f32 := win4_0.stage (cfg4.slots t 0)
abbrev stgWhole4_0 (t : Fin cfg4.N) : (stg4_0 t).IsWhole := hstage4_0 ((cfg4.slots t 0).cast nbuf4_0)
abbrev stg4_1 (t : Fin cfg4.N) : Memref sig .tc .vmem S3200x1024 .f32 := win4_1.stage (cfg4.slots t 1)
abbrev stgWhole4_1 (t : Fin cfg4.N) : (stg4_1 t).IsWhole := hstage4_1 ((cfg4.slots t 1).cast nbuf4_1)
abbrev stg4_2 (t : Fin cfg4.N) : Memref sig .tc .vmem S1x3200 .f32 := win4_2.stage (cfg4.slots t 2)
abbrev stgWhole4_2 (t : Fin cfg4.N) : (stg4_2 t).IsWhole := hstage4_2 ((cfg4.slots t 2).cast nbuf4_2)
abbrev stg4_3 (t : Fin cfg4.N) : Memref sig .tc .vmem S64x3200 .f32 := win4_3.stage (cfg4.slots t 3)
abbrev stgWhole4_3 (t : Fin cfg4.N) : (stg4_3 t).IsWhole := hstage4_3 ((cfg4.slots t 3).cast nbuf4_3)
/-- The accumulator: a whole scoped buffer of the kernel's own, passed beside the windows. -/
abbrev accRef4 : Memref sig .tc .vmem S64x3200 .f32 := Memref.whole cc4_scratch0
/-- The accumulator as a view: what it holds is stated through it. -/
abbrev accView4 : View sig .tc .vmem S64x3200 .f32 := accRef4.view

/-- The region invariant with the accumulator as a memref owned at some contents, the other scoped buffers
    unopened beside it, and the generator register at some state: what the body obligation hands the run and
    takes back. -/
theorem regionInv4_eq (c : Dev nD) :
    (Pipeline.ΦA spec4 c : sProp 𝕄)
      = iprop(iprop(iprop((∃ d, owns (c : Thread nD τ) accRef4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [accRef4, owns_whole]; try rfl

end Cert.KernelIdeal.Hand

end
-- ==== Proof.KI.R4Run.lean ====
/- Region 4: the whole-body run of the matmul-plus-bias kernel in the one control case its grid meets (the
   reduction axis has a single point, so the body zeroes the accumulator, adds the block product and
   stores accumulator plus bias at every point). The pieces the stores leave in the output buffer and in
   the accumulator are the witness the run finds. -/
import proofs.«137056_j83880711291258_2_alg».proof.Proof.KI.R4Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first),
    with the proof that on whole staging memrefs — the three inputs' at their contents, the output's and the
    accumulator at anything — the body runs to the continuation holding the inputs' as they were and the
    output's buffer and the accumulator with their pieces written. Both conditionals are decided by the
    hypotheses. -/
noncomputable def kernelRun4 (c : Dev nD) (i : grid4.Coords) (arg2 : Memref sig .tc .vmem S64x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S64x3200 .f32) (harg6 : arg6.IsWhole) (hc0 : initCond4 i) (hc1 : storeCond4 i)
    (x0 : Vec F S64x1024 .f32) (x1 : Vec F S3200x1024 .f32) (x2 : Vec F S1x3200 .f32) :
    Σ' (Lout : List (View.Piece (Elt F) S64x3200 .f32)), { Lacc : List (View.Piece (Elt F) S64x3200 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f Lout)
                ∗ (∃ f, arg6.view.loc (c : Thread nD τ) ↦[arg6.view.set]{fullShare} arg6.view.writes (Elt F) f Lacc)) -∗ K ⟨⟩))
          ⊢ wp frame (wpE (defs₀ (F := F)) Variants.none c none) E (cc4__matmul_bias_kernel i arg2 harg2 arg3 harg3 arg4 harg4 arg5 harg5 arg6 harg6) K } := by
  refine ⟨?_, ?_, fun E K => ?run⟩
  case run =>
    simp only [cc4__matmul_bias_kernel_eq_skeleton]; unfold cc4__matmul_bias_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Hand

end
-- ==== Proof.KI.R4.lean ====
/- Region 4: what the body leaves in the output window's buffer and in the accumulator (the found pieces
   read back), the region's proof data at the entry contents `V`, the body obligation at every point, and
   the invariant's two ends. The accumulator is zeroed at every point of this grid, so nothing is carried
   between points: the invariant is the launch's own throughout, and the body takes the accumulator out
   of the scoped rest at some contents and puts it back at some contents. -/
import proofs.«137056_j83880711291258_2_alg».proof.Proof.KI.R4Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the one control case leaves -/

/-- The pieces stored into the output's staging memref tile its block, so they cover it. -/
theorem outCover4 (c : Dev nD) (i : grid4.Coords) (arg2 : Memref sig .tc .vmem S64x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S64x3200 .f32) (harg6 : arg6.IsWhole) (hc0 : initCond4 i) (hc1 : storeCond4 i)
    (x0 : Vec F S64x1024 .f32) (x1 : Vec F S3200x1024 .f32) (x2 : Vec F S1x3200 .f32) (y : S64x3200.Idx) :
    ∃ pc ∈ (kernelRun4 c i arg2 harg2 arg3 harg3 arg4 harg4 arg5 harg5 arg6 harg6 hc0 hc1 x0 x1 x2).1, y ∈ pc.1.set :=
  View.cover_of_tiledL (kernelRun4 c i arg2 harg2 arg3 harg3 arg4 harg4 arg5 harg5 arg6 harg6 hc0 hc1 x0 x1 x2).1 S64x3200.size (by sl_kernel_rfl) y

/-- The pieces stored into the accumulator cover it. -/
theorem accCover4 (c : Dev nD) (i : grid4.Coords) (arg2 : Memref sig .tc .vmem S64x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S64x3200 .f32) (harg6 : arg6.IsWhole) (hc0 : initCond4 i) (hc1 : storeCond4 i)
    (x0 : Vec F S64x1024 .f32) (x1 : Vec F S3200x1024 .f32) (x2 : Vec F S1x3200 .f32) (y : S64x3200.Idx) :
    ∃ pc ∈ (kernelRun4 c i arg2 harg2 arg3 harg3 arg4 harg4 arg5 harg5 arg6 harg6 hc0 hc1 x0 x1 x2).2.1, y ∈ pc.1.set :=
  View.cover_of_tiledL (kernelRun4 c i arg2 harg2 arg3 harg3 arg4 harg4 arg5 harg5 arg6 harg6 hc0 hc1 x0 x1 x2).2.1 S64x3200.size (by sl_kernel_rfl) y

/-- What the body leaves in the output's staging buffer: its pieces read back over junk. -/
def outLeft4 (c : Dev nD) (i : grid4.Coords) (arg2 : Memref sig .tc .vmem S64x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S64x3200 .f32) (harg6 : arg6.IsWhole) (hc0 : initCond4 i) (hc1 : storeCond4 i)
    (x0 : Vec F S64x1024 .f32) (x1 : Vec F S3200x1024 .f32) (x2 : Vec F S1x3200 .f32) : Vec F S64x3200 .f32 :=
  outView4.read (Elt F) (outView4.writes (Elt F) outView4.junk (kernelRun4 c i arg2 harg2 arg3 harg3 arg4 harg4 arg5 harg5 arg6 harg6 hc0 hc1 x0 x1 x2).1)

/-- What the body leaves in the accumulator: its pieces read back over junk. -/
def accLeft4 (c : Dev nD) (i : grid4.Coords) (arg2 : Memref sig .tc .vmem S64x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S64x3200 .f32) (harg6 : arg6.IsWhole) (hc0 : initCond4 i) (hc1 : storeCond4 i)
    (x0 : Vec F S64x1024 .f32) (x1 : Vec F S3200x1024 .f32) (x2 : Vec F S1x3200 .f32) : Vec F S64x3200 .f32 :=
  accView4.read (Elt F) (accView4.writes (Elt F) accView4.junk (kernelRun4 c i arg2 harg2 arg3 harg3 arg4 harg4 arg5 harg5 arg6 harg6 hc0 hc1 x0 x1 x2).2.1)

section Region4
-- the TensorCore's buffer contents when the region is entered
variable (V : (c : Dev nD) → (b : Ref sig .tc) → Buf (Elt F) ((c : Thread nD τ).loc b))

/-! ## What the output and the accumulator hold after each point -/

/-- The output window's staging buffer after the body at point `t`: the case run at the point's memrefs and
    input blocks. -/
def outAfter4 (c : Dev nD) (t : Fin cfg4.N) : Vec F S64x3200 .f32 :=
  outLeft4 c (grid4.coords t) (stg4_0 t) (stgWhole4_0 t) (stg4_1 t) (stgWhole4_1 t) (stg4_2 t) (stgWhole4_2 t) (stg4_3 t) (stgWhole4_3 t) accRef4 (Memref.isWhole_whole _) (initCond4_all t) (storeCond4_all t) (blockAt4 V c 0 t) (blockAt4 V c 1 t) (blockAt4 V c 2 t)

/-- The accumulator after the body at point `t` (it does not depend on the point before: the body zeroes it
    first). -/
def accAfter4 (c : Dev nD) (t : Fin cfg4.N) : Vec F S64x3200 .f32 :=
  accLeft4 c (grid4.coords t) (stg4_0 t) (stgWhole4_0 t) (stg4_1 t) (stgWhole4_1 t) (stg4_2 t) (stgWhole4_2 t) (stg4_3 t) (stgWhole4_3 t) accRef4 (Memref.isWhole_whole _) (initCond4_all t) (storeCond4_all t) (blockAt4 V c 0 t) (blockAt4 V c 1 t) (blockAt4 V c 2 t)

/-! ## The region's proof data -/

/-- The proof data of the region's pipeline on core `c`: the arrays as the region finds them; after the body at
    point `t` each input's buffer at its block and the output's at what the stores leave; the invariant the
    launch's; nothing owed; full shares. -/
def regionDat4 (c : Dev nD) : Dat τ (Elt F) Unit ℕ (UR sig nD τ) ℕ cfg4 c where
  A w := V c (Pipeline.arrRef spec4 w)
  after w t := match w with
    | ⟨0, _⟩ => blockAt4 V c 0 t
    | ⟨1, _⟩ => blockAt4 V c 1 t
    | ⟨2, _⟩ => blockAt4 V c 2 t
    | ⟨3, _⟩ => outAfter4 V c t
  Φ _ := Pipeline.ΦA spec4 c
  q _ := fullShare
  owed _ := 0

/-- The proof data's arrays are the region-entry contents. -/
theorem regionDat4_A (c : Dev nD) (w : Fin cfg4.W) : (regionDat4 V c).A w = V c (Pipeline.arrRef spec4 w) := by
  dsimp only [regionDat4]

/-- What the body leaves, window by window. -/
theorem regionDat4_after_x (c : Dev nD) (t : Fin cfg4.N) : (regionDat4 V c).after 0 t = blockAt4 V c 0 t := by dsimp only [regionDat4]
theorem regionDat4_after_w (c : Dev nD) (t : Fin cfg4.N) : (regionDat4 V c).after 1 t = blockAt4 V c 1 t := by dsimp only [regionDat4]
theorem regionDat4_after_b (c : Dev nD) (t : Fin cfg4.N) : (regionDat4 V c).after 2 t = blockAt4 V c 2 t := by dsimp only [regionDat4]
theorem regionDat4_after_out (c : Dev nD) (t : Fin cfg4.N) : (regionDat4 V c).after 3 t = outAfter4 V c t := by dsimp only [regionDat4]

/-- Each input's current staging buffer holds its block at every point, fetched there or not. -/
theorem regionDat4_before_x (c : Dev nD) (t : Fin cfg4.N) (d) : (regionDat4 V c).before 0 t d = blockAt4 V c 0 t :=
  before4_0_of V (regionDat4 V c) (regionDat4_A V c 0) (regionDat4_after_x V c) t d
theorem regionDat4_before_w (c : Dev nD) (t : Fin cfg4.N) (d) : (regionDat4 V c).before 1 t d = blockAt4 V c 1 t :=
  before4_1_of V (regionDat4 V c) (regionDat4_A V c 1) (regionDat4_after_w V c) t d
theorem regionDat4_before_b (c : Dev nD) (t : Fin cfg4.N) (d) : (regionDat4 V c).before 2 t d = blockAt4 V c 2 t :=
  before4_2_of V (regionDat4 V c) (regionDat4_A V c 2) (regionDat4_after_b V c) t d

/-! ## The body obligation, at a generic point -/

/-- What the body is called with at point `t`, the windows one by one, -/
def bodyPre4 (c : Dev nD) (t : Fin cfg4.N) : sProp 𝕄 :=
  iprop((regionDat4 V c).Φ t.castSucc ∗ (regionDat4 V c).owesAt () t.castSucc
    ∗ (∃ d, owns (c : Thread nD τ) (stg4_0 t) fullShare ((regionDat4 V c).before 0 t d))
    ∗ (∃ d, owns (c : Thread nD τ) (stg4_1 t) fullShare ((regionDat4 V c).before 1 t d))
    ∗ (∃ d, owns (c : Thread nD τ) (stg4_2 t) fullShare ((regionDat4 V c).before 2 t d))
    ∗ (∃ d, owns (c : Thread nD τ) (stg4_3 t) fullShare ((regionDat4 V c).before 3 t d)))

/-- and what it returns. -/
def bodyPost4 (c : Dev nD) (t : Fin cfg4.N) : sProp 𝕄 :=
  iprop((regionDat4 V c).Φ t.succ ∗ (regionDat4 V c).owesAt () t.succ
    ∗ (regionDat4 V c).leavesExact 0 t
    ∗ (regionDat4 V c).leavesExact 1 t
    ∗ (regionDat4 V c).leavesExact 2 t
    ∗ (regionDat4 V c).leavesExact 3 t)

set_option maxHeartbeats 4800000 in
/-- The body at any point: the inputs' memrefs hold their blocks; both conditions hold there, so the run applies;
    the invariant hands the body the accumulator at some contents and takes it back at some contents, the other
    scoped buffers and the generator register pass through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [regionDat4_before_x, regionDat4_before_w, regionDat4_before_b]
  rw [show (regionDat4 V c).owesAt () t.succ = (regionDat4 V c).owesAt () t.castSucc from rfl]
  rw [show (regionDat4 V c).Φ t.succ = Pipeline.ΦA spec4 c from rfl, show (regionDat4 V c).Φ t.castSucc = Pipeline.ΦA spec4 c from rfl, regionInv4_eq]
  rw [show (regionDat4 V c).leavesExact 0 t = owns (c : Thread nD τ) (stg4_0 t) fullShare ((regionDat4 V c).after 0 t) from by
    unfold Dat.leavesExact; rw [live4_0 t], regionDat4_after_x]
  rw [show (regionDat4 V c).leavesExact 1 t = owns (c : Thread nD τ) (stg4_1 t) fullShare ((regionDat4 V c).after 1 t) from by
    unfold Dat.leavesExact; rw [live4_1 t], regionDat4_after_w]
  rw [show (regionDat4 V c).leavesExact 2 t = owns (c : Thread nD τ) (stg4_2 t) fullShare ((regionDat4 V c).after 2 t) from by
    unfold Dat.leavesExact; rw [live4_2 t], regionDat4_after_b]
  rw [show (regionDat4 V c).leavesExact 3 t = owns (c : Thread nD τ) (stg4_3 t) fullShare ((regionDat4 V c).after 3 t) from by
    unfold Dat.leavesExact; rw [live4_3 t], regionDat4_after_out]
  unfold outAfter4 outLeft4; (try dsimp only)
  iintro ⟨⟨⟨HS, HR⟩, Hg⟩, Ho, ⟨%d0, H0⟩, ⟨%d1, H1⟩, ⟨%d2, H2⟩, ⟨%d3, H3⟩⟩
  iapply ((kernelRun4 c (grid4.coords t) _ _ _ _ _ _ _ _ _ _ (initCond4_all t) (storeCond4_all t) (blockAt4 V c 0 t) (blockAt4 V c 1 t) (blockAt4 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (outCover4 c _ _ _ _ _ _ _ _ _ _ _ _ _ _ _ _)

/-- The library's body obligation, at every point. -/
theorem regionDat4_body (c : Dev nD) : BodyObligation (regionDat4 (F := F) V c) (defs₀ (F := F)) Variants.none () Set.univ := fun t => by
  rw [bigSep_W4, bigSep_W4]
  exact sound_body4 V c t

/-- What the launch hands the region is the invariant before the first point. -/
theorem regionDat4_in (c : Dev nD) : Pipeline.ΦA spec4 c ⊢ (regionDat4 V c).Φ 0 :=
  Idealize.SL.BI.Entails.refl _

/-- After the last point the invariant gives it back. -/
theorem regionDat4_out (c : Dev nD) : (regionDat4 V c).Φ (Fin.last cfg4.N) ⊢ Pipeline.ΦA spec4 c :=
  Idealize.SL.BI.Entails.refl _

end Region4

end Cert.KernelIdeal.Hand

end
-- ==== Proof.KI.Run.lean ====
/-
  The run of the kernel program's @main, at any float instance: eleven items in order — a stretch of host operations, the two
  gate-projection matmul kernels of layer 0, the host operations of layer 0's cell, the two matmul kernels of layer 1, the host
  operations of layer 1's cell, the decoder's matmul kernel, and three stretches for the temperature division, the log-softmax
  and the stacking of the results. Each kernel call is a pipeline region whose proof data (the accumulator carried over the
  contraction axis, the output block stored at the last step) is stated in the region's own module at the buffer contents
  the region is entered with. Here those contents are folded through the items from the launch memory, every region is
  presented as a segment between "all unscoped buffers at the contents before" and "at the contents after", and the
  segment theorem gives: every weakly fair execution terminates and each unscoped buffer ends at the fold's last contents.
  The frame claim (each argument array ends as launched) is read off that fold.
-/
import proofs.«137056_j83880711291258_2_alg».proof.Proof.KI.R0
import proofs.«137056_j83880711291258_2_alg».proof.Proof.KI.R1
import proofs.«137056_j83880711291258_2_alg».proof.Proof.KI.R2
import proofs.«137056_j83880711291258_2_alg».proof.Proof.KI.R3
import proofs.«137056_j83880711291258_2_alg».proof.Proof.KI.R4
import proofs.«137056_j83880711291258_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run of @main: host stretches and kernel regions in order, from the launch to the return

The buffer contents at each boundary between two items are a fold from the launch memory: a host stretch applies its
operations; a region leaves each of its arrays at what its write-backs fold to and every other buffer as entered. -/

variable (m : (ℓ : Loc nD τ sig) → Buf (Elt F) ℓ)

/-- Core `c`'s buffers at launch. -/
abbrev B0 (c : Dev nD) : Valuation τ sig (Elt F) := fun b => m (c, b)
/-- After the host stretch `hostOps0`. -/
abbrev B1 (c : Dev nD) : Valuation τ sig (Elt F) := StableHlo.after hostOps0 (B0 m c)
/-- Region 0's entry contents, read at the TensorCore's references. -/
abbrev En0 : (c : Dev nD) → (b : Ref sig .tc) → Buf (Elt F) ((c : Thread nD τ).loc b) := fun c b => B1 m c b
/-- At region 0's exit: its arrays at what the pipeline leaves, every other buffer as entered. -/
def B2 (c : Dev nD) : Valuation τ sig (Elt F) :=
  Pipeline.withArrays spec0 c (B1 m c) fun w => (regionDat0 (En0 m) c).arrAt w cfg0.N
theorem B2_arr (c : Dev nD) (w : Fin cfg0.W) :
    B2 m c (Proc.devRef .tc (Pipeline.arrRef spec0 w)) = (regionDat0 (En0 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- Region 0's exit contents, read at the TensorCore's references. -/
abbrev Ex0 : (c : Dev nD) → (b : Ref sig .tc) → Buf (Elt F) ((c : Thread nD τ).loc b) := fun c b => B2 m c b
theorem exit0_arr (c : Dev nD) (w : Fin cfg0.W) : (regionDat0 (En0 m) c).arrAt w cfg0.N = Ex0 m c (Pipeline.arrRef spec0 w) :=
  (B2_arr m c w).symm
theorem exit0_rest (c : Dev nD) : ∀ b, b ∉ Finset.univ.image (Pipeline.arrRef spec0) → Ex0 m c b = En0 m c b :=
  fun b hb => B2_of_ne m c b fun w e => hb (Finset.mem_image.mpr ⟨w, Finset.mem_univ _, e⟩)
/-- Region 1's entry contents, read at the TensorCore's references. -/
abbrev En1 : (c : Dev nD) → (b : Ref sig .tc) → Buf (Elt F) ((c : Thread nD τ).loc b) := fun c b => B2 m c b
/-- At region 1's exit: its arrays at what the pipeline leaves, every other buffer as entered. -/
def B3 (c : Dev nD) : Valuation τ sig (Elt F) :=
  Pipeline.withArrays spec1 c (B2 m c) fun w => (regionDat1 (En1 m) c).arrAt w cfg1.N
theorem B3_arr (c : Dev nD) (w : Fin cfg1.W) :
    B3 m c (Proc.devRef .tc (Pipeline.arrRef spec1 w)) = (regionDat1 (En1 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
/-- Region 1's exit contents, read at the TensorCore's references. -/
abbrev Ex1 : (c : Dev nD) → (b : Ref sig .tc) → Buf (Elt F) ((c : Thread nD τ).loc b) := fun c b => B3 m c b
theorem exit1_arr (c : Dev nD) (w : Fin cfg1.W) : (regionDat1 (En1 m) c).arrAt w cfg1.N = Ex1 m c (Pipeline.arrRef spec1 w) :=
  (B3_arr m c w).symm
theorem exit1_rest (c : Dev nD) : ∀ b, b ∉ Finset.univ.image (Pipeline.arrRef spec1) → Ex1 m c b = En1 m c b :=
  fun b hb => B3_of_ne m c b fun w e => hb (Finset.mem_image.mpr ⟨w, Finset.mem_univ _, e⟩)
/-- After the host stretch `hostOps2`. -/
abbrev B4 (c : Dev nD) : Valuation τ sig (Elt F) := StableHlo.after hostOps2 (B3 m c)
/-- Region 2's entry contents, read at the TensorCore's references. -/
abbrev En2 : (c : Dev nD) → (b : Ref sig .tc) → Buf (Elt F) ((c : Thread nD τ).loc b) := fun c b => B4 m c b
/-- At region 2's exit: its arrays at what the pipeline leaves, every other buffer as entered. -/
def B5 (c : Dev nD) : Valuation τ sig (Elt F) :=
  Pipeline.withArrays spec2 c (B4 m c) fun w => (regionDat2 (En2 m) c).arrAt w cfg2.N
theorem B5_arr (c : Dev nD) (w : Fin cfg2.W) :
    B5 m c (Proc.devRef .tc (Pipeline.arrRef spec2 w)) = (regionDat2 (En2 m) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m c (Proc.devRef .tc b) = B4 m c (Proc.devRef .tc b) := by
  unfold B5; exact Pipeline.withArrays_of_ne spec2 c _ _ b hb
/-- Region 2's exit contents, read at the TensorCore's references. -/
abbrev Ex2 : (c : Dev nD) → (b : Ref sig .tc) → Buf (Elt F) ((c : Thread nD τ).loc b) := fun c b => B5 m c b
theorem exit2_arr (c : Dev nD) (w : Fin cfg2.W) : (regionDat2 (En2 m) c).arrAt w cfg2.N = Ex2 m c (Pipeline.arrRef spec2 w) :=
  (B5_arr m c w).symm
theorem exit2_rest (c : Dev nD) : ∀ b, b ∉ Finset.univ.image (Pipeline.arrRef spec2) → Ex2 m c b = En2 m c b :=
  fun b hb => B5_of_ne m c b fun w e => hb (Finset.mem_image.mpr ⟨w, Finset.mem_univ _, e⟩)
/-- Region 3's entry contents, read at the TensorCore's references. -/
abbrev En3 : (c : Dev nD) → (b : Ref sig .tc) → Buf (Elt F) ((c : Thread nD τ).loc b) := fun c b => B5 m c b
/-- At region 3's exit: its arrays at what the pipeline leaves, every other buffer as entered. -/
def B6 (c : Dev nD) : Valuation τ sig (Elt F) :=
  Pipeline.withArrays spec3 c (B5 m c) fun w => (regionDat3 (En3 m) c).arrAt w cfg3.N
theorem B6_arr (c : Dev nD) (w : Fin cfg3.W) :
    B6 m c (Proc.devRef .tc (Pipeline.arrRef spec3 w)) = (regionDat3 (En3 m) c).arrAt w cfg3.N := by
  unfold B6; exact Pipeline.withArrays_arr spec3 launch3.win.arr_inj c _ _ w
theorem B6_of_ne (c : Dev nD) (b : Ref sig .tc) (hb : ∀ w, Pipeline.arrRef spec3 w ≠ b) :
    B6 m c (Proc.devRef .tc b) = B5 m c (Proc.devRef .tc b) := by
  unfold B6; exact Pipeline.withArrays_of_ne spec3 c _ _ b hb
/-- Region 3's exit contents, read at the TensorCore's references. -/
abbrev Ex3 : (c : Dev nD) → (b : Ref sig .tc) → Buf (Elt F) ((c : Thread nD τ).loc b) := fun c b => B6 m c b
theorem exit3_arr (c : Dev nD) (w : Fin cfg3.W) : (regionDat3 (En3 m) c).arrAt w cfg3.N = Ex3 m c (Pipeline.arrRef spec3 w) :=
  (B6_arr m c w).symm
theorem exit3_rest (c : Dev nD) : ∀ b, b ∉ Finset.univ.image (Pipeline.arrRef spec3) → Ex3 m c b = En3 m c b :=
  fun b hb => B6_of_ne m c b fun w e => hb (Finset.mem_image.mpr ⟨w, Finset.mem_univ _, e⟩)
/-- After the host stretch `hostOps4`. -/
abbrev B7 (c : Dev nD) : Valuation τ sig (Elt F) := StableHlo.after hostOps4 (B6 m c)
/-- Region 4's entry contents, read at the TensorCore's references. -/
abbrev En4 : (c : Dev nD) → (b : Ref sig .tc) → Buf (Elt F) ((c : Thread nD τ).loc b) := fun c b => B7 m c b
/-- At region 4's exit: its arrays at what the pipeline leaves, every other buffer as entered. -/
def B8 (c : Dev nD) : Valuation τ sig (Elt F) :=
  Pipeline.withArrays spec4 c (B7 m c) fun w => (regionDat4 (En4 m) c).arrAt w cfg4.N
theorem B8_arr (c : Dev nD) (w : Fin cfg4.W) :
    B8 m c (Proc.devRef .tc (Pipeline.arrRef spec4 w)) = (regionDat4 (En4 m) c).arrAt w cfg4.N := by
  unfold B8; exact Pipeline.withArrays_arr spec4 launch4.win.arr_inj c _ _ w
theorem B8_of_ne (c : Dev nD) (b : Ref sig .tc) (hb : ∀ w, Pipeline.arrRef spec4 w ≠ b) :
    B8 m c (Proc.devRef .tc b) = B7 m c (Proc.devRef .tc b) := by
  unfold B8; exact Pipeline.withArrays_of_ne spec4 c _ _ b hb
/-- Region 4's exit contents, read at the TensorCore's references. -/
abbrev Ex4 : (c : Dev nD) → (b : Ref sig .tc) → Buf (Elt F) ((c : Thread nD τ).loc b) := fun c b => B8 m c b
theorem exit4_arr (c : Dev nD) (w : Fin cfg4.W) : (regionDat4 (En4 m) c).arrAt w cfg4.N = Ex4 m c (Pipeline.arrRef spec4 w) :=
  (B8_arr m c w).symm
theorem exit4_rest (c : Dev nD) : ∀ b, b ∉ Finset.univ.image (Pipeline.arrRef spec4) → Ex4 m c b = En4 m c b :=
  fun b hb => B8_of_ne m c b fun w e => hb (Finset.mem_image.mpr ⟨w, Finset.mem_univ _, e⟩)
/-- After the host stretch `hostOps5`. -/
abbrev B9 (c : Dev nD) : Valuation τ sig (Elt F) := StableHlo.after hostOps5 (B8 m c)
/-- After the host stretch `hostOps5_1`. -/
abbrev B10 (c : Dev nD) : Valuation τ sig (Elt F) := StableHlo.after hostOps5_1 (B9 m c)
/-- After the host stretch `hostOps5_2`. -/
abbrev B11 (c : Dev nD) : Valuation τ sig (Elt F) := StableHlo.after hostOps5_2 (B10 m c)

/-! ## The proof data family and the thread state -/

/-- Every pipeline's proof data, each at its region's entry contents. -/
def pdats : (p : Fin 5) → (c : Dev nD) → Dat τ (Elt F) Unit ℕ (UR sig nD τ) ℕ (cfgs p) c
  | ⟨0, _⟩ => fun c => regionDat0 (En0 m) c
  | ⟨1, _⟩ => fun c => regionDat1 (En1 m) c
  | ⟨2, _⟩ => fun c => regionDat2 (En2 m) c
  | ⟨3, _⟩ => fun c => regionDat3 (En3 m) c
  | ⟨4, _⟩ => fun c => regionDat4 (En4 m) c
abbrev vnone : Variants := Variants.none
/-- No core owes another anything: no level is assigned. -/
abbrev Lno : GSem nD τ sig → Finset Unit := fun _ => ∅
abbrev lvno : GSem nD τ sig → Unit → ℕ := fun _ _ => 0
/-- What rides beside the buffers through every item: the core's generator register at some state and its `owes`, at nothing. -/
abbrev Ride (c : Dev nD) : sProp 𝕄 := iprop((∃ r, prngReg c r) ∗ ∃ W, owes (c : Thread nD τ) (0 : CellTallies nD τ sig Unit) W)
/-- A host stretch as a segment over the unscoped references from the contents `W`, `Ride` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vnone Lno lvno :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
/-- The last thread state without the `owes`. -/
abbrev Tlast (c : Dev nD) : sProp 𝕄 := iprop(StableHlo.held (c : Thread nD τ) (Pipeline.ucRefs τ sig) (B11 m c) ∗ ∃ r, prngReg c r)

set_option backward.isDefEq.respectTransparency.types false in
/-- Region 0 over the thread state: entered from every unscoped buffer at `B1`, left at `B2`. Its arrays are split out of
    the unscoped buffers and put back at the exit contents; the generator register goes into the region invariant and comes back;
    nothing is owed; the kernel has no semaphore of its own. -/
def reg0 : Pipeline.RegionSeg (pcfgs (F := F)) adm (pdats m) () defs₀ vnone Lno lvno 0 where
  win := launch0.win.to₀
  block_pos := launch0.block_pos
  stage_whole := launch0.stage_whole
  K := PEmpty
  osem k := k.elim
  ho := Pipeline.OwnSemFacts.none _
  hbody c := (regionDat0_body (En0 m) c).loose
  hwaits := Pipeline.hwaits_of_owed_zero _ _ _ _ Lno lvno 0 fun _ _ => rfl
  pre c := iprop(StableHlo.held (c : Thread nD τ) (Pipeline.ucRefs τ sig) (B1 m c) ∗ Ride c)
  post c := iprop(StableHlo.held (c : Thread nD τ) (Pipeline.ucRefs τ sig) (B2 m c) ∗ Ride c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (regionDat0_in (En0 m) c)
    unfold Pipeline.ΦA
    iintro ⟨Hp, -, Hr⟩
    isplitl [Hr]; · iexact Hr
    iexact Hp
  hout c := by
    rw [Pipeline.ownSems0_none]
    refine BIBase.Entails.trans (regionDat0_out (En0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (Ex0 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B2`, left at `B3`. Its arrays are split out of
    the unscoped buffers and put back at the exit contents; the generator register goes into the region invariant and comes back;
    nothing is owed; the kernel has no semaphore of its own. -/
def reg1 : Pipeline.RegionSeg (pcfgs (F := F)) adm (pdats m) () defs₀ vnone Lno lvno 1 where
  win := launch1.win.to₀
  block_pos := launch1.block_pos
  stage_whole := launch1.stage_whole
  K := PEmpty
  osem k := k.elim
  ho := Pipeline.OwnSemFacts.none _
  hbody c := (regionDat1_body (En1 m) c).loose
  hwaits := Pipeline.hwaits_of_owed_zero _ _ _ _ Lno lvno 1 fun _ _ => rfl
  pre c := iprop(StableHlo.held (c : Thread nD τ) (Pipeline.ucRefs τ sig) (B2 m c) ∗ Ride c)
  post c := iprop(StableHlo.held (c : Thread nD τ) (Pipeline.ucRefs τ sig) (B3 m c) ∗ Ride c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (regionDat1_in (En1 m) c)
    unfold Pipeline.ΦA
    iintro ⟨Hp, -, Hr⟩
    isplitl [Hr]; · iexact Hr
    iexact Hp
  hout c := by
    rw [Pipeline.ownSems0_none]
    refine BIBase.Entails.trans (regionDat1_out (En1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (Ex1 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B4`, left at `B5`. Its arrays are split out of
    the unscoped buffers and put back at the exit contents; the generator register goes into the region invariant and comes back;
    nothing is owed; the kernel has no semaphore of its own. -/
def reg2 : Pipeline.RegionSeg (pcfgs (F := F)) adm (pdats m) () defs₀ vnone Lno lvno 2 where
  win := launch2.win.to₀
  block_pos := launch2.block_pos
  stage_whole := launch2.stage_whole
  K := PEmpty
  osem k := k.elim
  ho := Pipeline.OwnSemFacts.none _
  hbody c := (regionDat2_body (En2 m) c).loose
  hwaits := Pipeline.hwaits_of_owed_zero _ _ _ _ Lno lvno 2 fun _ _ => rfl
  pre c := iprop(StableHlo.held (c : Thread nD τ) (Pipeline.ucRefs τ sig) (B4 m c) ∗ Ride c)
  post c := iprop(StableHlo.held (c : Thread nD τ) (Pipeline.ucRefs τ sig) (B5 m c) ∗ Ride c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (regionDat2_in (En2 m) c)
    unfold Pipeline.ΦA
    iintro ⟨Hp, -, Hr⟩
    isplitl [Hr]; · iexact Hr
    iexact Hp
  hout c := by
    rw [Pipeline.ownSems0_none]
    refine BIBase.Entails.trans (regionDat2_out (En2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En2 m c) (Ex2 m c) ((pdats m 2 c).arrAt · cfg2.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `B5`, left at `B6`. Its arrays are split out of
    the unscoped buffers and put back at the exit contents; the generator register goes into the region invariant and comes back;
    nothing is owed; the kernel has no semaphore of its own. -/
def reg3 : Pipeline.RegionSeg (pcfgs (F := F)) adm (pdats m) () defs₀ vnone Lno lvno 3 where
  win := launch3.win.to₀
  block_pos := launch3.block_pos
  stage_whole := launch3.stage_whole
  K := PEmpty
  osem k := k.elim
  ho := Pipeline.OwnSemFacts.none _
  hbody c := (regionDat3_body (En3 m) c).loose
  hwaits := Pipeline.hwaits_of_owed_zero _ _ _ _ Lno lvno 3 fun _ _ => rfl
  pre c := iprop(StableHlo.held (c : Thread nD τ) (Pipeline.ucRefs τ sig) (B5 m c) ∗ Ride c)
  post c := iprop(StableHlo.held (c : Thread nD τ) (Pipeline.ucRefs τ sig) (B6 m c) ∗ Ride c)
  X c := iprop(∃ r, prngReg c r)
  Y c := iprop(∃ r, prngReg c r)
  Z c := Pipeline.unscopedRest (Ix := Unit) (Name := ℕ) (U := UR sig nD τ) (Lvl := ℕ) spec3 c (En3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (regionDat3_in (En3 m) c)
    unfold Pipeline.ΦA
    iintro ⟨Hp, -, Hr⟩
    isplitl [Hr]; · iexact Hr
    iexact Hp
  hout c := by
    rw [Pipeline.ownSems0_none]
    refine BIBase.Entails.trans (regionDat3_out (En3 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (En3 m c) (Ex3 m c) ((pdats m 3 c).arrAt · cfg3.N) (exit3_arr m c) (exit3_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `B7`, left at `B8`. Its arrays are split out of
    the unscoped buffers and put back at the exit contents; the generator register goes into the region invariant and comes back;
    nothing is owed; the kernel has no semaphore of its own. -/
def reg4 : Pipeline.RegionSeg (pcfgs (F := F)) adm (pdats m) () defs₀ vnone Lno lvno 4 where
  win := launch4.win.to₀
  block_pos := launch4.block_pos
  stage_whole := launch4.stage_whole
  K := PEmpty
  osem k := k.elim
  ho := Pipeline.OwnSemFacts.none _
  hbody c := (regionDat4_body (En4 m) c).loose
  hwaits := Pipeline.hwaits_of_owed_zero _ _ _ _ Lno lvno 4 fun _ _ => rfl
  pre c := iprop(StableHlo.held (c : Thread nD τ) (Pipeline.ucRefs τ sig) (B7 m c) ∗ Ride c)
  post c := iprop(StableHlo.held (c : Thread nD τ) (Pipeline.ucRefs τ sig) (B8 m c) ∗ Ride c)
  X c := iprop(∃ r, prngReg c r)
  Y c := iprop(∃ r, prngReg c r)
  Z c := Pipeline.unscopedRest (Ix := Unit) (Name := ℕ) (U := UR sig nD τ) (Lvl := ℕ) spec4 c (En4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (En4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (regionDat4_in (En4 m) c)
    unfold Pipeline.ΦA
    iintro ⟨Hp, -, Hr⟩
    isplitl [Hr]; · iexact Hr
    iexact Hp
  hout c := by
    rw [Pipeline.ownSems0_none]
    refine BIBase.Entails.trans (regionDat4_out (En4 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (En4 m c) (Ex4 m c) ((pdats m 4 c).arrAt · cfg4.N) (exit4_arr m c) (exit4_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven items in order: a host segment per stretch from its boundary's contents, a region per kernel call. -/
abbrev segs : List (Pipeline.Seg (pcfgs (F := F)) adm (pdats m) () defs₀ vnone Lno lvno) :=
  [ .host (hseg hostOps0 hostOps0_sub hostOps0_fresh (B0 m)),
    .region (reg0 m),
    .region (reg1 m),
    .host (hseg hostOps2 hostOps2_sub hostOps2_fresh (B3 m)),
    .region (reg2 m),
    .region (reg3 m),
    .host (hseg hostOps4 hostOps4_sub hostOps4_fresh (B6 m)),
    .region (reg4 m),
    .host (hseg hostOps5 hostOps5_sub hostOps5_fresh (B8 m)),
    .host (hseg hostOps5_1 hostOps5_1_sub hostOps5_1_fresh (B9 m)),
    .host (hseg hostOps5_2 hostOps5_2_sub hostOps5_2_fresh (B10 m)) ]

set_option backward.isDefEq.respectTransparency.types false in
/-- From any memory with zero counters, every weakly fair execution of @main on the TensorCores terminates, nothing
    faulting, and in every final state each unscoped buffer holds what the fold of the items leaves in it (`B11`). -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = B11 m c b) :=
  Pipeline.θ_run_regions_kit (pcfgs (F := F)) adm (pdats m) () cellOf_inj emb₁ defs₀ vnone Lno lvno m ρ main (segs m)
    (fun c Q => by
      rewrite [main_chain c, Pipeline.Seg.run_eq_chain,
        show (segs m).map Pipeline.Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          StableHlo.seq hostOps5_1,
          StableHlo.seq hostOps5_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Ride c)) (Tₙ := Tlast m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show (iprop(StableHlo.held (c : Thread nD τ) (Pipeline.ucRefs τ sig) (B11 m c) ∗ Ride c) : sProp 𝕄)
          ⊢ iprop(Tlast m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach Lno lvno fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m c b)
    (hfin := fun c s' => by
      iintro ⟨⟨Hh, -⟩, HSI⟩
      unfold StableHlo.held
      imodintro
      iapply (pointsTo_read_all (Pipeline.ucRefs τ sig) (fun b => (((c : Thread nD τ)).1, b)) (B11 m c) s')
      isplitl [Hh] <;> iassumption)
    (hQ := fun s h => h)

/-! ## What the items leave unchanged -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Region 0 changes no buffer but its output array: an input window's array ends as entered, a buffer no window stages is bypassed. -/
theorem B2_keep (c : Dev nD) (b : Ref sig .tc) (hb : b ≠ main_v25) : B2 m c b = B1 m c b := by
  by_cases h : ∃ w, Pipeline.arrRef spec0 w = b
  · obtain ⟨w, rfl⟩ := h
    fin_cases w
    · exact (B2_arr m c 0).trans (((regionDat0 (En0 m) c).arrAt_in 0 rfl _).trans (regionDat0_A (En0 m) c 0))
    · exact (B2_arr m c 1).trans (((regionDat0 (En0 m) c).arrAt_in 1 rfl _).trans (regionDat0_A (En0 m) c 1))
    · exact (B2_arr m c 2).trans (((regionDat0 (En0 m) c).arrAt_in 2 rfl _).trans (regionDat0_A (En0 m) c 2))
    · exact absurd rfl hb
  · exact B2_of_ne m c b fun w e => h ⟨w, e⟩

/-- Region 1 changes no buffer but its output array: an input window's array ends as entered, a buffer no window stages is bypassed. -/
theorem B3_keep (c : Dev nD) (b : Ref sig .tc) (hb : b ≠ main_v26) : B3 m c b = B2 m c b := by
  by_cases h : ∃ w, Pipeline.arrRef spec1 w = b
  · obtain ⟨w, rfl⟩ := h
    fin_cases w
    · exact (B3_arr m c 0).trans (((regionDat1 (En1 m) c).arrAt_in 0 rfl _).trans (regionDat1_A (En1 m) c 0))
    · exact (B3_arr m c 1).trans (((regionDat1 (En1 m) c).arrAt_in 1 rfl _).trans (regionDat1_A (En1 m) c 1))
    · exact (B3_arr m c 2).trans (((regionDat1 (En1 m) c).arrAt_in 2 rfl _).trans (regionDat1_A (En1 m) c 2))
    · exact absurd rfl hb
  · exact B3_of_ne m c b fun w e => h ⟨w, e⟩

/-- Region 2 changes no buffer but its output array: an input window's array ends as entered, a buffer no window stages is bypassed. -/
theorem B5_keep (c : Dev nD) (b : Ref sig .tc) (hb : b ≠ main_v56) : B5 m c b = B4 m c b := by
  by_cases h : ∃ w, Pipeline.arrRef spec2 w = b
  · obtain ⟨w, rfl⟩ := h
    fin_cases w
    · exact (B5_arr m c 0).trans (((regionDat2 (En2 m) c).arrAt_in 0 rfl _).trans (regionDat2_A (En2 m) c 0))
    · exact (B5_arr m c 1).trans (((regionDat2 (En2 m) c).arrAt_in 1 rfl _).trans (regionDat2_A (En2 m) c 1))
    · exact (B5_arr m c 2).trans (((regionDat2 (En2 m) c).arrAt_in 2 rfl _).trans (regionDat2_A (En2 m) c 2))
    · exact absurd rfl hb
  · exact B5_of_ne m c b fun w e => h ⟨w, e⟩

/-- Region 3 changes no buffer but its output array: an input window's array ends as entered, a buffer no window stages is bypassed. -/
theorem B6_keep (c : Dev nD) (b : Ref sig .tc) (hb : b ≠ main_v57) : B6 m c b = B5 m c b := by
  by_cases h : ∃ w, Pipeline.arrRef spec3 w = b
  · obtain ⟨w, rfl⟩ := h
    fin_cases w
    · exact (B6_arr m c 0).trans (((regionDat3 (En3 m) c).arrAt_in 0 rfl _).trans (regionDat3_A (En3 m) c 0))
    · exact (B6_arr m c 1).trans (((regionDat3 (En3 m) c).arrAt_in 1 rfl _).trans (regionDat3_A (En3 m) c 1))
    · exact (B6_arr m c 2).trans (((regionDat3 (En3 m) c).arrAt_in 2 rfl _).trans (regionDat3_A (En3 m) c 2))
    · exact absurd rfl hb
  · exact B6_of_ne m c b fun w e => h ⟨w, e⟩

/-- Region 4 changes no buffer but its output array: an input window's array ends as entered, a buffer no window stages is bypassed. -/
theorem B8_keep (c : Dev nD) (b : Ref sig .tc) (hb : b ≠ main_v87) : B8 m c b = B7 m c b := by
  by_cases h : ∃ w, Pipeline.arrRef spec4 w = b
  · obtain ⟨w, rfl⟩ := h
    fin_cases w
    · exact (B8_arr m c 0).trans (((regionDat4 (En4 m) c).arrAt_in 0 rfl _).trans (regionDat4_A (En4 m) c 0))
    · exact (B8_arr m c 1).trans (((regionDat4 (En4 m) c).arrAt_in 1 rfl _).trans (regionDat4_A (En4 m) c 1))
    · exact (B8_arr m c 2).trans (((regionDat4 (En4 m) c).arrAt_in 2 rfl _).trans (regionDat4_A (En4 m) c 2))
    · exact absurd rfl hb
  · exact B8_of_ne m c b fun w e => h ⟨w, e⟩

/-- A buffer that no host operation writes and that is no region's output ends as launched. -/
theorem B11_kept (c : Dev nD) (r : Ref sig .tc) (h0 : r ∉ hostOps0_W) (h2 : r ∉ hostOps2_W) (h4 : r ∉ hostOps4_W)
    (h5 : r ∉ hostOps5_W) (h51 : r ∉ hostOps5_1_W) (h52 : r ∉ hostOps5_2_W)
    (n0 : r ≠ main_v25) (n1 : r ≠ main_v26) (n2 : r ≠ main_v56) (n3 : r ≠ main_v57) (n4 : r ≠ main_v87) :
    B11 m c r = m ((c : Thread nD τ).loc r) :=
  (StableHlo.after_of_writes_sub hostOps5_2 _ hostOps5_2_writes h52).trans <|
  (StableHlo.after_of_writes_sub hostOps5_1 _ hostOps5_1_writes h51).trans <|
  (StableHlo.after_of_writes_sub hostOps5 _ hostOps5_writes h5).trans <|
  (B8_keep m c r n4).trans <|
  (StableHlo.after_of_writes_sub hostOps4 _ hostOps4_writes h4).trans <|
  (B6_keep m c r n3).trans <| (B5_keep m c r n2).trans <|
  (StableHlo.after_of_writes_sub hostOps2 _ hostOps2_writes h2).trans <|
  (B3_keep m c r n1).trans <| (B2_keep m c r n0).trans <|
  (StableHlo.after_of_writes_sub hostOps0 _ hostOps0_writes h0).trans rfl

/-- Each argument array ends as launched. -/
theorem B11_arg (c : Dev nD) (r : Ref sig .tc) (hr : r ∈ ([main_arg0, main_arg1, main_arg2, main_arg3, main_arg4, main_arg5, main_arg6, main_arg7, main_arg8, main_arg9, main_arg10] : List (Ref sig .tc))) :
    B11 m c r = m ((c : Thread nD τ).loc r) := by
  simp only [List.mem_cons, List.mem_nil_iff, or_false] at hr
  rcases hr with rfl | rfl | rfl | rfl | rfl | rfl | rfl | rfl | rfl | rfl | rfl <;>
    exact B11_kept m c _ (by decide) (by decide) (by decide) (by decide) (by decide) (by decide) (by decide) (by decide) (by decide) (by decide) (by decide)

/-- THE FRAME: every weakly fair execution of @main terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (B11_arg m c main_arg0 (by decide)),
     (h c _ (mem_uc main_arg1 (by decide))).trans (B11_arg m c main_arg1 (by decide)),
     (h c _ (mem_uc main_arg2 (by decide))).trans (B11_arg m c main_arg2 (by decide)),
     (h c _ (mem_uc main_arg3 (by decide))).trans (B11_arg m c main_arg3 (by decide)),
     (h c _ (mem_uc main_arg4 (by decide))).trans (B11_arg m c main_arg4 (by decide)),
     (h c _ (mem_uc main_arg5 (by decide))).trans (B11_arg m c main_arg5 (by decide)),
     (h c _ (mem_uc main_arg6 (by decide))).trans (B11_arg m c main_arg6 (by decide)),
     (h c _ (mem_uc main_arg7 (by decide))).trans (B11_arg m c main_arg7 (by decide)),
     (h c _ (mem_uc main_arg8 (by decide))).trans (B11_arg m c main_arg8 (by decide)),
     (h c _ (mem_uc main_arg9 (by decide))).trans (B11_arg m c main_arg9 (by decide)),
     (h c _ (mem_uc main_arg10 (by decide))).trans (B11_arg m c main_arg10 (by decide))⟩) (run_all m ρ)

end Cert.KernelIdeal.Hand

end
-- ==== Proof.Ref.Shared.lean ====
/-
  The host arithmetic that both programs apply after their matrix products, at the ideal instance (every float an
  extended real, every operation exact): the logistic gate written as the programs write it, 1 / (1 + exp (-z)), with
  the literal 1.0 broadcast twice; the LSTM cell update c' = f * c + i * g with f, i logistic gates and g = tanh, and
  the cell's output o * tanh c'; the division of the logits by the literal 0.8 followed by the log-softmax along the
  vocabulary axis, (y - max y) - log (sum (exp (y - max y))), with the maximum taken against -inf and the sum from 0;
  and the stacking of two [64, 1024] arrays into one [2, 64, 1024] array. Each is ONE function of arrays, composed of
  the same operations, in the same order, with the same literal words, as the two programs compose them, so a
  program's term meets it by unfolding definitions and the certificate never opens these chains: it proves the values
  going in equal.
-/
import Idealize.ShloMosaic.PureOps.Ideal
import Idealize.ShloMosaic.Lib.ValueIdx

noncomputable section

namespace Cert.RefSide

open Idealize.ShloMosaic

/-! ## Shapes and the side conditions of the layout operations -/

abbrev T_ : Shape := ⟨0, ![]⟩
abbrev T64 : Shape := ⟨1, ![64]⟩
abbrev T64x1 : Shape := ⟨2, ![64, 1]⟩
abbrev T64x1024 : Shape := ⟨2, ![64, 1024]⟩
abbrev T64x32000 : Shape := ⟨2, ![64, 32000]⟩
abbrev T1x64x1024 : Shape := ⟨3, ![1, 64, 1024]⟩
abbrev T2x64x1024 : Shape := ⟨3, ![2, 64, 1024]⟩

theorem bcast_T_T64x1024 : T_.BroadcastsInDim T64x1024 (![] : Fin 0 → Fin T64x1024.rank) := by decide
theorem bcast_T_T64x32000 : T_.BroadcastsInDim T64x32000 (![] : Fin 0 → Fin T64x32000.rank) := by decide
theorem bcast_T_T64 : T_.BroadcastsInDim T64 (![] : Fin 0 → Fin T64.rank) := by decide
theorem bcast_T64_T64x1_0 : T64.BroadcastsInDim T64x1 (![0] : Fin 1 → Fin T64x1.rank) := by decide
theorem bcast_T64x1_T64x32000_0_1 : T64x1.BroadcastsInDim T64x32000 (![0, 1] : Fin 2 → Fin T64x32000.rank) := by decide
theorem reducesTo_T64x32000_T64_d1 : T64x32000.ReducesTo [1] T64 := by decide
theorem h_T_ : 0 < T_.numel := by decide
theorem bcast_T64x1024_T1x64x1024_1_2 : T64x1024.BroadcastsInDim T1x64x1024 (![1, 2] : Fin 2 → Fin T1x64x1024.rank) := by decide
theorem concatenates_T1x64x1024_T1x64x1024_T2x64x1024_d0 : Shape.Concatenates [T1x64x1024, T1x64x1024] T2x64x1024 0 := by decide

/-! ## The LSTM cell -/

/-- The logistic gate as the programs spell it: the literal 1.0 divided by (the literal 1.0 plus exp (-z)). -/
def gateSigmoid (z : FVec Ideal T64x1024 .f32) : FVec Ideal T64x1024 .f32 :=
  Host.divf (F := Ideal) (broadcastInDim T64x1024 ![] bcast_T_T64x1024 (constant (F := Ideal) T_ .f32 0x3F800000#32))
    (addf (F := Ideal) (broadcastInDim T64x1024 ![] bcast_T_T64x1024 (constant (F := Ideal) T_ .f32 0x3F800000#32))
      (Host.exp (F := Ideal) (Host.negf (F := Ideal) z)))

/-- The new cell state c' = σ(z_f) * c + σ(z_i) * tanh(z_g), from the pre-activations of the forget, input and
    candidate gates and the old cell state. -/
def cellNew (zf zi zg c : FVec Ideal T64x1024 .f32) : FVec Ideal T64x1024 .f32 :=
  addf (F := Ideal) (mulf (F := Ideal) (gateSigmoid zf) c) (mulf (F := Ideal) (gateSigmoid zi) (Host.tanh (F := Ideal) zg))

/-- The cell's output σ(z_o) * tanh(c'), from the output gate's pre-activation and the new cell state. -/
def cellOut (zo cNew : FVec Ideal T64x1024 .f32) : FVec Ideal T64x1024 .f32 :=
  mulf (F := Ideal) (gateSigmoid zo) (Host.tanh (F := Ideal) cNew)

/-- One LSTM cell step from the four gate pre-activations (forget, input, output, candidate) and the old cell state:
    the pair (new cell state, output). -/
def lstmCell (zf zi zo zg c : FVec Ideal T64x1024 .f32) : FVec Ideal T64x1024 .f32 × FVec Ideal T64x1024 .f32 :=
  (cellNew zf zi zg c, cellOut zo (cellNew zf zi zg c))

/-! ## Temperature and log-softmax -/

/-- The logits divided by the temperature, the literal 0.8. -/
def scaleByTemp (logits : FVec Ideal T64x32000 .f32) : FVec Ideal T64x32000 .f32 :=
  Host.divf (F := Ideal) logits (broadcastInDim T64x32000 ![] bcast_T_T64x32000 (constant (F := Ideal) T_ .f32 0x3F4CCCCD#32))

/-- y minus its row maximum (the maximum over the vocabulary axis, folded from -inf and once more compared with
    -inf), the row maximum broadcast back along the vocabulary axis. -/
def lsmShift (y : FVec Ideal T64x32000 .f32) : FVec Ideal T64x32000 .f32 :=
  subf (F := Ideal) y
    (broadcastInDim T64x32000 ![0, 1] bcast_T64x1_T64x32000_0_1
      (broadcastInDim T64x1 ![0] bcast_T64_T64x1_0
        (maximumf (F := Ideal) (broadcastInDim T64 ![] bcast_T_T64 (constant (F := Ideal) T_ .f32 0xFF800000#32))
          (Host.reduce FloatOps.maximumf y (constant (F := Ideal) T_ .f32 0xFF800000#32) reducesTo_T64x32000_T64_d1 h_T_))))

/-- s minus the logarithm of its row sum of exponentials (summed over the vocabulary axis from 0), broadcast back. -/
def lsmNorm (s : FVec Ideal T64x32000 .f32) : FVec Ideal T64x32000 .f32 :=
  subf (F := Ideal) s
    (broadcastInDim T64x32000 ![0, 1] bcast_T64x1_T64x32000_0_1
      (Host.log (F := Ideal)
        (broadcastInDim T64x1 ![0] bcast_T64_T64x1_0
          (Host.reduceAdd (F := Ideal) (Host.exp (F := Ideal) s) (constant (F := Ideal) T_ .f32 0x00000000#32)
            reducesTo_T64x32000_T64_d1 h_T_))))

/-- The tail both programs apply to the logits: divide by the temperature 0.8, then log-softmax along the
    vocabulary axis. -/
def logSoftmaxTail (logits : FVec Ideal T64x32000 .f32) : FVec Ideal T64x32000 .f32 :=
  lsmNorm (lsmShift (scaleByTemp logits))

/-! ## Stacking two layers' arrays -/

/-- The two [64, 1024] arrays stacked along a new leading axis: each given a leading unit axis, then joined. -/
def stackPair (a b : FVec Ideal T64x1024 .f32) : FVec Ideal T2x64x1024 .f32 :=
  concatenate T2x64x1024 0
    [⟨T1x64x1024, broadcastInDim T1x64x1024 ![1, 2] bcast_T64x1024_T1x64x1024_1_2 a⟩,
     ⟨T1x64x1024, broadcastInDim T1x64x1024 ![1, 2] bcast_T64x1024_T1x64x1024_1_2 b⟩]
    concatenates_T1x64x1024_T1x64x1024_T2x64x1024_d0

end Cert.RefSide

end
-- ==== Proof.KI.HostReads.lean ====
/-
  What the kernel program's host operations compute between and after its matmul kernels, read at the extended reals: each
  layer's cell (the four gate slabs of the summed projections through the logistic and tanh gates), the temperature division
  and log-softmax of the decoder's logits, and the stacking of the results — each as the function of arrays that the
  reference applies too.
-/
import proofs.«137056_j83880711291258_2_alg».proof.Proof.KI.Run
import proofs.«137056_j83880711291258_2_alg».proof.Proof.Ref.Shared
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen Cert.RefSide

variable (m : (ℓ : Loc nD τ sig) → Buf (Elt Ideal) ℓ) (c : Dev nD)

/-! ## The host operations between the kernel calls, read as functions of the buffers they find -/

/-- The four gate slabs (columns g·1024 … g·1024+1023, g = 0,1,2,3: forget, input, output, candidate) of a [64,4096] array. -/
def gateF (z : FVec Ideal S64x4096 .f32) : FVec Ideal S64x1024 .f32 := extractStridedSlice S64x1024 ![0, 0] z slices_S64x4096_S64x1024_0_0
def gateI (z : FVec Ideal S64x4096 .f32) : FVec Ideal S64x1024 .f32 := extractStridedSlice S64x1024 ![0, 1024] z slices_S64x4096_S64x1024_0_1024
def gateO (z : FVec Ideal S64x4096 .f32) : FVec Ideal S64x1024 .f32 := extractStridedSlice S64x1024 ![0, 2048] z slices_S64x4096_S64x1024_0_2048
def gateG (z : FVec Ideal S64x4096 .f32) : FVec Ideal S64x1024 .f32 := extractStridedSlice S64x1024 ![0, 3072] z slices_S64x4096_S64x1024_0_3072

/-- Layer 0's pre-activations as the kernel program forms them: the sum of the two matmul kernels' outputs. -/
def pre0 : FVec Ideal S64x4096 .f32 := addf (F := Ideal) (B3 m c main_v25 : FVec Ideal S64x4096 .f32) (B3 m c main_v26 : FVec Ideal S64x4096 .f32)
/-- Layer 1's. -/
def pre1 : FVec Ideal S64x4096 .f32 := addf (F := Ideal) (B6 m c main_v56 : FVec Ideal S64x4096 .f32) (B6 m c main_v57 : FVec Ideal S64x4096 .f32)

set_option maxHeartbeats 4000000 in
/-- Layer 0's new cell state, after the host operations of its cell. -/
theorem layer0_cellNew : (B4 m c main_v53 : FVec Ideal S64x1024 .f32)
    = cellNew (gateF (pre0 m c)) (gateI (pre0 m c)) (gateG (pre0 m c)) (B3 m c main_v20 : FVec Ideal S64x1024 .f32) := by
  show StableHlo.after hostOps2 (B3 m c) (Proc.devRef .tc main_v53) = _
  after_results_simp
  rfl

set_option maxHeartbeats 4000000 in
/-- Layer 0's output. -/
theorem layer0_out : (B4 m c main_v55 : FVec Ideal S64x1024 .f32)
    = cellOut (gateO (pre0 m c)) (cellNew (gateF (pre0 m c)) (gateI (pre0 m c)) (gateG (pre0 m c)) (B3 m c main_v20 : FVec Ideal S64x1024 .f32)) := by
  show StableHlo.after hostOps2 (B3 m c) (Proc.devRef .tc main_v55) = _
  after_results_simp
  rfl

set_option maxHeartbeats 4000000 in
theorem layer1_cellNew : (B7 m c main_v84 : FVec Ideal S64x1024 .f32)
    = cellNew (gateF (pre1 m c)) (gateI (pre1 m c)) (gateG (pre1 m c)) (B6 m c main_v24 : FVec Ideal S64x1024 .f32) := by
  show StableHlo.after hostOps4 (B6 m c) (Proc.devRef .tc main_v84) = _
  after_results_simp
  rfl

set_option maxHeartbeats 4000000 in
theorem layer1_out : (B7 m c main_v86 : FVec Ideal S64x1024 .f32)
    = cellOut (gateO (pre1 m c)) (cellNew (gateF (pre1 m c)) (gateI (pre1 m c)) (gateG (pre1 m c)) (B6 m c main_v24 : FVec Ideal S64x1024 .f32)) := by
  show StableHlo.after hostOps4 (B6 m c) (Proc.devRef .tc main_v86) = _
  after_results_simp
  rfl

/-- The decoder's logits divided by the temperature. -/
theorem scaled_logits : (B9 m c main_v89 : FVec Ideal S64x32000 .f32) = scaleByTemp (B8 m c main_v87 : FVec Ideal S64x32000 .f32) := by
  show StableHlo.after hostOps5 (B8 m c) (Proc.devRef .tc main_v89) = _
  after_results
  rfl

/-- Contents moved to a buffer's own type and back are the contents (the inlined log-softmax's operations are spelt over
    typed references). -/
theorem typed_back {T : BufTy} (x : TRef sig T) (v : T.Contents (Elt Ideal)) : x.ofBuf (x.toBuf v) = v := by
  obtain ⟨r, h, _, _⟩ := x
  subst h
  rfl

/-- Reading the scaled logits' buffer at its type is the identity. -/
theorem typed_scaled (y : (⟨S64x32000, .f32⟩ : BufTy).Contents (Elt Ideal)) :
    (TRef.of (T := ⟨S64x32000, .f32⟩) main_v89).ofBuf y = y := rfl

/-- Writing the log-probabilities' buffer at its type is the identity. -/
theorem typed_logp (y : (⟨S64x32000, .f32⟩ : BufTy).Contents (Elt Ideal)) :
    (TRef.of (T := ⟨S64x32000, .f32⟩) main_v90).toBuf y = y := rfl

set_option maxHeartbeats 4000000 in
/-- The log-softmax of the scaled logits. -/
theorem logp_of_scaled : (B10 m c main_v90 : FVec Ideal S64x32000 .f32) = lsmNorm (lsmShift (B9 m c main_v89 : FVec Ideal S64x32000 .f32)) := by
  show StableHlo.after hostOps5_1 (B9 m c) (Proc.devRef .tc main_v90) = _
  after_results_simp
  simp only [typed_back]
  rw [typed_logp, typed_scaled]
  rfl

/-- RESULT 0: the log-probabilities are the shared tail of the decoder kernel's output. -/
theorem result0 : (B11 m c main_v90 : FVec Ideal S64x32000 .f32) = logSoftmaxTail (B8 m c main_v87 : FVec Ideal S64x32000 .f32) := by
  have h : B11 m c main_v90 = B10 m c main_v90 := StableHlo.after_of_writes_sub hostOps5_2 _ hostOps5_2_writes (by decide)
  rw [h, logp_of_scaled, scaled_logits]
  rfl

/-- RESULT 1: the two layers' outputs, stacked. -/
theorem result1 : (B11 m c main_v93 : FVec Ideal S2x64x1024 .f32)
    = stackPair (B4 m c main_v55 : FVec Ideal S64x1024 .f32) (B7 m c main_v86 : FVec Ideal S64x1024 .f32) := by
  have e : (B11 m c main_v93 : FVec Ideal S2x64x1024 .f32)
      = stackPair (B10 m c main_v55 : FVec Ideal S64x1024 .f32) (B10 m c main_v86 : FVec Ideal S64x1024 .f32) := by
    show StableHlo.after hostOps5_2 (B10 m c) (Proc.devRef .tc main_v93) = _
    after_results
    rfl
  have k1 : B10 m c main_v55 = B4 m c main_v55 := ((StableHlo.after_of_writes_sub hostOps5_1 _ hostOps5_1_writes (by decide) : B10 m c main_v55 = B9 m c main_v55).trans ((StableHlo.after_of_writes_sub hostOps5 _ hostOps5_writes (by decide) : B9 m c main_v55 = B8 m c main_v55).trans ((B8_keep m c main_v55 (by decide)).trans ((StableHlo.after_of_writes_sub hostOps4 _ hostOps4_writes (by decide) : B7 m c main_v55 = B6 m c main_v55).trans ((B6_keep m c main_v55 (by decide)).trans (B5_keep m c main_v55 (by decide)))))))
  have k2 : B10 m c main_v86 = B7 m c main_v86 := ((StableHlo.after_of_writes_sub hostOps5_1 _ hostOps5_1_writes (by decide) : B10 m c main_v86 = B9 m c main_v86).trans ((StableHlo.after_of_writes_sub hostOps5 _ hostOps5_writes (by decide) : B9 m c main_v86 = B8 m c main_v86).trans (B8_keep m c main_v86 (by decide))))
  rw [e, k1, k2]

/-- RESULT 2: the two layers' new cell states, stacked. -/
theorem result2 : (B11 m c main_v96 : FVec Ideal S2x64x1024 .f32)
    = stackPair (B4 m c main_v53 : FVec Ideal S64x1024 .f32) (B7 m c main_v84 : FVec Ideal S64x1024 .f32) := by
  have e : (B11 m c main_v96 : FVec Ideal S2x64x1024 .f32)
      = stackPair (B10 m c main_v53 : FVec Ideal S64x1024 .f32) (B10 m c main_v84 : FVec Ideal S64x1024 .f32) := by
    show StableHlo.after hostOps5_2 (B10 m c) (Proc.devRef .tc main_v96) = _
    after_results
    rfl
  have k1 : B10 m c main_v53 = B4 m c main_v53 := ((StableHlo.after_of_writes_sub hostOps5_1 _ hostOps5_1_writes (by decide) : B10 m c main_v53 = B9 m c main_v53).trans ((StableHlo.after_of_writes_sub hostOps5 _ hostOps5_writes (by decide) : B9 m c main_v53 = B8 m c main_v53).trans ((B8_keep m c main_v53 (by decide)).trans ((StableHlo.after_of_writes_sub hostOps4 _ hostOps4_writes (by decide) : B7 m c main_v53 = B6 m c main_v53).trans ((B6_keep m c main_v53 (by decide)).trans (B5_keep m c main_v53 (by decide)))))))
  have k2 : B10 m c main_v84 = B7 m c main_v84 := ((StableHlo.after_of_writes_sub hostOps5_1 _ hostOps5_1_writes (by decide) : B10 m c main_v84 = B9 m c main_v84).trans ((StableHlo.after_of_writes_sub hostOps5 _ hostOps5_writes (by decide) : B9 m c main_v84 = B8 m c main_v84).trans (B8_keep m c main_v84 (by decide))))
  rw [e, k1, k2]

end Cert.KernelIdeal.Hand

end
-- ==== Proof.KI.R0Pay.lean ====
import proofs.«137056_j83880711291258_2_alg».proof.Proof.Gen.KernelIdeal.Skeleton
import Idealize.ShloMosaic.Lib.ValueIdx
import Idealize.ShloMosaic.Lib.ValueIdxCoords
import Idealize.ShloMosaic.PureOps.Ideal.Laws
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! # Region 0's arithmetic at an index, over the extended reals

The three values the body stores, read at row `b` and column `n` of the 64 x 2048 block: the zeroed accumulator,
the accumulator plus the block product, and the accumulator plus the bias row. -/

/-- The matmul's left operand index at output `j` and contraction index `q`: row `j 0`, -/
theorem lhsRow0 (j : S64x2048.Idx) (q : dot_S64x1280_S2048x1280_S64x2048_1_1_0_0_n_n.contr.Idx) : (dot_S64x1280_S2048x1280_S64x2048_1_1_0_0_n_n.lhsIdx j q 0).val = (j 0).val := by
  unfold DotDims.lhsIdx
  rw [dif_neg (show ¬(0 : Fin S64x1280.rank) ∈ dot_S64x1280_S2048x1280_S64x2048_1_1_0_0_n_n.lhsBatch by decide), dif_pos (show (0 : Fin S64x1280.rank) ∈ dot_S64x1280_S2048x1280_S64x2048_1_1_0_0_n_n.lhsNonContracting by decide)]
  rfl
/-- column the contraction coordinate. -/
theorem lhsCol0 (j : S64x2048.Idx) (q : dot_S64x1280_S2048x1280_S64x2048_1_1_0_0_n_n.contr.Idx) : (dot_S64x1280_S2048x1280_S64x2048_1_1_0_0_n_n.lhsIdx j q 1).val = (q ⟨0, by decide⟩).val :=
  dot_S64x1280_S2048x1280_S64x2048_1_1_0_0_n_n.lhsIdx_val_of_single rfl j q
/-- The right operand (stored transposed) index: row `j 1`, -/
theorem rhsRow0 (j : S64x2048.Idx) (q : dot_S64x1280_S2048x1280_S64x2048_1_1_0_0_n_n.contr.Idx) : (dot_S64x1280_S2048x1280_S64x2048_1_1_0_0_n_n.rhsIdx j q 0).val = (j 1).val := by
  unfold DotDims.rhsIdx
  rw [dif_neg (show ¬(0 : Fin S2048x1280.rank) ∈ dot_S64x1280_S2048x1280_S64x2048_1_1_0_0_n_n.rhsBatch by decide), dif_pos (show (0 : Fin S2048x1280.rank) ∈ dot_S64x1280_S2048x1280_S64x2048_1_1_0_0_n_n.rhsNonContracting by decide)]
  rfl
/-- column the contraction coordinate. -/
theorem rhsCol0 (j : S64x2048.Idx) (q : dot_S64x1280_S2048x1280_S64x2048_1_1_0_0_n_n.contr.Idx) : (dot_S64x1280_S2048x1280_S64x2048_1_1_0_0_n_n.rhsIdx j q 1).val = (q ⟨0, by decide⟩).val :=
  dot_S64x1280_S2048x1280_S64x2048_1_1_0_0_n_n.rhsIdx_val_of_single rfl j q

/-- The zeroed accumulator is zero everywhere. -/
theorem zeroedAt0 (b : Fin 64) (n : Fin 2048) : k0_pay1 (F := Ideal) (ix2 b n) = 0 := by
  unfold k0_pay1
  rw [shapeCast_self]
  show Ideal.ofBits .f32 0x00000000#32 = 0
  exact Ideal.ofBits_zero_f32

/-- The stored output: the accumulator plus the bias row, the same on every row. -/
theorem biasedAt0 (acc : Vec Ideal S64x2048 .f32) (bias : Vec Ideal S1x2048 .f32) (b : Fin 64) (n : Fin 2048) :
    k0_pay3 (F := Ideal) acc bias (ix2 b n) = acc (ix2 b n) + bias (ix2 0 n) := by
  unfold k0_pay3
  rw [addf_apply, shapeCast_self]
  refine congrArg (acc (ix2 b n) + ·) (broadcastTo_apply bias _ (ix2 b n) (ix2 0 n) ?_)
  intro a
  match a with
  | ⟨0, _⟩ => rfl
  | ⟨1, _⟩ => rfl

/-- The accumulation step: the accumulator plus the product of the `x` block's row `b` with the `w` block's row `n`
    (rounding the operands to bf16 is the identity on extended reals). -/
theorem addedAt0 (x : Vec Ideal S64x1280 .f32) (w : Vec Ideal S2048x1280 .f32) (acc : Vec Ideal S64x2048 .f32) (b : Fin 64) (n : Fin 2048) :
    k0_pay2 (F := Ideal) x w acc (ix2 b n) = acc (ix2 b n) + ∑ l : Fin 1280, x (ix2 b l) * w (ix2 n l) := by
  unfold k0_pay2
  rw [shapeCast_self, addf_apply]
  refine congrArg (acc (ix2 b n) + ·) ((Ideal.matmul_constant_zero_apply dot_S64x1280_S2048x1280_S64x2048_1_1_0_0_n_n none _ _ (ix2 b n)).trans ?_)
  rw [← Equiv.sum_comp (contrEquiv1 dot_S64x1280_S2048x1280_S64x2048_1_1_0_0_n_n 1280 rfl rfl).symm]
  refine Finset.sum_congr rfl fun l _ => ?_
  have hl := contrEquiv1_symm_val dot_S64x1280_S2048x1280_S64x2048_1_1_0_0_n_n 1280 rfl rfl l
  have el : dot_S64x1280_S2048x1280_S64x2048_1_1_0_0_n_n.lhsIdx (ix2 b n) ((contrEquiv1 dot_S64x1280_S2048x1280_S64x2048_1_1_0_0_n_n 1280 rfl rfl).symm l) = ix2 b l := funext fun a => Fin.ext (by
    match a with
    | ⟨0, _⟩ => exact lhsRow0 _ _
    | ⟨1, _⟩ => exact (lhsCol0 _ _).trans hl)
  have er : dot_S64x1280_S2048x1280_S64x2048_1_1_0_0_n_n.rhsIdx (ix2 b n) ((contrEquiv1 dot_S64x1280_S2048x1280_S64x2048_1_1_0_0_n_n 1280 rfl rfl).symm l) = ix2 n l := funext fun a => Fin.ext (by
    match a with
    | ⟨0, _⟩ => exact rhsRow0 _ _
    | ⟨1, _⟩ => exact (rhsCol0 _ _).trans hl)
  rw [el, er, truncf_apply, truncf_apply, shapeCast_self]

end Cert.KernelIdeal.Hand

end
-- ==== Proof.KI.R0Value.lean ====
import proofs.«137056_j83880711291258_2_alg».proof.Proof.KI.R0
import proofs.«137056_j83880711291258_2_alg».proof.Proof.KI.R0Pay
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! # Region 0: what the output array holds after the region

First, for any float instance, what each step leaves spelt through the kernel's arithmetic. Then over the extended
reals: the accumulator after a point is a partial sum of the row-by-row product over the reduction blocks done so far,
the block written back at a last step is the full product plus the bias, and those blocks tile the output array. -/

/-! ## What each step leaves, through the kernel's arithmetic -/

theorem zeroOffsets0 : (![0, 0] : Fin 2 → Nat) = fun _ => 0 := funext fun a => by fin_cases a <;> rfl

/-- The first step leaves the block product added to the zeroed accumulator. -/
theorem accLeftFirst0_eq (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : atFirstK0 i) (hc1 : ¬atLastK0 i) (x0 : Vec F S64x1280 .f32) (x1 : Vec F S2048x1280 .f32) (x2 : Vec F S1x2048 .f32) :
    accLeftFirst0 c i arg2 harg2 arg3 harg3 arg4 harg4 arg5 harg5 arg6 harg6 hc0 hc1 x0 x1 x2 = k0_pay2 x0 x1 (k0_pay1 (F := F)) := by
  unfold accLeftFirst0
  rw [View.read_writes_eq_canon _ _ _ (accCoverFirst0 c i arg2 harg2 arg3 harg3 arg4 harg4 arg5 harg5 arg6 harg6 hc0 hc1 x0 x1 x2)]
  unfold firstRun0
  dsimp only
  try sl_unfold_words
  rw [View.canon_cons_unit_zero (S := S64x2048) zeroOffsets0, View.readCov_unit_zero (S := S64x2048) _ zeroOffsets0]
  simp only [View.readAt_eq_ld, harg2.read_unread, harg3.read_unread, harg4.read_unread, harg6.read_unread, View.ld_unit_zero (S := S64x1280) zeroOffsets0, View.ld_unit_zero (S := S2048x1280) zeroOffsets0, View.ld_unit_zero (S := S1x2048) zeroOffsets0, View.ld_unit_zero (S := S64x2048) zeroOffsets0]

/-- A middle step leaves the block product added to the accumulator it found. -/
theorem accLeftMid0_eq (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬atFirstK0 i) (hc1 : ¬atLastK0 i) (x0 : Vec F S64x1280 .f32) (x1 : Vec F S2048x1280 .f32) (x2 : Vec F S1x2048 .f32) (acc : Vec F S64x2048 .f32) :
    accLeftMid0 c i arg2 harg2 arg3 harg3 arg4 harg4 arg5 harg5 arg6 harg6 hc0 hc1 x0 x1 x2 acc = k0_pay2 x0 x1 acc := by
  unfold accLeftMid0
  rw [View.read_writes_eq_canon _ _ _ (accCoverMid0 c i arg2 harg2 arg3 harg3 arg4 harg4 arg5 harg5 arg6 harg6 hc0 hc1 x0 x1 x2 acc)]
  unfold midRun0
  dsimp only
  try sl_unfold_words
  rw [View.canon_unit_zero zeroOffsets0]
  simp only [View.readAt_eq_ld, harg2.read_unread, harg3.read_unread, harg4.read_unread, harg6.read_unread, View.ld_unit_zero (S := S64x1280) zeroOffsets0, View.ld_unit_zero (S := S2048x1280) zeroOffsets0, View.ld_unit_zero (S := S1x2048) zeroOffsets0, View.ld_unit_zero (S := S64x2048) zeroOffsets0]

/-- So does the last step, -/
theorem accLeftLast0_eq (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬atFirstK0 i) (hc1 : atLastK0 i) (x0 : Vec F S64x1280 .f32) (x1 : Vec F S2048x1280 .f32) (x2 : Vec F S1x2048 .f32) (acc : Vec F S64x2048 .f32) :
    accLeftLast0 c i arg2 harg2 arg3 harg3 arg4 harg4 arg5 harg5 arg6 harg6 hc0 hc1 x0 x1 x2 acc = k0_pay2 x0 x1 acc := by
  unfold accLeftLast0
  rw [View.read_writes_eq_canon _ _ _ (accCoverLast0 c i arg2 harg2 arg3 harg3 arg4 harg4 arg5 harg5 arg6 harg6 hc0 hc1 x0 x1 x2 acc)]
  unfold lastRun0
  dsimp only
  try sl_unfold_words
  rw [View.canon_unit_zero zeroOffsets0]
  simp only [View.readAt_eq_ld, harg2.read_unread, harg3.read_unread, harg4.read_unread, harg6.read_unread, View.ld_unit_zero (S := S64x1280) zeroOffsets0, View.ld_unit_zero (S := S2048x1280) zeroOffsets0, View.ld_unit_zero (S := S1x2048) zeroOffsets0, View.ld_unit_zero (S := S64x2048) zeroOffsets0]

/-- which then stores that accumulator plus the bias row to the output block. -/
theorem outLeftLast0_eq (c : Dev nD) (i : grid0.Coords) (arg2 : Memref sig .tc .vmem S64x1280 .f32) (harg2 : arg2.IsWhole) (arg3 : Memref sig .tc .vmem S2048x1280 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : ¬atFirstK0 i) (hc1 : atLastK0 i) (x0 : Vec F S64x1280 .f32) (x1 : Vec F S2048x1280 .f32) (x2 : Vec F S1x2048 .f32) (acc : Vec F S64x2048 .f32) :
    outLeftLast0 c i arg2 harg2 arg3 harg3 arg4 harg4 arg5 harg5 arg6 harg6 hc0 hc1 x0 x1 x2 acc = k0_pay3 (k0_pay2 x0 x1 acc) x2 := by
  unfold outLeftLast0
  rw [View.read_writes_eq_canon _ _ _ (outCoverLast0 c i arg2 harg2 arg3 harg3 arg4 harg4 arg5 harg5 arg6 harg6 hc0 hc1 x0 x1 x2 acc)]
  unfold lastRun0
  dsimp only
  try sl_unfold_words
  rw [View.canon_unit_zero zeroOffsets0, View.readCov_unit_zero (S := S64x2048) _ zeroOffsets0]
  simp only [View.readAt_eq_ld, harg2.read_unread, harg3.read_unread, harg4.read_unread, harg6.read_unread, View.ld_unit_zero (S := S64x1280) zeroOffsets0, View.ld_unit_zero (S := S2048x1280) zeroOffsets0, View.ld_unit_zero (S := S1x2048) zeroOffsets0, View.ld_unit_zero (S := S64x2048) zeroOffsets0]

section AnyInstance
variable (V : (c : Dev nD) → (b : Ref sig .tc) → Buf (Elt F) ((c : Thread nD τ).loc b))

/-- The accumulator after a first step, -/
theorem accAfter0_first_pay (c : Dev nD) (t : Fin cfg0.N) (h0 : t.val % 25 = 0) (h1 : ¬t.val % 25 = 24) :
    accAfter0 V c t.val t.isLt = k0_pay2 (blockIn0 V c 0 t) (blockIn0 V c 1 t) (k0_pay1 (F := F)) := by
  rw [accAfter0_first V c t h0 h1]; exact accLeftFirst0_eq _ _ _ _ _ _ _ _ _ _ _ _ _ _ _ _ _

/-- and after any later step, over the accumulator after the point before. -/
theorem accAfter0_later_pay (c : Dev nD) (t : Fin cfg0.N) (h0 : ¬t.val % 25 = 0) :
    accAfter0 V c t.val t.isLt = k0_pay2 (blockIn0 V c 0 t) (blockIn0 V c 1 t)
      (accAfter0 V c (t.val - 1) (Nat.lt_of_le_of_lt (Nat.sub_le _ _) t.isLt)) := by
  by_cases h1 : t.val % 25 = 24
  · rw [accAfter0_last V c t h0 h1]; exact accLeftLast0_eq _ _ _ _ _ _ _ _ _ _ _ _ _ _ _ _ _ _
  · rw [accAfter0_mid V c t h0 h1]; exact accLeftMid0_eq _ _ _ _ _ _ _ _ _ _ _ _ _ _ _ _ _ _

/-- The output block's buffer after a last step: that point's accumulator plus the bias row. -/
theorem outAfter0_pay (c : Dev nD) (t : Fin cfg0.N) (h1 : t.val % 25 = 24) :
    outAfter0 V c t = k0_pay3 (accAfter0 V c t.val t.isLt) (blockIn0 V c 2 t) := by
  have h0 : ¬t.val % 25 = 0 := by omega
  rw [outAfter0_last V c t h0 h1, accAfter0_later_pay V c t h0]
  exact outLeftLast0_eq _ _ _ _ _ _ _ _ _ _ _ _ _ _ _ _ _ _

end AnyInstance

/-! ## Over the extended reals -/

section AtIdeal
variable (V : (c : Dev nD) → (b : Ref sig .tc) → Buf (Elt Ideal) ((c : Thread nD τ).loc b))

/-- The three arrays the region reads, as functions of their indices: `x` (64 x 32000), `w` (4096 x 32000, one row per
    output column), and the bias row (1 x 4096). -/
abbrev xArr0 (c : Dev nD) : S64x32000.Idx → EReal := V c main_arg0
abbrev wArr0 (c : Dev nD) : S4096x32000.Idx → EReal := V c main_v0
abbrev bArr0 (c : Dev nD) : S1x4096.Idx → EReal := V c main_v1

/-- What the output array ends holding: each row of `x` against each row of `w`, plus the bias. -/
def outSpec0 (c : Dev nD) : S64x4096.Idx → EReal := fun i =>
  (∑ k : Fin 32000, xArr0 V c (ix2 (⟨(i 0).val, idx2_lt0 i⟩ : Fin 64) k) * wArr0 V c (ix2 (⟨(i 1).val, idx2_lt1 i⟩ : Fin 4096) k))
    + bArr0 V c (ix2 (0 : Fin 1) (⟨(i 1).val, idx2_lt1 i⟩ : Fin 4096))

/-! ### Which blocks a point works on -/

/-- The windows' block indices at point `t`, decided over the grid: with `j = t / 25` the column half and `k = t % 25` the
    reduction step, `x` is at `(0, k)`, `w` at `(j, k)`, the bias and the output at `(0, j)`. -/
theorem blockIdx0 : ∀ t : Fin cfg0.N,
    win0_0.index t (0 : Fin 2) = 0 ∧ win0_0.index t (1 : Fin 2) = t.val % 25
    ∧ win0_1.index t (0 : Fin 2) = t.val / 25 ∧ win0_1.index t (1 : Fin 2) = t.val % 25
    ∧ win0_2.index t (0 : Fin 2) = 0 ∧ win0_2.index t (1 : Fin 2) = t.val / 25
    ∧ win0_3.index t (0 : Fin 2) = 0 ∧ win0_3.index t (1 : Fin 2) = t.val / 25 :=
  (by decide +kernel : ∀ t : Fin grid0.N, _)

/-- The three input blocks at point `t`, as vectors of their literal shapes. -/
abbrev xBlk0 (c : Dev nD) (t : Fin cfg0.N) : Vec Ideal S64x1280 .f32 := blockIn0 V c 0 t
abbrev wBlk0 (c : Dev nD) (t : Fin cfg0.N) : Vec Ideal S2048x1280 .f32 := blockIn0 V c 1 t
abbrev bBlk0 (c : Dev nD) (t : Fin cfg0.N) : Vec Ideal S1x2048 .f32 := blockIn0 V c 2 t

/-- The `x` block at point `t`, read at row `b` and local column `l`, is `x` at column `k · 1280 + l`. -/
theorem xBlockAt0 (c : Dev nD) (t : Fin cfg0.N) (b : Fin 64) (l : Fin 1280) (m : Fin 32000) (hm : m.val = t.val % 25 * 1280 + l.val) :
    xBlk0 V c t (ix2 b l) = xArr0 V c (ix2 b m) := by
  obtain ⟨e0, e1, -⟩ := blockIdx0 t
  show V c main_arg0 (((cfg0.win 0).blk t).view.emb (ix2 b l)) = V c main_arg0 (ix2 b m)
  refine congrArg (V c main_arg0) (funext fun a => Fin.ext ?_)
  match a with
  | ⟨0, _⟩ => show win0_0.index t (0 : Fin 2) * 64 + 1 * b.val = b.val; omega
  | ⟨1, _⟩ => show win0_0.index t (1 : Fin 2) * 1280 + 1 * l.val = m.val; omega

/-- The `w` block at point `t`, read at local row `n'` and local column `l`, is `w` at row `j · 2048 + n'`, column `k · 1280 + l`. -/
theorem wBlockAt0 (c : Dev nD) (t : Fin cfg0.N) (n' : Fin 2048) (l : Fin 1280) (r : Fin 4096) (m : Fin 32000)
    (hr : r.val = t.val / 25 * 2048 + n'.val) (hm : m.val = t.val % 25 * 1280 + l.val) :
    wBlk0 V c t (ix2 n' l) = wArr0 V c (ix2 r m) := by
  obtain ⟨-, -, e2, e3, -⟩ := blockIdx0 t
  show V c main_v0 (((cfg0.win 1).blk t).view.emb (ix2 n' l)) = V c main_v0 (ix2 r m)
  refine congrArg (V c main_v0) (funext fun a => Fin.ext ?_)
  match a with
  | ⟨0, _⟩ => show win0_1.index t (0 : Fin 2) * 2048 + 1 * n'.val = r.val; omega
  | ⟨1, _⟩ => show win0_1.index t (1 : Fin 2) * 1280 + 1 * l.val = m.val; omega

/-- The bias block at point `t`, read at local column `n'`, is the bias at column `j · 2048 + n'`. -/
theorem bBlockAt0 (c : Dev nD) (t : Fin cfg0.N) (n' : Fin 2048) (r : Fin 4096) (hr : r.val = t.val / 25 * 2048 + n'.val) :
    bBlk0 V c t (ix2 (0 : Fin 1) n') = bArr0 V c (ix2 (0 : Fin 1) r) := by
  obtain ⟨-, -, -, -, e4, e5, -⟩ := blockIdx0 t
  show V c main_v1 (((cfg0.win 2).blk t).view.emb (ix2 (0 : Fin 1) n')) = V c main_v1 (ix2 (0 : Fin 1) r)
  refine congrArg (V c main_v1) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 2048 + 1 * n'.val = r.val; omega

/-! ### The accumulator is a partial sum -/

/-- `x` at row `b` and `w` at row `r`, as functions of a natural-number column (zero past the arrays): sums over ranges of
    columns split and join by arithmetic on naturals. -/
def xAt0 (c : Dev nD) (b : Fin 64) (m : ℕ) : EReal := if h : m < 32000 then xArr0 V c (ix2 b ⟨m, h⟩) else 0
def wAt0 (c : Dev nD) (r m : ℕ) : EReal := if h : r < 4096 ∧ m < 32000 then wArr0 V c (ix2 ⟨r, h.1⟩ ⟨m, h.2⟩) else 0

/-- The product of the blocks at point `t`, row `b` against local row `n'`: the columns `k · 1280 … k · 1280 + 1279`. -/
theorem blockProduct0 (c : Dev nD) (t : Fin cfg0.N) (b : Fin 64) (n' : Fin 2048) :
    (∑ l : Fin 1280, xBlk0 V c t (ix2 b l) * wBlk0 V c t (ix2 n' l))
      = ∑ l ∈ Finset.range 1280, xAt0 V c b (t.val % 25 * 1280 + l) * wAt0 V c (t.val / 25 * 2048 + n'.val) (t.val % 25 * 1280 + l) := by
  have hN : t.val < 50 := lt_of_lt_of_eq t.isLt N_0
  rw [Finset.sum_range]
  refine Finset.sum_congr rfl fun l _ => ?_
  have hm : t.val % 25 * 1280 + l.val < 32000 := by have := l.isLt; omega
  have hr : t.val / 25 * 2048 + n'.val < 4096 := by have := n'.isLt; omega
  rw [xBlockAt0 V c t b l ⟨_, hm⟩ rfl, wBlockAt0 V c t n' l ⟨_, hr⟩ ⟨_, hm⟩ rfl rfl]
  unfold xAt0 wAt0
  rw [dif_pos hm, dif_pos ⟨hr, hm⟩]

/-- One point's step: if the accumulator the point finds (when it is not a first step) is the sum over the columns
    before this block, the accumulator it leaves is the sum through this block. -/
theorem accStep0 (c : Dev nD) (t : Fin cfg0.N) (b : Fin 64) (n' : Fin 2048)
    (hprev : ¬t.val % 25 = 0 → accAfter0 V c (t.val - 1) (Nat.lt_of_le_of_lt (Nat.sub_le _ _) t.isLt) (ix2 b n')
        = ∑ m ∈ Finset.range (t.val % 25 * 1280), xAt0 V c b m * wAt0 V c (t.val / 25 * 2048 + n'.val) m) :
    accAfter0 V c t.val t.isLt (ix2 b n') = ∑ m ∈ Finset.range ((t.val % 25 + 1) * 1280), xAt0 V c b m * wAt0 V c (t.val / 25 * 2048 + n'.val) m := by
  rw [show (t.val % 25 + 1) * 1280 = t.val % 25 * 1280 + 1280 by omega, Finset.sum_range_add]
  by_cases h0 : t.val % 25 = 0
  · rw [accAfter0_first_pay V c t h0 (by omega)]
    refine (addedAt0 (xBlk0 V c t) (wBlk0 V c t) (k0_pay1 (F := Ideal)) b n').trans ?_
    refine congrArg₂ (· + ·) ?_ (blockProduct0 V c t b n')
    rw [zeroedAt0 b n', h0, Nat.zero_mul, Finset.range_zero, Finset.sum_empty]
  · rw [accAfter0_later_pay V c t h0]
    refine (addedAt0 (xBlk0 V c t) (wBlk0 V c t) _ b n').trans ?_
    exact congrArg₂ (· + ·) (hprev h0) (blockProduct0 V c t b n')

/-- The accumulator after point `n`, at row `b` and local column `n'`: `x`'s row `b` against `w`'s row `j · 2048 + n'` over
    the columns of the reduction blocks done so far. -/
theorem accAfter0_sum (c : Dev nD) (b : Fin 64) (n' : Fin 2048) : ∀ (n : ℕ) (hn : n < cfg0.N),
    accAfter0 V c n hn (ix2 b n') = ∑ m ∈ Finset.range ((n % 25 + 1) * 1280), xAt0 V c b m * wAt0 V c (n / 25 * 2048 + n'.val) m := by
  intro n
  induction n with
  | zero => intro hn; exact accStep0 V c ⟨0, hn⟩ b n' (fun h => absurd (Nat.zero_mod 25) h)
  | succ n ih =>
    intro hn
    refine accStep0 V c ⟨n + 1, hn⟩ b n' (fun h0 => ?_)
    have h0' : ¬(n + 1) % 25 = 0 := h0
    have e1 : n % 25 + 1 = (n + 1) % 25 := by omega
    have e2 : n / 25 = (n + 1) / 25 := by omega
    have hp := ih (Nat.lt_of_succ_lt hn)
    rw [e1, e2] at hp
    exact hp

/-! ### The block written back, and the whole array -/

/-- At a last step the output block's buffer, at row `b` and local column `n'`, is the specification at column
    `j · 2048 + n'`. -/
theorem outAfter0_at (c : Dev nD) (t : Fin cfg0.N) (h1 : t.val % 25 = 24) (b : Fin 64) (n' : Fin 2048)
    (hrow : t.val / 25 * 2048 + n'.val < 4096) :
    outAfter0 V c t (ix2 b n') = outSpec0 V c (ix2 b (⟨t.val / 25 * 2048 + n'.val, hrow⟩ : Fin 4096)) := by
  rw [outAfter0_pay V c t h1]
  refine (biasedAt0 (accAfter0 V c t.val t.isLt) (bBlk0 V c t) b n').trans ?_
  rw [accAfter0_sum V c b n' t.val t.isLt, h1, bBlockAt0 V c t n' ⟨_, hrow⟩ rfl]
  show _ = (∑ k : Fin 32000, xArr0 V c (ix2 b k) * wArr0 V c (ix2 (⟨t.val / 25 * 2048 + n'.val, hrow⟩ : Fin 4096) k))
    + bArr0 V c (ix2 (0 : Fin 1) (⟨t.val / 25 * 2048 + n'.val, hrow⟩ : Fin 4096))
  refine congrArg (· + bArr0 V c (ix2 (0 : Fin 1) (⟨t.val / 25 * 2048 + n'.val, hrow⟩ : Fin 4096))) ?_
  rw [show (24 + 1) * 1280 = 32000 by norm_num, Finset.sum_range]
  refine Finset.sum_congr rfl fun k _ => ?_
  unfold xAt0 wAt0
  rw [dif_pos k.isLt, dif_pos ⟨hrow, k.isLt⟩]

/-- WHAT A LAST STEP WRITES BACK is its block of the specification. -/
theorem flushedBlock0 (c : Dev nD) (t : Fin cfg0.N) (hf : (cfg0.win 3).flush t = true) :
    (regionDat0 (F := Ideal) V c).flushed 3 t = ((cfg0.win 3).blk t).view.read (Elt Ideal) (outSpec0 V c) := by
  have h1 : t.val % 25 = 24 := (flush0_3 t).mp hf
  have hN : t.val < 50 := lt_of_lt_of_eq t.isLt N_0
  obtain ⟨-, -, -, -, -, -, e6, e7⟩ := blockIdx0 t
  show (cfg0.win 3).cut (grid0.coords t) ((regionDat0 V c).after 3 t) = _
  rw [regionDat0_after_out]
  funext j
  have hj0 : (j 0).val < 64 := (j 0).isLt
  have hj1 : (j 1).val < 2048 := (j 1).isLt
  have hrow : t.val / 25 * 2048 + (j 1).val < 4096 := by omega
  have hj : j = ix2 (⟨(j 0).val, hj0⟩ : Fin 64) (⟨(j 1).val, hj1⟩ : Fin 2048) :=
    funext fun a => by match a with | ⟨0, _⟩ => rfl | ⟨1, _⟩ => rfl
  have hemb : ((cfg0.win 3).blk t).view.emb j = ix2 (⟨(j 0).val, hj0⟩ : Fin 64) (⟨t.val / 25 * 2048 + (j 1).val, hrow⟩ : Fin 4096) :=
    funext fun a => Fin.ext (by
      match a with
      | ⟨0, _⟩ => show win0_3.index t (0 : Fin 2) * 64 + 1 * (j 0).val = (j 0).val; omega
      | ⟨1, _⟩ => show win0_3.index t (1 : Fin 2) * 2048 + 1 * (j 1).val = t.val / 25 * 2048 + (j 1).val; omega)
  exact (congrArg (outAfter0 V c t) hj).trans
    ((outAfter0_at V c t h1 ⟨(j 0).val, hj0⟩ ⟨(j 1).val, hj1⟩ hrow).trans (congrArg (outSpec0 V c) hemb.symm))

/-- An index of the output array is in point `t`'s block iff each coordinate is in the block's range on its axis. -/
theorem inBlock0_iff (t : Fin cfg0.N) (i : S64x4096.Idx) :
    i ∈ ((cfg0.win 3).blk t).view.set ↔ ∀ a : Fin 2, win0_3.index t a * S64x2048.size a ≤ (i a).val ∧ (i a).val < win0_3.index t a * S64x2048.size a + S64x2048.size a := by
  show i ∈ ((View.whole main_v25).slice (win0_3.rect t)).set ↔ _
  rw [View.set_slice_whole, Rect.mem_set_unit]
  exact Iff.rfl

/-- Every index of the output array is in the block some last step writes back: column `n` is in the half `n / 2048`,
    written back at that half's last reduction step. -/
theorem outCovered0 (i : S64x4096.Idx) : ∃ t : Fin cfg0.N, (cfg0.win 3).flush t = true ∧ i ∈ ((cfg0.win 3).blk t).view.set := by
  have hi0 : (i 0).val < 64 := (i 0).isLt
  have hi1 : (i 1).val < 4096 := (i 1).isLt
  have hlt : (i 1).val / 2048 * 25 + 24 < cfg0.N := by rw [show cfg0.N = 50 from N_0]; omega
  obtain ⟨-, -, -, -, -, -, e6, e7⟩ := blockIdx0 ⟨(i 1).val / 2048 * 25 + 24, hlt⟩
  have e7' : win0_3.index ⟨(i 1).val / 2048 * 25 + 24, hlt⟩ (1 : Fin 2) = (i 1).val / 2048 := by
    rw [e7]; show ((i 1).val / 2048 * 25 + 24) / 25 = (i 1).val / 2048; omega
  refine ⟨⟨(i 1).val / 2048 * 25 + 24, hlt⟩, (flush0_3 _).mpr (by show ((i 1).val / 2048 * 25 + 24) % 25 = 24; omega), ?_⟩
  rw [inBlock0_iff]
  intro a
  match a with
  | ⟨0, _⟩ =>
    show win0_3.index ⟨(i 1).val / 2048 * 25 + 24, hlt⟩ (0 : Fin 2) * 64 ≤ (i 0).val ∧ (i 0).val < win0_3.index ⟨(i 1).val / 2048 * 25 + 24, hlt⟩ (0 : Fin 2) * 64 + 64
    omega
  | ⟨1, _⟩ =>
    show win0_3.index ⟨(i 1).val / 2048 * 25 + 24, hlt⟩ (1 : Fin 2) * 2048 ≤ (i 1).val ∧ (i 1).val < win0_3.index ⟨(i 1).val / 2048 * 25 + 24, hlt⟩ (1 : Fin 2) * 2048 + 2048
    omega

/-- THE OUTPUT ARRAY after the region is the specification. -/
theorem outArray0 (c : Dev nD) : (regionDat0 (F := Ideal) V c).arrAt 3 cfg0.N = outSpec0 V c :=
  (regionDat0 (F := Ideal) V c).arrAt_eq_of_cover 3 (outSpec0 V c) (fun t hf => flushedBlock0 V c t hf) outCovered0

/-- Index by index: row `b` of `x` against row `n` of `w` over all 32000 columns, plus the bias at column `n`. -/
theorem region0_value (c : Dev nD) (b : Fin 64) (n : Fin 4096) :
    (regionDat0 (F := Ideal) V c).arrAt 3 cfg0.N (ix2 b n)
      = (∑ k : Fin 32000, xArr0 V c (ix2 b k) * wArr0 V c (ix2 n k)) + bArr0 V c (ix2 (0 : Fin 1) n) :=
  (congrFun (outArray0 V c) (ix2 b n)).trans rfl

end AtIdeal

end Cert.KernelIdeal.Hand

end
-- ==== Proof.KI.R1Value.lean ====
/- Region 1: the value of the output array after the region. What the body's stores leave is read back to
   the kernel's three payloads (zero block, block product added, bias added); at the ideal values these are, at
   an index, the sum over the contraction axis of the products plus the bias; every point's written-back block
   is its block of one whole-array function, and the blocks cover the array. -/
import proofs.«137056_j83880711291258_2_alg».proof.Proof.KI.R1
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-- The zero offsets of a whole-buffer access, however spelt. -/
theorem zeroOffsets1 : (![0, 0] : Fin 2 → Nat) = fun _ => 0 := funext fun a => by fin_cases a <;> rfl

/-! ## What the stores leave, as the kernel's payloads (any float instance) -/

/-- The accumulator after the body: the block product added to the zero block. -/
theorem accLeft1_eq (c : Dev nD) (i : grid1.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond1 i) (hc1 : storeCond1 i)
    (x0 : Vec F S64x1024 .f32) (x1 : Vec F S2048x1024 .f32) (x2 : Vec F S1x2048 .f32) :
    accLeft1 c i arg2 harg2 arg3 harg3 arg4 harg4 arg5 harg5 arg6 harg6 hc0 hc1 x0 x1 x2 = k1_pay2 x0 x1 (k1_pay1 (F := F)) := by
  unfold accLeft1
  rw [View.read_writes_junk_eq_canon]
  unfold kernelRun1
  dsimp only
  sl_unfold_words
  rw [View.canon_cons_unit_zero zeroOffsets1, View.readCov_unit_zero _ zeroOffsets1]
  simp only [View.readAt_eq_ld, harg2.read_unread, harg3.read_unread, View.ld_unit_zero (S := S64x1024) zeroOffsets1, View.ld_unit_zero (S := S2048x1024) zeroOffsets1]

/-- The output block after the body: that accumulator plus the bias row. -/
theorem outLeft1_eq (c : Dev nD) (i : grid1.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond1 i) (hc1 : storeCond1 i)
    (x0 : Vec F S64x1024 .f32) (x1 : Vec F S2048x1024 .f32) (x2 : Vec F S1x2048 .f32) :
    outLeft1 c i arg2 harg2 arg3 harg3 arg4 harg4 arg5 harg5 arg6 harg6 hc0 hc1 x0 x1 x2 = k1_pay3 (k1_pay2 x0 x1 (k1_pay1 (F := F))) x2 := by
  unfold outLeft1
  rw [View.read_writes_junk_eq_canon]
  unfold kernelRun1
  dsimp only
  sl_unfold_words
  rw [View.canon_unit_zero zeroOffsets1]
  rw [View.readCov_eq_canon_ld _ _ _ (fun y => ⟨_, List.mem_cons_self, View.mem_set_unit_zero zeroOffsets1 inb_S64x2048_S64x2048_0_0 y⟩),
    View.canon_cons_unit_zero zeroOffsets1, View.ld_unit_zero (S := S64x2048) zeroOffsets1, View.readCov_unit_zero _ zeroOffsets1]
  simp only [View.readAt_eq_ld, harg2.read_unread, harg3.read_unread, harg4.read_unread, View.ld_unit_zero (S := S64x1024) zeroOffsets1, View.ld_unit_zero (S := S2048x1024) zeroOffsets1, View.ld_unit_zero (S := S1x2048) zeroOffsets1]

section Region1
variable (V : (c : Dev nD) → (b : Ref sig .tc) → Buf (Elt F) ((c : Thread nD τ).loc b))

/-- The accumulator after point `t`, from the point's blocks. -/
theorem accAfter1_eq (c : Dev nD) (t : Fin cfg1.N) :
    accAfter1 V c t = k1_pay2 (blockAt1 V c 0 t) (blockAt1 V c 1 t) (k1_pay1 (F := F)) := by
  unfold accAfter1; exact accLeft1_eq _ _ _ _ _ _ _ _ _ _ _ _ _ _ (blockAt1 V c 0 t) (blockAt1 V c 1 t) (blockAt1 V c 2 t)

/-- The output block after point `t`, from the point's blocks. -/
theorem outAfter1_eq (c : Dev nD) (t : Fin cfg1.N) :
    outAfter1 V c t = k1_pay3 (k1_pay2 (blockAt1 V c 0 t) (blockAt1 V c 1 t) (k1_pay1 (F := F))) (blockAt1 V c 2 t) := by
  unfold outAfter1; exact outLeft1_eq _ _ _ _ _ _ _ _ _ _ _ _ _ _ (blockAt1 V c 0 t) (blockAt1 V c 1 t) (blockAt1 V c 2 t)

end Region1

/-! ## The payloads at an index, at the ideal values -/

/-- The zero block is zero. -/
theorem zeroBlock1_at (j : S64x2048.Idx) : k1_pay1 (F := Ideal) j = 0 := by
  unfold k1_pay1
  rw [shapeCast_self]
  exact Ideal.ofBits_zero_f32

theorem dot1_lhs0 (i : S64x2048.Idx) (q : dot_S64x1024_S2048x1024_S64x2048_1_1_0_0_n_n.contr.Idx) : (dot_S64x1024_S2048x1024_S64x2048_1_1_0_0_n_n.lhsIdx i q 0).val = (i 0).val := by
  unfold DotDims.lhsIdx
  rw [dif_neg (show ¬(0 : Fin S64x1024.rank) ∈ dot_S64x1024_S2048x1024_S64x2048_1_1_0_0_n_n.lhsBatch by decide), dif_pos (show (0 : Fin S64x1024.rank) ∈ dot_S64x1024_S2048x1024_S64x2048_1_1_0_0_n_n.lhsNonContracting by decide)]
  rfl
theorem dot1_lhs1 (i : S64x2048.Idx) (q : dot_S64x1024_S2048x1024_S64x2048_1_1_0_0_n_n.contr.Idx) : (dot_S64x1024_S2048x1024_S64x2048_1_1_0_0_n_n.lhsIdx i q 1).val = (q ⟨0, by decide⟩).val :=
  dot_S64x1024_S2048x1024_S64x2048_1_1_0_0_n_n.lhsIdx_val_of_single rfl i q
theorem dot1_rhs0 (i : S64x2048.Idx) (q : dot_S64x1024_S2048x1024_S64x2048_1_1_0_0_n_n.contr.Idx) : (dot_S64x1024_S2048x1024_S64x2048_1_1_0_0_n_n.rhsIdx i q 0).val = (i 1).val := by
  unfold DotDims.rhsIdx
  rw [dif_neg (show ¬(0 : Fin S2048x1024.rank) ∈ dot_S64x1024_S2048x1024_S64x2048_1_1_0_0_n_n.rhsBatch by decide), dif_pos (show (0 : Fin S2048x1024.rank) ∈ dot_S64x1024_S2048x1024_S64x2048_1_1_0_0_n_n.rhsNonContracting by decide)]
  rfl
theorem dot1_rhs1 (i : S64x2048.Idx) (q : dot_S64x1024_S2048x1024_S64x2048_1_1_0_0_n_n.contr.Idx) : (dot_S64x1024_S2048x1024_S64x2048_1_1_0_0_n_n.rhsIdx i q 1).val = (q ⟨0, by decide⟩).val :=
  dot_S64x1024_S2048x1024_S64x2048_1_1_0_0_n_n.rhsIdx_val_of_single rfl i q

/-- The accumulation step at an index: the accumulator there plus the row-by-row product (the operands' rounding to
    bf16 is the identity at the ideal values; the contraction runs over the last axis of both). -/
theorem accStep1_at (x0 : Vec Ideal S64x1024 .f32) (x1 : Vec Ideal S2048x1024 .f32) (acc : Vec Ideal S64x2048 .f32) (b : Fin 64) (n : Fin 2048) :
    k1_pay2 x0 x1 acc (ix2 b n) = acc (ix2 b n) + ∑ k : Fin 1024, x0 (ix2 b k) * x1 (ix2 n k) := by
  unfold k1_pay2
  simp only [shapeCast_self]
  refine congrArg (acc (ix2 b n) + ·) ?_
  simp only [matmul]
  rw [Ideal.matmul_constant_zero_apply, ← Equiv.sum_comp (contrEquiv1 dot_S64x1024_S2048x1024_S64x2048_1_1_0_0_n_n 1024 rfl rfl).symm]
  refine Finset.sum_congr rfl fun k _ => ?_
  have hk := contrEquiv1_symm_val dot_S64x1024_S2048x1024_S64x2048_1_1_0_0_n_n 1024 rfl rfl k
  have el : dot_S64x1024_S2048x1024_S64x2048_1_1_0_0_n_n.lhsIdx (ix2 b n) ((contrEquiv1 dot_S64x1024_S2048x1024_S64x2048_1_1_0_0_n_n 1024 rfl rfl).symm k) = ix2 b k := funext fun a => Fin.ext (by
    match a with
    | ⟨0, _⟩ => exact dot1_lhs0 _ _
    | ⟨1, _⟩ => exact (dot1_lhs1 _ _).trans hk)
  have er : dot_S64x1024_S2048x1024_S64x2048_1_1_0_0_n_n.rhsIdx (ix2 b n) ((contrEquiv1 dot_S64x1024_S2048x1024_S64x2048_1_1_0_0_n_n 1024 rfl rfl).symm k) = ix2 n k := funext fun a => Fin.ext (by
    match a with
    | ⟨0, _⟩ => exact dot1_rhs0 _ _
    | ⟨1, _⟩ => exact (dot1_rhs1 _ _).trans hk)
  rw [el, er]
  rfl

/-- The output store at an index: the accumulator there plus the bias of the column. -/
theorem outStep1_at (acc : Vec Ideal S64x2048 .f32) (x2 : Vec Ideal S1x2048 .f32) (b : Fin 64) (n : Fin 2048) :
    k1_pay3 acc x2 (ix2 b n) = acc (ix2 b n) + x2 (ix2 0 n) := by
  unfold k1_pay3
  simp only [shapeCast_self]
  refine congrArg (acc (ix2 b n) + ·) ?_
  exact broadcastTo_apply _ _ (ix2 b n) (ix2 0 n) (fun a => by
    match a with
    | ⟨0, _⟩ => show (0 : ℕ) = if (1 : ℕ) = 1 then 0 else _; rw [if_pos rfl]
    | ⟨1, _⟩ => show n.val = if (2048 : ℕ) = 1 then 0 else n.val; rw [if_neg (by decide)])

/-- The whole body at an index of the output block: the product row by row plus the bias. -/
theorem pointValue1 (x0 : Vec Ideal S64x1024 .f32) (x1 : Vec Ideal S2048x1024 .f32) (x2 : Vec Ideal S1x2048 .f32) (b : Fin 64) (n : Fin 2048) :
    k1_pay3 (k1_pay2 x0 x1 (k1_pay1 (F := Ideal))) x2 (ix2 b n) = (∑ k : Fin 1024, x0 (ix2 b k) * x1 (ix2 n k)) + x2 (ix2 0 n) := by
  rw [outStep1_at, accStep1_at, zeroBlock1_at, zero_add]

/-! ## From the blocks to the array -/

/-- The output array as one function of the three input arrays, index by index: the matrix product of the
    activations with the transposed weights, plus the bias row. -/
def matmulBias1 (a0 : S64x1024.Idx → EReal) (a1 : S4096x1024.Idx → EReal) (a2 : S1x4096.Idx → EReal) : S64x4096.Idx → EReal :=
  fun i => (∑ k : Fin 1024, a0 (ix2 (i 0 : Fin 64) k) * a1 (ix2 (i 1 : Fin 4096) k)) + a2 (ix2 (0 : Fin 1) (i 1 : Fin 4096))

/-- The printed index maps, decided over the grid: the activation block does not move, the weight and bias blocks
    move with the output block along the output's columns. -/
theorem blockIndex1_facts : ∀ t : Fin cfg1.N, win1_0.index t (0 : Fin 2) = 0 ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2)
    ∧ win1_3.index t (0 : Fin 2) = 0 ∧ win1_3.index t (1 : Fin 2) ≤ 1 :=
  (by decide +kernel : ∀ t : Fin grid1.N, _)

/-- Every column block of the output is some point's. -/
theorem blockIndex1_onto : ∀ (q : Fin 2), ∃ t : Fin cfg1.N, win1_3.index t = ![0, q.val] :=
  (by decide +kernel : ∀ (q : Fin 2), ∃ t : Fin grid1.N, win1_3.index t = ![0, q.val])

section Value1
variable (V : (c : Dev nD) → (b : Ref sig .tc) → Buf (Elt Ideal) ((c : Thread nD τ).loc b))

set_option maxHeartbeats 1600000 in
/-- What point `t` writes back is its block of the whole-array function of the arrays as the region finds them. -/
theorem region1_flushed (c : Dev nD) (t : Fin cfg1.N) :
    (regionDat1 (F := Ideal) V c).flushed 3 t = ((cfg1.win 3).blk t).view.read (Elt Ideal) (matmulBias1 (V c main_v18) (V c main_v4) (V c main_v7)) := by
  show (cfg1.win 3).cut (grid1.coords t) ((regionDat1 (F := Ideal) V c).after 3 t) = _
  rw [regionDat1_after_out, outAfter1_eq]
  obtain ⟨e00, e01, e10, e11, e20, e21, e30, e31⟩ := blockIndex1_facts t
  funext j
  obtain ⟨b, n, rfl⟩ : ∃ (b : Fin 64) (n : Fin 2048), j = ix2 b n := ⟨j 0, j 1, eq_ix2 j⟩
  refine (pointValue1 (blockAt1 V c 0 t) (blockAt1 V c 1 t) (blockAt1 V c 2 t) b n).trans ?_
  have hb : b.val < 64 := b.isLt
  have hn : n.val < 2048 := n.isLt
  have hx : ∀ k : Fin 1024, ((cfg1.win 0).blk t).view.emb (ix2 b k) = ix2 ((((cfg1.win 3).blk t).view.emb (ix2 b n)) 0 : Fin 64) k := fun k => by
    funext a; apply Fin.ext
    match a with
    | ⟨0, _⟩ => show win1_0.index t (0 : Fin 2) * 64 + 1 * b.val = win1_3.index t (0 : Fin 2) * 64 + 1 * b.val; omega
    | ⟨1, _⟩ => show win1_0.index t (1 : Fin 2) * 1024 + 1 * k.val = k.val; omega
  have hw : ∀ k : Fin 1024, ((cfg1.win 1).blk t).view.emb (ix2 n k) = ix2 ((((cfg1.win 3).blk t).view.emb (ix2 b n)) 1 : Fin 4096) k := fun k => by
    funext a; apply Fin.ext
    match a with
    | ⟨0, _⟩ => show win1_1.index t (0 : Fin 2) * 2048 + 1 * n.val = win1_3.index t (1 : Fin 2) * 2048 + 1 * n.val; omega
    | ⟨1, _⟩ => show win1_1.index t (1 : Fin 2) * 1024 + 1 * k.val = k.val; omega
  have hbias : ((cfg1.win 2).blk t).view.emb (ix2 (0 : Fin 1) n) = ix2 (0 : Fin 1) ((((cfg1.win 3).blk t).view.emb (ix2 b n)) 1 : Fin 4096) := by
    funext a; apply Fin.ext
    match a with
    | ⟨0, _⟩ => show win1_2.index t (0 : Fin 2) * 1 + 1 * 0 = 0; omega
    | ⟨1, _⟩ => show win1_2.index t (1 : Fin 2) * 2048 + 1 * n.val = win1_3.index t (1 : Fin 2) * 2048 + 1 * n.val; omega
  have key : ∀ (a0 : S64x1024.Idx → EReal) (a1 : S4096x1024.Idx → EReal) (a2 : S1x4096.Idx → EReal),
      (∑ k : Fin 1024, a0 (((cfg1.win 0).blk t).view.emb (ix2 b k)) * a1 (((cfg1.win 1).blk t).view.emb (ix2 n k)))
          + a2 (((cfg1.win 2).blk t).view.emb (ix2 (0 : Fin 1) n))
        = matmulBias1 a0 a1 a2 (((cfg1.win 3).blk t).view.emb (ix2 b n)) := by
    intro a0 a1 a2
    unfold matmulBias1
    rw [hbias]
    refine congrArg (· + _) (Finset.sum_congr rfl fun k _ => ?_)
    rw [hx k, hw k]
    rfl
  exact key (V c main_v18) (V c main_v4) (V c main_v7)

/-- An index of the output array is in point `t`'s block iff each coordinate is in the block's range on its axis. -/
theorem mem_outBlock1 (t : Fin cfg1.N) (i : S64x4096.Idx) :
    i ∈ ((cfg1.win 3).blk t).view.set ↔ ∀ a : Fin 2, win1_3.index t a * S64x2048.size a ≤ (i a).val ∧ (i a).val < win1_3.index t a * S64x2048.size a + S64x2048.size a := by
  show i ∈ ((View.whole main_v26).slice (win1_3.rect t)).set ↔ _
  rw [View.set_slice_whole, Rect.mem_set_unit]
  exact Iff.rfl

/-- The written-back blocks cover the output array: column `n` is in the block of the point whose column-block
    coordinate is `n / 2048`. -/
theorem outCovered1 (i : S64x4096.Idx) : ∃ t : Fin cfg1.N, (cfg1.win 3).flush t = true ∧ i ∈ ((cfg1.win 3).blk t).view.set := by
  have hi0 : (i 0).val < 64 := (i 0).isLt
  have hi1 : (i 1).val < 4096 := (i 1).isLt
  obtain ⟨t, ht⟩ := blockIndex1_onto ⟨(i 1).val / 2048, by omega⟩
  have q0 : win1_3.index t (0 : Fin 2) = 0 := congrFun ht 0
  have q1 : win1_3.index t (1 : Fin 2) = (i 1).val / 2048 := congrFun ht 1
  refine ⟨t, flush1_3 t, ?_⟩
  rw [mem_outBlock1]
  intro a
  match a with
  | ⟨0, _⟩ => show win1_3.index t (0 : Fin 2) * 64 ≤ (i 0).val ∧ (i 0).val < win1_3.index t (0 : Fin 2) * 64 + 64; omega
  | ⟨1, _⟩ => show win1_3.index t (1 : Fin 2) * 2048 ≤ (i 1).val ∧ (i 1).val < win1_3.index t (1 : Fin 2) * 2048 + 2048; omega

/-- The output array after the region is the whole-array function of the three input arrays. -/
theorem region1_array (c : Dev nD) :
    (regionDat1 (F := Ideal) V c).arrAt 3 cfg1.N = matmulBias1 (V c main_v18) (V c main_v4) (V c main_v7) :=
  (regionDat1 (F := Ideal) V c).arrAt_eq_of_cover 3 _ (fun t _ => region1_flushed V c t) outCovered1

/-- The whole-array function at an index: the product of the activation row with the weight row, plus the bias. -/
theorem matmulBias1_at (a0 : S64x1024.Idx → EReal) (a1 : S4096x1024.Idx → EReal) (a2 : S1x4096.Idx → EReal) (b : Fin 64) (n : Fin 4096) :
    matmulBias1 a0 a1 a2 (ix2 b n) = (∑ k : Fin 1024, a0 (ix2 b k) * a1 (ix2 n k)) + a2 (ix2 0 n) := rfl

/-- The output array after the region, at an index. -/
theorem region1_value (c : Dev nD) (b : Fin 64) (n : Fin 4096) :
    (regionDat1 (F := Ideal) V c).arrAt 3 cfg1.N (ix2 b n)
      = matmulBias1 (V c main_v18) (V c main_v4) (V c main_v7) (ix2 b n) := by
  rw [region1_array]

end Value1

end Cert.KernelIdeal.Hand

end
-- ==== Proof.KI.R2Value.lean ====
/- Region 2: the value of the output array after the region. What the body's stores leave is read back to
   the kernel's three payloads (zero block, block product added, bias added); at the ideal values these are, at
   an index, the sum over the contraction axis of the products plus the bias; every point's written-back block
   is its block of one whole-array function, and the blocks cover the array. -/
import proofs.«137056_j83880711291258_2_alg».proof.Proof.KI.R2
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-- The zero offsets of a whole-buffer access, however spelt. -/
theorem zeroOffsets2 : (![0, 0] : Fin 2 → Nat) = fun _ => 0 := funext fun a => by fin_cases a <;> rfl

/-! ## What the stores leave, as the kernel's payloads (any float instance) -/

/-- The accumulator after the body: the block product added to the zero block. -/
theorem accLeft2_eq (c : Dev nD) (i : grid2.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond2 i) (hc1 : storeCond2 i)
    (x0 : Vec F S64x1024 .f32) (x1 : Vec F S2048x1024 .f32) (x2 : Vec F S1x2048 .f32) :
    accLeft2 c i arg2 harg2 arg3 harg3 arg4 harg4 arg5 harg5 arg6 harg6 hc0 hc1 x0 x1 x2 = k2_pay2 x0 x1 (k2_pay1 (F := F)) := by
  unfold accLeft2
  rw [View.read_writes_junk_eq_canon]
  unfold kernelRun2
  dsimp only
  sl_unfold_words
  rw [View.canon_cons_unit_zero zeroOffsets2, View.readCov_unit_zero _ zeroOffsets2]
  simp only [View.readAt_eq_ld, harg2.read_unread, harg3.read_unread, View.ld_unit_zero (S := S64x1024) zeroOffsets2, View.ld_unit_zero (S := S2048x1024) zeroOffsets2]

/-- The output block after the body: that accumulator plus the bias row. -/
theorem outLeft2_eq (c : Dev nD) (i : grid2.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond2 i) (hc1 : storeCond2 i)
    (x0 : Vec F S64x1024 .f32) (x1 : Vec F S2048x1024 .f32) (x2 : Vec F S1x2048 .f32) :
    outLeft2 c i arg2 harg2 arg3 harg3 arg4 harg4 arg5 harg5 arg6 harg6 hc0 hc1 x0 x1 x2 = k2_pay3 (k2_pay2 x0 x1 (k2_pay1 (F := F))) x2 := by
  unfold outLeft2
  rw [View.read_writes_junk_eq_canon]
  unfold kernelRun2
  dsimp only
  sl_unfold_words
  rw [View.canon_unit_zero zeroOffsets2]
  rw [View.readCov_eq_canon_ld _ _ _ (fun y => ⟨_, List.mem_cons_self, View.mem_set_unit_zero zeroOffsets2 inb_S64x2048_S64x2048_0_0 y⟩),
    View.canon_cons_unit_zero zeroOffsets2, View.ld_unit_zero (S := S64x2048) zeroOffsets2, View.readCov_unit_zero _ zeroOffsets2]
  simp only [View.readAt_eq_ld, harg2.read_unread, harg3.read_unread, harg4.read_unread, View.ld_unit_zero (S := S64x1024) zeroOffsets2, View.ld_unit_zero (S := S2048x1024) zeroOffsets2, View.ld_unit_zero (S := S1x2048) zeroOffsets2]

section Region2
variable (V : (c : Dev nD) → (b : Ref sig .tc) → Buf (Elt F) ((c : Thread nD τ).loc b))

/-- The accumulator after point `t`, from the point's blocks. -/
theorem accAfter2_eq (c : Dev nD) (t : Fin cfg2.N) :
    accAfter2 V c t = k2_pay2 (blockAt2 V c 0 t) (blockAt2 V c 1 t) (k2_pay1 (F := F)) := by
  unfold accAfter2; exact accLeft2_eq _ _ _ _ _ _ _ _ _ _ _ _ _ _ (blockAt2 V c 0 t) (blockAt2 V c 1 t) (blockAt2 V c 2 t)

/-- The output block after point `t`, from the point's blocks. -/
theorem outAfter2_eq (c : Dev nD) (t : Fin cfg2.N) :
    outAfter2 V c t = k2_pay3 (k2_pay2 (blockAt2 V c 0 t) (blockAt2 V c 1 t) (k2_pay1 (F := F))) (blockAt2 V c 2 t) := by
  unfold outAfter2; exact outLeft2_eq _ _ _ _ _ _ _ _ _ _ _ _ _ _ (blockAt2 V c 0 t) (blockAt2 V c 1 t) (blockAt2 V c 2 t)

end Region2

/-! ## The payloads at an index, at the ideal values -/

/-- The zero block is zero. -/
theorem zeroBlock2_at (j : S64x2048.Idx) : k2_pay1 (F := Ideal) j = 0 := by
  unfold k2_pay1
  rw [shapeCast_self]
  exact Ideal.ofBits_zero_f32

theorem dot2_lhs0 (i : S64x2048.Idx) (q : dot_S64x1024_S2048x1024_S64x2048_1_1_0_0_n_n.contr.Idx) : (dot_S64x1024_S2048x1024_S64x2048_1_1_0_0_n_n.lhsIdx i q 0).val = (i 0).val := by
  unfold DotDims.lhsIdx
  rw [dif_neg (show ¬(0 : Fin S64x1024.rank) ∈ dot_S64x1024_S2048x1024_S64x2048_1_1_0_0_n_n.lhsBatch by decide), dif_pos (show (0 : Fin S64x1024.rank) ∈ dot_S64x1024_S2048x1024_S64x2048_1_1_0_0_n_n.lhsNonContracting by decide)]
  rfl
theorem dot2_lhs1 (i : S64x2048.Idx) (q : dot_S64x1024_S2048x1024_S64x2048_1_1_0_0_n_n.contr.Idx) : (dot_S64x1024_S2048x1024_S64x2048_1_1_0_0_n_n.lhsIdx i q 1).val = (q ⟨0, by decide⟩).val :=
  dot_S64x1024_S2048x1024_S64x2048_1_1_0_0_n_n.lhsIdx_val_of_single rfl i q
theorem dot2_rhs0 (i : S64x2048.Idx) (q : dot_S64x1024_S2048x1024_S64x2048_1_1_0_0_n_n.contr.Idx) : (dot_S64x1024_S2048x1024_S64x2048_1_1_0_0_n_n.rhsIdx i q 0).val = (i 1).val := by
  unfold DotDims.rhsIdx
  rw [dif_neg (show ¬(0 : Fin S2048x1024.rank) ∈ dot_S64x1024_S2048x1024_S64x2048_1_1_0_0_n_n.rhsBatch by decide), dif_pos (show (0 : Fin S2048x1024.rank) ∈ dot_S64x1024_S2048x1024_S64x2048_1_1_0_0_n_n.rhsNonContracting by decide)]
  rfl
theorem dot2_rhs1 (i : S64x2048.Idx) (q : dot_S64x1024_S2048x1024_S64x2048_1_1_0_0_n_n.contr.Idx) : (dot_S64x1024_S2048x1024_S64x2048_1_1_0_0_n_n.rhsIdx i q 1).val = (q ⟨0, by decide⟩).val :=
  dot_S64x1024_S2048x1024_S64x2048_1_1_0_0_n_n.rhsIdx_val_of_single rfl i q

/-- The accumulation step at an index: the accumulator there plus the row-by-row product (the operands' rounding to
    bf16 is the identity at the ideal values; the contraction runs over the last axis of both). -/
theorem accStep2_at (x0 : Vec Ideal S64x1024 .f32) (x1 : Vec Ideal S2048x1024 .f32) (acc : Vec Ideal S64x2048 .f32) (b : Fin 64) (n : Fin 2048) :
    k2_pay2 x0 x1 acc (ix2 b n) = acc (ix2 b n) + ∑ k : Fin 1024, x0 (ix2 b k) * x1 (ix2 n k) := by
  unfold k2_pay2
  simp only [shapeCast_self]
  refine congrArg (acc (ix2 b n) + ·) ?_
  simp only [matmul]
  rw [Ideal.matmul_constant_zero_apply, ← Equiv.sum_comp (contrEquiv1 dot_S64x1024_S2048x1024_S64x2048_1_1_0_0_n_n 1024 rfl rfl).symm]
  refine Finset.sum_congr rfl fun k _ => ?_
  have hk := contrEquiv1_symm_val dot_S64x1024_S2048x1024_S64x2048_1_1_0_0_n_n 1024 rfl rfl k
  have el : dot_S64x1024_S2048x1024_S64x2048_1_1_0_0_n_n.lhsIdx (ix2 b n) ((contrEquiv1 dot_S64x1024_S2048x1024_S64x2048_1_1_0_0_n_n 1024 rfl rfl).symm k) = ix2 b k := funext fun a => Fin.ext (by
    match a with
    | ⟨0, _⟩ => exact dot2_lhs0 _ _
    | ⟨1, _⟩ => exact (dot2_lhs1 _ _).trans hk)
  have er : dot_S64x1024_S2048x1024_S64x2048_1_1_0_0_n_n.rhsIdx (ix2 b n) ((contrEquiv1 dot_S64x1024_S2048x1024_S64x2048_1_1_0_0_n_n 1024 rfl rfl).symm k) = ix2 n k := funext fun a => Fin.ext (by
    match a with
    | ⟨0, _⟩ => exact dot2_rhs0 _ _
    | ⟨1, _⟩ => exact (dot2_rhs1 _ _).trans hk)
  rw [el, er]
  rfl

/-- The output store at an index: the accumulator there plus the bias of the column. -/
theorem outStep2_at (acc : Vec Ideal S64x2048 .f32) (x2 : Vec Ideal S1x2048 .f32) (b : Fin 64) (n : Fin 2048) :
    k2_pay3 acc x2 (ix2 b n) = acc (ix2 b n) + x2 (ix2 0 n) := by
  unfold k2_pay3
  simp only [shapeCast_self]
  refine congrArg (acc (ix2 b n) + ·) ?_
  exact broadcastTo_apply _ _ (ix2 b n) (ix2 0 n) (fun a => by
    match a with
    | ⟨0, _⟩ => show (0 : ℕ) = if (1 : ℕ) = 1 then 0 else _; rw [if_pos rfl]
    | ⟨1, _⟩ => show n.val = if (2048 : ℕ) = 1 then 0 else n.val; rw [if_neg (by decide)])

/-- The whole body at an index of the output block: the product row by row plus the bias. -/
theorem pointValue2 (x0 : Vec Ideal S64x1024 .f32) (x1 : Vec Ideal S2048x1024 .f32) (x2 : Vec Ideal S1x2048 .f32) (b : Fin 64) (n : Fin 2048) :
    k2_pay3 (k2_pay2 x0 x1 (k2_pay1 (F := Ideal))) x2 (ix2 b n) = (∑ k : Fin 1024, x0 (ix2 b k) * x1 (ix2 n k)) + x2 (ix2 0 n) := by
  rw [outStep2_at, accStep2_at, zeroBlock2_at, zero_add]

/-! ## From the blocks to the array -/

/-- The output array as one function of the three input arrays, index by index: the matrix product of the
    activations with the transposed weights, plus the bias row. -/
def matmulBias2 (a0 : S64x1024.Idx → EReal) (a1 : S4096x1024.Idx → EReal) (a2 : S1x4096.Idx → EReal) : S64x4096.Idx → EReal :=
  fun i => (∑ k : Fin 1024, a0 (ix2 (i 0 : Fin 64) k) * a1 (ix2 (i 1 : Fin 4096) k)) + a2 (ix2 (0 : Fin 1) (i 1 : Fin 4096))

/-- The printed index maps, decided over the grid: the activation block does not move, the weight and bias blocks
    move with the output block along the output's columns. -/
theorem blockIndex2_facts : ∀ t : Fin cfg2.N, win2_0.index t (0 : Fin 2) = 0 ∧ win2_0.index t (1 : Fin 2) = 0
    ∧ win2_1.index t (0 : Fin 2) = win2_3.index t (1 : Fin 2) ∧ win2_1.index t (1 : Fin 2) = 0
    ∧ win2_2.index t (0 : Fin 2) = 0 ∧ win2_2.index t (1 : Fin 2) = win2_3.index t (1 : Fin 2)
    ∧ win2_3.index t (0 : Fin 2) = 0 ∧ win2_3.index t (1 : Fin 2) ≤ 1 :=
  (by decide +kernel : ∀ t : Fin grid2.N, _)

/-- Every column block of the output is some point's. -/
theorem blockIndex2_onto : ∀ (q : Fin 2), ∃ t : Fin cfg2.N, win2_3.index t = ![0, q.val] :=
  (by decide +kernel : ∀ (q : Fin 2), ∃ t : Fin grid2.N, win2_3.index t = ![0, q.val])

section Value2
variable (V : (c : Dev nD) → (b : Ref sig .tc) → Buf (Elt Ideal) ((c : Thread nD τ).loc b))

set_option maxHeartbeats 1600000 in
/-- What point `t` writes back is its block of the whole-array function of the arrays as the region finds them. -/
theorem region2_flushed (c : Dev nD) (t : Fin cfg2.N) :
    (regionDat2 (F := Ideal) V c).flushed 3 t = ((cfg2.win 3).blk t).view.read (Elt Ideal) (matmulBias2 (V c main_v55) (V c main_v8) (V c main_v9)) := by
  show (cfg2.win 3).cut (grid2.coords t) ((regionDat2 (F := Ideal) V c).after 3 t) = _
  rw [regionDat2_after_out, outAfter2_eq]
  obtain ⟨e00, e01, e10, e11, e20, e21, e30, e31⟩ := blockIndex2_facts t
  funext j
  obtain ⟨b, n, rfl⟩ : ∃ (b : Fin 64) (n : Fin 2048), j = ix2 b n := ⟨j 0, j 1, eq_ix2 j⟩
  refine (pointValue2 (blockAt2 V c 0 t) (blockAt2 V c 1 t) (blockAt2 V c 2 t) b n).trans ?_
  have hb : b.val < 64 := b.isLt
  have hn : n.val < 2048 := n.isLt
  have hx : ∀ k : Fin 1024, ((cfg2.win 0).blk t).view.emb (ix2 b k) = ix2 ((((cfg2.win 3).blk t).view.emb (ix2 b n)) 0 : Fin 64) k := fun k => by
    funext a; apply Fin.ext
    match a with
    | ⟨0, _⟩ => show win2_0.index t (0 : Fin 2) * 64 + 1 * b.val = win2_3.index t (0 : Fin 2) * 64 + 1 * b.val; omega
    | ⟨1, _⟩ => show win2_0.index t (1 : Fin 2) * 1024 + 1 * k.val = k.val; omega
  have hw : ∀ k : Fin 1024, ((cfg2.win 1).blk t).view.emb (ix2 n k) = ix2 ((((cfg2.win 3).blk t).view.emb (ix2 b n)) 1 : Fin 4096) k := fun k => by
    funext a; apply Fin.ext
    match a with
    | ⟨0, _⟩ => show win2_1.index t (0 : Fin 2) * 2048 + 1 * n.val = win2_3.index t (1 : Fin 2) * 2048 + 1 * n.val; omega
    | ⟨1, _⟩ => show win2_1.index t (1 : Fin 2) * 1024 + 1 * k.val = k.val; omega
  have hbias : ((cfg2.win 2).blk t).view.emb (ix2 (0 : Fin 1) n) = ix2 (0 : Fin 1) ((((cfg2.win 3).blk t).view.emb (ix2 b n)) 1 : Fin 4096) := by
    funext a; apply Fin.ext
    match a with
    | ⟨0, _⟩ => show win2_2.index t (0 : Fin 2) * 1 + 1 * 0 = 0; omega
    | ⟨1, _⟩ => show win2_2.index t (1 : Fin 2) * 2048 + 1 * n.val = win2_3.index t (1 : Fin 2) * 2048 + 1 * n.val; omega
  have key : ∀ (a0 : S64x1024.Idx → EReal) (a1 : S4096x1024.Idx → EReal) (a2 : S1x4096.Idx → EReal),
      (∑ k : Fin 1024, a0 (((cfg2.win 0).blk t).view.emb (ix2 b k)) * a1 (((cfg2.win 1).blk t).view.emb (ix2 n k)))
          + a2 (((cfg2.win 2).blk t).view.emb (ix2 (0 : Fin 1) n))
        = matmulBias2 a0 a1 a2 (((cfg2.win 3).blk t).view.emb (ix2 b n)) := by
    intro a0 a1 a2
    unfold matmulBias2
    rw [hbias]
    refine congrArg (· + _) (Finset.sum_congr rfl fun k _ => ?_)
    rw [hx k, hw k]
    rfl
  exact key (V c main_v55) (V c main_v8) (V c main_v9)

/-- An index of the output array is in point `t`'s block iff each coordinate is in the block's range on its axis. -/
theorem mem_outBlock2 (t : Fin cfg2.N) (i : S64x4096.Idx) :
    i ∈ ((cfg2.win 3).blk t).view.set ↔ ∀ a : Fin 2, win2_3.index t a * S64x2048.size a ≤ (i a).val ∧ (i a).val < win2_3.index t a * S64x2048.size a + S64x2048.size a := by
  show i ∈ ((View.whole main_v56).slice (win2_3.rect t)).set ↔ _
  rw [View.set_slice_whole, Rect.mem_set_unit]
  exact Iff.rfl

/-- The written-back blocks cover the output array: column `n` is in the block of the point whose column-block
    coordinate is `n / 2048`. -/
theorem outCovered2 (i : S64x4096.Idx) : ∃ t : Fin cfg2.N, (cfg2.win 3).flush t = true ∧ i ∈ ((cfg2.win 3).blk t).view.set := by
  have hi0 : (i 0).val < 64 := (i 0).isLt
  have hi1 : (i 1).val < 4096 := (i 1).isLt
  obtain ⟨t, ht⟩ := blockIndex2_onto ⟨(i 1).val / 2048, by omega⟩
  have q0 : win2_3.index t (0 : Fin 2) = 0 := congrFun ht 0
  have q1 : win2_3.index t (1 : Fin 2) = (i 1).val / 2048 := congrFun ht 1
  refine ⟨t, flush2_3 t, ?_⟩
  rw [mem_outBlock2]
  intro a
  match a with
  | ⟨0, _⟩ => show win2_3.index t (0 : Fin 2) * 64 ≤ (i 0).val ∧ (i 0).val < win2_3.index t (0 : Fin 2) * 64 + 64; omega
  | ⟨1, _⟩ => show win2_3.index t (1 : Fin 2) * 2048 ≤ (i 1).val ∧ (i 1).val < win2_3.index t (1 : Fin 2) * 2048 + 2048; omega

/-- The output array after the region is the whole-array function of the three input arrays. -/
theorem region2_array (c : Dev nD) :
    (regionDat2 (F := Ideal) V c).arrAt 3 cfg2.N = matmulBias2 (V c main_v55) (V c main_v8) (V c main_v9) :=
  (regionDat2 (F := Ideal) V c).arrAt_eq_of_cover 3 _ (fun t _ => region2_flushed V c t) outCovered2

/-- The whole-array function at an index: the product of the activation row with the weight row, plus the bias. -/
theorem matmulBias2_at (a0 : S64x1024.Idx → EReal) (a1 : S4096x1024.Idx → EReal) (a2 : S1x4096.Idx → EReal) (b : Fin 64) (n : Fin 4096) :
    matmulBias2 a0 a1 a2 (ix2 b n) = (∑ k : Fin 1024, a0 (ix2 b k) * a1 (ix2 n k)) + a2 (ix2 0 n) := rfl

/-- The output array after the region, at an index. -/
theorem region2_value (c : Dev nD) (b : Fin 64) (n : Fin 4096) :
    (regionDat2 (F := Ideal) V c).arrAt 3 cfg2.N (ix2 b n)
      = matmulBias2 (V c main_v55) (V c main_v8) (V c main_v9) (ix2 b n) := by
  rw [region2_array]

end Value2

end Cert.KernelIdeal.Hand

end
-- ==== Proof.KI.R3Value.lean ====
/- Region 3: the value of the output array after the region. What the body's stores leave is read back to
   the kernel's three payloads (zero block, block product added, bias added); at the ideal values these are, at
   an index, the sum over the contraction axis of the products plus the bias; every point's written-back block
   is its block of one whole-array function, and the blocks cover the array. -/
import proofs.«137056_j83880711291258_2_alg».proof.Proof.KI.R3
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-- The zero offsets of a whole-buffer access, however spelt. -/
theorem zeroOffsets3 : (![0, 0] : Fin 2 → Nat) = fun _ => 0 := funext fun a => by fin_cases a <;> rfl

/-! ## What the stores leave, as the kernel's payloads (any float instance) -/

/-- The accumulator after the body: the block product added to the zero block. -/
theorem accLeft3_eq (c : Dev nD) (i : grid3.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond3 i) (hc1 : storeCond3 i)
    (x0 : Vec F S64x1024 .f32) (x1 : Vec F S2048x1024 .f32) (x2 : Vec F S1x2048 .f32) :
    accLeft3 c i arg2 harg2 arg3 harg3 arg4 harg4 arg5 harg5 arg6 harg6 hc0 hc1 x0 x1 x2 = k3_pay2 x0 x1 (k3_pay1 (F := F)) := by
  unfold accLeft3
  rw [View.read_writes_junk_eq_canon]
  unfold kernelRun3
  dsimp only
  sl_unfold_words
  rw [View.canon_cons_unit_zero zeroOffsets3, View.readCov_unit_zero _ zeroOffsets3]
  simp only [View.readAt_eq_ld, harg2.read_unread, harg3.read_unread, View.ld_unit_zero (S := S64x1024) zeroOffsets3, View.ld_unit_zero (S := S2048x1024) zeroOffsets3]

/-- The output block after the body: that accumulator plus the bias row. -/
theorem outLeft3_eq (c : Dev nD) (i : grid3.Coords) (arg2 : Memref sig .tc .vmem S64x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S64x2048 .f32) (harg5 : arg5.IsWhole) (arg6 : Memref sig .tc .vmem S64x2048 .f32) (harg6 : arg6.IsWhole) (hc0 : initCond3 i) (hc1 : storeCond3 i)
    (x0 : Vec F S64x1024 .f32) (x1 : Vec F S2048x1024 .f32) (x2 : Vec F S1x2048 .f32) :
    outLeft3 c i arg2 harg2 arg3 harg3 arg4 harg4 arg5 harg5 arg6 harg6 hc0 hc1 x0 x1 x2 = k3_pay3 (k3_pay2 x0 x1 (k3_pay1 (F := F))) x2 := by
  unfold outLeft3
  rw [View.read_writes_junk_eq_canon]
  unfold kernelRun3
  dsimp only
  sl_unfold_words
  rw [View.canon_unit_zero zeroOffsets3]
  rw [View.readCov_eq_canon_ld _ _ _ (fun y => ⟨_, List.mem_cons_self, View.mem_set_unit_zero zeroOffsets3 inb_S64x2048_S64x2048_0_0 y⟩),
    View.canon_cons_unit_zero zeroOffsets3, View.ld_unit_zero (S := S64x2048) zeroOffsets3, View.readCov_unit_zero _ zeroOffsets3]
  simp only [View.readAt_eq_ld, harg2.read_unread, harg3.read_unread, harg4.read_unread, View.ld_unit_zero (S := S64x1024) zeroOffsets3, View.ld_unit_zero (S := S2048x1024) zeroOffsets3, View.ld_unit_zero (S := S1x2048) zeroOffsets3]

section Region3
variable (V : (c : Dev nD) → (b : Ref sig .tc) → Buf (Elt F) ((c : Thread nD τ).loc b))

/-- The accumulator after point `t`, from the point's blocks. -/
theorem accAfter3_eq (c : Dev nD) (t : Fin cfg3.N) :
    accAfter3 V c t = k3_pay2 (blockAt3 V c 0 t) (blockAt3 V c 1 t) (k3_pay1 (F := F)) := by
  unfold accAfter3; exact accLeft3_eq _ _ _ _ _ _ _ _ _ _ _ _ _ _ (blockAt3 V c 0 t) (blockAt3 V c 1 t) (blockAt3 V c 2 t)

/-- The output block after point `t`, from the point's blocks. -/
theorem outAfter3_eq (c : Dev nD) (t : Fin cfg3.N) :
    outAfter3 V c t = k3_pay3 (k3_pay2 (blockAt3 V c 0 t) (blockAt3 V c 1 t) (k3_pay1 (F := F))) (blockAt3 V c 2 t) := by
  unfold outAfter3; exact outLeft3_eq _ _ _ _ _ _ _ _ _ _ _ _ _ _ (blockAt3 V c 0 t) (blockAt3 V c 1 t) (blockAt3 V c 2 t)

end Region3

/-! ## The payloads at an index, at the ideal values -/

/-- The zero block is zero. -/
theorem zeroBlock3_at (j : S64x2048.Idx) : k3_pay1 (F := Ideal) j = 0 := by
  unfold k3_pay1
  rw [shapeCast_self]
  exact Ideal.ofBits_zero_f32

theorem dot3_lhs0 (i : S64x2048.Idx) (q : dot_S64x1024_S2048x1024_S64x2048_1_1_0_0_n_n.contr.Idx) : (dot_S64x1024_S2048x1024_S64x2048_1_1_0_0_n_n.lhsIdx i q 0).val = (i 0).val := by
  unfold DotDims.lhsIdx
  rw [dif_neg (show ¬(0 : Fin S64x1024.rank) ∈ dot_S64x1024_S2048x1024_S64x2048_1_1_0_0_n_n.lhsBatch by decide), dif_pos (show (0 : Fin S64x1024.rank) ∈ dot_S64x1024_S2048x1024_S64x2048_1_1_0_0_n_n.lhsNonContracting by decide)]
  rfl
theorem dot3_lhs1 (i : S64x2048.Idx) (q : dot_S64x1024_S2048x1024_S64x2048_1_1_0_0_n_n.contr.Idx) : (dot_S64x1024_S2048x1024_S64x2048_1_1_0_0_n_n.lhsIdx i q 1).val = (q ⟨0, by decide⟩).val :=
  dot_S64x1024_S2048x1024_S64x2048_1_1_0_0_n_n.lhsIdx_val_of_single rfl i q
theorem dot3_rhs0 (i : S64x2048.Idx) (q : dot_S64x1024_S2048x1024_S64x2048_1_1_0_0_n_n.contr.Idx) : (dot_S64x1024_S2048x1024_S64x2048_1_1_0_0_n_n.rhsIdx i q 0).val = (i 1).val := by
  unfold DotDims.rhsIdx
  rw [dif_neg (show ¬(0 : Fin S2048x1024.rank) ∈ dot_S64x1024_S2048x1024_S64x2048_1_1_0_0_n_n.rhsBatch by decide), dif_pos (show (0 : Fin S2048x1024.rank) ∈ dot_S64x1024_S2048x1024_S64x2048_1_1_0_0_n_n.rhsNonContracting by decide)]
  rfl
theorem dot3_rhs1 (i : S64x2048.Idx) (q : dot_S64x1024_S2048x1024_S64x2048_1_1_0_0_n_n.contr.Idx) : (dot_S64x1024_S2048x1024_S64x2048_1_1_0_0_n_n.rhsIdx i q 1).val = (q ⟨0, by decide⟩).val :=
  dot_S64x1024_S2048x1024_S64x2048_1_1_0_0_n_n.rhsIdx_val_of_single rfl i q

/-- The accumulation step at an index: the accumulator there plus the row-by-row product (the operands' rounding to
    bf16 is the identity at the ideal values; the contraction runs over the last axis of both). -/
theorem accStep3_at (x0 : Vec Ideal S64x1024 .f32) (x1 : Vec Ideal S2048x1024 .f32) (acc : Vec Ideal S64x2048 .f32) (b : Fin 64) (n : Fin 2048) :
    k3_pay2 x0 x1 acc (ix2 b n) = acc (ix2 b n) + ∑ k : Fin 1024, x0 (ix2 b k) * x1 (ix2 n k) := by
  unfold k3_pay2
  simp only [shapeCast_self]
  refine congrArg (acc (ix2 b n) + ·) ?_
  simp only [matmul]
  rw [Ideal.matmul_constant_zero_apply, ← Equiv.sum_comp (contrEquiv1 dot_S64x1024_S2048x1024_S64x2048_1_1_0_0_n_n 1024 rfl rfl).symm]
  refine Finset.sum_congr rfl fun k _ => ?_
  have hk := contrEquiv1_symm_val dot_S64x1024_S2048x1024_S64x2048_1_1_0_0_n_n 1024 rfl rfl k
  have el : dot_S64x1024_S2048x1024_S64x2048_1_1_0_0_n_n.lhsIdx (ix2 b n) ((contrEquiv1 dot_S64x1024_S2048x1024_S64x2048_1_1_0_0_n_n 1024 rfl rfl).symm k) = ix2 b k := funext fun a => Fin.ext (by
    match a with
    | ⟨0, _⟩ => exact dot3_lhs0 _ _
    | ⟨1, _⟩ => exact (dot3_lhs1 _ _).trans hk)
  have er : dot_S64x1024_S2048x1024_S64x2048_1_1_0_0_n_n.rhsIdx (ix2 b n) ((contrEquiv1 dot_S64x1024_S2048x1024_S64x2048_1_1_0_0_n_n 1024 rfl rfl).symm k) = ix2 n k := funext fun a => Fin.ext (by
    match a with
    | ⟨0, _⟩ => exact dot3_rhs0 _ _
    | ⟨1, _⟩ => exact (dot3_rhs1 _ _).trans hk)
  rw [el, er]
  rfl

/-- The output store at an index: the accumulator there plus the bias of the column. -/
theorem outStep3_at (acc : Vec Ideal S64x2048 .f32) (x2 : Vec Ideal S1x2048 .f32) (b : Fin 64) (n : Fin 2048) :
    k3_pay3 acc x2 (ix2 b n) = acc (ix2 b n) + x2 (ix2 0 n) := by
  unfold k3_pay3
  simp only [shapeCast_self]
  refine congrArg (acc (ix2 b n) + ·) ?_
  exact broadcastTo_apply _ _ (ix2 b n) (ix2 0 n) (fun a => by
    match a with
    | ⟨0, _⟩ => show (0 : ℕ) = if (1 : ℕ) = 1 then 0 else _; rw [if_pos rfl]
    | ⟨1, _⟩ => show n.val = if (2048 : ℕ) = 1 then 0 else n.val; rw [if_neg (by decide)])

/-- The whole body at an index of the output block: the product row by row plus the bias. -/
theorem pointValue3 (x0 : Vec Ideal S64x1024 .f32) (x1 : Vec Ideal S2048x1024 .f32) (x2 : Vec Ideal S1x2048 .f32) (b : Fin 64) (n : Fin 2048) :
    k3_pay3 (k3_pay2 x0 x1 (k3_pay1 (F := Ideal))) x2 (ix2 b n) = (∑ k : Fin 1024, x0 (ix2 b k) * x1 (ix2 n k)) + x2 (ix2 0 n) := by
  rw [outStep3_at, accStep3_at, zeroBlock3_at, zero_add]

/-! ## From the blocks to the array -/

/-- The output array as one function of the three input arrays, index by index: the matrix product of the
    activations with the transposed weights, plus the bias row. -/
def matmulBias3 (a0 : S64x1024.Idx → EReal) (a1 : S4096x1024.Idx → EReal) (a2 : S1x4096.Idx → EReal) : S64x4096.Idx → EReal :=
  fun i => (∑ k : Fin 1024, a0 (ix2 (i 0 : Fin 64) k) * a1 (ix2 (i 1 : Fin 4096) k)) + a2 (ix2 (0 : Fin 1) (i 1 : Fin 4096))

/-- The printed index maps, decided over the grid: the activation block does not move, the weight and bias blocks
    move with the output block along the output's columns. -/
theorem blockIndex3_facts : ∀ t : Fin cfg3.N, win3_0.index t (0 : Fin 2) = 0 ∧ win3_0.index t (1 : Fin 2) = 0
    ∧ win3_1.index t (0 : Fin 2) = win3_3.index t (1 : Fin 2) ∧ win3_1.index t (1 : Fin 2) = 0
    ∧ win3_2.index t (0 : Fin 2) = 0 ∧ win3_2.index t (1 : Fin 2) = win3_3.index t (1 : Fin 2)
    ∧ win3_3.index t (0 : Fin 2) = 0 ∧ win3_3.index t (1 : Fin 2) ≤ 1 :=
  (by decide +kernel : ∀ t : Fin grid3.N, _)

/-- Every column block of the output is some point's. -/
theorem blockIndex3_onto : ∀ (q : Fin 2), ∃ t : Fin cfg3.N, win3_3.index t = ![0, q.val] :=
  (by decide +kernel : ∀ (q : Fin 2), ∃ t : Fin grid3.N, win3_3.index t = ![0, q.val])

section Value3
variable (V : (c : Dev nD) → (b : Ref sig .tc) → Buf (Elt Ideal) ((c : Thread nD τ).loc b))

set_option maxHeartbeats 1600000 in
/-- What point `t` writes back is its block of the whole-array function of the arrays as the region finds them. -/
theorem region3_flushed (c : Dev nD) (t : Fin cfg3.N) :
    (regionDat3 (F := Ideal) V c).flushed 3 t = ((cfg3.win 3).blk t).view.read (Elt Ideal) (matmulBias3 (V c main_v22) (V c main_v12) (V c main_v15)) := by
  show (cfg3.win 3).cut (grid3.coords t) ((regionDat3 (F := Ideal) V c).after 3 t) = _
  rw [regionDat3_after_out, outAfter3_eq]
  obtain ⟨e00, e01, e10, e11, e20, e21, e30, e31⟩ := blockIndex3_facts t
  funext j
  obtain ⟨b, n, rfl⟩ : ∃ (b : Fin 64) (n : Fin 2048), j = ix2 b n := ⟨j 0, j 1, eq_ix2 j⟩
  refine (pointValue3 (blockAt3 V c 0 t) (blockAt3 V c 1 t) (blockAt3 V c 2 t) b n).trans ?_
  have hb : b.val < 64 := b.isLt
  have hn : n.val < 2048 := n.isLt
  have hx : ∀ k : Fin 1024, ((cfg3.win 0).blk t).view.emb (ix2 b k) = ix2 ((((cfg3.win 3).blk t).view.emb (ix2 b n)) 0 : Fin 64) k := fun k => by
    funext a; apply Fin.ext
    match a with
    | ⟨0, _⟩ => show win3_0.index t (0 : Fin 2) * 64 + 1 * b.val = win3_3.index t (0 : Fin 2) * 64 + 1 * b.val; omega
    | ⟨1, _⟩ => show win3_0.index t (1 : Fin 2) * 1024 + 1 * k.val = k.val; omega
  have hw : ∀ k : Fin 1024, ((cfg3.win 1).blk t).view.emb (ix2 n k) = ix2 ((((cfg3.win 3).blk t).view.emb (ix2 b n)) 1 : Fin 4096) k := fun k => by
    funext a; apply Fin.ext
    match a with
    | ⟨0, _⟩ => show win3_1.index t (0 : Fin 2) * 2048 + 1 * n.val = win3_3.index t (1 : Fin 2) * 2048 + 1 * n.val; omega
    | ⟨1, _⟩ => show win3_1.index t (1 : Fin 2) * 1024 + 1 * k.val = k.val; omega
  have hbias : ((cfg3.win 2).blk t).view.emb (ix2 (0 : Fin 1) n) = ix2 (0 : Fin 1) ((((cfg3.win 3).blk t).view.emb (ix2 b n)) 1 : Fin 4096) := by
    funext a; apply Fin.ext
    match a with
    | ⟨0, _⟩ => show win3_2.index t (0 : Fin 2) * 1 + 1 * 0 = 0; omega
    | ⟨1, _⟩ => show win3_2.index t (1 : Fin 2) * 2048 + 1 * n.val = win3_3.index t (1 : Fin 2) * 2048 + 1 * n.val; omega
  have key : ∀ (a0 : S64x1024.Idx → EReal) (a1 : S4096x1024.Idx → EReal) (a2 : S1x4096.Idx → EReal),
      (∑ k : Fin 1024, a0 (((cfg3.win 0).blk t).view.emb (ix2 b k)) * a1 (((cfg3.win 1).blk t).view.emb (ix2 n k)))
          + a2 (((cfg3.win 2).blk t).view.emb (ix2 (0 : Fin 1) n))
        = matmulBias3 a0 a1 a2 (((cfg3.win 3).blk t).view.emb (ix2 b n)) := by
    intro a0 a1 a2
    unfold matmulBias3
    rw [hbias]
    refine congrArg (· + _) (Finset.sum_congr rfl fun k _ => ?_)
    rw [hx k, hw k]
    rfl
  exact key (V c main_v22) (V c main_v12) (V c main_v15)

/-- An index of the output array is in point `t`'s block iff each coordinate is in the block's range on its axis. -/
theorem mem_outBlock3 (t : Fin cfg3.N) (i : S64x4096.Idx) :
    i ∈ ((cfg3.win 3).blk t).view.set ↔ ∀ a : Fin 2, win3_3.index t a * S64x2048.size a ≤ (i a).val ∧ (i a).val < win3_3.index t a * S64x2048.size a + S64x2048.size a := by
  show i ∈ ((View.whole main_v57).slice (win3_3.rect t)).set ↔ _
  rw [View.set_slice_whole, Rect.mem_set_unit]
  exact Iff.rfl

/-- The written-back blocks cover the output array: column `n` is in the block of the point whose column-block
    coordinate is `n / 2048`. -/
theorem outCovered3 (i : S64x4096.Idx) : ∃ t : Fin cfg3.N, (cfg3.win 3).flush t = true ∧ i ∈ ((cfg3.win 3).blk t).view.set := by
  have hi0 : (i 0).val < 64 := (i 0).isLt
  have hi1 : (i 1).val < 4096 := (i 1).isLt
  obtain ⟨t, ht⟩ := blockIndex3_onto ⟨(i 1).val / 2048, by omega⟩
  have q0 : win3_3.index t (0 : Fin 2) = 0 := congrFun ht 0
  have q1 : win3_3.index t (1 : Fin 2) = (i 1).val / 2048 := congrFun ht 1
  refine ⟨t, flush3_3 t, ?_⟩
  rw [mem_outBlock3]
  intro a
  match a with
  | ⟨0, _⟩ => show win3_3.index t (0 : Fin 2) * 64 ≤ (i 0).val ∧ (i 0).val < win3_3.index t (0 : Fin 2) * 64 + 64; omega
  | ⟨1, _⟩ => show win3_3.index t (1 : Fin 2) * 2048 ≤ (i 1).val ∧ (i 1).val < win3_3.index t (1 : Fin 2) * 2048 + 2048; omega

/-- The output array after the region is the whole-array function of the three input arrays. -/
theorem region3_array (c : Dev nD) :
    (regionDat3 (F := Ideal) V c).arrAt 3 cfg3.N = matmulBias3 (V c main_v22) (V c main_v12) (V c main_v15) :=
  (regionDat3 (F := Ideal) V c).arrAt_eq_of_cover 3 _ (fun t _ => region3_flushed V c t) outCovered3

/-- The whole-array function at an index: the product of the activation row with the weight row, plus the bias. -/
theorem matmulBias3_at (a0 : S64x1024.Idx → EReal) (a1 : S4096x1024.Idx → EReal) (a2 : S1x4096.Idx → EReal) (b : Fin 64) (n : Fin 4096) :
    matmulBias3 a0 a1 a2 (ix2 b n) = (∑ k : Fin 1024, a0 (ix2 b k) * a1 (ix2 n k)) + a2 (ix2 0 n) := rfl

/-- The output array after the region, at an index. -/
theorem region3_value (c : Dev nD) (b : Fin 64) (n : Fin 4096) :
    (regionDat3 (F := Ideal) V c).arrAt 3 cfg3.N (ix2 b n)
      = matmulBias3 (V c main_v22) (V c main_v12) (V c main_v15) (ix2 b n) := by
  rw [region3_array]

end Value3

end Cert.KernelIdeal.Hand

end
-- ==== Proof.KI.R4Value.lean ====
/- Region 4: the value of the output array after the region. What the body's stores leave is read back to
   the kernel's three payloads (zero block, block product added, bias added); at the ideal values these are, at
   an index, the sum over the contraction axis of the products plus the bias; every point's written-back block
   is its block of one whole-array function, and the blocks cover the array. -/
import proofs.«137056_j83880711291258_2_alg».proof.Proof.KI.R4
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-- The zero offsets of a whole-buffer access, however spelt. -/
theorem zeroOffsets4 : (![0, 0] : Fin 2 → Nat) = fun _ => 0 := funext fun a => by fin_cases a <;> rfl

/-! ## What the stores leave, as the kernel's payloads (any float instance) -/

/-- The accumulator after the body: the block product added to the zero block. -/
theorem accLeft4_eq (c : Dev nD) (i : grid4.Coords) (arg2 : Memref sig .tc .vmem S64x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S64x3200 .f32) (harg6 : arg6.IsWhole) (hc0 : initCond4 i) (hc1 : storeCond4 i)
    (x0 : Vec F S64x1024 .f32) (x1 : Vec F S3200x1024 .f32) (x2 : Vec F S1x3200 .f32) :
    accLeft4 c i arg2 harg2 arg3 harg3 arg4 harg4 arg5 harg5 arg6 harg6 hc0 hc1 x0 x1 x2 = k4_pay2 x0 x1 (k4_pay1 (F := F)) := by
  unfold accLeft4
  rw [View.read_writes_junk_eq_canon]
  unfold kernelRun4
  dsimp only
  sl_unfold_words
  rw [View.canon_cons_unit_zero zeroOffsets4, View.readCov_unit_zero _ zeroOffsets4]
  simp only [View.readAt_eq_ld, harg2.read_unread, harg3.read_unread, View.ld_unit_zero (S := S64x1024) zeroOffsets4, View.ld_unit_zero (S := S3200x1024) zeroOffsets4]

/-- The output block after the body: that accumulator plus the bias row. -/
theorem outLeft4_eq (c : Dev nD) (i : grid4.Coords) (arg2 : Memref sig .tc .vmem S64x1024 .f32) (harg2 : arg2.IsWhole) (arg3 : Memref sig .tc .vmem S3200x1024 .f32) (harg3 : arg3.IsWhole) (arg4 : Memref sig .tc .vmem S1x3200 .f32) (harg4 : arg4.IsWhole) (arg5 : Memref sig .tc .vmem S64x3200 .f32) (harg5 : arg5.IsWhole) (arg6 : Memref sig .tc .vmem S64x3200 .f32) (harg6 : arg6.IsWhole) (hc0 : initCond4 i) (hc1 : storeCond4 i)
    (x0 : Vec F S64x1024 .f32) (x1 : Vec F S3200x1024 .f32) (x2 : Vec F S1x3200 .f32) :
    outLeft4 c i arg2 harg2 arg3 harg3 arg4 harg4 arg5 harg5 arg6 harg6 hc0 hc1 x0 x1 x2 = k4_pay3 (k4_pay2 x0 x1 (k4_pay1 (F := F))) x2 := by
  unfold outLeft4
  rw [View.read_writes_junk_eq_canon]
  unfold kernelRun4
  dsimp only
  sl_unfold_words
  rw [View.canon_unit_zero zeroOffsets4]
  rw [View.readCov_eq_canon_ld _ _ _ (fun y => ⟨_, List.mem_cons_self, View.mem_set_unit_zero zeroOffsets4 inb_S64x3200_S64x3200_0_0 y⟩),
    View.canon_cons_unit_zero zeroOffsets4, View.ld_unit_zero (S := S64x3200) zeroOffsets4, View.readCov_unit_zero _ zeroOffsets4]
  simp only [View.readAt_eq_ld, harg2.read_unread, harg3.read_unread, harg4.read_unread, View.ld_unit_zero (S := S64x1024) zeroOffsets4, View.ld_unit_zero (S := S3200x1024) zeroOffsets4, View.ld_unit_zero (S := S1x3200) zeroOffsets4]

section Region4
variable (V : (c : Dev nD) → (b : Ref sig .tc) → Buf (Elt F) ((c : Thread nD τ).loc b))

/-- The accumulator after point `t`, from the point's blocks. -/
theorem accAfter4_eq (c : Dev nD) (t : Fin cfg4.N) :
    accAfter4 V c t = k4_pay2 (blockAt4 V c 0 t) (blockAt4 V c 1 t) (k4_pay1 (F := F)) := by
  unfold accAfter4; exact accLeft4_eq _ _ _ _ _ _ _ _ _ _ _ _ _ _ (blockAt4 V c 0 t) (blockAt4 V c 1 t) (blockAt4 V c 2 t)

/-- The output block after point `t`, from the point's blocks. -/
theorem outAfter4_eq (c : Dev nD) (t : Fin cfg4.N) :
    outAfter4 V c t = k4_pay3 (k4_pay2 (blockAt4 V c 0 t) (blockAt4 V c 1 t) (k4_pay1 (F := F))) (blockAt4 V c 2 t) := by
  unfold outAfter4; exact outLeft4_eq _ _ _ _ _ _ _ _ _ _ _ _ _ _ (blockAt4 V c 0 t) (blockAt4 V c 1 t) (blockAt4 V c 2 t)

end Region4

/-! ## The payloads at an index, at the ideal values -/

/-- The zero block is zero. -/
theorem zeroBlock4_at (j : S64x3200.Idx) : k4_pay1 (F := Ideal) j = 0 := by
  unfold k4_pay1
  rw [shapeCast_self]
  exact Ideal.ofBits_zero_f32

theorem dot4_lhs0 (i : S64x3200.Idx) (q : dot_S64x1024_S3200x1024_S64x3200_1_1_0_0_n_n.contr.Idx) : (dot_S64x1024_S3200x1024_S64x3200_1_1_0_0_n_n.lhsIdx i q 0).val = (i 0).val := by
  unfold DotDims.lhsIdx
  rw [dif_neg (show ¬(0 : Fin S64x1024.rank) ∈ dot_S64x1024_S3200x1024_S64x3200_1_1_0_0_n_n.lhsBatch by decide), dif_pos (show (0 : Fin S64x1024.rank) ∈ dot_S64x1024_S3200x1024_S64x3200_1_1_0_0_n_n.lhsNonContracting by decide)]
  rfl
theorem dot4_lhs1 (i : S64x3200.Idx) (q : dot_S64x1024_S3200x1024_S64x3200_1_1_0_0_n_n.contr.Idx) : (dot_S64x1024_S3200x1024_S64x3200_1_1_0_0_n_n.lhsIdx i q 1).val = (q ⟨0, by decide⟩).val :=
  dot_S64x1024_S3200x1024_S64x3200_1_1_0_0_n_n.lhsIdx_val_of_single rfl i q
theorem dot4_rhs0 (i : S64x3200.Idx) (q : dot_S64x1024_S3200x1024_S64x3200_1_1_0_0_n_n.contr.Idx) : (dot_S64x1024_S3200x1024_S64x3200_1_1_0_0_n_n.rhsIdx i q 0).val = (i 1).val := by
  unfold DotDims.rhsIdx
  rw [dif_neg (show ¬(0 : Fin S3200x1024.rank) ∈ dot_S64x1024_S3200x1024_S64x3200_1_1_0_0_n_n.rhsBatch by decide), dif_pos (show (0 : Fin S3200x1024.rank) ∈ dot_S64x1024_S3200x1024_S64x3200_1_1_0_0_n_n.rhsNonContracting by decide)]
  rfl
theorem dot4_rhs1 (i : S64x3200.Idx) (q : dot_S64x1024_S3200x1024_S64x3200_1_1_0_0_n_n.contr.Idx) : (dot_S64x1024_S3200x1024_S64x3200_1_1_0_0_n_n.rhsIdx i q 1).val = (q ⟨0, by decide⟩).val :=
  dot_S64x1024_S3200x1024_S64x3200_1_1_0_0_n_n.rhsIdx_val_of_single rfl i q

/-- The accumulation step at an index: the accumulator there plus the row-by-row product (the operands' rounding to
    bf16 is the identity at the ideal values; the contraction runs over the last axis of both). -/
theorem accStep4_at (x0 : Vec Ideal S64x1024 .f32) (x1 : Vec Ideal S3200x1024 .f32) (acc : Vec Ideal S64x3200 .f32) (b : Fin 64) (n : Fin 3200) :
    k4_pay2 x0 x1 acc (ix2 b n) = acc (ix2 b n) + ∑ k : Fin 1024, x0 (ix2 b k) * x1 (ix2 n k) := by
  unfold k4_pay2
  simp only [shapeCast_self]
  refine congrArg (acc (ix2 b n) + ·) ?_
  simp only [matmul]
  rw [Ideal.matmul_constant_zero_apply, ← Equiv.sum_comp (contrEquiv1 dot_S64x1024_S3200x1024_S64x3200_1_1_0_0_n_n 1024 rfl rfl).symm]
  refine Finset.sum_congr rfl fun k _ => ?_
  have hk := contrEquiv1_symm_val dot_S64x1024_S3200x1024_S64x3200_1_1_0_0_n_n 1024 rfl rfl k
  have el : dot_S64x1024_S3200x1024_S64x3200_1_1_0_0_n_n.lhsIdx (ix2 b n) ((contrEquiv1 dot_S64x1024_S3200x1024_S64x3200_1_1_0_0_n_n 1024 rfl rfl).symm k) = ix2 b k := funext fun a => Fin.ext (by
    match a with
    | ⟨0, _⟩ => exact dot4_lhs0 _ _
    | ⟨1, _⟩ => exact (dot4_lhs1 _ _).trans hk)
  have er : dot_S64x1024_S3200x1024_S64x3200_1_1_0_0_n_n.rhsIdx (ix2 b n) ((contrEquiv1 dot_S64x1024_S3200x1024_S64x3200_1_1_0_0_n_n 1024 rfl rfl).symm k) = ix2 n k := funext fun a => Fin.ext (by
    match a with
    | ⟨0, _⟩ => exact dot4_rhs0 _ _
    | ⟨1, _⟩ => exact (dot4_rhs1 _ _).trans hk)
  rw [el, er]
  rfl

/-- The output store at an index: the accumulator there plus the bias of the column. -/
theorem outStep4_at (acc : Vec Ideal S64x3200 .f32) (x2 : Vec Ideal S1x3200 .f32) (b : Fin 64) (n : Fin 3200) :
    k4_pay3 acc x2 (ix2 b n) = acc (ix2 b n) + x2 (ix2 0 n) := by
  unfold k4_pay3
  simp only [shapeCast_self]
  refine congrArg (acc (ix2 b n) + ·) ?_
  exact broadcastTo_apply _ _ (ix2 b n) (ix2 0 n) (fun a => by
    match a with
    | ⟨0, _⟩ => show (0 : ℕ) = if (1 : ℕ) = 1 then 0 else _; rw [if_pos rfl]
    | ⟨1, _⟩ => show n.val = if (3200 : ℕ) = 1 then 0 else n.val; rw [if_neg (by decide)])

/-- The whole body at an index of the output block: the product row by row plus the bias. -/
theorem pointValue4 (x0 : Vec Ideal S64x1024 .f32) (x1 : Vec Ideal S3200x1024 .f32) (x2 : Vec Ideal S1x3200 .f32) (b : Fin 64) (n : Fin 3200) :
    k4_pay3 (k4_pay2 x0 x1 (k4_pay1 (F := Ideal))) x2 (ix2 b n) = (∑ k : Fin 1024, x0 (ix2 b k) * x1 (ix2 n k)) + x2 (ix2 0 n) := by
  rw [outStep4_at, accStep4_at, zeroBlock4_at, zero_add]

/-! ## From the blocks to the array -/

/-- The output array as one function of the three input arrays, index by index: the matrix product of the
    activations with the transposed weights, plus the bias row. -/
def matmulBias4 (a0 : S64x1024.Idx → EReal) (a1 : S32000x1024.Idx → EReal) (a2 : S1x32000.Idx → EReal) : S64x32000.Idx → EReal :=
  fun i => (∑ k : Fin 1024, a0 (ix2 (i 0 : Fin 64) k) * a1 (ix2 (i 1 : Fin 32000) k)) + a2 (ix2 (0 : Fin 1) (i 1 : Fin 32000))

/-- The printed index maps, decided over the grid: the activation block does not move, the weight and bias blocks
    move with the output block along the output's columns. -/
theorem blockIndex4_facts : ∀ t : Fin cfg4.N, win4_0.index t (0 : Fin 2) = 0 ∧ win4_0.index t (1 : Fin 2) = 0
    ∧ win4_1.index t (0 : Fin 2) = win4_3.index t (1 : Fin 2) ∧ win4_1.index t (1 : Fin 2) = 0
    ∧ win4_2.index t (0 : Fin 2) = 0 ∧ win4_2.index t (1 : Fin 2) = win4_3.index t (1 : Fin 2)
    ∧ win4_3.index t (0 : Fin 2) = 0 ∧ win4_3.index t (1 : Fin 2) ≤ 9 :=
  (by decide +kernel : ∀ t : Fin grid4.N, _)

/-- Every column block of the output is some point's. -/
theorem blockIndex4_onto : ∀ (q : Fin 10), ∃ t : Fin cfg4.N, win4_3.index t = ![0, q.val] :=
  (by decide +kernel : ∀ (q : Fin 10), ∃ t : Fin grid4.N, win4_3.index t = ![0, q.val])

section Value4
variable (V : (c : Dev nD) → (b : Ref sig .tc) → Buf (Elt Ideal) ((c : Thread nD τ).loc b))

set_option maxHeartbeats 1600000 in
/-- What point `t` writes back is its block of the whole-array function of the arrays as the region finds them. -/
theorem region4_flushed (c : Dev nD) (t : Fin cfg4.N) :
    (regionDat4 (F := Ideal) V c).flushed 3 t = ((cfg4.win 3).blk t).view.read (Elt Ideal) (matmulBias4 (V c main_v86) (V c main_arg9) (V c main_v16)) := by
  show (cfg4.win 3).cut (grid4.coords t) ((regionDat4 (F := Ideal) V c).after 3 t) = _
  rw [regionDat4_after_out, outAfter4_eq]
  obtain ⟨e00, e01, e10, e11, e20, e21, e30, e31⟩ := blockIndex4_facts t
  funext j
  obtain ⟨b, n, rfl⟩ : ∃ (b : Fin 64) (n : Fin 3200), j = ix2 b n := ⟨j 0, j 1, eq_ix2 j⟩
  refine (pointValue4 (blockAt4 V c 0 t) (blockAt4 V c 1 t) (blockAt4 V c 2 t) b n).trans ?_
  have hb : b.val < 64 := b.isLt
  have hn : n.val < 3200 := n.isLt
  have hx : ∀ k : Fin 1024, ((cfg4.win 0).blk t).view.emb (ix2 b k) = ix2 ((((cfg4.win 3).blk t).view.emb (ix2 b n)) 0 : Fin 64) k := fun k => by
    funext a; apply Fin.ext
    match a with
    | ⟨0, _⟩ => show win4_0.index t (0 : Fin 2) * 64 + 1 * b.val = win4_3.index t (0 : Fin 2) * 64 + 1 * b.val; omega
    | ⟨1, _⟩ => show win4_0.index t (1 : Fin 2) * 1024 + 1 * k.val = k.val; omega
  have hw : ∀ k : Fin 1024, ((cfg4.win 1).blk t).view.emb (ix2 n k) = ix2 ((((cfg4.win 3).blk t).view.emb (ix2 b n)) 1 : Fin 32000) k := fun k => by
    funext a; apply Fin.ext
    match a with
    | ⟨0, _⟩ => show win4_1.index t (0 : Fin 2) * 3200 + 1 * n.val = win4_3.index t (1 : Fin 2) * 3200 + 1 * n.val; omega
    | ⟨1, _⟩ => show win4_1.index t (1 : Fin 2) * 1024 + 1 * k.val = k.val; omega
  have hbias : ((cfg4.win 2).blk t).view.emb (ix2 (0 : Fin 1) n) = ix2 (0 : Fin 1) ((((cfg4.win 3).blk t).view.emb (ix2 b n)) 1 : Fin 32000) := by
    funext a; apply Fin.ext
    match a with
    | ⟨0, _⟩ => show win4_2.index t (0 : Fin 2) * 1 + 1 * 0 = 0; omega
    | ⟨1, _⟩ => show win4_2.index t (1 : Fin 2) * 3200 + 1 * n.val = win4_3.index t (1 : Fin 2) * 3200 + 1 * n.val; omega
  have key : ∀ (a0 : S64x1024.Idx → EReal) (a1 : S32000x1024.Idx → EReal) (a2 : S1x32000.Idx → EReal),
      (∑ k : Fin 1024, a0 (((cfg4.win 0).blk t).view.emb (ix2 b k)) * a1 (((cfg4.win 1).blk t).view.emb (ix2 n k)))
          + a2 (((cfg4.win 2).blk t).view.emb (ix2 (0 : Fin 1) n))
        = matmulBias4 a0 a1 a2 (((cfg4.win 3).blk t).view.emb (ix2 b n)) := by
    intro a0 a1 a2
    unfold matmulBias4
    rw [hbias]
    refine congrArg (· + _) (Finset.sum_congr rfl fun k _ => ?_)
    rw [hx k, hw k]
    rfl
  exact key (V c main_v86) (V c main_arg9) (V c main_v16)

/-- An index of the output array is in point `t`'s block iff each coordinate is in the block's range on its axis. -/
theorem mem_outBlock4 (t : Fin cfg4.N) (i : S64x32000.Idx) :
    i ∈ ((cfg4.win 3).blk t).view.set ↔ ∀ a : Fin 2, win4_3.index t a * S64x3200.size a ≤ (i a).val ∧ (i a).val < win4_3.index t a * S64x3200.size a + S64x3200.size a := by
  show i ∈ ((View.whole main_v87).slice (win4_3.rect t)).set ↔ _
  rw [View.set_slice_whole, Rect.mem_set_unit]
  exact Iff.rfl

/-- The written-back blocks cover the output array: column `n` is in the block of the point whose column-block
    coordinate is `n / 3200`. -/
theorem outCovered4 (i : S64x32000.Idx) : ∃ t : Fin cfg4.N, (cfg4.win 3).flush t = true ∧ i ∈ ((cfg4.win 3).blk t).view.set := by
  have hi0 : (i 0).val < 64 := (i 0).isLt
  have hi1 : (i 1).val < 32000 := (i 1).isLt
  obtain ⟨t, ht⟩ := blockIndex4_onto ⟨(i 1).val / 3200, by omega⟩
  have q0 : win4_3.index t (0 : Fin 2) = 0 := congrFun ht 0
  have q1 : win4_3.index t (1 : Fin 2) = (i 1).val / 3200 := congrFun ht 1
  refine ⟨t, flush4_3 t, ?_⟩
  rw [mem_outBlock4]
  intro a
  match a with
  | ⟨0, _⟩ => show win4_3.index t (0 : Fin 2) * 64 ≤ (i 0).val ∧ (i 0).val < win4_3.index t (0 : Fin 2) * 64 + 64; omega
  | ⟨1, _⟩ => show win4_3.index t (1 : Fin 2) * 3200 ≤ (i 1).val ∧ (i 1).val < win4_3.index t (1 : Fin 2) * 3200 + 3200; omega

/-- The output array after the region is the whole-array function of the three input arrays. -/
theorem region4_array (c : Dev nD) :
    (regionDat4 (F := Ideal) V c).arrAt 3 cfg4.N = matmulBias4 (V c main_v86) (V c main_arg9) (V c main_v16) :=
  (regionDat4 (F := Ideal) V c).arrAt_eq_of_cover 3 _ (fun t _ => region4_flushed V c t) outCovered4

/-- The whole-array function at an index: the product of the activation row with the weight row, plus the bias. -/
theorem matmulBias4_at (a0 : S64x1024.Idx → EReal) (a1 : S32000x1024.Idx → EReal) (a2 : S1x32000.Idx → EReal) (b : Fin 64) (n : Fin 32000) :
    matmulBias4 a0 a1 a2 (ix2 b n) = (∑ k : Fin 1024, a0 (ix2 b k) * a1 (ix2 n k)) + a2 (ix2 0 n) := rfl

/-- The output array after the region, at an index. -/
theorem region4_value (c : Dev nD) (b : Fin 64) (n : Fin 32000) :
    (regionDat4 (F := Ideal) V c).arrAt 3 cfg4.N (ix2 b n)
      = matmulBias4 (V c main_v86) (V c main_arg9) (V c main_v16) (ix2 b n) := by
  rw [region4_array]

end Value4

end Cert.KernelIdeal.Hand

end
-- ==== Proof.KI.EntryReads.lean ====
/-
  The arrays the five matmul kernels read and write, as the kernel program's run finds them, read at an index in terms of the
  launch arguments: the host reshapes and slices before the first kernel (each flattened weight, bias row and state slab is
  the argument at the unflattened index), the same arrays where each kernel reads them (no operation in between writes
  them), and each kernel's output array as the product of its activation rows with its weight rows plus its bias.
-/
import proofs.«137056_j83880711291258_2_alg».proof.Proof.KI.Run
import proofs.«137056_j83880711291258_2_alg».proof.Proof.KI.R0Value
import proofs.«137056_j83880711291258_2_alg».proof.Proof.KI.R1Value
import proofs.«137056_j83880711291258_2_alg».proof.Proof.KI.R2Value
import proofs.«137056_j83880711291258_2_alg».proof.Proof.KI.R3Value
import proofs.«137056_j83880711291258_2_alg».proof.Proof.KI.R4Value
import proofs.«137056_j83880711291258_2_alg».proof.Proof.Ref.Shared
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen Cert.RefSide

open Idealize.ShloMosaic.ValueIdx
open scoped BigOperators

/-! ## Reshapes and slices of this program's shapes, read at an index -/

section Layouts
variable {α : Type}

/-- The gate index of a flattened row. -/
abbrev gateOf (n : Fin 4096) : Fin 4 := ⟨n.val / 1024, by omega⟩
/-- The row within its gate. -/
abbrev rowOf (n : Fin 4096) : Fin 1024 := ⟨n.val % 1024, by omega⟩

/-- [4,1024,K] flattened to [4096,K]: row g·1024+h is (g,h). -/
theorem flat3_at {K : ℕ} (x : (⟨3, ![4, 1024, K]⟩ : Shape).Idx → α) (hc : (⟨3, ![4, 1024, K]⟩ : Shape).ShapeCasts ⟨2, ![4096, K]⟩)
    (n : Fin 4096) (k : Fin K) : shapeCast ⟨2, ![4096, K]⟩ x hc (ix2 n k) = x (ix3 (gateOf n) (rowOf n) k) := by
  refine shapeCast_apply _ _ _ _ ?_
  rw [Shape.rowMajor_val_three, Shape.rowMajor_val_two]
  show ((n.val / 1024) * 1024 + n.val % 1024) * K + k.val = n.val * K + k.val
  have := Nat.div_add_mod n.val 1024
  rw [show n.val / 1024 * 1024 + n.val % 1024 = n.val by omega]

/-- [4,1024] flattened to the row [1,4096]. -/
theorem flat2_at (x : S4x1024.Idx → α) (hc : S4x1024.ShapeCasts S1x4096) (n : Fin 4096) :
    shapeCast S1x4096 x hc (ix2 (0 : Fin 1) n) = x (ix2 (gateOf n) (rowOf n)) := by
  refine shapeCast_apply _ _ _ _ ?_
  rw [Shape.rowMajor_val_two, Shape.rowMajor_val_two]
  show (n.val / 1024) * 1024 + n.val % 1024 = 0 * 4096 + n.val
  have := Nat.div_add_mod n.val 1024
  omega

/-- A leading unit axis dropped, rank 4 to 3. -/
theorem drop4_at (x : S1x4x1024x1024.Idx → α) (hc : S1x4x1024x1024.ShapeCasts S4x1024x1024) (g : Fin 4) (h k : Fin 1024) :
    shapeCast S4x1024x1024 x hc (ix3 g h k) = x (ix4 (0 : Fin 1) g h k) := by
  refine shapeCast_apply _ _ _ _ ?_
  rw [Shape.rowMajor_val_four, Shape.rowMajor_val_three]
  show (((0 * 4 + g.val) * 1024 + h.val) * 1024 + k.val) = (g.val * 1024 + h.val) * 1024 + k.val
  omega

/-- A leading unit axis dropped, [1,4,1024] to [4,1024]. -/
theorem drop3g_at (x : S1x4x1024.Idx → α) (hc : S1x4x1024.ShapeCasts S4x1024) (g : Fin 4) (h : Fin 1024) :
    shapeCast S4x1024 x hc (ix2 g h) = x (ix3 (0 : Fin 1) g h) := by
  refine shapeCast_apply _ _ _ _ ?_
  rw [Shape.rowMajor_val_three, Shape.rowMajor_val_two]
  show ((0 * 4 + g.val) * 1024 + h.val) = g.val * 1024 + h.val
  omega

/-- A leading unit axis dropped, [1,64,1024] to [64,1024]. -/
theorem drop3s_at (x : S1x64x1024.Idx → α) (hc : S1x64x1024.ShapeCasts S64x1024) (b : Fin 64) (k : Fin 1024) :
    shapeCast S64x1024 x hc (ix2 b k) = x (ix3 (0 : Fin 1) b k) := by
  refine shapeCast_apply _ _ _ _ ?_
  rw [Shape.rowMajor_val_three, Shape.rowMajor_val_two]
  show ((0 * 64 + b.val) * 1024 + k.val) = b.val * 1024 + k.val
  omega

/-- A vector as a row. -/
theorem row1_at (x : S32000.Idx → α) (hc : S32000.ShapeCasts S1x32000) (v : Fin 32000) :
    shapeCast S1x32000 x hc (ix2 (0 : Fin 1) v) = x (ix1 v) := by
  refine shapeCast_apply _ _ _ _ ?_
  rw [Shape.rowMajor_val_one, Shape.rowMajor_val_two]
  show v.val = 0 * 32000 + v.val
  omega

/-- Layer `l`'s slab of the stacked recurrent weights. -/
theorem layer4_at (l : Fin 2) (x : S2x4x1024x1024.Idx → α) (hs : S2x4x1024x1024.Slices ![l.val, 0, 0, 0] S1x4x1024x1024) (g : Fin 4) (h k : Fin 1024) :
    extractStridedSlice S1x4x1024x1024 ![l.val, 0, 0, 0] x hs (ix4 (0 : Fin 1) g h k) = x (ix4 l g h k) := by
  refine extractStridedSlice_apply _ _ _ _ _ (fun a => ?_)
  match a with
  | ⟨0, _⟩ => show l.val = l.val + 0; omega
  | ⟨1, _⟩ => show g.val = 0 + g.val; omega
  | ⟨2, _⟩ => show h.val = 0 + h.val; omega
  | ⟨3, _⟩ => show k.val = 0 + k.val; omega

/-- Layer `l`'s slab of the stacked recurrent biases. -/
theorem layer3g_at (l : Fin 2) (x : S2x4x1024.Idx → α) (hs : S2x4x1024.Slices ![l.val, 0, 0] S1x4x1024) (g : Fin 4) (h : Fin 1024) :
    extractStridedSlice S1x4x1024 ![l.val, 0, 0] x hs (ix3 (0 : Fin 1) g h) = x (ix3 l g h) := by
  refine extractStridedSlice_apply _ _ _ _ _ (fun a => ?_)
  match a with
  | ⟨0, _⟩ => show l.val = l.val + 0; omega
  | ⟨1, _⟩ => show g.val = 0 + g.val; omega
  | ⟨2, _⟩ => show h.val = 0 + h.val; omega

/-- Layer `l`'s slab of a stacked state. -/
theorem layer3s_at (l : Fin 2) (x : S2x64x1024.Idx → α) (hs : S2x64x1024.Slices ![l.val, 0, 0] S1x64x1024) (b : Fin 64) (k : Fin 1024) :
    extractStridedSlice S1x64x1024 ![l.val, 0, 0] x hs (ix3 (0 : Fin 1) b k) = x (ix3 l b k) := by
  refine extractStridedSlice_apply _ _ _ _ _ (fun a => ?_)
  match a with
  | ⟨0, _⟩ => show l.val = l.val + 0; omega
  | ⟨1, _⟩ => show b.val = 0 + b.val; omega
  | ⟨2, _⟩ => show k.val = 0 + k.val; omega

end Layouts

/-! ## The launch arguments -/

variable (m : (ℓ : Loc nD τ sig) → Buf (Elt Ideal) ℓ) (c : Dev nD)

/-- The input batch `x` [64, 32000]. -/
abbrev argX : FVec Ideal S64x32000 .f32 := m ((c.tc : Thread nD τ).loc main_arg0)
/-- The stacked hidden states [2, 64, 1024]. -/
abbrev argHid : FVec Ideal S2x64x1024 .f32 := m ((c.tc : Thread nD τ).loc main_arg1)
/-- The stacked cell states [2, 64, 1024]. -/
abbrev argCel : FVec Ideal S2x64x1024 .f32 := m ((c.tc : Thread nD τ).loc main_arg2)
/-- The recurrent weights [2, 4, 1024, 1024]. -/
abbrev argWh : FVec Ideal S2x4x1024x1024 .f32 := m ((c.tc : Thread nD τ).loc main_arg3)
/-- The recurrent biases [2, 4, 1024]. -/
abbrev argBh : FVec Ideal S2x4x1024 .f32 := m ((c.tc : Thread nD τ).loc main_arg4)
/-- Layer 0's input weights [4, 1024, 32000]. -/
abbrev argWx0 : FVec Ideal S4x1024x32000 .f32 := m ((c.tc : Thread nD τ).loc main_arg5)
/-- Layer 0's input biases [4, 1024]. -/
abbrev argBx0 : FVec Ideal S4x1024 .f32 := m ((c.tc : Thread nD τ).loc main_arg6)
/-- Layer 1's input weights [4, 1024, 1024]. -/
abbrev argWx1 : FVec Ideal S4x1024x1024 .f32 := m ((c.tc : Thread nD τ).loc main_arg7)
/-- Layer 1's input biases [4, 1024]. -/
abbrev argBx1 : FVec Ideal S4x1024 .f32 := m ((c.tc : Thread nD τ).loc main_arg8)
/-- The decoder's weights [32000, 1024]. -/
abbrev argWdec : FVec Ideal S32000x1024 .f32 := m ((c.tc : Thread nD τ).loc main_arg9)
/-- The decoder's biases [32000]. -/
abbrev argBdec : FVec Ideal S32000 .f32 := m ((c.tc : Thread nD τ).loc main_arg10)

/-! ## The host operations before the first kernel, read at an index -/

/-- Layer 0's input weights flattened to [4096, 32000]: row g·1024+h is gate g's row h. -/
theorem flatWx0_at (n : Fin 4096) (k : Fin 32000) :
    (B1 m c main_v0 : FVec Ideal S4096x32000 .f32) (ix2 n k) = argWx0 m c (ix3 (gateOf n) (rowOf n) k) := by
  have e : (B1 m c main_v0 : FVec Ideal S4096x32000 .f32)
      = shapeCast S4096x32000 (argWx0 m c) shapeCasts_S4x1024x32000_S4096x32000 := by
    show StableHlo.after hostOps0 (B0 m c) (Proc.devRef .tc main_v0) = _
    after_results
    rfl
  rw [e]; exact flat3_at _ _ n k

/-- Layer 0's input biases as a row [1, 4096]. -/
theorem rowBx0_at (n : Fin 4096) :
    (B1 m c main_v1 : FVec Ideal S1x4096 .f32) (ix2 (0 : Fin 1) n) = argBx0 m c (ix2 (gateOf n) (rowOf n)) := by
  have e : (B1 m c main_v1 : FVec Ideal S1x4096 .f32) = shapeCast S1x4096 (argBx0 m c) shapeCasts_S4x1024_S1x4096 := by
    show StableHlo.after hostOps0 (B0 m c) (Proc.devRef .tc main_v1) = _
    after_results
    rfl
  rw [e]; exact flat2_at _ _ n

/-- Layer 0's recurrent weights flattened to [4096, 1024]. -/
theorem flatWh0_at (n : Fin 4096) (k : Fin 1024) :
    (B1 m c main_v4 : FVec Ideal S4096x1024 .f32) (ix2 n k) = argWh m c (ix4 (0 : Fin 2) (gateOf n) (rowOf n) k) := by
  have e : (B1 m c main_v4 : FVec Ideal S4096x1024 .f32)
      = shapeCast S4096x1024 (shapeCast S4x1024x1024 (extractStridedSlice S1x4x1024x1024 ![0, 0, 0, 0] (argWh m c) slices_S2x4x1024x1024_S1x4x1024x1024_0_0_0_0) shapeCasts_S1x4x1024x1024_S4x1024x1024) shapeCasts_S4x1024x1024_S4096x1024 := by
    show StableHlo.after hostOps0 (B0 m c) (Proc.devRef .tc main_v4) = _
    after_results
    rfl
  rw [e]
  exact (flat3_at _ _ n k).trans ((drop4_at _ _ _ _ _).trans (layer4_at (0 : Fin 2) _ _ _ _ _))

/-- Layer 0's recurrent biases as a row. -/
theorem rowBh0_at (n : Fin 4096) :
    (B1 m c main_v7 : FVec Ideal S1x4096 .f32) (ix2 (0 : Fin 1) n) = argBh m c (ix3 (0 : Fin 2) (gateOf n) (rowOf n)) := by
  have e : (B1 m c main_v7 : FVec Ideal S1x4096 .f32)
      = shapeCast S1x4096 (shapeCast S4x1024 (extractStridedSlice S1x4x1024 ![0, 0, 0] (argBh m c) slices_S2x4x1024_S1x4x1024_0_0_0) shapeCasts_S1x4x1024_S4x1024) shapeCasts_S4x1024_S1x4096 := by
    show StableHlo.after hostOps0 (B0 m c) (Proc.devRef .tc main_v7) = _
    after_results
    rfl
  rw [e]
  exact (flat2_at _ _ n).trans ((drop3g_at _ _ _ _).trans (layer3g_at (0 : Fin 2) _ _ _ _))

/-- Layer 1's input weights flattened to [4096, 1024]. -/
theorem flatWx1_at (n : Fin 4096) (k : Fin 1024) :
    (B1 m c main_v8 : FVec Ideal S4096x1024 .f32) (ix2 n k) = argWx1 m c (ix3 (gateOf n) (rowOf n) k) := by
  have e : (B1 m c main_v8 : FVec Ideal S4096x1024 .f32)
      = shapeCast S4096x1024 (argWx1 m c) shapeCasts_S4x1024x1024_S4096x1024 := by
    show StableHlo.after hostOps0 (B0 m c) (Proc.devRef .tc main_v8) = _
    after_results
    rfl
  rw [e]; exact flat3_at _ _ n k

/-- Layer 1's input biases as a row. -/
theorem rowBx1_at (n : Fin 4096) :
    (B1 m c main_v9 : FVec Ideal S1x4096 .f32) (ix2 (0 : Fin 1) n) = argBx1 m c (ix2 (gateOf n) (rowOf n)) := by
  have e : (B1 m c main_v9 : FVec Ideal S1x4096 .f32) = shapeCast S1x4096 (argBx1 m c) shapeCasts_S4x1024_S1x4096 := by
    show StableHlo.after hostOps0 (B0 m c) (Proc.devRef .tc main_v9) = _
    after_results
    rfl
  rw [e]; exact flat2_at _ _ n

/-- Layer 1's recurrent weights flattened to [4096, 1024]. -/
theorem flatWh1_at (n : Fin 4096) (k : Fin 1024) :
    (B1 m c main_v12 : FVec Ideal S4096x1024 .f32) (ix2 n k) = argWh m c (ix4 (1 : Fin 2) (gateOf n) (rowOf n) k) := by
  have e : (B1 m c main_v12 : FVec Ideal S4096x1024 .f32)
      = shapeCast S4096x1024 (shapeCast S4x1024x1024 (extractStridedSlice S1x4x1024x1024 ![1, 0, 0, 0] (argWh m c) slices_S2x4x1024x1024_S1x4x1024x1024_1_0_0_0) shapeCasts_S1x4x1024x1024_S4x1024x1024) shapeCasts_S4x1024x1024_S4096x1024 := by
    show StableHlo.after hostOps0 (B0 m c) (Proc.devRef .tc main_v12) = _
    after_results
    rfl
  rw [e]
  exact (flat3_at _ _ n k).trans ((drop4_at _ _ _ _ _).trans (layer4_at (1 : Fin 2) _ _ _ _ _))

/-- Layer 1's recurrent biases as a row. -/
theorem rowBh1_at (n : Fin 4096) :
    (B1 m c main_v15 : FVec Ideal S1x4096 .f32) (ix2 (0 : Fin 1) n) = argBh m c (ix3 (1 : Fin 2) (gateOf n) (rowOf n)) := by
  have e : (B1 m c main_v15 : FVec Ideal S1x4096 .f32)
      = shapeCast S1x4096 (shapeCast S4x1024 (extractStridedSlice S1x4x1024 ![1, 0, 0] (argBh m c) slices_S2x4x1024_S1x4x1024_1_0_0) shapeCasts_S1x4x1024_S4x1024) shapeCasts_S4x1024_S1x4096 := by
    show StableHlo.after hostOps0 (B0 m c) (Proc.devRef .tc main_v15) = _
    after_results
    rfl
  rw [e]
  exact (flat2_at _ _ n).trans ((drop3g_at _ _ _ _).trans (layer3g_at (1 : Fin 2) _ _ _ _))

/-- The decoder's biases as a row [1, 32000]. -/
theorem rowBdec_at (v : Fin 32000) :
    (B1 m c main_v16 : FVec Ideal S1x32000 .f32) (ix2 (0 : Fin 1) v) = argBdec m c (ix1 v) := by
  have e : (B1 m c main_v16 : FVec Ideal S1x32000 .f32) = shapeCast S1x32000 (argBdec m c) shapeCasts_S32000_S1x32000 := by
    show StableHlo.after hostOps0 (B0 m c) (Proc.devRef .tc main_v16) = _
    after_results
    rfl
  rw [e]; exact row1_at _ _ v

/-- Layer 0's hidden state [64, 1024]. -/
theorem hid0_at (b : Fin 64) (k : Fin 1024) :
    (B1 m c main_v18 : FVec Ideal S64x1024 .f32) (ix2 b k) = argHid m c (ix3 (0 : Fin 2) b k) := by
  have e : (B1 m c main_v18 : FVec Ideal S64x1024 .f32)
      = shapeCast S64x1024 (extractStridedSlice S1x64x1024 ![0, 0, 0] (argHid m c) slices_S2x64x1024_S1x64x1024_0_0_0) shapeCasts_S1x64x1024_S64x1024 := by
    show StableHlo.after hostOps0 (B0 m c) (Proc.devRef .tc main_v18) = _
    after_results
    rfl
  rw [e]
  exact (drop3s_at _ _ b k).trans (layer3s_at (0 : Fin 2) _ _ _ _)

/-- Layer 0's cell state. -/
theorem cel0_at (b : Fin 64) (j : Fin 1024) :
    (B1 m c main_v20 : FVec Ideal S64x1024 .f32) (ix2 b j) = argCel m c (ix3 (0 : Fin 2) b j) := by
  have e : (B1 m c main_v20 : FVec Ideal S64x1024 .f32)
      = shapeCast S64x1024 (extractStridedSlice S1x64x1024 ![0, 0, 0] (argCel m c) slices_S2x64x1024_S1x64x1024_0_0_0) shapeCasts_S1x64x1024_S64x1024 := by
    show StableHlo.after hostOps0 (B0 m c) (Proc.devRef .tc main_v20) = _
    after_results
    rfl
  rw [e]
  exact (drop3s_at _ _ b j).trans (layer3s_at (0 : Fin 2) _ _ _ _)

/-- Layer 1's hidden state. -/
theorem hid1_at (b : Fin 64) (k : Fin 1024) :
    (B1 m c main_v22 : FVec Ideal S64x1024 .f32) (ix2 b k) = argHid m c (ix3 (1 : Fin 2) b k) := by
  have e : (B1 m c main_v22 : FVec Ideal S64x1024 .f32)
      = shapeCast S64x1024 (extractStridedSlice S1x64x1024 ![1, 0, 0] (argHid m c) slices_S2x64x1024_S1x64x1024_1_0_0) shapeCasts_S1x64x1024_S64x1024 := by
    show StableHlo.after hostOps0 (B0 m c) (Proc.devRef .tc main_v22) = _
    after_results
    rfl
  rw [e]
  exact (drop3s_at _ _ b k).trans (layer3s_at (1 : Fin 2) _ _ _ _)

/-- Layer 1's cell state. -/
theorem cel1_at (b : Fin 64) (j : Fin 1024) :
    (B1 m c main_v24 : FVec Ideal S64x1024 .f32) (ix2 b j) = argCel m c (ix3 (1 : Fin 2) b j) := by
  have e : (B1 m c main_v24 : FVec Ideal S64x1024 .f32)
      = shapeCast S64x1024 (extractStridedSlice S1x64x1024 ![1, 0, 0] (argCel m c) slices_S2x64x1024_S1x64x1024_1_0_0) shapeCasts_S1x64x1024_S64x1024 := by
    show StableHlo.after hostOps0 (B0 m c) (Proc.devRef .tc main_v24) = _
    after_results
    rfl
  rw [e]
  exact (drop3s_at _ _ b j).trans (layer3s_at (1 : Fin 2) _ _ _ _)

/-- The host operations before the first kernel write neither the input batch nor the decoder's weights. -/
theorem argX_at_B1 : (B1 m c main_arg0 : FVec Ideal S64x32000 .f32) = argX m c :=
  StableHlo.after_of_writes_sub hostOps0 _ hostOps0_writes (by decide)
theorem argWdec_at_B1 : (B1 m c main_arg9 : FVec Ideal S32000x1024 .f32) = argWdec m c :=
  StableHlo.after_of_writes_sub hostOps0 _ hostOps0_writes (by decide)

/-! ## The same arrays where the kernels read them

No kernel writes an array but its own output, and the host operations between the kernels write only their own results: an
array written before the first kernel is unchanged wherever a later kernel reads it. -/

theorem B2_of_B1 (r : Ref sig .tc) (n0 : r ≠ main_v25) : B2 m c r = B1 m c r := B2_keep m c r n0
theorem B3_of_B1 (r : Ref sig .tc) (n0 : r ≠ main_v25) (n1 : r ≠ main_v26) : B3 m c r = B1 m c r :=
  (B3_keep m c r n1).trans (B2_of_B1 m c r n0)
theorem B4_of_B1 (r : Ref sig .tc) (n0 : r ≠ main_v25) (n1 : r ≠ main_v26) (h2 : r ∉ hostOps2_W) : B4 m c r = B1 m c r :=
  (StableHlo.after_of_writes_sub hostOps2 _ hostOps2_writes h2).trans (B3_of_B1 m c r n0 n1)
theorem B5_of_B1 (r : Ref sig .tc) (n0 : r ≠ main_v25) (n1 : r ≠ main_v26) (h2 : r ∉ hostOps2_W) (n2 : r ≠ main_v56) : B5 m c r = B1 m c r :=
  (B5_keep m c r n2).trans (B4_of_B1 m c r n0 n1 h2)
theorem B6_of_B1 (r : Ref sig .tc) (n0 : r ≠ main_v25) (n1 : r ≠ main_v26) (h2 : r ∉ hostOps2_W) (n2 : r ≠ main_v56) (n3 : r ≠ main_v57) : B6 m c r = B1 m c r :=
  (B6_keep m c r n3).trans (B5_of_B1 m c r n0 n1 h2 n2)
theorem B7_of_B1 (r : Ref sig .tc) (n0 : r ≠ main_v25) (n1 : r ≠ main_v26) (h2 : r ∉ hostOps2_W) (n2 : r ≠ main_v56) (n3 : r ≠ main_v57) (h4 : r ∉ hostOps4_W) : B7 m c r = B1 m c r :=
  (StableHlo.after_of_writes_sub hostOps4 _ hostOps4_writes h4).trans (B6_of_B1 m c r n0 n1 h2 n2 n3)

/-- Where the second kernel (layer 0's recurrent projection) reads: its activations, weights and bias. -/
theorem hid0_at_B2 (b : Fin 64) (k : Fin 1024) :
    (B2 m c main_v18 : FVec Ideal S64x1024 .f32) (ix2 b k) = argHid m c (ix3 (0 : Fin 2) b k) := by
  rw [B2_of_B1 m c main_v18 (by decide)]; exact hid0_at m c b k
theorem flatWh0_at_B2 (n : Fin 4096) (k : Fin 1024) :
    (B2 m c main_v4 : FVec Ideal S4096x1024 .f32) (ix2 n k) = argWh m c (ix4 (0 : Fin 2) (gateOf n) (rowOf n) k) := by
  rw [B2_of_B1 m c main_v4 (by decide)]; exact flatWh0_at m c n k
theorem rowBh0_at_B2 (n : Fin 4096) :
    (B2 m c main_v7 : FVec Ideal S1x4096 .f32) (ix2 (0 : Fin 1) n) = argBh m c (ix3 (0 : Fin 2) (gateOf n) (rowOf n)) := by
  rw [B2_of_B1 m c main_v7 (by decide)]; exact rowBh0_at m c n

/-- Where layer 0's cell reads its previous cell state. -/
theorem cel0_at_B3 (b : Fin 64) (j : Fin 1024) :
    (B3 m c main_v20 : FVec Ideal S64x1024 .f32) (ix2 b j) = argCel m c (ix3 (0 : Fin 2) b j) := by
  rw [B3_of_B1 m c main_v20 (by decide) (by decide)]; exact cel0_at m c b j

/-- Where the third kernel (layer 1's input projection) reads its weights and bias. -/
theorem flatWx1_at_B4 (n : Fin 4096) (k : Fin 1024) :
    (B4 m c main_v8 : FVec Ideal S4096x1024 .f32) (ix2 n k) = argWx1 m c (ix3 (gateOf n) (rowOf n) k) := by
  rw [B4_of_B1 m c main_v8 (by decide) (by decide) (by decide)]; exact flatWx1_at m c n k
theorem rowBx1_at_B4 (n : Fin 4096) :
    (B4 m c main_v9 : FVec Ideal S1x4096 .f32) (ix2 (0 : Fin 1) n) = argBx1 m c (ix2 (gateOf n) (rowOf n)) := by
  rw [B4_of_B1 m c main_v9 (by decide) (by decide) (by decide)]; exact rowBx1_at m c n

/-- Where the fourth kernel (layer 1's recurrent projection) reads. -/
theorem hid1_at_B5 (b : Fin 64) (k : Fin 1024) :
    (B5 m c main_v22 : FVec Ideal S64x1024 .f32) (ix2 b k) = argHid m c (ix3 (1 : Fin 2) b k) := by
  rw [B5_of_B1 m c main_v22 (by decide) (by decide) (by decide) (by decide)]; exact hid1_at m c b k
theorem flatWh1_at_B5 (n : Fin 4096) (k : Fin 1024) :
    (B5 m c main_v12 : FVec Ideal S4096x1024 .f32) (ix2 n k) = argWh m c (ix4 (1 : Fin 2) (gateOf n) (rowOf n) k) := by
  rw [B5_of_B1 m c main_v12 (by decide) (by decide) (by decide) (by decide)]; exact flatWh1_at m c n k
theorem rowBh1_at_B5 (n : Fin 4096) :
    (B5 m c main_v15 : FVec Ideal S1x4096 .f32) (ix2 (0 : Fin 1) n) = argBh m c (ix3 (1 : Fin 2) (gateOf n) (rowOf n)) := by
  rw [B5_of_B1 m c main_v15 (by decide) (by decide) (by decide) (by decide)]; exact rowBh1_at m c n

/-- Where layer 1's cell reads its previous cell state. -/
theorem cel1_at_B6 (b : Fin 64) (j : Fin 1024) :
    (B6 m c main_v24 : FVec Ideal S64x1024 .f32) (ix2 b j) = argCel m c (ix3 (1 : Fin 2) b j) := by
  rw [B6_of_B1 m c main_v24 (by decide) (by decide) (by decide) (by decide) (by decide)]; exact cel1_at m c b j

/-- Where the decoder's kernel reads its weights and bias. -/
theorem argWdec_at_B7 : (B7 m c main_arg9 : FVec Ideal S32000x1024 .f32) = argWdec m c :=
  (B7_of_B1 m c main_arg9 (by decide) (by decide) (by decide) (by decide) (by decide) (by decide)).trans (argWdec_at_B1 m c)
theorem rowBdec_at_B7 (v : Fin 32000) :
    (B7 m c main_v16 : FVec Ideal S1x32000 .f32) (ix2 (0 : Fin 1) v) = argBdec m c (ix1 v) := by
  rw [B7_of_B1 m c main_v16 (by decide) (by decide) (by decide) (by decide) (by decide) (by decide)]; exact rowBdec_at m c v

/-! ## The five kernels' output arrays -/

/-- Layer 0's new hidden state as the third kernel finds it (the host's cell operations wrote it). -/
abbrev hidNew0 : FVec Ideal S64x1024 .f32 := B4 m c main_v55
/-- Layer 1's new hidden state as the decoder's kernel finds it. -/
abbrev hidNew1 : FVec Ideal S64x1024 .f32 := B7 m c main_v86

/-- Layer 0's input projection, where the host next reads it: region 0's output at its entry contents. -/
theorem out0_array : (B3 m c main_v25 : FVec Ideal S64x4096 .f32) = outSpec0 (En0 m) c :=
  (B3_keep m c main_v25 (by decide)).trans ((B2_arr m c 3).trans (outArray0 (En0 m) c))

/-- Layer 0's recurrent projection. -/
theorem out1_array : (B3 m c main_v26 : FVec Ideal S64x4096 .f32)
    = matmulBias1 (B2 m c main_v18) (B2 m c main_v4) (B2 m c main_v7) :=
  (B3_arr m c 3).trans (region1_array (En1 m) c)

/-- Layer 1's input projection. -/
theorem out2_array : (B6 m c main_v56 : FVec Ideal S64x4096 .f32)
    = matmulBias2 (B4 m c main_v55) (B4 m c main_v8) (B4 m c main_v9) :=
  (B6_keep m c main_v56 (by decide)).trans ((B5_arr m c 3).trans (region2_array (En2 m) c))

/-- Layer 1's recurrent projection. -/
theorem out3_array : (B6 m c main_v57 : FVec Ideal S64x4096 .f32)
    = matmulBias3 (B5 m c main_v22) (B5 m c main_v12) (B5 m c main_v15) :=
  (B6_arr m c 3).trans (region3_array (En3 m) c)

/-- The decoder's logits. -/
theorem out4_array : (B8 m c main_v87 : FVec Ideal S64x32000 .f32)
    = matmulBias4 (B7 m c main_v86) (B7 m c main_arg9) (B7 m c main_v16) :=
  (B8_arr m c 3).trans (region4_array (En4 m) c)

/-! ## The same at an index, over the launch arguments -/

/-- Layer 0's input projection: row `b` of the batch against gate `g`'s row `h` of the input weights, plus its bias. -/
theorem out0_at (b : Fin 64) (n : Fin 4096) :
    (B3 m c main_v25 : FVec Ideal S64x4096 .f32) (ix2 b n)
      = (∑ k : Fin 32000, argX m c (ix2 b k) * argWx0 m c (ix3 (gateOf n) (rowOf n) k)) + argBx0 m c (ix2 (gateOf n) (rowOf n)) := by
  rw [out0_array]
  refine Eq.trans (show outSpec0 (En0 m) c (ix2 b n) = (∑ k : Fin 32000, xArr0 (En0 m) c (ix2 b k) * wArr0 (En0 m) c (ix2 n k)) + bArr0 (En0 m) c (ix2 (0 : Fin 1) n) from rfl) ?_
  exact congrArg₂ (· + ·) (Finset.sum_congr rfl fun k _ => congrArg₂ (· * ·) (congrFun (argX_at_B1 m c) (ix2 b k)) (flatWx0_at m c n k)) (rowBx0_at m c n)

/-- Layer 0's recurrent projection: row `b` of its hidden state against the recurrent weights, plus the recurrent bias. -/
theorem out1_at (b : Fin 64) (n : Fin 4096) :
    (B3 m c main_v26 : FVec Ideal S64x4096 .f32) (ix2 b n)
      = (∑ k : Fin 1024, argHid m c (ix3 (0 : Fin 2) b k) * argWh m c (ix4 (0 : Fin 2) (gateOf n) (rowOf n) k)) + argBh m c (ix3 (0 : Fin 2) (gateOf n) (rowOf n)) := by
  rw [out1_array, matmulBias1_at]
  exact congrArg₂ (· + ·) (Finset.sum_congr rfl fun k _ => congrArg₂ (· * ·) (hid0_at_B2 m c b k) (flatWh0_at_B2 m c n k)) (rowBh0_at_B2 m c n)

/-- Layer 1's input projection: row `b` of layer 0's new hidden state against layer 1's input weights, plus their bias. -/
theorem out2_at (b : Fin 64) (n : Fin 4096) :
    (B6 m c main_v56 : FVec Ideal S64x4096 .f32) (ix2 b n)
      = (∑ k : Fin 1024, hidNew0 m c (ix2 b k) * argWx1 m c (ix3 (gateOf n) (rowOf n) k)) + argBx1 m c (ix2 (gateOf n) (rowOf n)) := by
  rw [out2_array, matmulBias2_at]
  exact congrArg₂ (· + ·) (Finset.sum_congr rfl fun k _ => congrArg (hidNew0 m c (ix2 b k) * ·) (flatWx1_at_B4 m c n k)) (rowBx1_at_B4 m c n)

/-- Layer 1's recurrent projection. -/
theorem out3_at (b : Fin 64) (n : Fin 4096) :
    (B6 m c main_v57 : FVec Ideal S64x4096 .f32) (ix2 b n)
      = (∑ k : Fin 1024, argHid m c (ix3 (1 : Fin 2) b k) * argWh m c (ix4 (1 : Fin 2) (gateOf n) (rowOf n) k)) + argBh m c (ix3 (1 : Fin 2) (gateOf n) (rowOf n)) := by
  rw [out3_array, matmulBias3_at]
  exact congrArg₂ (· + ·) (Finset.sum_congr rfl fun k _ => congrArg₂ (· * ·) (hid1_at_B5 m c b k) (flatWh1_at_B5 m c n k)) (rowBh1_at_B5 m c n)

/-- The decoder's logits: row `b` of layer 1's new hidden state against row `v` of the decoder's weights, plus its bias. -/
theorem out4_at (b : Fin 64) (v : Fin 32000) :
    (B8 m c main_v87 : FVec Ideal S64x32000 .f32) (ix2 b v)
      = (∑ k : Fin 1024, hidNew1 m c (ix2 b k) * argWdec m c (ix2 v k)) + argBdec m c (ix1 v) := by
  rw [out4_array, matmulBias4_at]
  exact congrArg₂ (· + ·) (Finset.sum_congr rfl fun k _ => congrArg (hidNew1 m c (ix2 b k) * ·) (congrFun (argWdec_at_B7 m c) (ix2 v k))) (rowBdec_at_B7 m c v)

end Cert.KernelIdeal.Hand

end
-- ==== Proof.Ref.RefDefs.lean ====
/-
  The reference computation as named functions of the argument arrays, at the ideal instance, composed of exactly the
  operations the reference program applies, in its order: a layer's slice of a stacked argument (rowR, WhR, bhR); a
  layer's gate pre-activations z = ((inp · Wx + bx) + h · Wh[l]) + bh[l] as one [64, 4, 1024] array (zR0 for layer 0,
  whose input is the [64, 32000] array x; zR1 for layer 1, whose input is layer 0's output); the gate slab
  z[:, g, :] as a [64, 1024] array (slabR); each layer's new cell state and output through the shared cell
  functions; and the decoder's logits out1 · Wdecᵀ + bdec. The contraction records are this module's own, with the
  same dimension lists as the program's, so the module imports no program.
-/
import proofs.«137056_j83880711291258_2_alg».proof.Proof.Ref.Shared

noncomputable section

namespace Cert.RefSide

open Idealize.ShloMosaic

/-! ## Shapes, side conditions, contraction records -/

abbrev T64x4x1024 : Shape := ⟨3, ![64, 4, 1024]⟩
abbrev T64x1x1024 : Shape := ⟨3, ![64, 1, 1024]⟩
abbrev T4x1024 : Shape := ⟨2, ![4, 1024]⟩
abbrev T1x4x1024 : Shape := ⟨3, ![1, 4, 1024]⟩
abbrev T2x4x1024 : Shape := ⟨3, ![2, 4, 1024]⟩
abbrev T4x1024x32000 : Shape := ⟨3, ![4, 1024, 32000]⟩
abbrev T4x1024x1024 : Shape := ⟨3, ![4, 1024, 1024]⟩
abbrev T1x4x1024x1024 : Shape := ⟨4, ![1, 4, 1024, 1024]⟩
abbrev T2x4x1024x1024 : Shape := ⟨4, ![2, 4, 1024, 1024]⟩
abbrev T32000x1024 : Shape := ⟨2, ![32000, 1024]⟩
abbrev T1024x32000 : Shape := ⟨2, ![1024, 32000]⟩
abbrev T32000 : Shape := ⟨1, ![32000]⟩
abbrev T1x32000 : Shape := ⟨2, ![1, 32000]⟩

theorem slices_row (l : Fin 2) : T2x64x1024.Slices ![l.val, 0, 0] T1x64x1024 := by revert l; decide
theorem shapeCasts_T1x64x1024_T64x1024 : T1x64x1024.ShapeCasts T64x1024 := by decide
theorem slices_Wh (l : Fin 2) : T2x4x1024x1024.Slices ![l.val, 0, 0, 0] T1x4x1024x1024 := by revert l; decide
theorem shapeCasts_T1x4x1024x1024_T4x1024x1024 : T1x4x1024x1024.ShapeCasts T4x1024x1024 := by decide
theorem slices_bh (l : Fin 2) : T2x4x1024.Slices ![l.val, 0, 0] T1x4x1024 := by revert l; decide
theorem shapeCasts_T1x4x1024_T4x1024 : T1x4x1024.ShapeCasts T4x1024 := by decide
theorem bcast_T4x1024_T1x4x1024_1_2 : T4x1024.BroadcastsInDim T1x4x1024 (![1, 2] : Fin 2 → Fin T1x4x1024.rank) := by decide
theorem bcast_T1x4x1024_T64x4x1024_0_1_2 : T1x4x1024.BroadcastsInDim T64x4x1024 (![0, 1, 2] : Fin 3 → Fin T64x4x1024.rank) := by decide
theorem slices_slab (g : Fin 4) : T64x4x1024.Slices ![0, g.val, 0] T64x1x1024 := by revert g; decide
theorem shapeCasts_T64x1x1024_T64x1024 : T64x1x1024.ShapeCasts T64x1024 := by decide
theorem transposes_T32000x1024_T1024x32000_1_0 : T32000x1024.Transposes [1, 0] T1024x32000 := by decide
theorem bcast_T32000_T1x32000_1 : T32000.BroadcastsInDim T1x32000 (![1] : Fin 1 → Fin T1x32000.rank) := by decide
theorem bcast_T1x32000_T64x32000_0_1 : T1x32000.BroadcastsInDim T64x32000 (![0, 1] : Fin 2 → Fin T64x32000.rank) := by decide

/-- [64, 32000] · [4, 1024, 32000] contracted over the 32000 axis, into [64, 4, 1024]. -/
def dotX : DotDims T64x32000 T4x1024x32000 T64x4x1024 where
  lhsContracting := [1]
  rhsContracting := [2]
  lhsNonContracting := [0]
  rhsNonContracting := [0, 1]
  lhsBatch := []
  rhsBatch := []
  wf := by decide
/-- [64, 1024] · [4, 1024, 1024] contracted over the last axis of each, into [64, 4, 1024]. -/
def dotH : DotDims T64x1024 T4x1024x1024 T64x4x1024 where
  lhsContracting := [1]
  rhsContracting := [2]
  lhsNonContracting := [0]
  rhsNonContracting := [0, 1]
  lhsBatch := []
  rhsBatch := []
  wf := by decide
/-- [64, 1024] · [1024, 32000] contracted over the 1024 axis, into [64, 32000]. -/
def dotD : DotDims T64x1024 T1024x32000 T64x32000 where
  lhsContracting := [1]
  rhsContracting := [0]
  lhsNonContracting := [0]
  rhsNonContracting := [1]
  lhsBatch := []
  rhsBatch := []
  wf := by decide

/-! ## A layer's slices of the stacked arguments -/

/-- Layer l's [64, 1024] array of a stacked [2, 64, 1024] argument (hidden or cell states). -/
def rowR (l : Fin 2) (a : FVec Ideal T2x64x1024 .f32) : FVec Ideal T64x1024 .f32 :=
  shapeCast T64x1024 (extractStridedSlice T1x64x1024 ![l.val, 0, 0] a (slices_row l)) shapeCasts_T1x64x1024_T64x1024

/-- Layer l's recurrent weights [4, 1024, 1024] of the stacked [2, 4, 1024, 1024] argument. -/
def WhR (l : Fin 2) (Wh : FVec Ideal T2x4x1024x1024 .f32) : FVec Ideal T4x1024x1024 .f32 :=
  shapeCast T4x1024x1024 (extractStridedSlice T1x4x1024x1024 ![l.val, 0, 0, 0] Wh (slices_Wh l)) shapeCasts_T1x4x1024x1024_T4x1024x1024

/-- Layer l's recurrent bias [4, 1024] of the stacked [2, 4, 1024] argument. -/
def bhR (l : Fin 2) (bh : FVec Ideal T2x4x1024 .f32) : FVec Ideal T4x1024 .f32 :=
  shapeCast T4x1024 (extractStridedSlice T1x4x1024 ![l.val, 0, 0] bh (slices_bh l)) shapeCasts_T1x4x1024_T4x1024

/-- A [4, 1024] bias broadcast over the batch axis to [64, 4, 1024] (through [1, 4, 1024], as the program does). -/
def bias3 (b : FVec Ideal T4x1024 .f32) : FVec Ideal T64x4x1024 .f32 :=
  broadcastInDim T64x4x1024 ![0, 1, 2] bcast_T1x4x1024_T64x4x1024_0_1_2 (broadcastInDim T1x4x1024 ![1, 2] bcast_T4x1024_T1x4x1024_1_2 b)

/-! ## Gate pre-activations -/

/-- Layer 0's gate pre-activations ((x · Wx0 + bx0) + h₀ · Wh[0]) + bh[0], as [64, 4, 1024]. -/
def zR0 (x : FVec Ideal T64x32000 .f32) (hid : FVec Ideal T2x64x1024 .f32) (Wh : FVec Ideal T2x4x1024x1024 .f32)
    (bh : FVec Ideal T2x4x1024 .f32) (Wx0 : FVec Ideal T4x1024x32000 .f32) (bx0 : FVec Ideal T4x1024 .f32) :
    FVec Ideal T64x4x1024 .f32 :=
  addf (F := Ideal)
    (addf (F := Ideal) (addf (F := Ideal) (Host.dotGeneral (F := Ideal) dotX none x Wx0) (bias3 bx0))
      (Host.dotGeneral (F := Ideal) dotH none (rowR 0 hid) (WhR 0 Wh)))
    (bias3 (bhR 0 bh))

/-- Layer 1's gate pre-activations ((inp · Wx1 + bx1) + h₁ · Wh[1]) + bh[1], as [64, 4, 1024], of any input array. -/
def zR1 (inp : FVec Ideal T64x1024 .f32) (hid : FVec Ideal T2x64x1024 .f32) (Wh : FVec Ideal T2x4x1024x1024 .f32)
    (bh : FVec Ideal T2x4x1024 .f32) (Wx1 : FVec Ideal T4x1024x1024 .f32) (bx1 : FVec Ideal T4x1024 .f32) :
    FVec Ideal T64x4x1024 .f32 :=
  addf (F := Ideal)
    (addf (F := Ideal) (addf (F := Ideal) (Host.dotGeneral (F := Ideal) dotH none inp Wx1) (bias3 bx1))
      (Host.dotGeneral (F := Ideal) dotH none (rowR 1 hid) (WhR 1 Wh)))
    (bias3 (bhR 1 bh))

/-- Gate g's slab z[:, g, :] of the pre-activations, as a [64, 1024] array (g = 0, 1, 2, 3: forget, input, output,
    candidate). -/
def slabR (g : Fin 4) (z : FVec Ideal T64x4x1024 .f32) : FVec Ideal T64x1024 .f32 :=
  shapeCast T64x1024 (extractStridedSlice T64x1x1024 ![0, g.val, 0] z (slices_slab g)) shapeCasts_T64x1x1024_T64x1024

/-- A layer's new cell state from its pre-activations and its old cell state. -/
def cnewOfZ (z : FVec Ideal T64x4x1024 .f32) (c : FVec Ideal T64x1024 .f32) : FVec Ideal T64x1024 .f32 :=
  cellNew (slabR 0 z) (slabR 1 z) (slabR 3 z) c

/-- A layer's output from its pre-activations and its old cell state. -/
def outOfZ (z : FVec Ideal T64x4x1024 .f32) (c : FVec Ideal T64x1024 .f32) : FVec Ideal T64x1024 .f32 :=
  cellOut (slabR 2 z) (cnewOfZ z c)

/-! ## The two layers and the decoder, of the argument arrays -/

section
variable (x : FVec Ideal T64x32000 .f32) (hid cell : FVec Ideal T2x64x1024 .f32) (Wh : FVec Ideal T2x4x1024x1024 .f32)
  (bh : FVec Ideal T2x4x1024 .f32) (Wx0 : FVec Ideal T4x1024x32000 .f32) (bx0 : FVec Ideal T4x1024 .f32)
  (Wx1 : FVec Ideal T4x1024x1024 .f32) (bx1 : FVec Ideal T4x1024 .f32)

/-- Layer 0's new cell state. -/
def c0newR : FVec Ideal T64x1024 .f32 := cnewOfZ (zR0 x hid Wh bh Wx0 bx0) (rowR 0 cell)
/-- Layer 0's output. -/
def out0R : FVec Ideal T64x1024 .f32 := outOfZ (zR0 x hid Wh bh Wx0 bx0) (rowR 0 cell)
/-- Layer 1's new cell state. -/
def c1newR : FVec Ideal T64x1024 .f32 :=
  cnewOfZ (zR1 (out0R x hid cell Wh bh Wx0 bx0) hid Wh bh Wx1 bx1) (rowR 1 cell)
/-- Layer 1's output. -/
def out1R : FVec Ideal T64x1024 .f32 :=
  outOfZ (zR1 (out0R x hid cell Wh bh Wx0 bx0) hid Wh bh Wx1 bx1) (rowR 1 cell)
end

/-- The decoder's logits out1 · Wdecᵀ + bdec, of any [64, 1024] array out1. -/
def logitsR (out1 : FVec Ideal T64x1024 .f32) (Wdec : FVec Ideal T32000x1024 .f32) (bdec : FVec Ideal T32000 .f32) :
    FVec Ideal T64x32000 .f32 :=
  addf (F := Ideal)
    (Host.dotGeneral (F := Ideal) dotD none out1 (transpose T1024x32000 [1, 0] Wdec transposes_T32000x1024_T1024x32000_1_0))
    (broadcastInDim T64x32000 ![0, 1] bcast_T1x32000_T64x32000_0_1 (broadcastInDim T1x32000 ![1] bcast_T32000_T1x32000_1 bdec))

end Cert.RefSide

end
-- ==== Proof.Ref.PreAct.lean ====
/-
  The reference's pre-activations and logits read at an index, as plain sums on the extended reals. A layer's slice of
  a stacked argument reads the argument at that layer's coordinate; a broadcast bias reads the bias at the gate and
  hidden coordinates; the gate slab z[:, g, :] reads z at gate coordinate g; a contraction over one axis is the sum
  over that axis of the products of the two operands' elements (left operand's element first). So layer 0's
  pre-activation at (b, g, h) is ((Σ_k x[b,k]·Wx0[g,h,k] + bx0[g,h]) + Σ_k hid[0,b,k]·Wh[0,g,h,k]) + bh[0,g,h], layer
  1's the same with any input array in x's place and the layer coordinate 1, and the logits at (b, v) are
  Σ_k out1[b,k]·Wdec[v,k] + bdec[v].
-/
import proofs.«137056_j83880711291258_2_alg».proof.Proof.Ref.RefDefs
import Idealize.ShloMosaic.Lib.ValueLayout
import Idealize.ShloMosaic.PureOps.Ideal.Laws

noncomputable section

namespace Cert.RefSide

open Idealize.ShloMosaic Idealize.ShloMosaic.ValueIdx

/-! ## Layout operations at an index -/

/-- Layer l's [64, 1024] array of a stacked argument reads the argument at (l, b, k). -/
theorem rowR_apply (l : Fin 2) (a : FVec Ideal T2x64x1024 .f32) (b : Fin 64) (k : Fin 1024) :
    rowR l a (ix2 b k) = a (ix3 l b k) := by
  unfold rowR
  rw [shapeCast_1ab_ab_apply]
  exact extractStridedSlice_apply _ _ _ _ (ix3 l b k) (fun ax => by
    match ax with
    | ⟨0, _⟩ => exact (Nat.add_zero _).symm
    | ⟨1, _⟩ => exact (Nat.zero_add _).symm
    | ⟨2, _⟩ => exact (Nat.zero_add _).symm)

/-- Layer l's recurrent weights read the stacked weights at (l, g, h, k). -/
theorem WhR_apply (l : Fin 2) (Wh : FVec Ideal T2x4x1024x1024 .f32) (g : Fin 4) (h : Fin 1024) (k : Fin 1024) :
    WhR l Wh (ix3 g h k) = Wh (ix4 l g h k) := by
  unfold WhR
  rw [shapeCast_1abc_abc_apply]
  exact extractStridedSlice_apply _ _ _ _ (ix4 l g h k) (fun ax => by
    match ax with
    | ⟨0, _⟩ => exact (Nat.add_zero _).symm
    | ⟨1, _⟩ => exact (Nat.zero_add _).symm
    | ⟨2, _⟩ => exact (Nat.zero_add _).symm
    | ⟨3, _⟩ => exact (Nat.zero_add _).symm)

/-- Layer l's recurrent bias reads the stacked bias at (l, g, h). -/
theorem bhR_apply (l : Fin 2) (bh : FVec Ideal T2x4x1024 .f32) (g : Fin 4) (h : Fin 1024) :
    bhR l bh (ix2 g h) = bh (ix3 l g h) := by
  unfold bhR
  rw [shapeCast_1ab_ab_apply]
  exact extractStridedSlice_apply _ _ _ _ (ix3 l g h) (fun ax => by
    match ax with
    | ⟨0, _⟩ => exact (Nat.add_zero _).symm
    | ⟨1, _⟩ => exact (Nat.zero_add _).symm
    | ⟨2, _⟩ => exact (Nat.zero_add _).symm)

/-- A bias broadcast over the batch axis reads the bias at the gate and hidden coordinates. -/
theorem bias3_apply (v : FVec Ideal T4x1024 .f32) (b : Fin 64) (g : Fin 4) (h : Fin 1024) :
    bias3 v (ix3 b g h) = v (ix2 g h) := by
  unfold bias3
  rw [broadcastInDim_apply _ bcast_T1x4x1024_T64x4x1024_0_1_2 _ (ix3 b g h) (ix3 (0 : Fin 1) g h) (fun ax => by
    match ax with
    | ⟨0, _⟩ => show 0 = if (1 : Nat) = 1 then 0 else b.val; rw [if_pos rfl]
    | ⟨1, _⟩ => show g.val = if (4 : Nat) = 1 then 0 else g.val; rw [if_neg (by decide)]
    | ⟨2, _⟩ => show h.val = if (1024 : Nat) = 1 then 0 else h.val; rw [if_neg (by decide)])]
  exact broadcastInDim_apply _ bcast_T4x1024_T1x4x1024_1_2 v (ix3 (0 : Fin 1) g h) (ix2 g h) (fun ax => by
    match ax with
    | ⟨0, _⟩ => show g.val = if (4 : Nat) = 1 then 0 else g.val; rw [if_neg (by decide)]
    | ⟨1, _⟩ => show h.val = if (1024 : Nat) = 1 then 0 else h.val; rw [if_neg (by decide)])

/-- Gate g's slab reads the pre-activations at (b, g, h). -/
theorem slabR_apply (g : Fin 4) (z : FVec Ideal T64x4x1024 .f32) (b : Fin 64) (h : Fin 1024) :
    slabR g z (ix2 b h) = z (ix3 b g h) := by
  unfold slabR
  rw [shapeCast_apply _ shapeCasts_T64x1x1024_T64x1024 (ix2 b h) (ix3 b (0 : Fin 1) h) (by
    rw [Shape.rowMajor_val_three, Shape.rowMajor_val_two]
    show (b.val * 1 + 0) * 1024 + h.val = b.val * 1024 + h.val
    rw [Nat.mul_one, Nat.add_zero])]
  exact slice3_axis1_apply g.val z (slices_slab g) b (0 : Fin 1) h g (Nat.add_zero _).symm

/-- The transposed decoder weights read the weights at the swapped coordinates. -/
theorem WdecT_apply (Wdec : FVec Ideal T32000x1024 .f32) (k : Fin 1024) (v : Fin 32000) :
    transpose T1024x32000 [1, 0] Wdec transposes_T32000x1024_T1024x32000_1_0 (ix2 k v) = Wdec (ix2 v k) :=
  transpose_ix2_apply Wdec transposes_T32000x1024_T1024x32000_1_0 k v

/-- The decoder bias broadcast over the batch axis reads the bias at the vocabulary coordinate. -/
theorem bdec_bcast_apply (bdec : FVec Ideal T32000 .f32) (b : Fin 64) (v : Fin 32000) :
    broadcastInDim T64x32000 ![0, 1] bcast_T1x32000_T64x32000_0_1 (broadcastInDim T1x32000 ![1] bcast_T32000_T1x32000_1 bdec)
      (ix2 b v) = bdec (ix1 v) := by
  rw [broadcastInDim_apply _ bcast_T1x32000_T64x32000_0_1 _ (ix2 b v) (ix2 (0 : Fin 1) v) (fun ax => by
    match ax with
    | ⟨0, _⟩ => show 0 = if (1 : Nat) = 1 then 0 else b.val; rw [if_pos rfl]
    | ⟨1, _⟩ => show v.val = if (32000 : Nat) = 1 then 0 else v.val; rw [if_neg (by decide)])]
  exact broadcastInDim_apply _ bcast_T32000_T1x32000_1 bdec (ix2 (0 : Fin 1) v) (ix1 v) (fun ax => by
    match ax with
    | ⟨0, _⟩ => show v.val = if (32000 : Nat) = 1 then 0 else v.val; rw [if_neg (by decide)])

/-! ## The three contractions at an index -/

theorem dotX_lhs0 (i : T64x4x1024.Idx) (q : dotX.contr.Idx) : (dotX.lhsIdx i q 0).val = (i 0).val := by
  unfold DotDims.lhsIdx
  rw [dif_neg (show ¬(0 : Fin T64x32000.rank) ∈ dotX.lhsBatch by decide), dif_pos (show (0 : Fin T64x32000.rank) ∈ dotX.lhsNonContracting by decide)]
  rfl
theorem dotX_lhs1 (i : T64x4x1024.Idx) (q : dotX.contr.Idx) : (dotX.lhsIdx i q 1).val = (q ⟨0, by decide⟩).val :=
  dotX.lhsIdx_val_of_single rfl i q
theorem dotX_rhs0 (i : T64x4x1024.Idx) (q : dotX.contr.Idx) : (dotX.rhsIdx i q 0).val = (i 1).val := by
  unfold DotDims.rhsIdx
  rw [dif_neg (show ¬(0 : Fin T4x1024x32000.rank) ∈ dotX.rhsBatch by decide), dif_pos (show (0 : Fin T4x1024x32000.rank) ∈ dotX.rhsNonContracting by decide)]
  rfl
theorem dotX_rhs1 (i : T64x4x1024.Idx) (q : dotX.contr.Idx) : (dotX.rhsIdx i q 1).val = (i 2).val := by
  unfold DotDims.rhsIdx
  rw [dif_neg (show ¬(1 : Fin T4x1024x32000.rank) ∈ dotX.rhsBatch by decide), dif_pos (show (1 : Fin T4x1024x32000.rank) ∈ dotX.rhsNonContracting by decide)]
  rfl
theorem dotX_rhs2 (i : T64x4x1024.Idx) (q : dotX.contr.Idx) : (dotX.rhsIdx i q 2).val = (q ⟨0, by decide⟩).val :=
  dotX.rhsIdx_val_of_single rfl i q

/-- The input contraction of layer 0 at (b, g, h): the sum over the 32000 input features of l[b,k] · r[g,h,k]. -/
theorem dotX_apply (l : FVec Ideal T64x32000 .f32) (r : FVec Ideal T4x1024x32000 .f32) (b : Fin 64) (g : Fin 4) (h : Fin 1024) :
    Host.dotGeneral (F := Ideal) dotX none l r (ix3 b g h) = ∑ k : Fin 32000, l (ix2 b k) * r (ix3 g h k) := by
  simp only [Host.dotGeneral]
  rw [Ideal.dotGeneral_apply, ← Equiv.sum_comp (contrEquiv1 dotX 32000 rfl rfl).symm]
  refine Finset.sum_congr rfl fun k _ => ?_
  have hk := contrEquiv1_symm_val dotX 32000 rfl rfl k
  have el : dotX.lhsIdx (ix3 b g h) ((contrEquiv1 dotX 32000 rfl rfl).symm k) = ix2 b k := funext fun a => Fin.ext (by
    match a with
    | ⟨0, _⟩ => exact dotX_lhs0 _ _
    | ⟨1, _⟩ => exact (dotX_lhs1 _ _).trans hk)
  have er : dotX.rhsIdx (ix3 b g h) ((contrEquiv1 dotX 32000 rfl rfl).symm k) = ix3 g h k := funext fun a => Fin.ext (by
    match a with
    | ⟨0, _⟩ => exact dotX_rhs0 _ _
    | ⟨1, _⟩ => exact dotX_rhs1 _ _
    | ⟨2, _⟩ => exact (dotX_rhs2 _ _).trans hk)
  rw [el, er]

theorem dotH_lhs0 (i : T64x4x1024.Idx) (q : dotH.contr.Idx) : (dotH.lhsIdx i q 0).val = (i 0).val := by
  unfold DotDims.lhsIdx
  rw [dif_neg (show ¬(0 : Fin T64x1024.rank) ∈ dotH.lhsBatch by decide), dif_pos (show (0 : Fin T64x1024.rank) ∈ dotH.lhsNonContracting by decide)]
  rfl
theorem dotH_lhs1 (i : T64x4x1024.Idx) (q : dotH.contr.Idx) : (dotH.lhsIdx i q 1).val = (q ⟨0, by decide⟩).val :=
  dotH.lhsIdx_val_of_single rfl i q
theorem dotH_rhs0 (i : T64x4x1024.Idx) (q : dotH.contr.Idx) : (dotH.rhsIdx i q 0).val = (i 1).val := by
  unfold DotDims.rhsIdx
  rw [dif_neg (show ¬(0 : Fin T4x1024x1024.rank) ∈ dotH.rhsBatch by decide), dif_pos (show (0 : Fin T4x1024x1024.rank) ∈ dotH.rhsNonContracting by decide)]
  rfl
theorem dotH_rhs1 (i : T64x4x1024.Idx) (q : dotH.contr.Idx) : (dotH.rhsIdx i q 1).val = (i 2).val := by
  unfold DotDims.rhsIdx
  rw [dif_neg (show ¬(1 : Fin T4x1024x1024.rank) ∈ dotH.rhsBatch by decide), dif_pos (show (1 : Fin T4x1024x1024.rank) ∈ dotH.rhsNonContracting by decide)]
  rfl
theorem dotH_rhs2 (i : T64x4x1024.Idx) (q : dotH.contr.Idx) : (dotH.rhsIdx i q 2).val = (q ⟨0, by decide⟩).val :=
  dotH.rhsIdx_val_of_single rfl i q

/-- A hidden-size contraction at (b, g, h): the sum over the 1024 hidden features of l[b,k] · r[g,h,k]. -/
theorem dotH_apply (l : FVec Ideal T64x1024 .f32) (r : FVec Ideal T4x1024x1024 .f32) (b : Fin 64) (g : Fin 4) (h : Fin 1024) :
    Host.dotGeneral (F := Ideal) dotH none l r (ix3 b g h) = ∑ k : Fin 1024, l (ix2 b k) * r (ix3 g h k) := by
  simp only [Host.dotGeneral]
  rw [Ideal.dotGeneral_apply, ← Equiv.sum_comp (contrEquiv1 dotH 1024 rfl rfl).symm]
  refine Finset.sum_congr rfl fun k _ => ?_
  have hk := contrEquiv1_symm_val dotH 1024 rfl rfl k
  have el : dotH.lhsIdx (ix3 b g h) ((contrEquiv1 dotH 1024 rfl rfl).symm k) = ix2 b k := funext fun a => Fin.ext (by
    match a with
    | ⟨0, _⟩ => exact dotH_lhs0 _ _
    | ⟨1, _⟩ => exact (dotH_lhs1 _ _).trans hk)
  have er : dotH.rhsIdx (ix3 b g h) ((contrEquiv1 dotH 1024 rfl rfl).symm k) = ix3 g h k := funext fun a => Fin.ext (by
    match a with
    | ⟨0, _⟩ => exact dotH_rhs0 _ _
    | ⟨1, _⟩ => exact dotH_rhs1 _ _
    | ⟨2, _⟩ => exact (dotH_rhs2 _ _).trans hk)
  rw [el, er]

theorem dotD_lhs0 (i : T64x32000.Idx) (q : dotD.contr.Idx) : (dotD.lhsIdx i q 0).val = (i 0).val := by
  unfold DotDims.lhsIdx
  rw [dif_neg (show ¬(0 : Fin T64x1024.rank) ∈ dotD.lhsBatch by decide), dif_pos (show (0 : Fin T64x1024.rank) ∈ dotD.lhsNonContracting by decide)]
  rfl
theorem dotD_lhs1 (i : T64x32000.Idx) (q : dotD.contr.Idx) : (dotD.lhsIdx i q 1).val = (q ⟨0, by decide⟩).val :=
  dotD.lhsIdx_val_of_single rfl i q
theorem dotD_rhs0 (i : T64x32000.Idx) (q : dotD.contr.Idx) : (dotD.rhsIdx i q 0).val = (q ⟨0, by decide⟩).val :=
  dotD.rhsIdx_val_of_single rfl i q
theorem dotD_rhs1 (i : T64x32000.Idx) (q : dotD.contr.Idx) : (dotD.rhsIdx i q 1).val = (i 1).val := by
  unfold DotDims.rhsIdx
  rw [dif_neg (show ¬(1 : Fin T1024x32000.rank) ∈ dotD.rhsBatch by decide), dif_pos (show (1 : Fin T1024x32000.rank) ∈ dotD.rhsNonContracting by decide)]
  rfl

/-- The decoder's contraction at (b, v): the sum over the 1024 hidden features of l[b,k] · r[k,v]. -/
theorem dotD_apply (l : FVec Ideal T64x1024 .f32) (r : FVec Ideal T1024x32000 .f32) (b : Fin 64) (v : Fin 32000) :
    Host.dotGeneral (F := Ideal) dotD none l r (ix2 b v) = ∑ k : Fin 1024, l (ix2 b k) * r (ix2 k v) := by
  simp only [Host.dotGeneral]
  rw [Ideal.dotGeneral_apply, ← Equiv.sum_comp (contrEquiv1 dotD 1024 rfl rfl).symm]
  refine Finset.sum_congr rfl fun k _ => ?_
  have hk := contrEquiv1_symm_val dotD 1024 rfl rfl k
  have el : dotD.lhsIdx (ix2 b v) ((contrEquiv1 dotD 1024 rfl rfl).symm k) = ix2 b k := funext fun a => Fin.ext (by
    match a with
    | ⟨0, _⟩ => exact dotD_lhs0 _ _
    | ⟨1, _⟩ => exact (dotD_lhs1 _ _).trans hk)
  have er : dotD.rhsIdx (ix2 b v) ((contrEquiv1 dotD 1024 rfl rfl).symm k) = ix2 k v := funext fun a => Fin.ext (by
    match a with
    | ⟨0, _⟩ => exact (dotD_rhs0 _ _).trans hk
    | ⟨1, _⟩ => exact dotD_rhs1 _ _)
  rw [el, er]

/-! ## Pre-activations and logits as sums -/

/-- Layer 0's pre-activation at (b, g, h), parenthesised as the reference adds: ((dot + bias) + dot) + bias. -/
theorem zR0_apply (x : FVec Ideal T64x32000 .f32) (hid : FVec Ideal T2x64x1024 .f32) (Wh : FVec Ideal T2x4x1024x1024 .f32)
    (bh : FVec Ideal T2x4x1024 .f32) (Wx0 : FVec Ideal T4x1024x32000 .f32) (bx0 : FVec Ideal T4x1024 .f32)
    (b : Fin 64) (g : Fin 4) (h : Fin 1024) :
    zR0 x hid Wh bh Wx0 bx0 (ix3 b g h)
      = ((∑ k : Fin 32000, x (ix2 b k) * Wx0 (ix3 g h k)) + bx0 (ix2 g h))
          + (∑ k : Fin 1024, hid (ix3 (0 : Fin 2) b k) * Wh (ix4 (0 : Fin 2) g h k))
          + bh (ix3 (0 : Fin 2) g h) := by
  unfold zR0
  rw [addf_apply, addf_apply, addf_apply, dotX_apply, dotH_apply, bias3_apply, bias3_apply, bhR_apply]
  simp only [rowR_apply, WhR_apply]

/-- Layer 1's pre-activation at (b, g, h) of any input array, parenthesised as the reference adds. -/
theorem zR1_apply (inp : FVec Ideal T64x1024 .f32) (hid : FVec Ideal T2x64x1024 .f32) (Wh : FVec Ideal T2x4x1024x1024 .f32)
    (bh : FVec Ideal T2x4x1024 .f32) (Wx1 : FVec Ideal T4x1024x1024 .f32) (bx1 : FVec Ideal T4x1024 .f32)
    (b : Fin 64) (g : Fin 4) (h : Fin 1024) :
    zR1 inp hid Wh bh Wx1 bx1 (ix3 b g h)
      = ((∑ k : Fin 1024, inp (ix2 b k) * Wx1 (ix3 g h k)) + bx1 (ix2 g h))
          + (∑ k : Fin 1024, hid (ix3 (1 : Fin 2) b k) * Wh (ix4 (1 : Fin 2) g h k))
          + bh (ix3 (1 : Fin 2) g h) := by
  unfold zR1
  rw [addf_apply, addf_apply, addf_apply, dotH_apply, dotH_apply, bias3_apply, bias3_apply, bhR_apply]
  simp only [rowR_apply, WhR_apply]

/-- The logits at (b, v) of any [64, 1024] array. -/
theorem logitsR_apply (out1 : FVec Ideal T64x1024 .f32) (Wdec : FVec Ideal T32000x1024 .f32) (bdec : FVec Ideal T32000 .f32)
    (b : Fin 64) (v : Fin 32000) :
    logitsR out1 Wdec bdec (ix2 b v) = (∑ k : Fin 1024, out1 (ix2 b k) * Wdec (ix2 v k)) + bdec (ix1 v) := by
  unfold logitsR
  rw [addf_apply, dotD_apply, bdec_bcast_apply]
  refine congrArg (· + bdec (ix1 v)) (Finset.sum_congr rfl fun k _ => ?_)
  rw [WdecT_apply]

end Cert.RefSide

end
-- ==== Proof.KI.Bridge.lean ====
/-
  The kernel program's buffers, at the boundaries of its host stretches and matmul kernels, are the reference
  computation's named functions of the launch arrays: each layer's four gate slabs of the summed projections are the
  slabs of the reference's gate pre-activations (the two sides group the same four terms differently: addition on the
  extended reals is associative), hence each layer's new cell state and output are the reference's, the decoder's logits
  are the reference's logits of layer 1's output, and the three result buffers are the reference's three results of the
  launch arrays the two programs agree on.
-/
import proofs.«137056_j83880711291258_2_alg».proof.Proof.KI.HostReads
import proofs.«137056_j83880711291258_2_alg».proof.Proof.KI.EntryReads
import proofs.«137056_j83880711291258_2_alg».proof.Proof.Ref.PreAct
import proofs.«137056_j83880711291258_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen Cert.RefSide
open Idealize.ShloMosaic.ValueIdx
open scoped BigOperators

/-! ## Columns of a [64, 4096] array as (gate, lane) pairs -/

/-- Column `g · 1024 + h`: lane `h` of gate `g`. -/
abbrev colOf (g : Fin 4) (h : Fin 1024) : Fin 4096 := ⟨g.val * 1024 + h.val, by have := g.isLt; have := h.isLt; omega⟩

/-- Its gate is `g`, -/
theorem gateOf_colOf (g : Fin 4) (h : Fin 1024) : gateOf (colOf g h) = g :=
  Fin.ext (by show (g.val * 1024 + h.val) / 1024 = g.val; have := h.isLt; omega)
/-- and its lane `h`. -/
theorem rowOf_colOf (g : Fin 4) (h : Fin 1024) : rowOf (colOf g h) = h :=
  Fin.ext (by show (g.val * 1024 + h.val) % 1024 = h.val; have := h.isLt; omega)

/-- The gateF slab: columns 0 … 1023. -/
theorem gateF_slab (z : FVec Ideal S64x4096 .f32) (Z : FVec Ideal T64x4x1024 .f32)
    (hz : ∀ (b : Fin 64) (g : Fin 4) (h : Fin 1024), z (ix2 b (colOf g h)) = Z (ix3 b g h)) : gateF z = slabR 0 Z := by
  funext i
  obtain ⟨b, h, rfl⟩ : ∃ (b : Fin 64) (h : Fin 1024), i = ix2 b h := ⟨i 0, i 1, eq_ix2 i⟩
  rw [slabR_apply, ← hz b 0 h]
  unfold gateF
  exact extractStridedSlice_apply _ z _ (ix2 b h) (ix2 b (colOf 0 h)) (fun a => by
    match a with
    | ⟨0, _⟩ => exact (Nat.zero_add _).symm
    | ⟨1, _⟩ => show 0 * 1024 + h.val = 0 + h.val; omega)

/-- The gateI slab: columns 1024 … 2047. -/
theorem gateI_slab (z : FVec Ideal S64x4096 .f32) (Z : FVec Ideal T64x4x1024 .f32)
    (hz : ∀ (b : Fin 64) (g : Fin 4) (h : Fin 1024), z (ix2 b (colOf g h)) = Z (ix3 b g h)) : gateI z = slabR 1 Z := by
  funext i
  obtain ⟨b, h, rfl⟩ : ∃ (b : Fin 64) (h : Fin 1024), i = ix2 b h := ⟨i 0, i 1, eq_ix2 i⟩
  rw [slabR_apply, ← hz b 1 h]
  unfold gateI
  exact extractStridedSlice_apply _ z _ (ix2 b h) (ix2 b (colOf 1 h)) (fun a => by
    match a with
    | ⟨0, _⟩ => exact (Nat.zero_add _).symm
    | ⟨1, _⟩ => show 1 * 1024 + h.val = 1024 + h.val; omega)

/-- The gateO slab: columns 2048 … 3071. -/
theorem gateO_slab (z : FVec Ideal S64x4096 .f32) (Z : FVec Ideal T64x4x1024 .f32)
    (hz : ∀ (b : Fin 64) (g : Fin 4) (h : Fin 1024), z (ix2 b (colOf g h)) = Z (ix3 b g h)) : gateO z = slabR 2 Z := by
  funext i
  obtain ⟨b, h, rfl⟩ : ∃ (b : Fin 64) (h : Fin 1024), i = ix2 b h := ⟨i 0, i 1, eq_ix2 i⟩
  rw [slabR_apply, ← hz b 2 h]
  unfold gateO
  exact extractStridedSlice_apply _ z _ (ix2 b h) (ix2 b (colOf 2 h)) (fun a => by
    match a with
    | ⟨0, _⟩ => exact (Nat.zero_add _).symm
    | ⟨1, _⟩ => show 2 * 1024 + h.val = 2048 + h.val; omega)

/-- The gateG slab: columns 3072 … 4095. -/
theorem gateG_slab (z : FVec Ideal S64x4096 .f32) (Z : FVec Ideal T64x4x1024 .f32)
    (hz : ∀ (b : Fin 64) (g : Fin 4) (h : Fin 1024), z (ix2 b (colOf g h)) = Z (ix3 b g h)) : gateG z = slabR 3 Z := by
  funext i
  obtain ⟨b, h, rfl⟩ : ∃ (b : Fin 64) (h : Fin 1024), i = ix2 b h := ⟨i 0, i 1, eq_ix2 i⟩
  rw [slabR_apply, ← hz b 3 h]
  unfold gateG
  exact extractStridedSlice_apply _ z _ (ix2 b h) (ix2 b (colOf 3 h)) (fun a => by
    match a with
    | ⟨0, _⟩ => exact (Nat.zero_add _).symm
    | ⟨1, _⟩ => show 3 * 1024 + h.val = 3072 + h.val; omega)

variable (m : (ℓ : Loc nD τ sig) → Buf (Elt Ideal) ℓ) (c : Dev nD)

/-! ## Layer 0 -/

/-- Layer 0's summed projections at gate `g`, lane `h` are the reference's pre-activations there: the same four terms,
    grouped (A + B) + (C + D) on this side and ((A + B) + C) + D on that. -/
theorem pre0_at (b : Fin 64) (g : Fin 4) (h : Fin 1024) :
    pre0 m c (ix2 b (colOf g h)) = (zR0 (argX m c) (argHid m c) (argWh m c) (argBh m c) (argWx0 m c) (argBx0 m c)) (ix3 b g h) := by
  rw [zR0_apply]
  unfold pre0
  rw [addf_apply, out0_at m c b (colOf g h), out1_at m c b (colOf g h), gateOf_colOf, rowOf_colOf]
  exact (add_assoc _ _ _).symm

theorem gateF_pre0 : gateF (pre0 m c) = slabR 0 (zR0 (argX m c) (argHid m c) (argWh m c) (argBh m c) (argWx0 m c) (argBx0 m c)) := gateF_slab _ _ (pre0_at m c)
theorem gateI_pre0 : gateI (pre0 m c) = slabR 1 (zR0 (argX m c) (argHid m c) (argWh m c) (argBh m c) (argWx0 m c) (argBx0 m c)) := gateI_slab _ _ (pre0_at m c)
theorem gateO_pre0 : gateO (pre0 m c) = slabR 2 (zR0 (argX m c) (argHid m c) (argWh m c) (argBh m c) (argWx0 m c) (argBx0 m c)) := gateO_slab _ _ (pre0_at m c)
theorem gateG_pre0 : gateG (pre0 m c) = slabR 3 (zR0 (argX m c) (argHid m c) (argWh m c) (argBh m c) (argWx0 m c) (argBx0 m c)) := gateG_slab _ _ (pre0_at m c)

/-- Layer 0's old cell state is layer 0's row of the cell-state argument. -/
theorem cell0_eq : (B3 m c main_v20 : FVec Ideal S64x1024 .f32) = rowR 0 (argCel m c) := by
  funext i
  obtain ⟨b, j, rfl⟩ : ∃ (b : Fin 64) (j : Fin 1024), i = ix2 b j := ⟨i 0, i 1, eq_ix2 i⟩
  rw [rowR_apply]; exact cel0_at_B3 m c b j

/-- Layer 0's new cell state is the reference's. -/
theorem c0new_eq : (B4 m c main_v53 : FVec Ideal S64x1024 .f32) = c0newR (argX m c) (argHid m c) (argCel m c) (argWh m c) (argBh m c) (argWx0 m c) (argBx0 m c) := by
  rw [layer0_cellNew, gateF_pre0, gateI_pre0, gateG_pre0, cell0_eq]
  rfl

/-- Layer 0's output is the reference's. -/
theorem out0_eq : (B4 m c main_v55 : FVec Ideal S64x1024 .f32) = out0R (argX m c) (argHid m c) (argCel m c) (argWh m c) (argBh m c) (argWx0 m c) (argBx0 m c) := by
  rw [layer0_out, gateF_pre0, gateI_pre0, gateO_pre0, gateG_pre0, cell0_eq]
  rfl

/-- The same, through the name the next layer's projection reads it by. -/
theorem hidNew0_eq : hidNew0 m c = out0R (argX m c) (argHid m c) (argCel m c) (argWh m c) (argBh m c) (argWx0 m c) (argBx0 m c) := out0_eq m c

/-! ## Layer 1 -/

/-- Layer 1's summed projections are the reference's pre-activations of layer 0's output. -/
theorem pre1_at (b : Fin 64) (g : Fin 4) (h : Fin 1024) :
    pre1 m c (ix2 b (colOf g h)) = (zR1 (out0R (argX m c) (argHid m c) (argCel m c) (argWh m c) (argBh m c) (argWx0 m c) (argBx0 m c)) (argHid m c) (argWh m c) (argBh m c) (argWx1 m c) (argBx1 m c)) (ix3 b g h) := by
  rw [zR1_apply]
  unfold pre1
  rw [addf_apply, out2_at m c b (colOf g h), out3_at m c b (colOf g h), gateOf_colOf, rowOf_colOf, hidNew0_eq]
  exact (add_assoc _ _ _).symm

theorem gateF_pre1 : gateF (pre1 m c) = slabR 0 (zR1 (out0R (argX m c) (argHid m c) (argCel m c) (argWh m c) (argBh m c) (argWx0 m c) (argBx0 m c)) (argHid m c) (argWh m c) (argBh m c) (argWx1 m c) (argBx1 m c)) := gateF_slab _ _ (pre1_at m c)
theorem gateI_pre1 : gateI (pre1 m c) = slabR 1 (zR1 (out0R (argX m c) (argHid m c) (argCel m c) (argWh m c) (argBh m c) (argWx0 m c) (argBx0 m c)) (argHid m c) (argWh m c) (argBh m c) (argWx1 m c) (argBx1 m c)) := gateI_slab _ _ (pre1_at m c)
theorem gateO_pre1 : gateO (pre1 m c) = slabR 2 (zR1 (out0R (argX m c) (argHid m c) (argCel m c) (argWh m c) (argBh m c) (argWx0 m c) (argBx0 m c)) (argHid m c) (argWh m c) (argBh m c) (argWx1 m c) (argBx1 m c)) := gateO_slab _ _ (pre1_at m c)
theorem gateG_pre1 : gateG (pre1 m c) = slabR 3 (zR1 (out0R (argX m c) (argHid m c) (argCel m c) (argWh m c) (argBh m c) (argWx0 m c) (argBx0 m c)) (argHid m c) (argWh m c) (argBh m c) (argWx1 m c) (argBx1 m c)) := gateG_slab _ _ (pre1_at m c)

/-- Layer 1's old cell state is layer 1's row of the cell-state argument. -/
theorem cell1_eq : (B6 m c main_v24 : FVec Ideal S64x1024 .f32) = rowR 1 (argCel m c) := by
  funext i
  obtain ⟨b, j, rfl⟩ : ∃ (b : Fin 64) (j : Fin 1024), i = ix2 b j := ⟨i 0, i 1, eq_ix2 i⟩
  rw [rowR_apply]; exact cel1_at_B6 m c b j

/-- Layer 1's new cell state is the reference's. -/
theorem c1new_eq : (B7 m c main_v84 : FVec Ideal S64x1024 .f32) = c1newR (argX m c) (argHid m c) (argCel m c) (argWh m c) (argBh m c) (argWx0 m c) (argBx0 m c) (argWx1 m c) (argBx1 m c) := by
  rw [layer1_cellNew, gateF_pre1, gateI_pre1, gateG_pre1, cell1_eq]
  rfl

/-- Layer 1's output is the reference's. -/
theorem out1_eq : (B7 m c main_v86 : FVec Ideal S64x1024 .f32) = out1R (argX m c) (argHid m c) (argCel m c) (argWh m c) (argBh m c) (argWx0 m c) (argBx0 m c) (argWx1 m c) (argBx1 m c) := by
  rw [layer1_out, gateF_pre1, gateI_pre1, gateO_pre1, gateG_pre1, cell1_eq]
  rfl

/-- The same, through the name the decoder's projection reads it by. -/
theorem hidNew1_eq : hidNew1 m c = out1R (argX m c) (argHid m c) (argCel m c) (argWh m c) (argBh m c) (argWx0 m c) (argBx0 m c) (argWx1 m c) (argBx1 m c) := out1_eq m c

/-! ## The decoder -/

/-- The decoder kernel's output is the reference's logits of layer 1's output. -/
theorem logits_eq : (B8 m c main_v87 : FVec Ideal S64x32000 .f32) = logitsR (out1R (argX m c) (argHid m c) (argCel m c) (argWh m c) (argBh m c) (argWx0 m c) (argBx0 m c) (argWx1 m c) (argBx1 m c)) (argWdec m c) (argBdec m c) := by
  funext i
  obtain ⟨b, v, rfl⟩ : ∃ (b : Fin 64) (v : Fin 32000), i = ix2 b v := ⟨i 0, i 1, eq_ix2 i⟩
  rw [logitsR_apply, out4_at m c b v, hidNew1_eq]

/-! ## The three results, against the reference's launch arrays -/

section Results
variable (m' : (ℓ : Loc Cert.ReferenceIdeal.nD Cert.ReferenceIdeal.τ Cert.ReferenceIdeal.sig) → Buf (Elt Ideal) ℓ)

/-- RESULT 0: the kernel program's log-probabilities are the reference's function of the reference's launch arrays. -/
theorem ref_logp_eq
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (B11 m c main_v90 : FVec Ideal S64x32000 .f32)
      = logSoftmaxTail (logitsR (out1R (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6)) (StableHlo.launchContents m' c (Proc.devRef .tc Cert.ReferenceIdeal.main_arg7)) (StableHlo.launchContents m' c (Proc.devRef .tc Cert.ReferenceIdeal.main_arg8))) (StableHlo.launchContents m' c (Proc.devRef .tc Cert.ReferenceIdeal.main_arg9)) (StableHlo.launchContents m' c (Proc.devRef .tc Cert.ReferenceIdeal.main_arg10))) := by
  have e0 : (StableHlo.launchContents m' c (Proc.devRef .tc Cert.ReferenceIdeal.main_arg0) : FVec Ideal T64x32000 .f32) = argX m c := a0
  have e1 : (StableHlo.launchContents m' c (Proc.devRef .tc Cert.ReferenceIdeal.main_arg1) : FVec Ideal T2x64x1024 .f32) = argHid m c := a1
  have e2 : (StableHlo.launchContents m' c (Proc.devRef .tc Cert.ReferenceIdeal.main_arg2) : FVec Ideal T2x64x1024 .f32) = argCel m c := a2
  have e3 : (StableHlo.launchContents m' c (Proc.devRef .tc Cert.ReferenceIdeal.main_arg3) : FVec Ideal T2x4x1024x1024 .f32) = argWh m c := a3
  have e4 : (StableHlo.launchContents m' c (Proc.devRef .tc Cert.ReferenceIdeal.main_arg4) : FVec Ideal T2x4x1024 .f32) = argBh m c := a4
  have e5 : (StableHlo.launchContents m' c (Proc.devRef .tc Cert.ReferenceIdeal.main_arg5) : FVec Ideal T4x1024x32000 .f32) = argWx0 m c := a5
  have e6 : (StableHlo.launchContents m' c (Proc.devRef .tc Cert.ReferenceIdeal.main_arg6) : FVec Ideal T4x1024 .f32) = argBx0 m c := a6
  have e7 : (StableHlo.launchContents m' c (Proc.devRef .tc Cert.ReferenceIdeal.main_arg7) : FVec Ideal T4x1024x1024 .f32) = argWx1 m c := a7
  have e8 : (StableHlo.launchContents m' c (Proc.devRef .tc Cert.ReferenceIdeal.main_arg8) : FVec Ideal T4x1024 .f32) = argBx1 m c := a8
  have e9 : (StableHlo.launchContents m' c (Proc.devRef .tc Cert.ReferenceIdeal.main_arg9) : FVec Ideal T32000x1024 .f32) = argWdec m c := a9
  have e10 : (StableHlo.launchContents m' c (Proc.devRef .tc Cert.ReferenceIdeal.main_arg10) : FVec Ideal T32000 .f32) = argBdec m c := a10
  rw [e0, e1, e2, e3, e4, e5, e6, e7, e8, e9, e10, result0, logits_eq]

/-- RESULT 1: so are the stacked outputs of the two layers, -/
theorem ref_outs_eq
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (B11 m c main_v93 : FVec Ideal S2x64x1024 .f32)
      = stackPair (out0R (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6))) (out1R (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6)) (StableHlo.launchContents m' c (Proc.devRef .tc Cert.ReferenceIdeal.main_arg7)) (StableHlo.launchContents m' c (Proc.devRef .tc Cert.ReferenceIdeal.main_arg8))) := by
  have e0 : (StableHlo.launchContents m' c (Proc.devRef .tc Cert.ReferenceIdeal.main_arg0) : FVec Ideal T64x32000 .f32) = argX m c := a0
  have e1 : (StableHlo.launchContents m' c (Proc.devRef .tc Cert.ReferenceIdeal.main_arg1) : FVec Ideal T2x64x1024 .f32) = argHid m c := a1
  have e2 : (StableHlo.launchContents m' c (Proc.devRef .tc Cert.ReferenceIdeal.main_arg2) : FVec Ideal T2x64x1024 .f32) = argCel m c := a2
  have e3 : (StableHlo.launchContents m' c (Proc.devRef .tc Cert.ReferenceIdeal.main_arg3) : FVec Ideal T2x4x1024x1024 .f32) = argWh m c := a3
  have e4 : (StableHlo.launchContents m' c (Proc.devRef .tc Cert.ReferenceIdeal.main_arg4) : FVec Ideal T2x4x1024 .f32) = argBh m c := a4
  have e5 : (StableHlo.launchContents m' c (Proc.devRef .tc Cert.ReferenceIdeal.main_arg5) : FVec Ideal T4x1024x32000 .f32) = argWx0 m c := a5
  have e6 : (StableHlo.launchContents m' c (Proc.devRef .tc Cert.ReferenceIdeal.main_arg6) : FVec Ideal T4x1024 .f32) = argBx0 m c := a6
  have e7 : (StableHlo.launchContents m' c (Proc.devRef .tc Cert.ReferenceIdeal.main_arg7) : FVec Ideal T4x1024x1024 .f32) = argWx1 m c := a7
  have e8 : (StableHlo.launchContents m' c (Proc.devRef .tc Cert.ReferenceIdeal.main_arg8) : FVec Ideal T4x1024 .f32) = argBx1 m c := a8
  rw [e0, e1, e2, e3, e4, e5, e6, e7, e8, result1, out0_eq, out1_eq]

/-- RESULT 2: and the stacked new cell states. -/
theorem ref_cells_eq
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (B11 m c main_v96 : FVec Ideal S2x64x1024 .f32)
      = stackPair (c0newR (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6))) (c1newR (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6)) (StableHlo.launchContents m' c (Proc.devRef .tc Cert.ReferenceIdeal.main_arg7)) (StableHlo.launchContents m' c (Proc.devRef .tc Cert.ReferenceIdeal.main_arg8))) := by
  have e0 : (StableHlo.launchContents m' c (Proc.devRef .tc Cert.ReferenceIdeal.main_arg0) : FVec Ideal T64x32000 .f32) = argX m c := a0
  have e1 : (StableHlo.launchContents m' c (Proc.devRef .tc Cert.ReferenceIdeal.main_arg1) : FVec Ideal T2x64x1024 .f32) = argHid m c := a1
  have e2 : (StableHlo.launchContents m' c (Proc.devRef .tc Cert.ReferenceIdeal.main_arg2) : FVec Ideal T2x64x1024 .f32) = argCel m c := a2
  have e3 : (StableHlo.launchContents m' c (Proc.devRef .tc Cert.ReferenceIdeal.main_arg3) : FVec Ideal T2x4x1024x1024 .f32) = argWh m c := a3
  have e4 : (StableHlo.launchContents m' c (Proc.devRef .tc Cert.ReferenceIdeal.main_arg4) : FVec Ideal T2x4x1024 .f32) = argBh m c := a4
  have e5 : (StableHlo.launchContents m' c (Proc.devRef .tc Cert.ReferenceIdeal.main_arg5) : FVec Ideal T4x1024x32000 .f32) = argWx0 m c := a5
  have e6 : (StableHlo.launchContents m' c (Proc.devRef .tc Cert.ReferenceIdeal.main_arg6) : FVec Ideal T4x1024 .f32) = argBx0 m c := a6
  have e7 : (StableHlo.launchContents m' c (Proc.devRef .tc Cert.ReferenceIdeal.main_arg7) : FVec Ideal T4x1024x1024 .f32) = argWx1 m c := a7
  have e8 : (StableHlo.launchContents m' c (Proc.devRef .tc Cert.ReferenceIdeal.main_arg8) : FVec Ideal T4x1024 .f32) = argBx1 m c := a8
  rw [e0, e1, e2, e3, e4, e5, e6, e7, e8, result2, c0new_eq, c1new_eq]

end Results

end Cert.KernelIdeal.Hand

end
-- ==== Proof.Ref.ArgsKept.lean ====
/-
  The reference's operations write only their own result buffers: each of the eleven argument arrays is still at its launch
  contents after all of them.
-/
import proofs.«137056_j83880711291258_2_alg».proof.Proof.RefRunP

set_option maxRecDepth 16384

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The buffers the reference's operations write: every value of @main and of the inlined log-softmax, no argument. -/
abbrev refWritten : List (Ref sig .tc) := [main_v0, main_v1, main_v2, main_v3, main_v4, main_v5, main_v6, main_v7, main_v8, main_v9, main_v10, main_v11, main_v12, main_v13, main_v14, main_v15, main_v16, main_v17, main_v18, main_v19, main_v20, main_cst, main_v21, main_v22, main_cst_0, main_v23, main_v24, main_v25, main_v26, main_v27, main_v28, main_cst_1, main_v29, main_v30, main_cst_2, main_v31, main_v32, main_v33, main_v34, main_v35, main_v36, main_cst_3, main_v37, main_v38, main_cst_4, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_cst_5, main_v70, main_v71, main_cst_6, main_v72, main_v73, main_v74, main_v75, main_v76, main_v77, main_cst_7, main_v78, main_v79, main_cst_8, main_v80, main_v81, main_v82, main_v83, main_v84, main_v85, main_cst_9, main_v86, main_v87, main_cst_10, main_v88, main_v89, main_v90, main_v91, main_v92, main_v93, main_v94, main_v95, main_v96, main_v97, main_v98, main_v99, main_v100, main_v101, main_v102, main_cst_11, main_v103, main_v104, main_call0_cst, main_call0_v0, main_call0_cst_0, main_call0_v1, main_call0_v2, main_call0_v3, main_call0_v4, main_call0_v5, main_call0_v6, main_call0_cst_1, main_call0_v7, main_call0_v8, main_call0_v9, main_call0_v10, main_v105, main_v106, main_v107, main_v108, main_v109, main_v110, main_v111]

set_option maxHeartbeats 4000000 in
/-- Each operation writes its own result buffer only. -/
theorem ref_ops_writes : (Cert.ReferenceIdeal.ValueP.ops : List (HloOp τ sig (Elt F))).Forall fun op => op.writes ⊆ (refWritten.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Each argument array is at its launch contents after the reference's operations. -/
theorem ref_arg_kept (V : Valuation τ sig (Elt F)) (r : Ref sig .tc) (hr : r ∉ refWritten) :
    after (Cert.ReferenceIdeal.ValueP.ops : List (HloOp τ sig (Elt F))) V (Proc.devRef .tc r) = V (Proc.devRef .tc r) :=
  after_of_writes_sub _ V ref_ops_writes hr

end Cert.RefSide

end
-- ==== Proof.Ref.Frame.lean ====
/-
  The reference program runs to termination from any launch memory with zero counters, and its eleven argument arrays
  end at their launch contents: every weakly fair execution ends with each buffer at the fold of the operations'
  results over the launch contents, and no operation writes an argument's buffer.
-/
import proofs.«137056_j83880711291258_2_alg».proof.Defs
import proofs.«137056_j83880711291258_2_alg».proof.Proof.Gen.ReferenceIdeal
import proofs.«137056_j83880711291258_2_alg».proof.Proof.Gen.Pre_finite_inputs
import proofs.«137056_j83880711291258_2_alg».proof.Proof.RefRunP
import proofs.«137056_j83880711291258_2_alg».proof.Proof.Ref.ArgsKept

noncomputable section

namespace Cert.RefSide

open Cert.ReferenceIdeal Idealize.ShloMosaic Idealize.ShloMosaic.TcCoe Idealize.SL.Sem Idealize.ShloMosaic.StableHlo

/-- The reference runs, and leaves each argument array unchanged. -/
theorem frame_ri : Cert.frame_ReferenceIdeal := fun m ρ _ =>
  (θ_run Cert.ReferenceIdeal.defs _ _).mono
    (fun _ h c =>
      ⟨(h c main_arg0).trans (ref_arg_kept _ main_arg0 (by decide)),
       (h c main_arg1).trans (ref_arg_kept _ main_arg1 (by decide)),
       (h c main_arg2).trans (ref_arg_kept _ main_arg2 (by decide)),
       (h c main_arg3).trans (ref_arg_kept _ main_arg3 (by decide)),
       (h c main_arg4).trans (ref_arg_kept _ main_arg4 (by decide)),
       (h c main_arg5).trans (ref_arg_kept _ main_arg5 (by decide)),
       (h c main_arg6).trans (ref_arg_kept _ main_arg6 (by decide)),
       (h c main_arg7).trans (ref_arg_kept _ main_arg7 (by decide)),
       (h c main_arg8).trans (ref_arg_kept _ main_arg8 (by decide)),
       (h c main_arg9).trans (ref_arg_kept _ main_arg9 (by decide)),
       (h c main_arg10).trans (ref_arg_kept _ main_arg10 (by decide))⟩)
    (Cert.ReferenceIdeal.ValueP.run_fold (F := Ideal) m ρ)

end Cert.RefSide

end
-- ==== Proof.Ref.Stretches.lean ====
/-
  The reference program's operation list cut into seven consecutive stretches, one per phase of the computation (a
  layer's pre-activations; a layer's gates, cell state and output; the decoder; the log-softmax; the stacks), and the
  fold of the operations' results over a concatenation as the folds one after the other. Each later module reads one
  stretch at a time, from an arbitrary valuation, so no term spanning the whole program is ever written out.
-/
import proofs.«137056_j83880711291258_2_alg».proof.Proof.RefRunP

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Layer 0's slices of the stacked arguments and its gate pre-activations (up to the [64, 4, 1024] array z0). -/
def opsA : List (HloOp τ sig (Elt F)) :=
  [ unary main_arg1 main_v0 ((extractStridedSlice S1x64x1024 ![0, 0, 0] · slices_S2x64x1024_S1x64x1024_0_0_0) : (⟨S2x64x1024, .f32⟩ : BufTy).Contents (Elt F) → (⟨S1x64x1024, .f32⟩ : BufTy).Contents (Elt F)),
    reshape main_v0 main_v1 rfl shapeCasts_S1x64x1024_S64x1024,
    unary main_arg2 main_v2 ((extractStridedSlice S1x64x1024 ![0, 0, 0] · slices_S2x64x1024_S1x64x1024_0_0_0) : (⟨S2x64x1024, .f32⟩ : BufTy).Contents (Elt F) → (⟨S1x64x1024, .f32⟩ : BufTy).Contents (Elt F)),
    reshape main_v2 main_v3 rfl shapeCasts_S1x64x1024_S64x1024,
    unary main_arg3 main_v4 ((extractStridedSlice S1x4x1024x1024 ![0, 0, 0, 0] · slices_S2x4x1024x1024_S1x4x1024x1024_0_0_0_0) : (⟨S2x4x1024x1024, .f32⟩ : BufTy).Contents (Elt F) → (⟨S1x4x1024x1024, .f32⟩ : BufTy).Contents (Elt F)),
    reshape main_v4 main_v5 rfl shapeCasts_S1x4x1024x1024_S4x1024x1024,
    unary main_arg4 main_v6 ((extractStridedSlice S1x4x1024 ![0, 0, 0] · slices_S2x4x1024_S1x4x1024_0_0_0) : (⟨S2x4x1024, .f32⟩ : BufTy).Contents (Elt F) → (⟨S1x4x1024, .f32⟩ : BufTy).Contents (Elt F)),
    reshape main_v6 main_v7 rfl shapeCasts_S1x4x1024_S4x1024,
    binary main_arg0 main_arg5 main_v8 ((fun l r => Host.dotGeneral dot_S64x32000_S4x1024x32000_S64x4x1024_1_2_0_01_n_n none l r) : (⟨S64x32000, .f32⟩ : BufTy).Contents (Elt F) → (⟨S4x1024x32000, .f32⟩ : BufTy).Contents (Elt F) → (⟨S64x4x1024, .f32⟩ : BufTy).Contents (Elt F)),
    unary main_arg6 main_v9 (broadcastInDim S1x4x1024 ![1, 2] bcast_S4x1024_S1x4x1024_1_2 : (⟨S4x1024, .f32⟩ : BufTy).Contents (Elt F) → (⟨S1x4x1024, .f32⟩ : BufTy).Contents (Elt F)),
    unary main_v9 main_v10 (broadcastInDim S64x4x1024 ![0, 1, 2] bcast_S1x4x1024_S64x4x1024_0_1_2 : (⟨S1x4x1024, .f32⟩ : BufTy).Contents (Elt F) → (⟨S64x4x1024, .f32⟩ : BufTy).Contents (Elt F)),
    binary main_v8 main_v10 main_v11 (addf : (⟨S64x4x1024, .f32⟩ : BufTy).Contents (Elt F) → (⟨S64x4x1024, .f32⟩ : BufTy).Contents (Elt F) → (⟨S64x4x1024, .f32⟩ : BufTy).Contents (Elt F)),
    binary main_v1 main_v5 main_v12 ((fun l r => Host.dotGeneral dot_S64x1024_S4x1024x1024_S64x4x1024_1_2_0_01_n_n none l r) : (⟨S64x1024, .f32⟩ : BufTy).Contents (Elt F) → (⟨S4x1024x1024, .f32⟩ : BufTy).Contents (Elt F) → (⟨S64x4x1024, .f32⟩ : BufTy).Contents (Elt F)),
    binary main_v11 main_v12 main_v13 (addf : (⟨S64x4x1024, .f32⟩ : BufTy).Contents (Elt F) → (⟨S64x4x1024, .f32⟩ : BufTy).Contents (Elt F) → (⟨S64x4x1024, .f32⟩ : BufTy).Contents (Elt F)),
    unary main_v7 main_v14 (broadcastInDim S1x4x1024 ![1, 2] bcast_S4x1024_S1x4x1024_1_2 : (⟨S4x1024, .f32⟩ : BufTy).Contents (Elt F) → (⟨S1x4x1024, .f32⟩ : BufTy).Contents (Elt F)),
    unary main_v14 main_v15 (broadcastInDim S64x4x1024 ![0, 1, 2] bcast_S1x4x1024_S64x4x1024_0_1_2 : (⟨S1x4x1024, .f32⟩ : BufTy).Contents (Elt F) → (⟨S64x4x1024, .f32⟩ : BufTy).Contents (Elt F)),
    binary main_v13 main_v15 main_v16 (addf : (⟨S64x4x1024, .f32⟩ : BufTy).Contents (Elt F) → (⟨S64x4x1024, .f32⟩ : BufTy).Contents (Elt F) → (⟨S64x4x1024, .f32⟩ : BufTy).Contents (Elt F)) ]

/-- Layer 0's gates, new cell state and output, from z0 and the layer's old cell state. -/
def opsB : List (HloOp τ sig (Elt F)) :=
  [ unary main_v16 main_v17 ((extractStridedSlice S64x1x1024 ![0, 0, 0] · slices_S64x4x1024_S64x1x1024_0_0_0) : (⟨S64x4x1024, .f32⟩ : BufTy).Contents (Elt F) → (⟨S64x1x1024, .f32⟩ : BufTy).Contents (Elt F)),
    reshape main_v17 main_v18 rfl shapeCasts_S64x1x1024_S64x1024,
    unary main_v18 main_v19 (Host.negf : (⟨S64x1024, .f32⟩ : BufTy).Contents (Elt F) → (⟨S64x1024, .f32⟩ : BufTy).Contents (Elt F)),
    unary main_v19 main_v20 (Host.exp : (⟨S64x1024, .f32⟩ : BufTy).Contents (Elt F) → (⟨S64x1024, .f32⟩ : BufTy).Contents (Elt F)),
    nullary main_cst (constant S_ .f32 0x3F800000#32),
    unary main_cst main_v21 (broadcastInDim S64x1024 ![] bcast_S_S64x1024 : (⟨S_, .f32⟩ : BufTy).Contents (Elt F) → (⟨S64x1024, .f32⟩ : BufTy).Contents (Elt F)),
    binary main_v21 main_v20 main_v22 (addf : (⟨S64x1024, .f32⟩ : BufTy).Contents (Elt F) → (⟨S64x1024, .f32⟩ : BufTy).Contents (Elt F) → (⟨S64x1024, .f32⟩ : BufTy).Contents (Elt F)),
    nullary main_cst_0 (constant S_ .f32 0x3F800000#32),
    unary main_cst_0 main_v23 (broadcastInDim S64x1024 ![] bcast_S_S64x1024 : (⟨S_, .f32⟩ : BufTy).Contents (Elt F) → (⟨S64x1024, .f32⟩ : BufTy).Contents (Elt F)),
    binary main_v23 main_v22 main_v24 (Host.divf : (⟨S64x1024, .f32⟩ : BufTy).Contents (Elt F) → (⟨S64x1024, .f32⟩ : BufTy).Contents (Elt F) → (⟨S64x1024, .f32⟩ : BufTy).Contents (Elt F)),
    unary main_v16 main_v25 ((extractStridedSlice S64x1x1024 ![0, 1, 0] · slices_S64x4x1024_S64x1x1024_0_1_0) : (⟨S64x4x1024, .f32⟩ : BufTy).Contents (Elt F) → (⟨S64x1x1024, .f32⟩ : BufTy).Contents (Elt F)),
    reshape main_v25 main_v26 rfl shapeCasts_S64x1x1024_S64x1024,
    unary main_v26 main_v27 (Host.negf : (⟨S64x1024, .f32⟩ : BufTy).Contents (Elt F) → (⟨S64x1024, .f32⟩ : BufTy).Contents (Elt F)),
    unary main_v27 main_v28 (Host.exp : (⟨S64x1024, .f32⟩ : BufTy).Contents (Elt F) → (⟨S64x1024, .f32⟩ : BufTy).Contents (Elt F)),
    nullary main_cst_1 (constant S_ .f32 0x3F800000#32),
    unary main_cst_1 main_v29 (broadcastInDim S64x1024 ![] bcast_S_S64x1024 : (⟨S_, .f32⟩ : BufTy).Contents (Elt F) → (⟨S64x1024, .f32⟩ : BufTy).Contents (Elt F)),
    binary main_v29 main_v28 main_v30 (addf : (⟨S64x1024, .f32⟩ : BufTy).Contents (Elt F) → (⟨S64x1024, .f32⟩ : BufTy).Contents (Elt F) → (⟨S64x1024, .f32⟩ : BufTy).Contents (Elt F)),
    nullary main_cst_2 (constant S_ .f32 0x3F800000#32),
    unary main_cst_2 main_v31 (broadcastInDim S64x1024 ![] bcast_S_S64x1024 : (⟨S_, .f32⟩ : BufTy).Contents (Elt F) → (⟨S64x1024, .f32⟩ : BufTy).Contents (Elt F)),
    binary main_v31 main_v30 main_v32 (Host.divf : (⟨S64x1024, .f32⟩ : BufTy).Contents (Elt F) → (⟨S64x1024, .f32⟩ : BufTy).Contents (Elt F) → (⟨S64x1024, .f32⟩ : BufTy).Contents (Elt F)),
    unary main_v16 main_v33 ((extractStridedSlice S64x1x1024 ![0, 2, 0] · slices_S64x4x1024_S64x1x1024_0_2_0) : (⟨S64x4x1024, .f32⟩ : BufTy).Contents (Elt F) → (⟨S64x1x1024, .f32⟩ : BufTy).Contents (Elt F)),
    reshape main_v33 main_v34 rfl shapeCasts_S64x1x1024_S64x1024,
    unary main_v34 main_v35 (Host.negf : (⟨S64x1024, .f32⟩ : BufTy).Contents (Elt F) → (⟨S64x1024, .f32⟩ : BufTy).Contents (Elt F)),
    unary main_v35 main_v36 (Host.exp : (⟨S64x1024, .f32⟩ : BufTy).Contents (Elt F) → (⟨S64x1024, .f32⟩ : BufTy).Contents (Elt F)),
    nullary main_cst_3 (constant S_ .f32 0x3F800000#32),
    unary main_cst_3 main_v37 (broadcastInDim S64x1024 ![] bcast_S_S64x1024 : (⟨S_, .f32⟩ : BufTy).Contents (Elt F) → (⟨S64x1024, .f32⟩ : BufTy).Contents (Elt F)),
    binary main_v37 main_v36 main_v38 (addf : (⟨S64x1024, .f32⟩ : BufTy).Contents (Elt F) → (⟨S64x1024, .f32⟩ : BufTy).Contents (Elt F) → (⟨S64x1024, .f32⟩ : BufTy).Contents (Elt F)),
    nullary main_cst_4 (constant S_ .f32 0x3F800000#32),
    unary main_cst_4 main_v39 (broadcastInDim S64x1024 ![] bcast_S_S64x1024 : (⟨S_, .f32⟩ : BufTy).Contents (Elt F) → (⟨S64x1024, .f32⟩ : BufTy).Contents (Elt F)),
    binary main_v39 main_v38 main_v40 (Host.divf : (⟨S64x1024, .f32⟩ : BufTy).Contents (Elt F) → (⟨S64x1024, .f32⟩ : BufTy).Contents (Elt F) → (⟨S64x1024, .f32⟩ : BufTy).Contents (Elt F)),
    unary main_v16 main_v41 ((extractStridedSlice S64x1x1024 ![0, 3, 0] · slices_S64x4x1024_S64x1x1024_0_3_0) : (⟨S64x4x1024, .f32⟩ : BufTy).Contents (Elt F) → (⟨S64x1x1024, .f32⟩ : BufTy).Contents (Elt F)),
    reshape main_v41 main_v42 rfl shapeCasts_S64x1x1024_S64x1024,
    unary main_v42 main_v43 (Host.tanh : (⟨S64x1024, .f32⟩ : BufTy).Contents (Elt F) → (⟨S64x1024, .f32⟩ : BufTy).Contents (Elt F)),
    binary main_v24 main_v3 main_v44 (mulf : (⟨S64x1024, .f32⟩ : BufTy).Contents (Elt F) → (⟨S64x1024, .f32⟩ : BufTy).Contents (Elt F) → (⟨S64x1024, .f32⟩ : BufTy).Contents (Elt F)),
    binary main_v32 main_v43 main_v45 (mulf : (⟨S64x1024, .f32⟩ : BufTy).Contents (Elt F) → (⟨S64x1024, .f32⟩ : BufTy).Contents (Elt F) → (⟨S64x1024, .f32⟩ : BufTy).Contents (Elt F)),
    binary main_v44 main_v45 main_v46 (addf : (⟨S64x1024, .f32⟩ : BufTy).Contents (Elt F) → (⟨S64x1024, .f32⟩ : BufTy).Contents (Elt F) → (⟨S64x1024, .f32⟩ : BufTy).Contents (Elt F)),
    unary main_v46 main_v47 (Host.tanh : (⟨S64x1024, .f32⟩ : BufTy).Contents (Elt F) → (⟨S64x1024, .f32⟩ : BufTy).Contents (Elt F)),
    binary main_v40 main_v47 main_v48 (mulf : (⟨S64x1024, .f32⟩ : BufTy).Contents (Elt F) → (⟨S64x1024, .f32⟩ : BufTy).Contents (Elt F) → (⟨S64x1024, .f32⟩ : BufTy).Contents (Elt F)) ]

/-- Layer 1's slices of the stacked arguments and its gate pre-activations z1, from layer 0's output. -/
def opsC : List (HloOp τ sig (Elt F)) :=
  [ unary main_arg1 main_v49 ((extractStridedSlice S1x64x1024 ![1, 0, 0] · slices_S2x64x1024_S1x64x1024_1_0_0) : (⟨S2x64x1024, .f32⟩ : BufTy).Contents (Elt F) → (⟨S1x64x1024, .f32⟩ : BufTy).Contents (Elt F)),
    reshape main_v49 main_v50 rfl shapeCasts_S1x64x1024_S64x1024,
    unary main_arg2 main_v51 ((extractStridedSlice S1x64x1024 ![1, 0, 0] · slices_S2x64x1024_S1x64x1024_1_0_0) : (⟨S2x64x1024, .f32⟩ : BufTy).Contents (Elt F) → (⟨S1x64x1024, .f32⟩ : BufTy).Contents (Elt F)),
    reshape main_v51 main_v52 rfl shapeCasts_S1x64x1024_S64x1024,
    unary main_arg3 main_v53 ((extractStridedSlice S1x4x1024x1024 ![1, 0, 0, 0] · slices_S2x4x1024x1024_S1x4x1024x1024_1_0_0_0) : (⟨S2x4x1024x1024, .f32⟩ : BufTy).Contents (Elt F) → (⟨S1x4x1024x1024, .f32⟩ : BufTy).Contents (Elt F)),
    reshape main_v53 main_v54 rfl shapeCasts_S1x4x1024x1024_S4x1024x1024,
    unary main_arg4 main_v55 ((extractStridedSlice S1x4x1024 ![1, 0, 0] · slices_S2x4x1024_S1x4x1024_1_0_0) : (⟨S2x4x1024, .f32⟩ : BufTy).Contents (Elt F) → (⟨S1x4x1024, .f32⟩ : BufTy).Contents (Elt F)),
    reshape main_v55 main_v56 rfl shapeCasts_S1x4x1024_S4x1024,
    binary main_v48 main_arg7 main_v57 ((fun l r => Host.dotGeneral dot_S64x1024_S4x1024x1024_S64x4x1024_1_2_0_01_n_n none l r) : (⟨S64x1024, .f32⟩ : BufTy).Contents (Elt F) → (⟨S4x1024x1024, .f32⟩ : BufTy).Contents (Elt F) → (⟨S64x4x1024, .f32⟩ : BufTy).Contents (Elt F)),
    unary main_arg8 main_v58 (broadcastInDim S1x4x1024 ![1, 2] bcast_S4x1024_S1x4x1024_1_2 : (⟨S4x1024, .f32⟩ : BufTy).Contents (Elt F) → (⟨S1x4x1024, .f32⟩ : BufTy).Contents (Elt F)),
    unary main_v58 main_v59 (broadcastInDim S64x4x1024 ![0, 1, 2] bcast_S1x4x1024_S64x4x1024_0_1_2 : (⟨S1x4x1024, .f32⟩ : BufTy).Contents (Elt F) → (⟨S64x4x1024, .f32⟩ : BufTy).Contents (Elt F)),
    binary main_v57 main_v59 main_v60 (addf : (⟨S64x4x1024, .f32⟩ : BufTy).Contents (Elt F) → (⟨S64x4x1024, .f32⟩ : BufTy).Contents (Elt F) → (⟨S64x4x1024, .f32⟩ : BufTy).Contents (Elt F)),
    binary main_v50 main_v54 main_v61 ((fun l r => Host.dotGeneral dot_S64x1024_S4x1024x1024_S64x4x1024_1_2_0_01_n_n none l r) : (⟨S64x1024, .f32⟩ : BufTy).Contents (Elt F) → (⟨S4x1024x1024, .f32⟩ : BufTy).Contents (Elt F) → (⟨S64x4x1024, .f32⟩ : BufTy).Contents (Elt F)),
    binary main_v60 main_v61 main_v62 (addf : (⟨S64x4x1024, .f32⟩ : BufTy).Contents (Elt F) → (⟨S64x4x1024, .f32⟩ : BufTy).Contents (Elt F) → (⟨S64x4x1024, .f32⟩ : BufTy).Contents (Elt F)),
    unary main_v56 main_v63 (broadcastInDim S1x4x1024 ![1, 2] bcast_S4x1024_S1x4x1024_1_2 : (⟨S4x1024, .f32⟩ : BufTy).Contents (Elt F) → (⟨S1x4x1024, .f32⟩ : BufTy).Contents (Elt F)),
    unary main_v63 main_v64 (broadcastInDim S64x4x1024 ![0, 1, 2] bcast_S1x4x1024_S64x4x1024_0_1_2 : (⟨S1x4x1024, .f32⟩ : BufTy).Contents (Elt F) → (⟨S64x4x1024, .f32⟩ : BufTy).Contents (Elt F)),
    binary main_v62 main_v64 main_v65 (addf : (⟨S64x4x1024, .f32⟩ : BufTy).Contents (Elt F) → (⟨S64x4x1024, .f32⟩ : BufTy).Contents (Elt F) → (⟨S64x4x1024, .f32⟩ : BufTy).Contents (Elt F)) ]

/-- Layer 1's gates, new cell state and output, from z1 and the layer's old cell state. -/
def opsD : List (HloOp τ sig (Elt F)) :=
  [ unary main_v65 main_v66 ((extractStridedSlice S64x1x1024 ![0, 0, 0] · slices_S64x4x1024_S64x1x1024_0_0_0) : (⟨S64x4x1024, .f32⟩ : BufTy).Contents (Elt F) → (⟨S64x1x1024, .f32⟩ : BufTy).Contents (Elt F)),
    reshape main_v66 main_v67 rfl shapeCasts_S64x1x1024_S64x1024,
    unary main_v67 main_v68 (Host.negf : (⟨S64x1024, .f32⟩ : BufTy).Contents (Elt F) → (⟨S64x1024, .f32⟩ : BufTy).Contents (Elt F)),
    unary main_v68 main_v69 (Host.exp : (⟨S64x1024, .f32⟩ : BufTy).Contents (Elt F) → (⟨S64x1024, .f32⟩ : BufTy).Contents (Elt F)),
    nullary main_cst_5 (constant S_ .f32 0x3F800000#32),
    unary main_cst_5 main_v70 (broadcastInDim S64x1024 ![] bcast_S_S64x1024 : (⟨S_, .f32⟩ : BufTy).Contents (Elt F) → (⟨S64x1024, .f32⟩ : BufTy).Contents (Elt F)),
    binary main_v70 main_v69 main_v71 (addf : (⟨S64x1024, .f32⟩ : BufTy).Contents (Elt F) → (⟨S64x1024, .f32⟩ : BufTy).Contents (Elt F) → (⟨S64x1024, .f32⟩ : BufTy).Contents (Elt F)),
    nullary main_cst_6 (constant S_ .f32 0x3F800000#32),
    unary main_cst_6 main_v72 (broadcastInDim S64x1024 ![] bcast_S_S64x1024 : (⟨S_, .f32⟩ : BufTy).Contents (Elt F) → (⟨S64x1024, .f32⟩ : BufTy).Contents (Elt F)),
    binary main_v72 main_v71 main_v73 (Host.divf : (⟨S64x1024, .f32⟩ : BufTy).Contents (Elt F) → (⟨S64x1024, .f32⟩ : BufTy).Contents (Elt F) → (⟨S64x1024, .f32⟩ : BufTy).Contents (Elt F)),
    unary main_v65 main_v74 ((extractStridedSlice S64x1x1024 ![0, 1, 0] · slices_S64x4x1024_S64x1x1024_0_1_0) : (⟨S64x4x1024, .f32⟩ : BufTy).Contents (Elt F) → (⟨S64x1x1024, .f32⟩ : BufTy).Contents (Elt F)),
    reshape main_v74 main_v75 rfl shapeCasts_S64x1x1024_S64x1024,
    unary main_v75 main_v76 (Host.negf : (⟨S64x1024, .f32⟩ : BufTy).Contents (Elt F) → (⟨S64x1024, .f32⟩ : BufTy).Contents (Elt F)),
    unary main_v76 main_v77 (Host.exp : (⟨S64x1024, .f32⟩ : BufTy).Contents (Elt F) → (⟨S64x1024, .f32⟩ : BufTy).Contents (Elt F)),
    nullary main_cst_7 (constant S_ .f32 0x3F800000#32),
    unary main_cst_7 main_v78 (broadcastInDim S64x1024 ![] bcast_S_S64x1024 : (⟨S_, .f32⟩ : BufTy).Contents (Elt F) → (⟨S64x1024, .f32⟩ : BufTy).Contents (Elt F)),
    binary main_v78 main_v77 main_v79 (addf : (⟨S64x1024, .f32⟩ : BufTy).Contents (Elt F) → (⟨S64x1024, .f32⟩ : BufTy).Contents (Elt F) → (⟨S64x1024, .f32⟩ : BufTy).Contents (Elt F)),
    nullary main_cst_8 (constant S_ .f32 0x3F800000#32),
    unary main_cst_8 main_v80 (broadcastInDim S64x1024 ![] bcast_S_S64x1024 : (⟨S_, .f32⟩ : BufTy).Contents (Elt F) → (⟨S64x1024, .f32⟩ : BufTy).Contents (Elt F)),
    binary main_v80 main_v79 main_v81 (Host.divf : (⟨S64x1024, .f32⟩ : BufTy).Contents (Elt F) → (⟨S64x1024, .f32⟩ : BufTy).Contents (Elt F) → (⟨S64x1024, .f32⟩ : BufTy).Contents (Elt F)),
    unary main_v65 main_v82 ((extractStridedSlice S64x1x1024 ![0, 2, 0] · slices_S64x4x1024_S64x1x1024_0_2_0) : (⟨S64x4x1024, .f32⟩ : BufTy).Contents (Elt F) → (⟨S64x1x1024, .f32⟩ : BufTy).Contents (Elt F)),
    reshape main_v82 main_v83 rfl shapeCasts_S64x1x1024_S64x1024,
    unary main_v83 main_v84 (Host.negf : (⟨S64x1024, .f32⟩ : BufTy).Contents (Elt F) → (⟨S64x1024, .f32⟩ : BufTy).Contents (Elt F)),
    unary main_v84 main_v85 (Host.exp : (⟨S64x1024, .f32⟩ : BufTy).Contents (Elt F) → (⟨S64x1024, .f32⟩ : BufTy).Contents (Elt F)),
    nullary main_cst_9 (constant S_ .f32 0x3F800000#32),
    unary main_cst_9 main_v86 (broadcastInDim S64x1024 ![] bcast_S_S64x1024 : (⟨S_, .f32⟩ : BufTy).Contents (Elt F) → (⟨S64x1024, .f32⟩ : BufTy).Contents (Elt F)),
    binary main_v86 main_v85 main_v87 (addf : (⟨S64x1024, .f32⟩ : BufTy).Contents (Elt F) → (⟨S64x1024, .f32⟩ : BufTy).Contents (Elt F) → (⟨S64x1024, .f32⟩ : BufTy).Contents (Elt F)),
    nullary main_cst_10 (constant S_ .f32 0x3F800000#32),
    unary main_cst_10 main_v88 (broadcastInDim S64x1024 ![] bcast_S_S64x1024 : (⟨S_, .f32⟩ : BufTy).Contents (Elt F) → (⟨S64x1024, .f32⟩ : BufTy).Contents (Elt F)),
    binary main_v88 main_v87 main_v89 (Host.divf : (⟨S64x1024, .f32⟩ : BufTy).Contents (Elt F) → (⟨S64x1024, .f32⟩ : BufTy).Contents (Elt F) → (⟨S64x1024, .f32⟩ : BufTy).Contents (Elt F)),
    unary main_v65 main_v90 ((extractStridedSlice S64x1x1024 ![0, 3, 0] · slices_S64x4x1024_S64x1x1024_0_3_0) : (⟨S64x4x1024, .f32⟩ : BufTy).Contents (Elt F) → (⟨S64x1x1024, .f32⟩ : BufTy).Contents (Elt F)),
    reshape main_v90 main_v91 rfl shapeCasts_S64x1x1024_S64x1024,
    unary main_v91 main_v92 (Host.tanh : (⟨S64x1024, .f32⟩ : BufTy).Contents (Elt F) → (⟨S64x1024, .f32⟩ : BufTy).Contents (Elt F)),
    binary main_v73 main_v52 main_v93 (mulf : (⟨S64x1024, .f32⟩ : BufTy).Contents (Elt F) → (⟨S64x1024, .f32⟩ : BufTy).Contents (Elt F) → (⟨S64x1024, .f32⟩ : BufTy).Contents (Elt F)),
    binary main_v81 main_v92 main_v94 (mulf : (⟨S64x1024, .f32⟩ : BufTy).Contents (Elt F) → (⟨S64x1024, .f32⟩ : BufTy).Contents (Elt F) → (⟨S64x1024, .f32⟩ : BufTy).Contents (Elt F)),
    binary main_v93 main_v94 main_v95 (addf : (⟨S64x1024, .f32⟩ : BufTy).Contents (Elt F) → (⟨S64x1024, .f32⟩ : BufTy).Contents (Elt F) → (⟨S64x1024, .f32⟩ : BufTy).Contents (Elt F)),
    unary main_v95 main_v96 (Host.tanh : (⟨S64x1024, .f32⟩ : BufTy).Contents (Elt F) → (⟨S64x1024, .f32⟩ : BufTy).Contents (Elt F)),
    binary main_v89 main_v96 main_v97 (mulf : (⟨S64x1024, .f32⟩ : BufTy).Contents (Elt F) → (⟨S64x1024, .f32⟩ : BufTy).Contents (Elt F) → (⟨S64x1024, .f32⟩ : BufTy).Contents (Elt F)) ]

/-- The decoder: transposed weights, logits, and their division by the temperature. -/
def opsE : List (HloOp τ sig (Elt F)) :=
  [ unary main_arg9 main_v98 ((transpose S1024x32000 [1, 0] · transposes_S32000x1024_S1024x32000_1_0) : (⟨S32000x1024, .f32⟩ : BufTy).Contents (Elt F) → (⟨S1024x32000, .f32⟩ : BufTy).Contents (Elt F)),
    binary main_v97 main_v98 main_v99 ((fun l r => Host.dotGeneral dot_S64x1024_S1024x32000_S64x32000_1_0_0_1_n_n none l r) : (⟨S64x1024, .f32⟩ : BufTy).Contents (Elt F) → (⟨S1024x32000, .f32⟩ : BufTy).Contents (Elt F) → (⟨S64x32000, .f32⟩ : BufTy).Contents (Elt F)),
    unary main_arg10 main_v100 (broadcastInDim S1x32000 ![1] bcast_S32000_S1x32000_1 : (⟨S32000, .f32⟩ : BufTy).Contents (Elt F) → (⟨S1x32000, .f32⟩ : BufTy).Contents (Elt F)),
    unary main_v100 main_v101 (broadcastInDim S64x32000 ![0, 1] bcast_S1x32000_S64x32000_0_1 : (⟨S1x32000, .f32⟩ : BufTy).Contents (Elt F) → (⟨S64x32000, .f32⟩ : BufTy).Contents (Elt F)),
    binary main_v99 main_v101 main_v102 (addf : (⟨S64x32000, .f32⟩ : BufTy).Contents (Elt F) → (⟨S64x32000, .f32⟩ : BufTy).Contents (Elt F) → (⟨S64x32000, .f32⟩ : BufTy).Contents (Elt F)),
    nullary main_cst_11 (constant S_ .f32 0x3F4CCCCD#32),
    unary main_cst_11 main_v103 (broadcastInDim S64x32000 ![] bcast_S_S64x32000 : (⟨S_, .f32⟩ : BufTy).Contents (Elt F) → (⟨S64x32000, .f32⟩ : BufTy).Contents (Elt F)),
    binary main_v102 main_v103 main_v104 (Host.divf : (⟨S64x32000, .f32⟩ : BufTy).Contents (Elt F) → (⟨S64x32000, .f32⟩ : BufTy).Contents (Elt F) → (⟨S64x32000, .f32⟩ : BufTy).Contents (Elt F)) ]

/-- The log-softmax along the vocabulary axis. -/
def opsG : List (HloOp τ sig (Elt F)) :=
  [ TRef.nullary (TRef.of (T := ⟨S_, .f32⟩) main_call0_cst) (constant S_ .f32 0xFF800000#32),
    TRef.binary (TRef.of (T := ⟨S64x32000, .f32⟩) main_v104) (TRef.of (T := ⟨S_, .f32⟩) main_call0_cst) (TRef.of (T := ⟨S64, .f32⟩) main_call0_v0) (fun x v => Host.reduce FloatOps.maximumf x v reducesTo_S64x32000_S64_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S64, .f32⟩) main_call0_v1) (broadcastInDim S64 ![] bcast_S_S64),
    TRef.binary (TRef.of (T := ⟨S64, .f32⟩) main_call0_v1) (TRef.of (T := ⟨S64, .f32⟩) main_call0_v0) (TRef.of (T := ⟨S64, .f32⟩) main_call0_v2) maximumf,
    TRef.unary (TRef.of (T := ⟨S64, .f32⟩) main_call0_v2) (TRef.of (T := ⟨S64x1, .f32⟩) main_call0_v3) (broadcastInDim S64x1 ![0] bcast_S64_S64x1_0),
    TRef.unary (TRef.of (T := ⟨S64x1, .f32⟩) main_call0_v3) (TRef.of (T := ⟨S64x32000, .f32⟩) main_call0_v4) (broadcastInDim S64x32000 ![0, 1] bcast_S64x1_S64x32000_0_1),
    TRef.binary (TRef.of (T := ⟨S64x32000, .f32⟩) main_v104) (TRef.of (T := ⟨S64x32000, .f32⟩) main_call0_v4) (TRef.of (T := ⟨S64x32000, .f32⟩) main_call0_v5) subf,
    TRef.unary (TRef.of (T := ⟨S64x32000, .f32⟩) main_call0_v5) (TRef.of (T := ⟨S64x32000, .f32⟩) main_call0_v6) Host.exp,
    TRef.nullary (TRef.of (T := ⟨S_, .f32⟩) main_call0_cst_1) (constant S_ .f32 0x00000000#32),
    TRef.binary (TRef.of (T := ⟨S64x32000, .f32⟩) main_call0_v6) (TRef.of (T := ⟨S_, .f32⟩) main_call0_cst_1) (TRef.of (T := ⟨S64, .f32⟩) main_call0_v7) (fun x v => Host.reduceAdd x v reducesTo_S64x32000_S64_d1 h_S_),
    TRef.unary (TRef.of (T := ⟨S64, .f32⟩) main_call0_v7) (TRef.of (T := ⟨S64x1, .f32⟩) main_call0_v8) (broadcastInDim S64x1 ![0] bcast_S64_S64x1_0),
    TRef.unary (TRef.of (T := ⟨S64x1, .f32⟩) main_call0_v8) (TRef.of (T := ⟨S64x1, .f32⟩) main_call0_v9) Host.log,
    TRef.unary (TRef.of (T := ⟨S64x1, .f32⟩) main_call0_v9) (TRef.of (T := ⟨S64x32000, .f32⟩) main_call0_v10) (broadcastInDim S64x32000 ![0, 1] bcast_S64x1_S64x32000_0_1),
    TRef.binary (TRef.of (T := ⟨S64x32000, .f32⟩) main_call0_v5) (TRef.of (T := ⟨S64x32000, .f32⟩) main_call0_v10) (TRef.of (T := ⟨S64x32000, .f32⟩) main_v105) subf ]

/-- The two stacks: the layers' outputs and the layers' new cell states. -/
def opsH : List (HloOp τ sig (Elt F)) :=
  [ unary main_v48 main_v106 (broadcastInDim S1x64x1024 ![1, 2] bcast_S64x1024_S1x64x1024_1_2 : (⟨S64x1024, .f32⟩ : BufTy).Contents (Elt F) → (⟨S1x64x1024, .f32⟩ : BufTy).Contents (Elt F)),
    unary main_v97 main_v107 (broadcastInDim S1x64x1024 ![1, 2] bcast_S64x1024_S1x64x1024_1_2 : (⟨S64x1024, .f32⟩ : BufTy).Contents (Elt F) → (⟨S1x64x1024, .f32⟩ : BufTy).Contents (Elt F)),
    binary main_v106 main_v107 main_v108 ((fun a b => concatenate S2x64x1024 0 [⟨S1x64x1024, a⟩, ⟨S1x64x1024, b⟩] concatenates_S1x64x1024_S1x64x1024_S2x64x1024_d0) : (⟨S1x64x1024, .f32⟩ : BufTy).Contents (Elt F) → (⟨S1x64x1024, .f32⟩ : BufTy).Contents (Elt F) → (⟨S2x64x1024, .f32⟩ : BufTy).Contents (Elt F)),
    unary main_v46 main_v109 (broadcastInDim S1x64x1024 ![1, 2] bcast_S64x1024_S1x64x1024_1_2 : (⟨S64x1024, .f32⟩ : BufTy).Contents (Elt F) → (⟨S1x64x1024, .f32⟩ : BufTy).Contents (Elt F)),
    unary main_v95 main_v110 (broadcastInDim S1x64x1024 ![1, 2] bcast_S64x1024_S1x64x1024_1_2 : (⟨S64x1024, .f32⟩ : BufTy).Contents (Elt F) → (⟨S1x64x1024, .f32⟩ : BufTy).Contents (Elt F)),
    binary main_v109 main_v110 main_v111 ((fun a b => concatenate S2x64x1024 0 [⟨S1x64x1024, a⟩, ⟨S1x64x1024, b⟩] concatenates_S1x64x1024_S1x64x1024_S2x64x1024_d0) : (⟨S1x64x1024, .f32⟩ : BufTy).Contents (Elt F) → (⟨S1x64x1024, .f32⟩ : BufTy).Contents (Elt F) → (⟨S2x64x1024, .f32⟩ : BufTy).Contents (Elt F)) ]

/-- The program's operation list is the seven stretches in order. -/
theorem ops_split : (Cert.ReferenceIdeal.ValueP.ops (F := F))
    = opsA ++ (opsB ++ (opsC ++ (opsD ++ (opsE ++ (opsG ++ opsH))))) := rfl

/-- The contents after a concatenation of two lines are the contents after the second line from those after the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The contents after the whole program, stretch by stretch. -/
theorem after_ops (V : Valuation τ sig (Elt F)) :
    after (Cert.ReferenceIdeal.ValueP.ops (F := F)) V
      = after opsH (after opsG (after opsE (after opsD (after opsC (after opsB (after opsA V)))))) := by
  rw [ops_split, after_append, after_append, after_append, after_append, after_append, after_append]

end Cert.RefSide

end
-- ==== Proof.Ref.After.lean ====
/-
  What the reference program's buffers hold after each stretch of its operations, from an arbitrary valuation of the
  buffers before the stretch: the stretch's few live results as the named functions of the values it reads, and the
  buffers a later stretch still reads unchanged. Chained over the seven stretches, the three result buffers after the
  whole program are the named functions of the argument buffers' launch contents: the log-softmax tail of the
  decoder's logits of layer 1's output, the stack of the two layers' outputs, the stack of the two layers' new cell
  states.
-/
import proofs.«137056_j83880711291258_2_alg».proof.Proof.Ref.Stretches
import proofs.«137056_j83880711291258_2_alg».proof.Proof.Ref.RefDefs

noncomputable section

namespace Cert.RefSide

open Cert.ReferenceIdeal Cert.ReferenceIdeal.Gen Idealize.ShloMosaic Idealize.ShloMosaic.TcCoe Idealize.SL.Sem Idealize.ShloMosaic.StableHlo

/-! ## Layer 0's pre-activations -/

/-- After the first stretch the pre-activation buffer holds layer 0's pre-activations of the arguments. -/
theorem stageA_z0 (V : Valuation τ sig (Elt Ideal)) :
    after (opsA (F := Ideal)) V (Proc.devRef .tc main_v16)
      = zR0 (V (Proc.devRef .tc main_arg0)) (V (Proc.devRef .tc main_arg1)) (V (Proc.devRef .tc main_arg3))
          (V (Proc.devRef .tc main_arg4)) (V (Proc.devRef .tc main_arg5)) (V (Proc.devRef .tc main_arg6)) := by
  unfold opsA
  after_results_simp
  rfl

/-- After the first stretch layer 0's old cell state is layer 0's slice of the cell-state argument. -/
theorem stageA_c0 (V : Valuation τ sig (Elt Ideal)) :
    after (opsA (F := Ideal)) V (Proc.devRef .tc main_v3)
      = rowR 0 (V (Proc.devRef .tc main_arg2)) := by
  unfold opsA
  after_results_simp
  rfl

theorem keepA_arg1 (V : Valuation τ sig (Elt Ideal)) :
    after (opsA (F := Ideal)) V (Proc.devRef .tc main_arg1) = V (Proc.devRef .tc main_arg1) := by
  unfold opsA
  after_results_simp

theorem keepA_arg2 (V : Valuation τ sig (Elt Ideal)) :
    after (opsA (F := Ideal)) V (Proc.devRef .tc main_arg2) = V (Proc.devRef .tc main_arg2) := by
  unfold opsA
  after_results_simp

theorem keepA_arg3 (V : Valuation τ sig (Elt Ideal)) :
    after (opsA (F := Ideal)) V (Proc.devRef .tc main_arg3) = V (Proc.devRef .tc main_arg3) := by
  unfold opsA
  after_results_simp

theorem keepA_arg4 (V : Valuation τ sig (Elt Ideal)) :
    after (opsA (F := Ideal)) V (Proc.devRef .tc main_arg4) = V (Proc.devRef .tc main_arg4) := by
  unfold opsA
  after_results_simp

theorem keepA_arg7 (V : Valuation τ sig (Elt Ideal)) :
    after (opsA (F := Ideal)) V (Proc.devRef .tc main_arg7) = V (Proc.devRef .tc main_arg7) := by
  unfold opsA
  after_results_simp

theorem keepA_arg8 (V : Valuation τ sig (Elt Ideal)) :
    after (opsA (F := Ideal)) V (Proc.devRef .tc main_arg8) = V (Proc.devRef .tc main_arg8) := by
  unfold opsA
  after_results_simp

theorem keepA_arg9 (V : Valuation τ sig (Elt Ideal)) :
    after (opsA (F := Ideal)) V (Proc.devRef .tc main_arg9) = V (Proc.devRef .tc main_arg9) := by
  unfold opsA
  after_results_simp

theorem keepA_arg10 (V : Valuation τ sig (Elt Ideal)) :
    after (opsA (F := Ideal)) V (Proc.devRef .tc main_arg10) = V (Proc.devRef .tc main_arg10) := by
  unfold opsA
  after_results_simp

/-! ## Layer 0's cell -/

/-- Layer 0's new cell state, from the pre-activation buffer and the old cell state. -/
theorem stageB_c0new (W : Valuation τ sig (Elt Ideal)) :
    after (opsB (F := Ideal)) W (Proc.devRef .tc main_v46)
      = cnewOfZ (W (Proc.devRef .tc main_v16)) (W (Proc.devRef .tc main_v3)) := by
  unfold opsB
  after_results_simp
  rfl

/-- Layer 0's output, from the pre-activation buffer and the old cell state. -/
theorem stageB_out0 (W : Valuation τ sig (Elt Ideal)) :
    after (opsB (F := Ideal)) W (Proc.devRef .tc main_v48)
      = outOfZ (W (Proc.devRef .tc main_v16)) (W (Proc.devRef .tc main_v3)) := by
  unfold opsB
  after_results_simp
  rfl

theorem keepB_arg1 (W : Valuation τ sig (Elt Ideal)) :
    after (opsB (F := Ideal)) W (Proc.devRef .tc main_arg1) = W (Proc.devRef .tc main_arg1) := by
  unfold opsB
  after_results_simp

theorem keepB_arg2 (W : Valuation τ sig (Elt Ideal)) :
    after (opsB (F := Ideal)) W (Proc.devRef .tc main_arg2) = W (Proc.devRef .tc main_arg2) := by
  unfold opsB
  after_results_simp

theorem keepB_arg3 (W : Valuation τ sig (Elt Ideal)) :
    after (opsB (F := Ideal)) W (Proc.devRef .tc main_arg3) = W (Proc.devRef .tc main_arg3) := by
  unfold opsB
  after_results_simp

theorem keepB_arg4 (W : Valuation τ sig (Elt Ideal)) :
    after (opsB (F := Ideal)) W (Proc.devRef .tc main_arg4) = W (Proc.devRef .tc main_arg4) := by
  unfold opsB
  after_results_simp

theorem keepB_arg7 (W : Valuation τ sig (Elt Ideal)) :
    after (opsB (F := Ideal)) W (Proc.devRef .tc main_arg7) = W (Proc.devRef .tc main_arg7) := by
  unfold opsB
  after_results_simp

theorem keepB_arg8 (W : Valuation τ sig (Elt Ideal)) :
    after (opsB (F := Ideal)) W (Proc.devRef .tc main_arg8) = W (Proc.devRef .tc main_arg8) := by
  unfold opsB
  after_results_simp

theorem keepB_arg9 (W : Valuation τ sig (Elt Ideal)) :
    after (opsB (F := Ideal)) W (Proc.devRef .tc main_arg9) = W (Proc.devRef .tc main_arg9) := by
  unfold opsB
  after_results_simp

theorem keepB_arg10 (W : Valuation τ sig (Elt Ideal)) :
    after (opsB (F := Ideal)) W (Proc.devRef .tc main_arg10) = W (Proc.devRef .tc main_arg10) := by
  unfold opsB
  after_results_simp

/-! ## Layer 1's pre-activations -/

/-- Layer 1's pre-activations, from layer 0's output buffer and the arguments. -/
theorem stageC_z1 (W : Valuation τ sig (Elt Ideal)) :
    after (opsC (F := Ideal)) W (Proc.devRef .tc main_v65)
      = zR1 (W (Proc.devRef .tc main_v48)) (W (Proc.devRef .tc main_arg1)) (W (Proc.devRef .tc main_arg3))
          (W (Proc.devRef .tc main_arg4)) (W (Proc.devRef .tc main_arg7)) (W (Proc.devRef .tc main_arg8)) := by
  unfold opsC
  after_results_simp
  rfl

/-- Layer 1's old cell state is layer 1's slice of the cell-state argument. -/
theorem stageC_c1 (W : Valuation τ sig (Elt Ideal)) :
    after (opsC (F := Ideal)) W (Proc.devRef .tc main_v52)
      = rowR 1 (W (Proc.devRef .tc main_arg2)) := by
  unfold opsC
  after_results_simp
  rfl

theorem keepC_v46 (W : Valuation τ sig (Elt Ideal)) :
    after (opsC (F := Ideal)) W (Proc.devRef .tc main_v46) = W (Proc.devRef .tc main_v46) := by
  unfold opsC
  after_results_simp

theorem keepC_v48 (W : Valuation τ sig (Elt Ideal)) :
    after (opsC (F := Ideal)) W (Proc.devRef .tc main_v48) = W (Proc.devRef .tc main_v48) := by
  unfold opsC
  after_results_simp

theorem keepC_arg9 (W : Valuation τ sig (Elt Ideal)) :
    after (opsC (F := Ideal)) W (Proc.devRef .tc main_arg9) = W (Proc.devRef .tc main_arg9) := by
  unfold opsC
  after_results_simp

theorem keepC_arg10 (W : Valuation τ sig (Elt Ideal)) :
    after (opsC (F := Ideal)) W (Proc.devRef .tc main_arg10) = W (Proc.devRef .tc main_arg10) := by
  unfold opsC
  after_results_simp

/-! ## Layer 1's cell -/

/-- Layer 1's new cell state, from the pre-activation buffer and the old cell state. -/
theorem stageD_c1new (W : Valuation τ sig (Elt Ideal)) :
    after (opsD (F := Ideal)) W (Proc.devRef .tc main_v95)
      = cnewOfZ (W (Proc.devRef .tc main_v65)) (W (Proc.devRef .tc main_v52)) := by
  unfold opsD
  after_results_simp
  rfl

/-- Layer 1's output, from the pre-activation buffer and the old cell state. -/
theorem stageD_out1 (W : Valuation τ sig (Elt Ideal)) :
    after (opsD (F := Ideal)) W (Proc.devRef .tc main_v97)
      = outOfZ (W (Proc.devRef .tc main_v65)) (W (Proc.devRef .tc main_v52)) := by
  unfold opsD
  after_results_simp
  rfl

theorem keepD_v46 (W : Valuation τ sig (Elt Ideal)) :
    after (opsD (F := Ideal)) W (Proc.devRef .tc main_v46) = W (Proc.devRef .tc main_v46) := by
  unfold opsD
  after_results_simp

theorem keepD_v48 (W : Valuation τ sig (Elt Ideal)) :
    after (opsD (F := Ideal)) W (Proc.devRef .tc main_v48) = W (Proc.devRef .tc main_v48) := by
  unfold opsD
  after_results_simp

theorem keepD_arg9 (W : Valuation τ sig (Elt Ideal)) :
    after (opsD (F := Ideal)) W (Proc.devRef .tc main_arg9) = W (Proc.devRef .tc main_arg9) := by
  unfold opsD
  after_results_simp

theorem keepD_arg10 (W : Valuation τ sig (Elt Ideal)) :
    after (opsD (F := Ideal)) W (Proc.devRef .tc main_arg10) = W (Proc.devRef .tc main_arg10) := by
  unfold opsD
  after_results_simp

/-! ## The decoder -/

/-- The logits of layer 1's output buffer, divided by the temperature. -/
theorem stageE_scaled (W : Valuation τ sig (Elt Ideal)) :
    after (opsE (F := Ideal)) W (Proc.devRef .tc main_v104)
      = scaleByTemp (logitsR (W (Proc.devRef .tc main_v97)) (W (Proc.devRef .tc main_arg9)) (W (Proc.devRef .tc main_arg10))) := by
  unfold opsE
  after_results_simp
  rfl

theorem keepE_v46 (W : Valuation τ sig (Elt Ideal)) :
    after (opsE (F := Ideal)) W (Proc.devRef .tc main_v46) = W (Proc.devRef .tc main_v46) := by
  unfold opsE
  after_results_simp

theorem keepE_v48 (W : Valuation τ sig (Elt Ideal)) :
    after (opsE (F := Ideal)) W (Proc.devRef .tc main_v48) = W (Proc.devRef .tc main_v48) := by
  unfold opsE
  after_results_simp

theorem keepE_v95 (W : Valuation τ sig (Elt Ideal)) :
    after (opsE (F := Ideal)) W (Proc.devRef .tc main_v95) = W (Proc.devRef .tc main_v95) := by
  unfold opsE
  after_results_simp

theorem keepE_v97 (W : Valuation τ sig (Elt Ideal)) :
    after (opsE (F := Ideal)) W (Proc.devRef .tc main_v97) = W (Proc.devRef .tc main_v97) := by
  unfold opsE
  after_results_simp

/-! ## The log-softmax -/

/-- Contents written to a typed reference's buffer and read back are the contents (the log-softmax's operations are
    spelt over typed references, which move contents to a buffer's own type and back). -/
theorem ofBuf_toBuf {T : BufTy} (x : TRef sig T) (v : T.Contents (Elt Ideal)) : x.ofBuf (x.toBuf v) = v := by
  obtain ⟨r, h, _, _⟩ := x
  subst h
  rfl

/-- Reading the scaled logits' buffer at its type is the identity. -/
theorem ofBuf_scaled (y : (⟨S64x32000, .f32⟩ : BufTy).Contents (Elt Ideal)) :
    (TRef.of (T := ⟨S64x32000, .f32⟩) main_v104).ofBuf y = y := rfl

/-- Writing the log-probabilities' buffer at its type is the identity. -/
theorem toBuf_logp (y : (⟨S64x32000, .f32⟩ : BufTy).Contents (Elt Ideal)) :
    (TRef.of (T := ⟨S64x32000, .f32⟩) main_v105).toBuf y = y := rfl

/-- The log-softmax of the scaled logits' buffer. -/
theorem stageG_logp (W : Valuation τ sig (Elt Ideal)) :
    after (opsG (F := Ideal)) W (Proc.devRef .tc main_v105)
      = lsmNorm (lsmShift (W (Proc.devRef .tc main_v104))) := by
  unfold opsG
  after_results_simp
  simp only [ofBuf_toBuf]
  rw [toBuf_logp, ofBuf_scaled]
  rfl

theorem keepG_v46 (W : Valuation τ sig (Elt Ideal)) :
    after (opsG (F := Ideal)) W (Proc.devRef .tc main_v46) = W (Proc.devRef .tc main_v46) := by
  unfold opsG
  after_results_simp

theorem keepG_v48 (W : Valuation τ sig (Elt Ideal)) :
    after (opsG (F := Ideal)) W (Proc.devRef .tc main_v48) = W (Proc.devRef .tc main_v48) := by
  unfold opsG
  after_results_simp

theorem keepG_v95 (W : Valuation τ sig (Elt Ideal)) :
    after (opsG (F := Ideal)) W (Proc.devRef .tc main_v95) = W (Proc.devRef .tc main_v95) := by
  unfold opsG
  after_results_simp

theorem keepG_v97 (W : Valuation τ sig (Elt Ideal)) :
    after (opsG (F := Ideal)) W (Proc.devRef .tc main_v97) = W (Proc.devRef .tc main_v97) := by
  unfold opsG
  after_results_simp

/-! ## The stacks -/

/-- The stack of the two output buffers. -/
theorem stageH_outs (W : Valuation τ sig (Elt Ideal)) :
    after (opsH (F := Ideal)) W (Proc.devRef .tc main_v108)
      = stackPair (W (Proc.devRef .tc main_v48)) (W (Proc.devRef .tc main_v97)) := by
  unfold opsH
  after_results_simp
  rfl

/-- The stack of the two new-cell-state buffers. -/
theorem stageH_cells (W : Valuation τ sig (Elt Ideal)) :
    after (opsH (F := Ideal)) W (Proc.devRef .tc main_v111)
      = stackPair (W (Proc.devRef .tc main_v46)) (W (Proc.devRef .tc main_v95)) := by
  unfold opsH
  after_results_simp
  rfl

theorem keepH_v105 (W : Valuation τ sig (Elt Ideal)) :
    after (opsH (F := Ideal)) W (Proc.devRef .tc main_v105) = W (Proc.devRef .tc main_v105) := by
  unfold opsH
  after_results_simp

/-! ## The whole program -/

section Whole

variable (V : Valuation τ sig (Elt Ideal))

/-- Layer 0's output buffer after the first two stretches. -/
theorem out0_after : after (opsB (F := Ideal)) (after (opsA (F := Ideal)) V) (Proc.devRef .tc main_v48)
    = out0R (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [stageB_out0, stageA_z0, stageA_c0]; rfl

/-- Layer 0's new cell state after the first two stretches. -/
theorem c0new_after : after (opsB (F := Ideal)) (after (opsA (F := Ideal)) V) (Proc.devRef .tc main_v46)
    = c0newR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [stageB_c0new, stageA_z0, stageA_c0]; rfl

/-- Layer 1's output buffer after the first four stretches. -/
theorem out1_after :
    after (opsD (F := Ideal)) (after (opsC (F := Ideal)) (after (opsB (F := Ideal)) (after (opsA (F := Ideal)) V))) (Proc.devRef .tc main_v97)
      = out1R (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [stageD_out1, stageC_z1, stageC_c1, out0_after, keepB_arg1, keepB_arg2, keepB_arg3, keepB_arg4, keepB_arg7, keepB_arg8,
    keepA_arg1, keepA_arg2, keepA_arg3, keepA_arg4, keepA_arg7, keepA_arg8]; rfl

/-- Layer 1's new cell state after the first four stretches. -/
theorem c1new_after :
    after (opsD (F := Ideal)) (after (opsC (F := Ideal)) (after (opsB (F := Ideal)) (after (opsA (F := Ideal)) V))) (Proc.devRef .tc main_v95)
      = c1newR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [stageD_c1new, stageC_z1, stageC_c1, out0_after, keepB_arg1, keepB_arg2, keepB_arg3, keepB_arg4, keepB_arg7, keepB_arg8,
    keepA_arg1, keepA_arg2, keepA_arg3, keepA_arg4, keepA_arg7, keepA_arg8]; rfl

/-- After the whole program the first result buffer (log-probabilities) holds the log-softmax tail of the decoder's
    logits of layer 1's output. -/
theorem after_ops_logp :
    after (Cert.ReferenceIdeal.ValueP.ops (F := Ideal)) V (Proc.devRef .tc main_v105)
      = logSoftmaxTail (logitsR (out1R (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)))
          (V (Proc.devRef .tc main_arg9)) (V (Proc.devRef .tc main_arg10))) := by
  rw [after_ops, keepH_v105, stageG_logp, stageE_scaled, out1_after, keepD_arg9, keepD_arg10, keepC_arg9, keepC_arg10,
    keepB_arg9, keepB_arg10, keepA_arg9, keepA_arg10]; rfl

/-- After the whole program the second result buffer holds the stack of the two layers' outputs. -/
theorem after_ops_outs :
    after (Cert.ReferenceIdeal.ValueP.ops (F := Ideal)) V (Proc.devRef .tc main_v108)
      = stackPair (out0R (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)))
          (out1R (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) := by
  rw [after_ops, stageH_outs, keepG_v48, keepG_v97, keepE_v48, keepE_v97, out1_after, keepD_v48, keepC_v48, out0_after]

/-- After the whole program the third result buffer holds the stack of the two layers' new cell states. -/
theorem after_ops_cells :
    after (Cert.ReferenceIdeal.ValueP.ops (F := Ideal)) V (Proc.devRef .tc main_v111)
      = stackPair (c0newR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)))
          (c1newR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) := by
  rw [after_ops, stageH_cells, keepG_v46, keepG_v95, keepE_v46, keepE_v95, c1new_after, keepD_v46, keepC_v46, c0new_after]

end Whole

end Cert.RefSide

end
-- ==== Proof.Final.lean ====
/-
  The five claims assembled. The three frames: the kernel program's (at the word-level instance and at the extended reals) is
  the frame read off the run of its eleven items; the reference's is the library's straight-line run with every argument
  array written by no operation. The idealization rewrote nothing, so that claim is trivial. The value claim: at the extended
  reals the kernel program ends with each result buffer at the fold of its items, the reference with each result buffer at
  the fold of its operations, and both folds are the same functions of the argument arrays — the shared log-softmax tail of
  equal logits, and the stacks of equal layer outputs and of equal new cell states.
-/
import proofs.«137056_j83880711291258_2_alg».proof.Defs
import proofs.«137056_j83880711291258_2_alg».proof.Proof.KB.Run
import proofs.«137056_j83880711291258_2_alg».proof.Proof.KI.Run
import proofs.«137056_j83880711291258_2_alg».proof.Proof.KI.Bridge
import proofs.«137056_j83880711291258_2_alg».proof.Proof.RefRunP
import proofs.«137056_j83880711291258_2_alg».proof.Proof.Ref.ArgsKept
import proofs.«137056_j83880711291258_2_alg».proof.Proof.Ref.Frame
import proofs.«137056_j83880711291258_2_alg».proof.Proof.Ref.After
import proofs.«137056_j83880711291258_2_alg».proof.Proof.Gen.Kernel
import proofs.«137056_j83880711291258_2_alg».proof.Proof.Gen.KernelIdeal
import proofs.«137056_j83880711291258_2_alg».proof.Proof.Gen.ReferenceIdeal
import proofs.«137056_j83880711291258_2_alg».proof.Proof.Gen.Pre_finite_inputs

set_option maxRecDepth 16384

noncomputable section

namespace Cert.Proof.Claims

open Idealize.ShloMosaic Idealize.ShloMosaic.TcCoe Idealize.SL.Sem Idealize.ShloMosaic.StableHlo
open Cert.RefSide

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := Cert.RefSide.frame_ri

theorem preserves : Cert.preserves_Kernel_KernelIdeal := trivial

open Cert.KernelIdeal.Hand in
theorem algebraic : Cert.algebraic_KernelIdeal_ReferenceIdeal := by
  intro m ρ m' ρ' _ hagree
  refine ⟨fun c => B11 m c Cert.KernelIdeal.main_v90, fun c => B11 m c Cert.KernelIdeal.main_v93, fun c => B11 m c Cert.KernelIdeal.main_v96, ?_, ?_⟩
  · exact (θ_run Cert.KernelIdeal.defs _ _).mono (fun r h c =>
      ⟨h c _ (mem_uc Cert.KernelIdeal.main_v90 (by decide)), h c _ (mem_uc Cert.KernelIdeal.main_v93 (by decide)), h c _ (mem_uc Cert.KernelIdeal.main_v96 (by decide)),
       (h c _ (mem_uc Cert.KernelIdeal.main_arg0 (by decide))).trans (B11_arg m c Cert.KernelIdeal.main_arg0 (by decide)),
       (h c _ (mem_uc Cert.KernelIdeal.main_arg1 (by decide))).trans (B11_arg m c Cert.KernelIdeal.main_arg1 (by decide)),
       (h c _ (mem_uc Cert.KernelIdeal.main_arg2 (by decide))).trans (B11_arg m c Cert.KernelIdeal.main_arg2 (by decide)),
       (h c _ (mem_uc Cert.KernelIdeal.main_arg3 (by decide))).trans (B11_arg m c Cert.KernelIdeal.main_arg3 (by decide)),
       (h c _ (mem_uc Cert.KernelIdeal.main_arg4 (by decide))).trans (B11_arg m c Cert.KernelIdeal.main_arg4 (by decide)),
       (h c _ (mem_uc Cert.KernelIdeal.main_arg5 (by decide))).trans (B11_arg m c Cert.KernelIdeal.main_arg5 (by decide)),
       (h c _ (mem_uc Cert.KernelIdeal.main_arg6 (by decide))).trans (B11_arg m c Cert.KernelIdeal.main_arg6 (by decide)),
       (h c _ (mem_uc Cert.KernelIdeal.main_arg7 (by decide))).trans (B11_arg m c Cert.KernelIdeal.main_arg7 (by decide)),
       (h c _ (mem_uc Cert.KernelIdeal.main_arg8 (by decide))).trans (B11_arg m c Cert.KernelIdeal.main_arg8 (by decide)),
       (h c _ (mem_uc Cert.KernelIdeal.main_arg9 (by decide))).trans (B11_arg m c Cert.KernelIdeal.main_arg9 (by decide)),
       (h c _ (mem_uc Cert.KernelIdeal.main_arg10 (by decide))).trans (B11_arg m c Cert.KernelIdeal.main_arg10 (by decide))⟩)
      (run_all m ρ)
  · refine (θ_run Cert.ReferenceIdeal.defs _ _).mono (fun r h c => ?_) (Cert.ReferenceIdeal.ValueP.run_fold (F := Ideal) m' ρ')
    obtain ⟨a0, a1, a2, a3, a4, a5, a6, a7, a8, a9, a10⟩ := hagree c
    refine ⟨(h c Cert.ReferenceIdeal.main_v105).trans ?_, (h c Cert.ReferenceIdeal.main_v108).trans ?_, (h c Cert.ReferenceIdeal.main_v111).trans ?_,
      (h c Cert.ReferenceIdeal.main_arg0).trans (ref_arg_kept _ Cert.ReferenceIdeal.main_arg0 (by decide)),
      (h c Cert.ReferenceIdeal.main_arg1).trans (ref_arg_kept _ Cert.ReferenceIdeal.main_arg1 (by decide)),
      (h c Cert.ReferenceIdeal.main_arg2).trans (ref_arg_kept _ Cert.ReferenceIdeal.main_arg2 (by decide)),
      (h c Cert.ReferenceIdeal.main_arg3).trans (ref_arg_kept _ Cert.ReferenceIdeal.main_arg3 (by decide)),
      (h c Cert.ReferenceIdeal.main_arg4).trans (ref_arg_kept _ Cert.ReferenceIdeal.main_arg4 (by decide)),
      (h c Cert.ReferenceIdeal.main_arg5).trans (ref_arg_kept _ Cert.ReferenceIdeal.main_arg5 (by decide)),
      (h c Cert.ReferenceIdeal.main_arg6).trans (ref_arg_kept _ Cert.ReferenceIdeal.main_arg6 (by decide)),
      (h c Cert.ReferenceIdeal.main_arg7).trans (ref_arg_kept _ Cert.ReferenceIdeal.main_arg7 (by decide)),
      (h c Cert.ReferenceIdeal.main_arg8).trans (ref_arg_kept _ Cert.ReferenceIdeal.main_arg8 (by decide)),
      (h c Cert.ReferenceIdeal.main_arg9).trans (ref_arg_kept _ Cert.ReferenceIdeal.main_arg9 (by decide)),
      (h c Cert.ReferenceIdeal.main_arg10).trans (ref_arg_kept _ Cert.ReferenceIdeal.main_arg10 (by decide))⟩
    · rw [after_ops_logp]
      exact (ref_logp_eq m c m' a0 a1 a2 a3 a4 a5 a6 a7 a8 a9 a10).symm
    · rw [after_ops_outs]
      exact (ref_outs_eq m c m' a0 a1 a2 a3 a4 a5 a6 a7 a8 a9 a10).symm
    · rw [after_ops_cells]
      exact (ref_cells_eq m c m' a0 a1 a2 a3 a4 a5 a6 a7 a8 a9 a10).symm

end Cert.Proof.Claims

end
-- ==== Proof.lean ====
/-
  Equivalence, over the extended reals, of a two-layer LSTM step with a linear decoder and log-softmax whose five gate and
  decoder projections run as tiled matmul kernels (each accumulating over blocks of the contraction axis into a scratch
  accumulator and adding the bias at the last block) against the same network written with whole matrix products. The two
  programs differ only in how the sums are grouped — a contraction cut into blocks, the two projections' biases added in
  another order — and in layout (gates as column slabs of a [64, 4096] array against slabs of a [64, 4, 1024] array);
  addition and multiplication of extended reals are commutative and associative, so no finiteness of the inputs is used.
  The pieces: the regions' frame halves and values (Proof/KI, and the word-level copy Proof/KB), the run of the eleven
  items (KI/Run), the host operations read as functions (KI/HostReads, KI/EntryReads), the reference stretch by stretch
  (Proof/Ref), the bridge (KI/Bridge) and the assembly (Proof/Final).
-/
import proofs.«137056_j83880711291258_2_alg».proof.Defs
import proofs.«137056_j83880711291258_2_alg».proof.Proof.Final
import proofs.«137056_j83880711291258_2_alg».proof.Proof.Gen.Kernel
import proofs.«137056_j83880711291258_2_alg».proof.Proof.Gen.KernelIdeal
import proofs.«137056_j83880711291258_2_alg».proof.Proof.Gen.ReferenceIdeal
import proofs.«137056_j83880711291258_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
